-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S100000 : Shape := ⟨1, ![100000]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64 .f32) (main_arg12 : FVec F S64 .f32) (main_arg13 : FVec F S64x2 .f32) (main_arg14 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x2 .f32) (main_arg14 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1280000 32) (main_arg2 : IVec S100000 32) (main_arg3 : FVec F S64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1280000 : Shape := ⟨2, ![2, 1280000]⟩
abbrev S100000 : Shape := ⟨1, ![100000]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S100000x1 : Shape := ⟨2, ![100000, 1]⟩
abbrev S1x64 : Shape := ⟨2, ![1, 64]⟩
abbrev S4000x64 : Shape := ⟨2, ![4000, 64]⟩
abbrev S4000x1 : Shape := ⟨2, ![4000, 1]⟩
abbrev S1380000x64 : Shape := ⟨2, ![1380000, 64]⟩
abbrev S1000x64 : Shape := ⟨2, ![1000, 64]⟩
abbrev S1000 : Shape := ⟨1, ![1000]⟩
abbrev S1000x1 : Shape := ⟨2, ![1000, 1]⟩
abbrev S1000x2 : Shape := ⟨2, ![1000, 2]⟩
abbrev S1x2 : Shape := ⟨2, ![1, 2]⟩

abbrev nBuf : Space → Nat
  | .hbm => 153
  | .vmem => 56
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x2, .f32⟩
  | 14 => ⟨S2, .f32⟩
  | 15 => ⟨S100000, .i32⟩
  | 16 => ⟨S1x1280000, .i32⟩
  | 17 => ⟨S1280000, .i32⟩
  | 18 => ⟨S1380000, .i32⟩
  | 19 => ⟨S1x1280000, .i32⟩
  | 20 => ⟨S1280000, .i32⟩
  | 21 => ⟨S1380000, .i32⟩
  | 22 => ⟨S_, .f32⟩
  | 23 => ⟨S1380000, .f32⟩
  | 24 => ⟨S_, .f32⟩
  | 25 => ⟨S100000, .f32⟩
  | 26 => ⟨S1380000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S_, .f32⟩
  | 38 => ⟨S64, .f32⟩
  | 39 => ⟨S1x64, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S1x64, .f32⟩
  | 60 => ⟨S100000x64, .bf16⟩
  | 61 => ⟨S_, .i32⟩
  | 62 => ⟨S1380000, .i32⟩
  | 63 => ⟨S1380000, .i1⟩
  | 64 => ⟨S_, .i32⟩
  | 65 => ⟨S1380000, .i32⟩
  | 66 => ⟨S1380000, .i32⟩
  | 67 => ⟨S1380000, .i32⟩
  | 68 => ⟨S1380000x1, .i32⟩
  | 69 => ⟨S1380000x64, .bf16⟩
  | 70 => ⟨S1380000x64, .f32⟩
  | 71 => ⟨S_, .f32⟩
  | 72 => ⟨S100000x64, .f32⟩
  | 73 => ⟨S1380000x1, .i32⟩
  | 74 => ⟨S100000x64, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S100000x64, .bf16⟩
  | 97 => ⟨S_, .i32⟩
  | 98 => ⟨S1380000, .i32⟩
  | 99 => ⟨S1380000, .i1⟩
  | 100 => ⟨S_, .i32⟩
  | 101 => ⟨S1380000, .i32⟩
  | 102 => ⟨S1380000, .i32⟩
  | 103 => ⟨S1380000, .i32⟩
  | 104 => ⟨S1380000x1, .i32⟩
  | 105 => ⟨S1380000x64, .bf16⟩
  | 106 => ⟨S1380000x64, .f32⟩
  | 107 => ⟨S_, .f32⟩
  | 108 => ⟨S100000x64, .f32⟩
  | 109 => ⟨S1380000x1, .i32⟩
  | 110 => ⟨S100000x64, .f32⟩
  | 111 => ⟨S1x64, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S100000x64, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S100000x64, .f32⟩
  | 5 => ⟨S_, .f32⟩
  | 6 => ⟨S1000x64, .f32⟩
  | 7 => ⟨S100000x1, .i32⟩
  | 8 => ⟨S1000x64, .f32⟩
  | 9 => ⟨S_, .f32⟩
  | 10 => ⟨S100000, .f32⟩
  | 11 => ⟨S_, .f32⟩
  | 12 => ⟨S1000, .f32⟩
  | 13 => ⟨S100000x1, .i32⟩
  | 14 => ⟨S1000, .f32⟩
  | 15 => ⟨S_, .f32⟩
  | 16 => ⟨S1000, .f32⟩
  | 17 => ⟨S1000, .f32⟩
  | 18 => ⟨S1000x1, .f32⟩
  | 19 => ⟨S1000x64, .f32⟩
  | 20 => ⟨S1000x64, .f32⟩
  | 21 => ⟨S1000x2, .f32⟩
  | 22 => ⟨S1x2, .f32⟩
  | 23 => ⟨S1000x2, .f32⟩
  | 24 => ⟨S1000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S4000x64, .bf16⟩
  | .local _ .vmem, ⟨18, _⟩ => ⟨S4000x64, .bf16⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S4000x1, .f32⟩
  | .local _ .vmem, ⟨29, _⟩ => ⟨S4000x1, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S64x64, .f32⟩
  | .local _ .vmem, ⟨36, _⟩ => ⟨S4000x64, .bf16⟩
  | .local _ .vmem, ⟨37, _⟩ => ⟨S4000x64, .bf16⟩
  | .local _ .vmem, ⟨38, _⟩ => ⟨S4000x64, .f32⟩
  | .local _ .vmem, ⟨39, _⟩ => ⟨S4000x64, .f32⟩
  | .local _ .vmem, ⟨40, _⟩ => ⟨S4000x1, .f32⟩
  | .local _ .vmem, ⟨41, _⟩ => ⟨S4000x1, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S4000x64, .f32⟩
  | .local _ .vmem, ⟨46, _⟩ => ⟨S4000x64, .f32⟩
  | .local _ .vmem, ⟨47, _⟩ => ⟨S4000x1, .f32⟩
  | .local _ .vmem, ⟨48, _⟩ => ⟨S4000x1, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S4000x64, .f32⟩
  | .local _ .vmem, ⟨55, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_c_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74_0 : Ref sig .tc := ⟨.hbm, 112, rfl⟩
abbrev main_v74_1 : Ref sig .tc := ⟨.hbm, 113, rfl⟩
abbrev main_cst_17 : Ref sig .tc := ⟨.hbm, 114, rfl⟩
abbrev main_v75 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_19 : Ref sig .tc := ⟨.hbm, 122, rfl⟩
abbrev main_v81 : Ref sig .tc := ⟨.hbm, 123, rfl⟩
abbrev main_v82 : Ref sig .tc := ⟨.hbm, 124, rfl⟩
abbrev main_cst_20 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_21 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_24 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x64 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  shapeCasts_S100000_S100000x1 : S100000.ShapeCasts S100000x1
  bcast_S_S64 : S_.BroadcastsInDim S64 (![] : Fin 0 → Fin S64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S4000x64_S4000x64_0_0 : ∀ a, (![0, 0] : Fin 2 → Nat) a + S4000x64.size a ≤ S4000x64.size a
  h_S4000x64 : 0 < S4000x64.numel
  shapeCasts_S1x64_S1x64 : S1x64.ShapeCasts S1x64
  broadcasts_S1x64_S4000x64 : S1x64.Broadcasts S4000x64
  reduces_S4000x64_S64 : S4000x64.Reduces [0] S64
  bcast_S_S1x64 : S_.BroadcastsInDim S1x64 (![] : Fin 0 → Fin S1x64.rank)
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  scatter_S100000_S1380000x1_S1380000_n_0_0_1_wf : ScatterDims.WF S100000 S1380000x1 S1380000 [] [0] [0] 1
  dot_S4000x64_S64x64_S4000x64_1_0_0_1_n_n_wf : DotDims.WF S4000x64 S64x64 S4000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S100000x64.size a
  hwx1_8 : ∀ i : grid1.Coords, EltTy.bits .bf16 = 32 ∨ (Rect.block (s := S100000x64) S4000x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x64.size a ≤ S100000x64.size a
  hwx3_8 : ∀ i : grid3.Coords, EltTy.bits .bf16 = 32 ∨ (Rect.block (s := S100000x64) S4000x64.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x64.size a ≤ S100000x64.size a
  hwx5_7 : ∀ i : grid5.Coords, EltTy.bits .f32 = 32 ∨ (Rect.block (s := S100000x64) S4000x64.size (cc5_transform_7 i) (hinb5_7 i)).WholeWords (EltTy.packing .f32)

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S4000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v44) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46_0) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46_1) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v61) S4000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v72) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74_0) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74_1) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v89) S4000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S100000 : Shape := ⟨1, ![100000]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S1x64 : Shape := ⟨2, ![1, 64]⟩
abbrev S1380000x64 : Shape := ⟨2, ![1380000, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x2 : Shape := ⟨2, ![1000, 2]⟩
abbrev S1x2 : Shape := ⟨2, ![1, 2]⟩

abbrev nBuf : Space → Nat
  | .hbm => 212
  | .vmem => 0
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x2, .f32⟩
  | 14 => ⟨S2, .f32⟩
  | 15 => ⟨S1x1280000, .i32⟩
  | 16 => ⟨S1280000, .i32⟩
  | 17 => ⟨S100000, .i32⟩
  | 18 => ⟨S1380000, .i32⟩
  | 19 => ⟨S1x1280000, .i32⟩
  | 20 => ⟨S1280000, .i32⟩
  | 21 => ⟨S100000, .i32⟩
  | 22 => ⟨S1380000, .i32⟩
  | 23 => ⟨S_, .f32⟩
  | 24 => ⟨S1380000, .f32⟩
  | 25 => ⟨S_, .f32⟩
  | 26 => ⟨S100000, .f32⟩
  | 27 => ⟨S1380000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1380000, .i32⟩
  | 39 => ⟨S1380000, .i1⟩
  | 40 => ⟨S_, .i32⟩
  | 41 => ⟨S1380000, .i32⟩
  | 42 => ⟨S1380000, .i32⟩
  | 43 => ⟨S1380000, .i32⟩
  | 44 => ⟨S1380000x1, .i32⟩
  | 45 => ⟨S1380000, .f32⟩
  | 46 => ⟨S_, .i32⟩
  | 47 => ⟨S1380000, .i32⟩
  | 48 => ⟨S1380000, .i1⟩
  | 49 => ⟨S_, .i32⟩
  | 50 => ⟨S1380000, .i32⟩
  | 51 => ⟨S1380000, .i32⟩
  | 52 => ⟨S1380000, .i32⟩
  | 53 => ⟨S1380000x1, .i32⟩
  | 54 => ⟨S1380000, .f32⟩
  | 55 => ⟨S1380000, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S_, .i32⟩
  | 88 => ⟨S1380000, .i32⟩
  | 89 => ⟨S1380000, .i1⟩
  | 90 => ⟨S_, .i32⟩
  | 91 => ⟨S1380000, .i32⟩
  | 92 => ⟨S1380000, .i32⟩
  | 93 => ⟨S1380000, .i32⟩
  | 94 => ⟨S1380000x1, .i32⟩
  | 95 => ⟨S1380000x64, .f32⟩
  | 96 => ⟨S1380000x1, .f32⟩
  | 97 => ⟨S1380000x64, .f32⟩
  | 98 => ⟨S1380000x64, .f32⟩
  | 99 => ⟨S_, .f32⟩
  | 100 => ⟨S100000x64, .f32⟩
  | 101 => ⟨S1380000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S64, .f32⟩
  | _ => ⟨S100000x64, .f32⟩

abbrev hbmTy0_1 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S_, .i32⟩
  | 13 => ⟨S1380000, .i32⟩
  | 14 => ⟨S1380000, .i1⟩
  | 15 => ⟨S_, .i32⟩
  | 16 => ⟨S1380000, .i32⟩
  | 17 => ⟨S1380000, .i32⟩
  | 18 => ⟨S1380000, .i32⟩
  | 19 => ⟨S1380000x1, .i32⟩
  | 20 => ⟨S1380000x64, .f32⟩
  | 21 => ⟨S1380000x1, .f32⟩
  | 22 => ⟨S1380000x64, .f32⟩
  | 23 => ⟨S1380000x64, .f32⟩
  | 24 => ⟨S_, .f32⟩
  | 25 => ⟨S100000x64, .f32⟩
  | 26 => ⟨S1380000x1, .i32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S_, .f32⟩
  | 52 => ⟨S64, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S1000x64, .f32⟩
  | 66 => ⟨S100000x1, .i32⟩
  | 67 => ⟨S1000x64, .f32⟩
  | 68 => ⟨S_, .f32⟩
  | 69 => ⟨S100000, .f32⟩
  | 70 => ⟨S_, .f32⟩
  | 71 => ⟨S1000, .f32⟩
  | 72 => ⟨S100000x1, .i32⟩
  | 73 => ⟨S1000, .f32⟩
  | 74 => ⟨S_, .f32⟩
  | 75 => ⟨S1000, .f32⟩
  | 76 => ⟨S1000, .f32⟩
  | 77 => ⟨S1000x1, .f32⟩
  | 78 => ⟨S1000x64, .f32⟩
  | 79 => ⟨S1000x64, .f32⟩
  | 80 => ⟨S1000x2, .f32⟩
  | 81 => ⟨S1x2, .f32⟩
  | 82 => ⟨S1000x2, .f32⟩
  | 83 => ⟨S1000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_c_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call1_cst : Ref sig .tc := ⟨.hbm, 106, rfl⟩
abbrev main_call1_v0 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_19 : Ref sig .tc := ⟨.hbm, 140, rfl⟩
abbrev main_v100 : Ref sig .tc := ⟨.hbm, 141, rfl⟩
abbrev main_v101 : Ref sig .tc := ⟨.hbm, 142, rfl⟩
abbrev main_c_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_call2_cst : Ref sig .tc := ⟨.hbm, 159, rfl⟩
abbrev main_call2_v0 : Ref sig .tc := ⟨.hbm, 160, rfl⟩
abbrev main_v116 : Ref sig .tc := ⟨.hbm, 161, rfl⟩
abbrev main_cst_22 : Ref sig .tc := ⟨.hbm, 162, rfl⟩
abbrev main_v117 : Ref sig .tc := ⟨.hbm, 163, rfl⟩
abbrev main_cst_23 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_24 : Ref sig .tc := ⟨.hbm, 171, rfl⟩
abbrev main_v124 : Ref sig .tc := ⟨.hbm, 172, rfl⟩
abbrev main_cst_25 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_26 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_27 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_28 : Ref sig .tc := ⟨.hbm, 196, rfl⟩
abbrev main_v145 : Ref sig .tc := ⟨.hbm, 197, rfl⟩
abbrev main_cst_29 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_30 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S100000x64_S64x64_S100000x64_1_0_0_1_n_n_wf : DotDims.WF S100000x64 S64x64 S100000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x2_S1000x2_1_0_0_1_n_n_wf : DotDims.WF S1000x64 S64x2 S1000x2 [1] [0] [0] [1] [] []

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

class Facts : Prop extends Facts₀ where

variable [Facts]
-- ==== Proof.KRun.lean ====
/-
  The idealized kernel's run with its result named. @main is fifteen segments — stretches of host operations and
  six kernel regions — and the buffer contents at each boundary are a fold from the launch memory: a stretch's
  operations applied in order, a region's arrays at what its write-backs leave. Every weakly fair execution
  terminates, nothing faulting, with every unscoped buffer at the last boundary's contents; read at the result
  buffer and at the arguments (which no segment writes) that is the run the value claim needs.
-/
import proofs.«109028_j78546361909449_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the fold's last contents: the launch theorem for a program of
    regions among host stretches, over @main's segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c b hb)

/-- The result buffer ends at the fold's last contents there, and each argument as launched. -/
theorem run : θ_run defs (onTc (τ := τ) (main (F := F))) ⟨m, fun _ => 0, ρ⟩ (fun r => ∀ c : Dev nD,
      r.2.mem ((c.tc : Thread nD τ).loc main_v105) = W15 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v105 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c)⟩) (run_all m ρ)

end Cert.KernelIdeal.KRun

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program's run, operation by operation.

  The program's @main is a straight line of 197 host operations (a called function's operations standing in the
  call's place).  The line is written as seven consecutive pieces: the graph preprocessing, then three times a batch
  norm followed by a convolution or (after the third) by the pooling tail.  Every weakly fair execution terminates
  with each buffer at the fold of the operations' results over the launch contents; the result buffer is stated at
  that fold, and the fifteen arguments, which no operation writes, end as they were launched.
-/
import proofs.«109028_j78546361909449_2_alg».proof.Proof.Gen.ReferenceIdeal
import proofs.«109028_j78546361909449_2_alg».proof.Proof.LibAfter
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- %0 .. %30: the edge endpoints with the self loops appended, the degrees, their inverse square roots and the edge weights. -/
abbrev opsP : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    nullary main_v2 (iotaInDim S100000 32 0),
    binary main_v1 main_v2 main_v3 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    unary main_arg1 main_v4 ((extractStridedSlice S1x1280000 ![1, 0] · slices_S2x1280000_S1x1280000_1_0) : (⟨S2x1280000, .i32⟩ : BufTy).Contents (Elt F) → (⟨S1x1280000, .i32⟩ : BufTy).Contents (Elt F)),
    reshape main_v4 main_v5 rfl shapeCasts_S1x1280000_S1280000,
    nullary main_v6 (iotaInDim S100000 32 0),
    binary main_v5 main_v6 main_v7 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    nullary main_cst (constant S_ .f32 0x3F800000#32),
    unary main_cst main_v8 (broadcastInDim S1380000 ![] bcast_S_S1380000 : (⟨S_, .f32⟩ : BufTy).Contents (Elt F) → (⟨S1380000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1380000x1 ![0] bcast_S1380000_S1380000x1_0 : (⟨S1380000, .i32⟩ : BufTy).Contents (Elt F) → (⟨S1380000x1, .i32⟩ : BufTy).Contents (Elt F)),
    ternary main_v9 main_v10 main_v8 main_v11 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1380000 ![] bcast_S_S1380000 : (⟨S_, .i32⟩ : BufTy).Contents (Elt F) → (⟨S1380000, .i32⟩ : BufTy).Contents (Elt F)),
    binary main_v3 main_v16 main_v17 (cmpi .slt : (⟨S1380000, .i32⟩ : BufTy).Contents (Elt F) → (⟨S1380000, .i32⟩ : BufTy).Contents (Elt F) → (⟨S1380000, .i1⟩ : BufTy).Contents (Elt F)),
    nullary main_c_3 (constantI S_ 32 100000#32),
    unary main_c_3 main_v18 (broadcastInDim S1380000 ![] bcast_S_S1380000 : (⟨S_, .i32⟩ : BufTy).Contents (Elt F) → (⟨S1380000, .i32⟩ : BufTy).Contents (Elt F)),
    binary main_v3 main_v18 main_v19 (addi : (⟨S1380000, .i32⟩ : BufTy).Contents (Elt F) → (⟨S1380000, .i32⟩ : BufTy).Contents (Elt F) → (⟨S1380000, .i32⟩ : BufTy).Contents (Elt F)),
    ternary main_v17 main_v19 main_v3 main_v20 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v20 main_v21 (broadcastInDim S1380000x1 ![0] bcast_S1380000_S1380000x1_0 : (⟨S1380000, .i32⟩ : BufTy).Contents (Elt F) → (⟨S1380000x1, .i32⟩ : BufTy).Contents (Elt F)),
    binary main_v15 main_v21 main_v22 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_4 (constantI S_ 32 0#32),
    unary main_c_4 main_v23 (broadcastInDim S1380000 ![] bcast_S_S1380000 : (⟨S_, .i32⟩ : BufTy).Contents (Elt F) → (⟨S1380000, .i32⟩ : BufTy).Contents (Elt F)),
    binary main_v7 main_v23 main_v24 (cmpi .slt : (⟨S1380000, .i32⟩ : BufTy).Contents (Elt F) → (⟨S1380000, .i32⟩ : BufTy).Contents (Elt F) → (⟨S1380000, .i1⟩ : BufTy).Contents (Elt F)),
    nullary main_c_5 (constantI S_ 32 100000#32),
    unary main_c_5 main_v25 (broadcastInDim S1380000 ![] bcast_S_S1380000 : (⟨S_, .i32⟩ : BufTy).Contents (Elt F) → (⟨S1380000, .i32⟩ : BufTy).Contents (Elt F)),
    binary main_v7 main_v25 main_v26 (addi : (⟨S1380000, .i32⟩ : BufTy).Contents (Elt F) → (⟨S1380000, .i32⟩ : BufTy).Contents (Elt F) → (⟨S1380000, .i32⟩ : BufTy).Contents (Elt F)),
    ternary main_v24 main_v26 main_v7 main_v27 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v27 main_v28 (broadcastInDim S1380000x1 ![0] bcast_S1380000_S1380000x1_0 : (⟨S1380000, .i32⟩ : BufTy).Contents (Elt F) → (⟨S1380000x1, .i32⟩ : BufTy).Contents (Elt F)),
    binary main_v15 main_v28 main_v29 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v22 main_v29 main_v30 (mulf : (⟨S1380000, .f32⟩ : BufTy).Contents (Elt F) → (⟨S1380000, .f32⟩ : BufTy).Contents (Elt F) → (⟨S1380000, .f32⟩ : BufTy).Contents (Elt F)) ]

/-- The first batch norm (%31 .. %55). -/
abbrev opsB1 : List (HloOp τ sig (Elt F)) :=
  [ nullary main_cst_6 (constant S_ .f32 0x00000000#32),
    binary main_arg0 main_cst_6 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v32 (broadcastInDim S64 ![] bcast_S_S64 : (⟨S_, .f32⟩ : BufTy).Contents (Elt F) → (⟨S64, .f32⟩ : BufTy).Contents (Elt F)),
    binary main_v31 main_v32 main_v33 (Host.divf : (⟨S64, .f32⟩ : BufTy).Contents (Elt F) → (⟨S64, .f32⟩ : BufTy).Contents (Elt F) → (⟨S64, .f32⟩ : BufTy).Contents (Elt F)),
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_arg0 main_v35 main_v36 (subf : (⟨S100000x64, .f32⟩ : BufTy).Contents (Elt F) → (⟨S100000x64, .f32⟩ : BufTy).Contents (Elt F) → (⟨S100000x64, .f32⟩ : BufTy).Contents (Elt F)),
    binary main_v36 main_v36 main_v37 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v37 main_cst_8 main_v38 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v39 (broadcastInDim S64 ![] bcast_S_S64 : (⟨S_, .f32⟩ : BufTy).Contents (Elt F) → (⟨S64, .f32⟩ : BufTy).Contents (Elt F)),
    binary main_v38 main_v39 main_v40 (Host.divf : (⟨S64, .f32⟩ : BufTy).Contents (Elt F) → (⟨S64, .f32⟩ : BufTy).Contents (Elt F) → (⟨S64, .f32⟩ : BufTy).Contents (Elt F)),
    unary main_v33 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_arg0 main_v42 main_v43 (subf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3727C5AC#32),
    unary main_cst_10 main_v44 (broadcastInDim S64 ![] bcast_S_S64 : (⟨S_, .f32⟩ : BufTy).Contents (Elt F) → (⟨S64, .f32⟩ : BufTy).Contents (Elt F)),
    binary main_v40 main_v44 main_v45 (addf : (⟨S64, .f32⟩ : BufTy).Contents (Elt F) → (⟨S64, .f32⟩ : BufTy).Contents (Elt F) → (⟨S64, .f32⟩ : BufTy).Contents (Elt F)),
    unary main_v45 main_v46 (Host.rsqrt : (⟨S64, .f32⟩ : BufTy).Contents (Elt F) → (⟨S64, .f32⟩ : BufTy).Contents (Elt F)),
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v43 main_v48 main_v49 (mulf : (⟨S100000x64, .f32⟩ : BufTy).Contents (Elt F) → (⟨S100000x64, .f32⟩ : BufTy).Contents (Elt F) → (⟨S100000x64, .f32⟩ : BufTy).Contents (Elt F)),
    unary main_arg3 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (mulf : (⟨S100000x64, .f32⟩ : BufTy).Contents (Elt F) → (⟨S100000x64, .f32⟩ : BufTy).Contents (Elt F) → (⟨S100000x64, .f32⟩ : BufTy).Contents (Elt F)),
    unary main_arg4 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v52 main_v54 main_v55 (addf : (⟨S100000x64, .f32⟩ : BufTy).Contents (Elt F) → (⟨S100000x64, .f32⟩ : BufTy).Contents (Elt F) → (⟨S100000x64, .f32⟩ : BufTy).Contents (Elt F)) ]

/-- The first convolution (%56 .. %73): the product with the weights, the row gather, the edge weights, the row scatter, the bias and the relu. -/
abbrev opsC1 : List (HloOp τ sig (Elt F)) :=
  [ binary main_v55 main_arg5 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_11 (constantI S_ 32 0#32),
    unary main_c_11 main_v57 (broadcastInDim S1380000 ![] bcast_S_S1380000 : (⟨S_, .i32⟩ : BufTy).Contents (Elt F) → (⟨S1380000, .i32⟩ : BufTy).Contents (Elt F)),
    binary main_v3 main_v57 main_v58 (cmpi .slt : (⟨S1380000, .i32⟩ : BufTy).Contents (Elt F) → (⟨S1380000, .i32⟩ : BufTy).Contents (Elt F) → (⟨S1380000, .i1⟩ : BufTy).Contents (Elt F)),
    nullary main_c_12 (constantI S_ 32 100000#32),
    unary main_c_12 main_v59 (broadcastInDim S1380000 ![] bcast_S_S1380000 : (⟨S_, .i32⟩ : BufTy).Contents (Elt F) → (⟨S1380000, .i32⟩ : BufTy).Contents (Elt F)),
    binary main_v3 main_v59 main_v60 (addi : (⟨S1380000, .i32⟩ : BufTy).Contents (Elt F) → (⟨S1380000, .i32⟩ : BufTy).Contents (Elt F) → (⟨S1380000, .i32⟩ : BufTy).Contents (Elt F)),
    ternary main_v58 main_v60 main_v3 main_v61 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v61 main_v62 (broadcastInDim S1380000x1 ![0] bcast_S1380000_S1380000x1_0 : (⟨S1380000, .i32⟩ : BufTy).Contents (Elt F) → (⟨S1380000x1, .i32⟩ : BufTy).Contents (Elt F)),
    binary main_v56 main_v62 main_v63 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v30 main_v64 (broadcastInDim S1380000x1 ![0] bcast_S1380000_S1380000x1_0 : (⟨S1380000, .f32⟩ : BufTy).Contents (Elt F) → (⟨S1380000x1, .f32⟩ : BufTy).Contents (Elt F)),
    unary main_v64 main_v65 (broadcastInDim S1380000x64 ![0, 1] bcast_S1380000x1_S1380000x64_0_1 : (⟨S1380000x1, .f32⟩ : BufTy).Contents (Elt F) → (⟨S1380000x64, .f32⟩ : BufTy).Contents (Elt F)),
    binary main_v63 main_v65 main_v66 (mulf : (⟨S1380000x64, .f32⟩ : BufTy).Contents (Elt F) → (⟨S1380000x64, .f32⟩ : BufTy).Contents (Elt F) → (⟨S1380000x64, .f32⟩ : BufTy).Contents (Elt F)),
    nullary main_cst_13 (constant S_ .f32 0x00000000#32),
    unary main_cst_13 main_v67 (broadcastInDim S100000x64 ![] bcast_S_S100000x64 : (⟨S_, .f32⟩ : BufTy).Contents (Elt F) → (⟨S100000x64, .f32⟩ : BufTy).Contents (Elt F)),
    unary main_v7 main_v68 (broadcastInDim S1380000x1 ![0] bcast_S1380000_S1380000x1_0 : (⟨S1380000, .i32⟩ : BufTy).Contents (Elt F) → (⟨S1380000x1, .i32⟩ : BufTy).Contents (Elt F)),
    ternary main_v67 main_v68 main_v66 main_v69 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v72) (TRef.of (T := ⟨S100000x64, .f32⟩) main_call1_v0) (TRef.of (T := ⟨S100000x64, .f32⟩) main_v73) maximumf ]

/-- The second batch norm (%74 .. %98). -/
abbrev opsB2 : List (HloOp τ sig (Elt F)) :=
  [ nullary main_cst_14 (constant S_ .f32 0x00000000#32),
    binary main_v73 main_cst_14 main_v74 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_15 (constant S_ .f32 0x47C35000#32),
    unary main_cst_15 main_v75 (broadcastInDim S64 ![] bcast_S_S64 : (⟨S_, .f32⟩ : BufTy).Contents (Elt F) → (⟨S64, .f32⟩ : BufTy).Contents (Elt F)),
    binary main_v74 main_v75 main_v76 (Host.divf : (⟨S64, .f32⟩ : BufTy).Contents (Elt F) → (⟨S64, .f32⟩ : BufTy).Contents (Elt F) → (⟨S64, .f32⟩ : BufTy).Contents (Elt F)),
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v73 main_v78 main_v79 (subf : (⟨S100000x64, .f32⟩ : BufTy).Contents (Elt F) → (⟨S100000x64, .f32⟩ : BufTy).Contents (Elt F) → (⟨S100000x64, .f32⟩ : BufTy).Contents (Elt F)),
    binary main_v79 main_v79 main_v80 (mulf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v80 main_cst_16 main_v81 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v82 (broadcastInDim S64 ![] bcast_S_S64 : (⟨S_, .f32⟩ : BufTy).Contents (Elt F) → (⟨S64, .f32⟩ : BufTy).Contents (Elt F)),
    binary main_v81 main_v82 main_v83 (Host.divf : (⟨S64, .f32⟩ : BufTy).Contents (Elt F) → (⟨S64, .f32⟩ : BufTy).Contents (Elt F) → (⟨S64, .f32⟩ : BufTy).Contents (Elt F)),
    unary main_v76 main_v84 (broadcastInDim S1x64 ![1] bcast_S64_S1x64_1 : (⟨S64, .f32⟩ : BufTy).Contents (Elt F) → (⟨S1x64, .f32⟩ : BufTy).Contents (Elt F)),
    unary main_v84 main_v85 (broadcastInDim S100000x64 ![0, 1] bcast_S1x64_S100000x64_0_1 : (⟨S1x64, .f32⟩ : BufTy).Contents (Elt F) → (⟨S100000x64, .f32⟩ : BufTy).Contents (Elt F)),
    binary main_v73 main_v85 main_v86 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v87 (broadcastInDim S64 ![] bcast_S_S64 : (⟨S_, .f32⟩ : BufTy).Contents (Elt F) → (⟨S64, .f32⟩ : BufTy).Contents (Elt F)),
    binary main_v83 main_v87 main_v88 (addf : (⟨S64, .f32⟩ : BufTy).Contents (Elt F) → (⟨S64, .f32⟩ : BufTy).Contents (Elt F) → (⟨S64, .f32⟩ : BufTy).Contents (Elt F)),
    unary main_v88 main_v89 (Host.rsqrt : (⟨S64, .f32⟩ : BufTy).Contents (Elt F) → (⟨S64, .f32⟩ : BufTy).Contents (Elt F)),
    unary main_v89 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v86 main_v91 main_v92 (mulf : (⟨S100000x64, .f32⟩ : BufTy).Contents (Elt F) → (⟨S100000x64, .f32⟩ : BufTy).Contents (Elt F) → (⟨S100000x64, .f32⟩ : BufTy).Contents (Elt F)),
    unary main_arg7 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v92 main_v94 main_v95 (mulf : (⟨S100000x64, .f32⟩ : BufTy).Contents (Elt F) → (⟨S100000x64, .f32⟩ : BufTy).Contents (Elt F) → (⟨S100000x64, .f32⟩ : BufTy).Contents (Elt F)),
    unary main_arg8 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)) ]

/-- The second convolution (%99 .. %116). -/
abbrev opsC2 : List (HloOp τ sig (Elt F)) :=
  [ binary main_v98 main_arg9 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_19 (constantI S_ 32 0#32),
    unary main_c_19 main_v100 (broadcastInDim S1380000 ![] bcast_S_S1380000 : (⟨S_, .i32⟩ : BufTy).Contents (Elt F) → (⟨S1380000, .i32⟩ : BufTy).Contents (Elt F)),
    binary main_v3 main_v100 main_v101 (cmpi .slt : (⟨S1380000, .i32⟩ : BufTy).Contents (Elt F) → (⟨S1380000, .i32⟩ : BufTy).Contents (Elt F) → (⟨S1380000, .i1⟩ : BufTy).Contents (Elt F)),
    nullary main_c_20 (constantI S_ 32 100000#32),
    unary main_c_20 main_v102 (broadcastInDim S1380000 ![] bcast_S_S1380000 : (⟨S_, .i32⟩ : BufTy).Contents (Elt F) → (⟨S1380000, .i32⟩ : BufTy).Contents (Elt F)),
    binary main_v3 main_v102 main_v103 (addi : (⟨S1380000, .i32⟩ : BufTy).Contents (Elt F) → (⟨S1380000, .i32⟩ : BufTy).Contents (Elt F) → (⟨S1380000, .i32⟩ : BufTy).Contents (Elt F)),
    ternary main_v101 main_v103 main_v3 main_v104 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v104 main_v105 (broadcastInDim S1380000x1 ![0] bcast_S1380000_S1380000x1_0 : (⟨S1380000, .i32⟩ : BufTy).Contents (Elt F) → (⟨S1380000x1, .i32⟩ : BufTy).Contents (Elt F)),
    binary main_v99 main_v105 main_v106 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v30 main_v107 (broadcastInDim S1380000x1 ![0] bcast_S1380000_S1380000x1_0 : (⟨S1380000, .f32⟩ : BufTy).Contents (Elt F) → (⟨S1380000x1, .f32⟩ : BufTy).Contents (Elt F)),
    unary main_v107 main_v108 (broadcastInDim S1380000x64 ![0, 1] bcast_S1380000x1_S1380000x64_0_1 : (⟨S1380000x1, .f32⟩ : BufTy).Contents (Elt F) → (⟨S1380000x64, .f32⟩ : BufTy).Contents (Elt F)),
    binary main_v106 main_v108 main_v109 (mulf : (⟨S1380000x64, .f32⟩ : BufTy).Contents (Elt F) → (⟨S1380000x64, .f32⟩ : BufTy).Contents (Elt F) → (⟨S1380000x64, .f32⟩ : BufTy).Contents (Elt F)),
    nullary main_cst_21 (constant S_ .f32 0x00000000#32),
    unary main_cst_21 main_v110 (broadcastInDim S100000x64 ![] bcast_S_S100000x64 : (⟨S_, .f32⟩ : BufTy).Contents (Elt F) → (⟨S100000x64, .f32⟩ : BufTy).Contents (Elt F)),
    unary main_v7 main_v111 (broadcastInDim S1380000x1 ![0] bcast_S1380000_S1380000x1_0 : (⟨S1380000, .i32⟩ : BufTy).Contents (Elt F) → (⟨S1380000x1, .i32⟩ : BufTy).Contents (Elt F)),
    ternary main_v110 main_v111 main_v109 main_v112 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_arg10 main_v113 (broadcastInDim S1x64 ![1] bcast_S64_S1x64_1 : (⟨S64, .f32⟩ : BufTy).Contents (Elt F) → (⟨S1x64, .f32⟩ : BufTy).Contents (Elt F)),
    unary main_v113 main_v114 (broadcastInDim S100000x64 ![0, 1] bcast_S1x64_S100000x64_0_1 : (⟨S1x64, .f32⟩ : BufTy).Contents (Elt F) → (⟨S100000x64, .f32⟩ : BufTy).Contents (Elt F)),
    binary main_v112 main_v114 main_v115 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v115) (TRef.of (T := ⟨S100000x64, .f32⟩) main_call2_v0) (TRef.of (T := ⟨S100000x64, .f32⟩) main_v116) maximumf ]

/-- The third batch norm (%117 .. %141). -/
abbrev opsB3 : List (HloOp τ sig (Elt F)) :=
  [ nullary main_cst_22 (constant S_ .f32 0x00000000#32),
    binary main_v116 main_cst_22 main_v117 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v118 (broadcastInDim S64 ![] bcast_S_S64 : (⟨S_, .f32⟩ : BufTy).Contents (Elt F) → (⟨S64, .f32⟩ : BufTy).Contents (Elt F)),
    binary main_v117 main_v118 main_v119 (Host.divf : (⟨S64, .f32⟩ : BufTy).Contents (Elt F) → (⟨S64, .f32⟩ : BufTy).Contents (Elt F) → (⟨S64, .f32⟩ : BufTy).Contents (Elt F)),
    unary main_v119 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v116 main_v121 main_v122 (subf : (⟨S100000x64, .f32⟩ : BufTy).Contents (Elt F) → (⟨S100000x64, .f32⟩ : BufTy).Contents (Elt F) → (⟨S100000x64, .f32⟩ : BufTy).Contents (Elt F)),
    binary main_v122 main_v122 main_v123 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x00000000#32),
    binary main_v123 main_cst_24 main_v124 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_25 (constant S_ .f32 0x47C35000#32),
    unary main_cst_25 main_v125 (broadcastInDim S64 ![] bcast_S_S64 : (⟨S_, .f32⟩ : BufTy).Contents (Elt F) → (⟨S64, .f32⟩ : BufTy).Contents (Elt F)),
    binary main_v124 main_v125 main_v126 (Host.divf : (⟨S64, .f32⟩ : BufTy).Contents (Elt F) → (⟨S64, .f32⟩ : BufTy).Contents (Elt F) → (⟨S64, .f32⟩ : BufTy).Contents (Elt F)),
    unary main_v119 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v116 main_v128 main_v129 (subf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3727C5AC#32),
    unary main_cst_26 main_v130 (broadcastInDim S64 ![] bcast_S_S64 : (⟨S_, .f32⟩ : BufTy).Contents (Elt F) → (⟨S64, .f32⟩ : BufTy).Contents (Elt F)),
    binary main_v126 main_v130 main_v131 (addf : (⟨S64, .f32⟩ : BufTy).Contents (Elt F) → (⟨S64, .f32⟩ : BufTy).Contents (Elt F) → (⟨S64, .f32⟩ : BufTy).Contents (Elt F)),
    unary main_v131 main_v132 (Host.rsqrt : (⟨S64, .f32⟩ : BufTy).Contents (Elt F) → (⟨S64, .f32⟩ : BufTy).Contents (Elt F)),
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v129 main_v134 main_v135 (mulf : (⟨S100000x64, .f32⟩ : BufTy).Contents (Elt F) → (⟨S100000x64, .f32⟩ : BufTy).Contents (Elt F) → (⟨S100000x64, .f32⟩ : BufTy).Contents (Elt F)),
    unary main_arg11 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v135 main_v137 main_v138 (mulf : (⟨S100000x64, .f32⟩ : BufTy).Contents (Elt F) → (⟨S100000x64, .f32⟩ : BufTy).Contents (Elt F) → (⟨S100000x64, .f32⟩ : BufTy).Contents (Elt F)),
    unary main_arg12 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v138 main_v140 main_v141 (addf : (⟨S100000x64, .f32⟩ : BufTy).Contents (Elt F) → (⟨S100000x64, .f32⟩ : BufTy).Contents (Elt F) → (⟨S100000x64, .f32⟩ : BufTy).Contents (Elt F)) ]

/-- The pooling and the last product (%142 .. %157). -/
abbrev opsT : List (HloOp τ sig (Elt F)) :=
  [ nullary main_cst_27 (constant S_ .f32 0x00000000#32),
    unary main_cst_27 main_v142 (broadcastInDim S1000x64 ![] bcast_S_S1000x64 : (⟨S_, .f32⟩ : BufTy).Contents (Elt F) → (⟨S1000x64, .f32⟩ : BufTy).Contents (Elt F)),
    unary main_arg2 main_v143 (broadcastInDim S100000x1 ![0] bcast_S100000_S100000x1_0 : (⟨S100000, .i32⟩ : BufTy).Contents (Elt F) → (⟨S100000x1, .i32⟩ : BufTy).Contents (Elt F)),
    ternary main_v142 main_v143 main_v141 main_v144 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    nullary main_cst_28 (constant S_ .f32 0x3F800000#32),
    unary main_cst_28 main_v145 (broadcastInDim S100000 ![] bcast_S_S100000 : (⟨S_, .f32⟩ : BufTy).Contents (Elt F) → (⟨S100000, .f32⟩ : BufTy).Contents (Elt F)),
    nullary main_cst_29 (constant S_ .f32 0x00000000#32),
    unary main_cst_29 main_v146 (broadcastInDim S1000 ![] bcast_S_S1000 : (⟨S_, .f32⟩ : BufTy).Contents (Elt F) → (⟨S1000, .f32⟩ : BufTy).Contents (Elt F)),
    unary main_arg2 main_v147 (broadcastInDim S100000x1 ![0] bcast_S100000_S100000x1_0 : (⟨S100000, .i32⟩ : BufTy).Contents (Elt F) → (⟨S100000x1, .i32⟩ : BufTy).Contents (Elt F)),
    ternary main_v146 main_v147 main_v145 main_v148 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_30 (constant S_ .f32 0x3F800000#32),
    unary main_cst_30 main_v149 (broadcastInDim S1000 ![] bcast_S_S1000 : (⟨S_, .f32⟩ : BufTy).Contents (Elt F) → (⟨S1000, .f32⟩ : BufTy).Contents (Elt F)),
    binary main_v148 main_v149 main_v150 (maximumf : (⟨S1000, .f32⟩ : BufTy).Contents (Elt F) → (⟨S1000, .f32⟩ : BufTy).Contents (Elt F) → (⟨S1000, .f32⟩ : BufTy).Contents (Elt F)),
    unary main_v150 main_v151 (broadcastInDim S1000x1 ![0] bcast_S1000_S1000x1_0 : (⟨S1000, .f32⟩ : BufTy).Contents (Elt F) → (⟨S1000x1, .f32⟩ : BufTy).Contents (Elt F)),
    unary main_v151 main_v152 (broadcastInDim S1000x64 ![0, 1] bcast_S1000x1_S1000x64_0_1 : (⟨S1000x1, .f32⟩ : BufTy).Contents (Elt F) → (⟨S1000x64, .f32⟩ : BufTy).Contents (Elt F)),
    binary main_v144 main_v152 main_v153 (Host.divf : (⟨S1000x64, .f32⟩ : BufTy).Contents (Elt F) → (⟨S1000x64, .f32⟩ : BufTy).Contents (Elt F) → (⟨S1000x64, .f32⟩ : BufTy).Contents (Elt F)),
    binary main_v153 main_arg13 main_v154 ((fun l r => Host.dotGeneral dot_S1000x64_S64x2_S1000x2_1_0_0_1_n_n none l r) : (⟨S1000x64, .f32⟩ : BufTy).Contents (Elt F) → (⟨S64x2, .f32⟩ : BufTy).Contents (Elt F) → (⟨S1000x2, .f32⟩ : BufTy).Contents (Elt F)),
    unary main_arg14 main_v155 (broadcastInDim S1x2 ![1] bcast_S2_S1x2_1 : (⟨S2, .f32⟩ : BufTy).Contents (Elt F) → (⟨S1x2, .f32⟩ : BufTy).Contents (Elt F)),
    unary main_v155 main_v156 (broadcastInDim S1000x2 ![0, 1] bcast_S1x2_S1000x2_0_1 : (⟨S1x2, .f32⟩ : BufTy).Contents (Elt F) → (⟨S1000x2, .f32⟩ : BufTy).Contents (Elt F)),
    binary main_v154 main_v156 main_v157 (addf : (⟨S1000x2, .f32⟩ : BufTy).Contents (Elt F) → (⟨S1000x2, .f32⟩ : BufTy).Contents (Elt F) → (⟨S1000x2, .f32⟩ : BufTy).Contents (Elt F)) ]

/-- @main's 197 operations, in order. -/
abbrev ops : List (HloOp τ sig (Elt F)) := opsP ++ opsB1 ++ opsC1 ++ opsB2 ++ opsC2 ++ opsB3 ++ opsT

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsP_sub : (opsP : List (HloOp τ sig (Elt F))).Forall fun op => op.bufs ⊆ tcRefs τ sig :=
  ⟨unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsP_fresh : (opsP : List (HloOp τ sig (Elt F))).Forall fun op => op.fresh = ∅ := by all_fresh opsP

theorem opsB1_sub : (opsB1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB1_fresh : (opsB1 : List (HloOp τ sig (Elt F))).Forall fun op => op.fresh = ∅ := by all_fresh opsB1

theorem opsC1_sub : (opsC1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsC1_fresh : (opsC1 : List (HloOp τ sig (Elt F))).Forall fun op => op.fresh = ∅ := by all_fresh opsC1

theorem opsB2_sub : (opsB2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB2_fresh : (opsB2 : List (HloOp τ sig (Elt F))).Forall fun op => op.fresh = ∅ := by all_fresh opsB2

theorem opsC2_sub : (opsC2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsC2_fresh : (opsC2 : List (HloOp τ sig (Elt F))).Forall fun op => op.fresh = ∅ := by all_fresh opsC2

theorem opsB3_sub : (opsB3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB3_fresh : (opsB3 : List (HloOp τ sig (Elt F))).Forall fun op => op.fresh = ∅ := by all_fresh opsB3

theorem opsT_sub : (opsT : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩
theorem opsT_fresh : (opsT : List (HloOp τ sig (Elt F))).Forall fun op => op.fresh = ∅ := by all_fresh opsT

theorem ops_sub : (ops : List (HloOp τ sig (Elt F))).Forall fun op => op.bufs ⊆ tcRefs τ sig :=
  Cert.LibAfter.Forall.append (Cert.LibAfter.Forall.append (Cert.LibAfter.Forall.append (Cert.LibAfter.Forall.append (Cert.LibAfter.Forall.append (Cert.LibAfter.Forall.append (opsP_sub) opsB1_sub) opsC1_sub) opsB2_sub) opsC2_sub) opsB3_sub) opsT_sub
theorem ops_fresh : (ops : List (HloOp τ sig (Elt F))).Forall fun op => op.fresh = ∅ :=
  Cert.LibAfter.Forall.append (Cert.LibAfter.Forall.append (Cert.LibAfter.Forall.append (Cert.LibAfter.Forall.append (Cert.LibAfter.Forall.append (Cert.LibAfter.Forall.append (opsP_fresh) opsB1_fresh) opsC1_fresh) opsB2_fresh) opsC2_fresh) opsB3_fresh) opsT_fresh

/-! ## No operation writes an argument -/

/-- A buffer none of the seven pieces writes is written by no operation of the line. -/
theorem not_mem_writes_ops {b : DevRef τ sig}
    (hP : ∀ op ∈ (opsP : List (HloOp τ sig (Elt F))), b ∉ op.writes)
    (hB1 : ∀ op ∈ (opsB1 : List (HloOp τ sig (Elt F))), b ∉ op.writes)
    (hC1 : ∀ op ∈ (opsC1 : List (HloOp τ sig (Elt F))), b ∉ op.writes)
    (hB2 : ∀ op ∈ (opsB2 : List (HloOp τ sig (Elt F))), b ∉ op.writes)
    (hC2 : ∀ op ∈ (opsC2 : List (HloOp τ sig (Elt F))), b ∉ op.writes)
    (hB3 : ∀ op ∈ (opsB3 : List (HloOp τ sig (Elt F))), b ∉ op.writes)
    (hT : ∀ op ∈ (opsT : List (HloOp τ sig (Elt F))), b ∉ op.writes) :
    ∀ op ∈ (ops : List (HloOp τ sig (Elt F))), b ∉ op.writes := by
  intro op h
  simp only [ops, List.mem_append] at h
  rcases h with (((((h | h) | h) | h) | h) | h) | h
  exacts [hP op h, hB1 op h, hC1 op h, hB2 op h, hC2 op h, hB3 op h, hT op h]

/-- Each operation of a piece writes one buffer, and it is not the given one: decided reference by reference. -/
local macro "no_write " seg:ident : tactic =>
  `(tactic| (refine List.forall_iff_forall_mem.mp ?_
             simp only [$seg:ident, List.Forall, nullary_writes, unary_writes, binary_writes, ternary_writes,
               reshape_writes, Finset.mem_singleton]
             repeat' apply And.intro
             all_goals exact devRef_ne_of_ne (by decide)))

theorem after_arg0 (V : Valuation τ sig (Elt F)) :
    after ops V (Proc.devRef .tc main_arg0) = V (Proc.devRef .tc main_arg0) :=
  after_of_forall_not_mem ops V (not_mem_writes_ops (by no_write opsP) (by no_write opsB1) (by no_write opsC1)
    (by no_write opsB2) (by no_write opsC2) (by no_write opsB3) (by no_write opsT))
theorem after_arg1 (V : Valuation τ sig (Elt F)) :
    after ops V (Proc.devRef .tc main_arg1) = V (Proc.devRef .tc main_arg1) :=
  after_of_forall_not_mem ops V (not_mem_writes_ops (by no_write opsP) (by no_write opsB1) (by no_write opsC1)
    (by no_write opsB2) (by no_write opsC2) (by no_write opsB3) (by no_write opsT))
theorem after_arg2 (V : Valuation τ sig (Elt F)) :
    after ops V (Proc.devRef .tc main_arg2) = V (Proc.devRef .tc main_arg2) :=
  after_of_forall_not_mem ops V (not_mem_writes_ops (by no_write opsP) (by no_write opsB1) (by no_write opsC1)
    (by no_write opsB2) (by no_write opsC2) (by no_write opsB3) (by no_write opsT))
theorem after_arg3 (V : Valuation τ sig (Elt F)) :
    after ops V (Proc.devRef .tc main_arg3) = V (Proc.devRef .tc main_arg3) :=
  after_of_forall_not_mem ops V (not_mem_writes_ops (by no_write opsP) (by no_write opsB1) (by no_write opsC1)
    (by no_write opsB2) (by no_write opsC2) (by no_write opsB3) (by no_write opsT))
theorem after_arg4 (V : Valuation τ sig (Elt F)) :
    after ops V (Proc.devRef .tc main_arg4) = V (Proc.devRef .tc main_arg4) :=
  after_of_forall_not_mem ops V (not_mem_writes_ops (by no_write opsP) (by no_write opsB1) (by no_write opsC1)
    (by no_write opsB2) (by no_write opsC2) (by no_write opsB3) (by no_write opsT))
theorem after_arg5 (V : Valuation τ sig (Elt F)) :
    after ops V (Proc.devRef .tc main_arg5) = V (Proc.devRef .tc main_arg5) :=
  after_of_forall_not_mem ops V (not_mem_writes_ops (by no_write opsP) (by no_write opsB1) (by no_write opsC1)
    (by no_write opsB2) (by no_write opsC2) (by no_write opsB3) (by no_write opsT))
theorem after_arg6 (V : Valuation τ sig (Elt F)) :
    after ops V (Proc.devRef .tc main_arg6) = V (Proc.devRef .tc main_arg6) :=
  after_of_forall_not_mem ops V (not_mem_writes_ops (by no_write opsP) (by no_write opsB1) (by no_write opsC1)
    (by no_write opsB2) (by no_write opsC2) (by no_write opsB3) (by no_write opsT))
theorem after_arg7 (V : Valuation τ sig (Elt F)) :
    after ops V (Proc.devRef .tc main_arg7) = V (Proc.devRef .tc main_arg7) :=
  after_of_forall_not_mem ops V (not_mem_writes_ops (by no_write opsP) (by no_write opsB1) (by no_write opsC1)
    (by no_write opsB2) (by no_write opsC2) (by no_write opsB3) (by no_write opsT))
theorem after_arg8 (V : Valuation τ sig (Elt F)) :
    after ops V (Proc.devRef .tc main_arg8) = V (Proc.devRef .tc main_arg8) :=
  after_of_forall_not_mem ops V (not_mem_writes_ops (by no_write opsP) (by no_write opsB1) (by no_write opsC1)
    (by no_write opsB2) (by no_write opsC2) (by no_write opsB3) (by no_write opsT))
theorem after_arg9 (V : Valuation τ sig (Elt F)) :
    after ops V (Proc.devRef .tc main_arg9) = V (Proc.devRef .tc main_arg9) :=
  after_of_forall_not_mem ops V (not_mem_writes_ops (by no_write opsP) (by no_write opsB1) (by no_write opsC1)
    (by no_write opsB2) (by no_write opsC2) (by no_write opsB3) (by no_write opsT))
theorem after_arg10 (V : Valuation τ sig (Elt F)) :
    after ops V (Proc.devRef .tc main_arg10) = V (Proc.devRef .tc main_arg10) :=
  after_of_forall_not_mem ops V (not_mem_writes_ops (by no_write opsP) (by no_write opsB1) (by no_write opsC1)
    (by no_write opsB2) (by no_write opsC2) (by no_write opsB3) (by no_write opsT))
theorem after_arg11 (V : Valuation τ sig (Elt F)) :
    after ops V (Proc.devRef .tc main_arg11) = V (Proc.devRef .tc main_arg11) :=
  after_of_forall_not_mem ops V (not_mem_writes_ops (by no_write opsP) (by no_write opsB1) (by no_write opsC1)
    (by no_write opsB2) (by no_write opsC2) (by no_write opsB3) (by no_write opsT))
theorem after_arg12 (V : Valuation τ sig (Elt F)) :
    after ops V (Proc.devRef .tc main_arg12) = V (Proc.devRef .tc main_arg12) :=
  after_of_forall_not_mem ops V (not_mem_writes_ops (by no_write opsP) (by no_write opsB1) (by no_write opsC1)
    (by no_write opsB2) (by no_write opsC2) (by no_write opsB3) (by no_write opsT))
theorem after_arg13 (V : Valuation τ sig (Elt F)) :
    after ops V (Proc.devRef .tc main_arg13) = V (Proc.devRef .tc main_arg13) :=
  after_of_forall_not_mem ops V (not_mem_writes_ops (by no_write opsP) (by no_write opsB1) (by no_write opsC1)
    (by no_write opsB2) (by no_write opsC2) (by no_write opsB3) (by no_write opsT))
theorem after_arg14 (V : Valuation τ sig (Elt F)) :
    after ops V (Proc.devRef .tc main_arg14) = V (Proc.devRef .tc main_arg14) :=
  after_of_forall_not_mem ops V (not_mem_writes_ops (by no_write opsP) (by no_write opsB1) (by no_write opsC1)
    (by no_write opsB2) (by no_write opsC2) (by no_write opsB3) (by no_write opsT))

/-- On every device, for any float values, from any memory with zero counters: every weakly fair execution of @main
    terminates with the result buffer at the fold of the 197 operations over the launch contents, and the fifteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = after ops (launchContents m c) (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v157,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _)⟩)
    (run_seq scopedRefs_eq scopedSems_eq defs main (fun _ => ops) main_eq (fun _ => ops_sub) m ρ
      (Cert.LibAfter.fresh_of_forall_dev fun _ => ops_fresh))

end Cert.ReferenceIdeal.HRun

end
-- ==== Proof.KWalk.lean ====
/-
  Buffers that a stretch of @main does not write keep their contents across it: a host stretch that has no
  operation writing the buffer, a kernel region that reads it through an input window or does not touch it. These
  lemmas carry each buffer the proof needs from the boundary where it is produced to the boundary where it is read.
-/
import proofs.«109028_j78546361909449_2_alg».proof.Proof.Gen.KernelIdeal.Frame

set_option maxRecDepth 16384

noncomputable section

namespace Cert.KernelIdeal.KWalk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem walk_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg0_5_0 (c : Dev nD) : W5 m ρ c (Proc.devRef .tc main_arg0) = W0 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v15_5_3 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat0 (V3 m ρ) c).arrAt_in 1 rfl _).trans (A_eq0 (V3 m ρ) c 1))

theorem walk_v16_4_3 (c : Dev nD) : W4 m ρ c (Proc.devRef .tc main_v16) = W3 m ρ c (Proc.devRef .tc main_v16) :=
  calc W4 m ρ c (Proc.devRef .tc main_v16)
    _ = W3 m ρ c (Proc.devRef .tc main_v16) := W4_of_ne m ρ c main_v16 (by decide)

theorem walk_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg5_5_0 (c : Dev nD) : W5 m ρ c (Proc.devRef .tc main_arg5) = W0 m ρ c (Proc.devRef .tc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v6_6_1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg6_6_0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v15_7_3 (c : Dev nD) : W7 m ρ c (Proc.devRef .tc main_v15) = W3 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat0 (V3 m ρ) c).arrAt_in 1 rfl _).trans (A_eq0 (V3 m ρ) c 1))

theorem walk_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg8_8_0 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v44_9_7 (c : Dev nD) : W9 m ρ c (Proc.devRef .tc main_v44) = W7 m ρ c (Proc.devRef .tc main_v44) :=
  calc W9 m ρ c (Proc.devRef .tc main_v44)
    _ = W8 m ρ c (Proc.devRef .tc main_v44) := StableHlo.after_of_forall_not_mem (b := Proc.devRef .tc main_v44) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v44) := (W8_arr m ρ c 0).trans (((dat2 (V7 m ρ) c).arrAt_in 0 rfl _).trans (A_eq2 (V7 m ρ) c 0))

theorem walk_v15_9_3 (c : Dev nD) : W9 m ρ c (Proc.devRef .tc main_v15) = W3 m ρ c (Proc.devRef .tc main_v15) :=
  calc W9 m ρ c (Proc.devRef .tc main_v15)
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat0 (V3 m ρ) c).arrAt_in 1 rfl _).trans (A_eq0 (V3 m ρ) c 1))

theorem walk_arg9_9_0 (c : Dev nD) : W9 m ρ c (Proc.devRef .tc main_arg9) = W0 m ρ c (Proc.devRef .tc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v3_10_1 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v6_10_1 (c : Dev nD) : W10 m ρ c (Proc.devRef .tc main_v6) = W1 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg10_10_0 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v15_11_3 (c : Dev nD) : W11 m ρ c (Proc.devRef .tc main_v15) = W3 m ρ c (Proc.devRef .tc main_v15) :=
  calc W11 m ρ c (Proc.devRef .tc main_v15)
    _ = W10 m ρ c (Proc.devRef .tc main_v15) := StableHlo.after_of_forall_not_mem (b := Proc.devRef .tc main_v15) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := (W10_arr m ρ c 1).trans (((dat3 (V9 m ρ) c).arrAt_in 1 rfl _).trans (A_eq3 (V9 m ρ) c 1))
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat0 (V3 m ρ) c).arrAt_in 1 rfl _).trans (A_eq0 (V3 m ρ) c 1))

theorem walk_arg10_12_0 (c : Dev nD) : W12 m ρ c (Proc.devRef .tc main_arg10) = W0 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg11_12_0 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg12_12_0 (c : Dev nD) : W12 m ρ c (Proc.devRef .tc main_arg12) = W0 m ρ c (Proc.devRef .tc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_v72_13_11 (c : Dev nD) : W13 m ρ c (Proc.devRef .tc main_v72) = W11 m ρ c (Proc.devRef .tc main_v72) :=
  calc W13 m ρ c (Proc.devRef .tc main_v72)
    _ = W12 m ρ c (Proc.devRef .tc main_v72) := StableHlo.after_of_forall_not_mem (b := Proc.devRef .tc main_v72) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v72) := (W12_arr m ρ c 0).trans (((dat4 (V11 m ρ) c).arrAt_in 0 rfl _).trans (A_eq4 (V11 m ρ) c 0))

theorem walk_v15_13_3 (c : Dev nD) : W13 m ρ c (Proc.devRef .tc main_v15) = W3 m ρ c (Proc.devRef .tc main_v15) :=
  calc W13 m ρ c (Proc.devRef .tc main_v15)
    _ = W12 m ρ c (Proc.devRef .tc main_v15) := StableHlo.after_of_forall_not_mem (b := Proc.devRef .tc main_v15) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v15) := (W12_arr m ρ c 1).trans (((dat4 (V11 m ρ) c).arrAt_in 1 rfl _).trans (A_eq4 (V11 m ρ) c 1))
    _ = W10 m ρ c (Proc.devRef .tc main_v15) := StableHlo.after_of_forall_not_mem (b := Proc.devRef .tc main_v15) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := (W10_arr m ρ c 1).trans (((dat3 (V9 m ρ) c).arrAt_in 1 rfl _).trans (A_eq3 (V9 m ρ) c 1))
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat0 (V3 m ρ) c).arrAt_in 1 rfl _).trans (A_eq0 (V3 m ρ) c 1))

theorem walk_arg2_14_0 (c : Dev nD) : W14 m ρ c (Proc.devRef .tc main_arg2) = W0 m ρ c (Proc.devRef .tc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg13_14_0 (c : Dev nD) : W14 m ρ c (Proc.devRef .tc main_arg13) = W0 m ρ c (Proc.devRef .tc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem walk_arg14_14_0 (c : Dev nD) : W14 m ρ c (Proc.devRef .tc main_arg14) = W0 m ρ c (Proc.devRef .tc main_arg14) :=
  calc W14 m ρ c (Proc.devRef .tc main_arg14)
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KWalk

end
-- ==== Proof.KHost.lean ====
/-
  The host stretches of the idealized kernel's @main, each read as a term: what a stretch of host operations leaves
  in the buffers the next kernel region (or the return) reads, as a function of the buffers it starts from — stated
  for an ARBITRARY valuation of the buffers, the stretch's operations applied in order. The functions are the
  program's own operations: the mean and inverse standard deviation of a batch norm from its two column sums, a
  vector laid out as a one-row matrix, the message passing (gather of rows by the edges' sources, sum into the
  edges' targets), the degree normalisation, and the pooling tail.
-/
import proofs.«109028_j78546361909449_2_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.StableHlo

variable {F : FTy → Type} [FloatOps F]

/-! ## The stage functions -/

/-- A `[1,64]` row divided by the number of nodes. -/
def meanT (s : FVec F S1x64 .f32) : FVec F S1x64 .f32 :=
  Host.divf s (broadcastInDim S1x64 ![] bcast_S_S1x64 (constant S_ .f32 0x47C35000#32))

/-- The inverse standard deviation from the column sums `s` and sums of squares `q`:
    `rsqrt (max (q/n − (s/n)², 0) + ε)`. -/
def rstdT (s q : FVec F S1x64 .f32) : FVec F S1x64 .f32 :=
  Host.rsqrt (addf (maximumf (subf (meanT q) (mulf (meanT s) (meanT s)))
      (broadcastInDim S1x64 ![] bcast_S_S1x64 (constant S_ .f32 0x00000000#32)))
    (broadcastInDim S1x64 ![] bcast_S_S1x64 (constant S_ .f32 0x3727C5AC#32)))

/-- A vector of 64 laid out as a `[1,64]` row. -/
def rowT (g : FVec F S64 .f32) : FVec F S1x64 .f32 := shapeCast S1x64 g shapeCasts_S64_S1x64

/-- The zero vector of 64. -/
def zvecT : FVec F S64 .f32 := broadcastInDim S64 ![] bcast_S_S64 (constant S_ .f32 0x00000000#32)

/-- Edge endpoints with the self loops appended: row `k` of the edge list, then `0 … 99999`. -/
def rowIdxT (x1 : IVec S2x1280000 32) : IVec S1380000 32 :=
  concatenate S1380000 0 [⟨S1280000, shapeCast S1280000 (extractStridedSlice S1x1280000 ![0, 0] x1 slices_S2x1280000_S1x1280000_0_0) shapeCasts_S1x1280000_S1280000⟩, ⟨S100000, iotaInDim S100000 32 0⟩] concatenates_S1280000_S100000_S1380000_d0
def colIdxT (x1 : IVec S2x1280000 32) : IVec S1380000 32 :=
  concatenate S1380000 0 [⟨S1280000, shapeCast S1280000 (extractStridedSlice S1x1280000 ![1, 0] x1 slices_S2x1280000_S1x1280000_1_0) shapeCasts_S1x1280000_S1280000⟩, ⟨S100000, iotaInDim S100000 32 0⟩] concatenates_S1280000_S100000_S1380000_d0

/-- The degree of each node: ones summed into the edges' targets. -/
def degT (col : IVec S1380000 32) : FVec F S100000 .f32 :=
  Host.scatterAdd scatter_S100000_S1380000x1_S1380000_n_0_0_1
    (broadcastInDim S100000 ![] bcast_S_S100000 (constant S_ .f32 0x00000000#32))
    (broadcastInDim S1380000x1 ![0] bcast_S1380000_S1380000x1_0 col)
    (broadcastInDim S1380000 ![] bcast_S_S1380000 (constant S_ .f32 0x3F800000#32))

/-- `where (deg > 0, rsqrt deg, 0)`, as a vector. -/
def dinvVecT (deg : FVec F S100000 .f32) : FVec F S100000 .f32 :=
  select (cmpf .ogt deg (broadcastInDim S100000 ![] bcast_S_S100000 (constant S_ .f32 0x00000000#32))) (Host.rsqrt deg)
    (broadcastInDim S100000 ![] bcast_S_S100000 (constant S_ .f32 0x00000000#32))

/-- … and as a `[100000,1]` column. -/
def colT (d : FVec F S100000 .f32) : FVec F S100000x1 .f32 := shapeCast S100000x1 d shapeCasts_S100000_S100000x1

/-- Start indices of a row gather: negative indices wrapped by 100000, as a `[1380000,1]` column. -/
def nrowT (row : IVec S1380000 32) : IVec S1380000x1 32 :=
  broadcastInDim S1380000x1 ![0] bcast_S1380000_S1380000x1_0
    (select (cmpi .slt row (broadcastInDim S1380000 ![] bcast_S_S1380000 (constantI S_ 32 0#32)))
      (addi row (broadcastInDim S1380000 ![] bcast_S_S1380000 (constantI S_ 32 100000#32))) row)

/-- Message passing: the rows of `hs` at the edges' sources, summed into the edges' targets. -/
def msgT (hs : FVec F S100000x64 .bf16) (row col : IVec S1380000 32) : FVec F S100000x64 .f32 :=
  Host.scatterAdd scatter_S100000x64_S1380000x1_S1380000x64_1_0_0_1
    (broadcastInDim S100000x64 ![] bcast_S_S100000x64 (constant S_ .f32 0x00000000#32))
    (broadcastInDim S1380000x1 ![0] bcast_S1380000_S1380000x1_0 col)
    (extf .f32 (Host.gather gather_S100000x64_S1380000x1_S1380000x64_1_0_n_n_0_1_164 hs (nrowT row)) bitsLt_bf16_f32)

/-- The pooling tail: per-graph sums over per-graph counts (at least one), times `Wout`, plus `bout`. -/
def tailT (h : FVec F S100000x64 .f32) (batch : IVec S100000 32) (wout : FVec F S64x2 .f32) (bout : FVec F S2 .f32) :
    FVec F S1000x2 .f32 :=
  addf (Host.dotGeneral dot_S1000x64_S64x2_S1000x2_1_0_0_1_n_n none
      (Host.divf
        (Host.scatterAdd scatter_S1000x64_S100000x1_S100000x64_1_0_0_1
          (broadcastInDim S1000x64 ![] bcast_S_S1000x64 (constant S_ .f32 0x00000000#32))
          (broadcastInDim S100000x1 ![0] bcast_S100000_S100000x1_0 batch) h)
        (broadcastInDim S1000x64 ![0, 1] bcast_S1000x1_S1000x64_0_1
          (broadcastInDim S1000x1 ![0] bcast_S1000_S1000x1_0
            (maximumf
              (Host.scatterAdd scatter_S1000_S100000x1_S100000_n_0_0_1
                (broadcastInDim S1000 ![] bcast_S_S1000 (constant S_ .f32 0x00000000#32))
                (broadcastInDim S100000x1 ![0] bcast_S100000_S100000x1_0 batch)
                (broadcastInDim S100000 ![] bcast_S_S100000 (constant S_ .f32 0x3F800000#32)))
              (broadcastInDim S1000 ![] bcast_S_S1000 (constant S_ .f32 0x3F800000#32))))))
      wout)
    (broadcastInDim S1000x2 ![0, 1] bcast_S1x2_S1000x2_0_1 (broadcastInDim S1x2 ![1] bcast_S2_S1x2_1 bout))

/-! ## The stretches, from an arbitrary valuation -/

variable (V : Valuation τ sig (Elt F))

theorem ops0_v3 : StableHlo.after hostOps0 V (Proc.devRef .tc main_v3) = rowIdxT (V (Proc.devRef .tc main_arg1)) := by
  after_results; rfl
theorem ops0_v6 : StableHlo.after hostOps0 V (Proc.devRef .tc main_v6) = colIdxT (V (Proc.devRef .tc main_arg1)) := by
  after_results; rfl
theorem ops0_v10 : StableHlo.after hostOps0 V (Proc.devRef .tc main_v10) = degT (F := F) (colIdxT (V (Proc.devRef .tc main_arg1))) := by
  after_results; rfl

theorem ops1_v20 : StableHlo.after hostOps1 V (Proc.devRef .tc main_v20) = meanT (V (Proc.devRef .tc main_v18_0)) := by
  after_results; rfl
theorem ops1_v29 : StableHlo.after hostOps1 V (Proc.devRef .tc main_v29)
    = rstdT (V (Proc.devRef .tc main_v18_0)) (V (Proc.devRef .tc main_v18_1)) := by
  after_results; rfl
theorem ops1_v30 : StableHlo.after hostOps1 V (Proc.devRef .tc main_v30) = rowT (V (Proc.devRef .tc main_v16)) := by
  after_results; rfl
theorem ops1_v31 : StableHlo.after hostOps1 V (Proc.devRef .tc main_v31) = rowT (V (Proc.devRef .tc main_arg3)) := by
  after_results; rfl
theorem ops1_v32 : StableHlo.after hostOps1 V (Proc.devRef .tc main_v32) = rowT (V (Proc.devRef .tc main_arg4)) := by
  after_results; rfl

theorem ops0_v12 : StableHlo.after hostOps0 V (Proc.devRef .tc main_v12)
    = cmpf .ogt (degT (F := F) (colIdxT (V (Proc.devRef .tc main_arg1)))) (broadcastInDim S100000 ![] bcast_S_S100000 (constant S_ .f32 0x00000000#32)) := by
  after_results; rfl
theorem ops0_v13 : StableHlo.after hostOps0 V (Proc.devRef .tc main_v13)
    = Host.rsqrt (degT (F := F) (colIdxT (V (Proc.devRef .tc main_arg1)))) := by
  after_results; rfl
theorem ops0_cst2 : StableHlo.after hostOps0 V (Proc.devRef .tc main_cst_2) = constant (F := F) S_ .f32 0x00000000#32 := by
  after_results

/-- The inlined `where`: select between the two vectors on the mask, the scalar third operand broadcast. -/
theorem ops0_1_v14 : StableHlo.after hostOps0_1 V (Proc.devRef .tc main_v14)
    = select (V (Proc.devRef .tc main_v12)) (V (Proc.devRef .tc main_v13))
        (broadcastInDim S100000 ![] bcast_S_S100000 (V (Proc.devRef .tc main_cst_2))) := by
  after_results
  simp only [TRef.toBuf, TRef.ofBuf, cast_eq]
  rfl

theorem ops0_2_v15 : StableHlo.after hostOps0_2 V (Proc.devRef .tc main_v15) = colT (V (Proc.devRef .tc main_v14)) := by
  after_results; rfl
theorem ops0_2_v16 : StableHlo.after hostOps0_2 V (Proc.devRef .tc main_v16) = zvecT (F := F) := by
  after_results; rfl
theorem ops0_2_v17 : StableHlo.after hostOps0_2 V (Proc.devRef .tc main_v17) = rowT (zvecT (F := F)) := by
  after_results; rfl

set_option maxHeartbeats 4000000 in
theorem ops2_v44 : StableHlo.after hostOps2 V (Proc.devRef .tc main_v44)
    = msgT (V (Proc.devRef .tc main_v33)) (V (Proc.devRef .tc main_v3)) (V (Proc.devRef .tc main_v6)) := by
  after_results_simp
  rfl
theorem ops2_v45 : StableHlo.after hostOps2 V (Proc.devRef .tc main_v45) = rowT (V (Proc.devRef .tc main_arg6)) := by
  after_results; rfl

theorem ops3_v48 : StableHlo.after hostOps3 V (Proc.devRef .tc main_v48) = meanT (V (Proc.devRef .tc main_v46_0)) := by
  after_results; rfl
theorem ops3_v57 : StableHlo.after hostOps3 V (Proc.devRef .tc main_v57)
    = rstdT (V (Proc.devRef .tc main_v46_0)) (V (Proc.devRef .tc main_v46_1)) := by
  after_results; rfl
theorem ops3_v58 : StableHlo.after hostOps3 V (Proc.devRef .tc main_v58) = rowT (V (Proc.devRef .tc main_arg6)) := by
  after_results; rfl
theorem ops3_v59 : StableHlo.after hostOps3 V (Proc.devRef .tc main_v59) = rowT (V (Proc.devRef .tc main_arg7)) := by
  after_results; rfl
theorem ops3_v60 : StableHlo.after hostOps3 V (Proc.devRef .tc main_v60) = rowT (V (Proc.devRef .tc main_arg8)) := by
  after_results; rfl

set_option maxHeartbeats 4000000 in
theorem ops4_v72 : StableHlo.after hostOps4 V (Proc.devRef .tc main_v72)
    = msgT (V (Proc.devRef .tc main_v61)) (V (Proc.devRef .tc main_v3)) (V (Proc.devRef .tc main_v6)) := by
  after_results_simp
  rfl
theorem ops4_v73 : StableHlo.after hostOps4 V (Proc.devRef .tc main_v73) = rowT (V (Proc.devRef .tc main_arg10)) := by
  after_results; rfl

theorem ops5_v76 : StableHlo.after hostOps5 V (Proc.devRef .tc main_v76) = meanT (V (Proc.devRef .tc main_v74_0)) := by
  after_results; rfl
theorem ops5_v85 : StableHlo.after hostOps5 V (Proc.devRef .tc main_v85)
    = rstdT (V (Proc.devRef .tc main_v74_0)) (V (Proc.devRef .tc main_v74_1)) := by
  after_results; rfl
theorem ops5_v86 : StableHlo.after hostOps5 V (Proc.devRef .tc main_v86) = rowT (V (Proc.devRef .tc main_arg10)) := by
  after_results; rfl
theorem ops5_v87 : StableHlo.after hostOps5 V (Proc.devRef .tc main_v87) = rowT (V (Proc.devRef .tc main_arg11)) := by
  after_results; rfl
theorem ops5_v88 : StableHlo.after hostOps5 V (Proc.devRef .tc main_v88) = rowT (V (Proc.devRef .tc main_arg12)) := by
  after_results; rfl

set_option maxHeartbeats 4000000 in
theorem ops6_v105 : StableHlo.after hostOps6 V (Proc.devRef .tc main_v105)
    = tailT (V (Proc.devRef .tc main_v89)) (V (Proc.devRef .tc main_arg2)) (V (Proc.devRef .tc main_arg13))
        (V (Proc.devRef .tc main_arg14)) := by
  after_results_simp
  rfl

end Cert.KernelIdeal.KHost

end
-- ==== Proof.KEntry.lean ====
/-
  What each kernel region of the idealized @main finds in its windows' arrays, and what the host stretches between
  the regions compute, as terms of the launch contents of the arguments and of the arrays the earlier regions left:
  the fold of @main's segments read at the buffers the proof needs, at the extended reals.
-/
import proofs.«109028_j78546361909449_2_alg».proof.Proof.Gen.KernelIdeal.Frame
import Idealize.ShloMosaic.PureOps.Ideal
import proofs.«109028_j78546361909449_2_alg».proof.Proof.KWalk
import proofs.«109028_j78546361909449_2_alg».proof.Proof.KHost

set_option maxRecDepth 16384

noncomputable section

namespace Cert.KernelIdeal.KEntry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.KernelIdeal.KWalk Cert.KernelIdeal.KHost

variable (m : (ℓ : Loc nD τ sig) → Buf (Elt Ideal) ℓ) (ρ : Dev nD → PrngReg) (c : Dev nD)

/-- The launch contents of a buffer. -/
abbrev X (b : Ref sig .tc) : Buf (Elt Ideal) ((c : Thread nD τ).loc b) := W0 m ρ c (Proc.devRef .tc b)

/-! ## Before region 0: the edge endpoints, the degree normalisation, the zero bias -/

/-- The edges' sources and targets (self loops appended) and the normalisation column `d = where (deg > 0, rsqrt deg, 0)`. -/
abbrev ROW := rowIdxT (X m ρ c main_arg1)
abbrev COL := colIdxT (X m ρ c main_arg1)
abbrev DVEC : FVec Ideal S100000 .f32 := dinvVecT (degT (COL m ρ c))
abbrev DCOL : FVec Ideal S100000x1 .f32 := colT (DVEC m ρ c)

theorem W1_v3 : W1 m ρ c (Proc.devRef .tc main_v3) = ROW m ρ c := ops0_v3 (W0 m ρ c)
theorem W1_v6 : W1 m ρ c (Proc.devRef .tc main_v6) = COL m ρ c := ops0_v6 (W0 m ρ c)
theorem W1_v12 : W1 m ρ c (Proc.devRef .tc main_v12)
    = cmpf .ogt (degT (F := Ideal) (COL m ρ c)) (broadcastInDim S100000 ![] bcast_S_S100000 (constant S_ .f32 0x00000000#32)) := ops0_v12 (W0 m ρ c)
theorem W1_v13 : W1 m ρ c (Proc.devRef .tc main_v13) = Host.rsqrt (degT (F := Ideal) (COL m ρ c)) := ops0_v13 (W0 m ρ c)
theorem W1_cst2 : W1 m ρ c (Proc.devRef .tc main_cst_2) = constant (F := Ideal) S_ .f32 0x00000000#32 := ops0_cst2 (W0 m ρ c)

theorem W2_v14 : W2 m ρ c (Proc.devRef .tc main_v14) = DVEC m ρ c := by
  refine (ops0_1_v14 (W1 m ρ c)).trans ?_
  rw [W1_v12, W1_v13, W1_cst2]
  rfl
theorem W3_v15 : W3 m ρ c (Proc.devRef .tc main_v15) = DCOL m ρ c :=
  (ops0_2_v15 (W2 m ρ c)).trans (congrArg (colT (F := Ideal)) (W2_v14 m ρ c))
theorem W3_v16 : W3 m ρ c (Proc.devRef .tc main_v16) = zvecT (F := Ideal) := ops0_2_v16 (W2 m ρ c)
theorem W3_v17 : W3 m ρ c (Proc.devRef .tc main_v17) = rowT (zvecT (F := Ideal)) := ops0_2_v17 (W2 m ρ c)
theorem W3_arg0 : W3 m ρ c (Proc.devRef .tc main_arg0) = X m ρ c main_arg0 := walk_arg0_3_0 m ρ c

/-! ## Region 1's windows (after the first statistics region and the host lines that follow it) -/

theorem W5_arg0 : W5 m ρ c (Proc.devRef .tc main_arg0) = X m ρ c main_arg0 := walk_arg0_5_0 m ρ c
theorem W5_v15 : W5 m ρ c (Proc.devRef .tc main_v15) = DCOL m ρ c := (walk_v15_5_3 m ρ c).trans (W3_v15 m ρ c)
theorem W5_v30 : W5 m ρ c (Proc.devRef .tc main_v30) = rowT (zvecT (F := Ideal)) :=
  (ops1_v30 (W4 m ρ c)).trans (congrArg (rowT (F := Ideal)) ((walk_v16_4_3 m ρ c).trans (W3_v16 m ρ c)))
theorem W5_v20 : W5 m ρ c (Proc.devRef .tc main_v20) = meanT (F := Ideal) (W4 m ρ c (Proc.devRef .tc main_v18_0)) := ops1_v20 (W4 m ρ c)
theorem W5_v29 : W5 m ρ c (Proc.devRef .tc main_v29)
    = rstdT (F := Ideal) (W4 m ρ c (Proc.devRef .tc main_v18_0)) (W4 m ρ c (Proc.devRef .tc main_v18_1)) := ops1_v29 (W4 m ρ c)
theorem W5_v31 : W5 m ρ c (Proc.devRef .tc main_v31) = rowT (F := Ideal) (X m ρ c main_arg3) :=
  (ops1_v31 (W4 m ρ c)).trans (congrArg (rowT (F := Ideal)) (walk_arg3_4_0 m ρ c))
theorem W5_v32 : W5 m ρ c (Proc.devRef .tc main_v32) = rowT (F := Ideal) (X m ρ c main_arg4) :=
  (ops1_v32 (W4 m ρ c)).trans (congrArg (rowT (F := Ideal)) (walk_arg4_4_0 m ρ c))
theorem W5_arg5 : W5 m ρ c (Proc.devRef .tc main_arg5) = X m ρ c main_arg5 := walk_arg5_5_0 m ρ c

/-! ## Region 2's windows (after the first message passing) -/

theorem W7_v44 : W7 m ρ c (Proc.devRef .tc main_v44) = msgT (F := Ideal) (W6 m ρ c (Proc.devRef .tc main_v33)) (ROW m ρ c) (COL m ρ c) := by
  refine (ops2_v44 (W6 m ρ c)).trans ?_
  rw [(walk_v3_6_1 m ρ c).trans (W1_v3 m ρ c), (walk_v6_6_1 m ρ c).trans (W1_v6 m ρ c)]
theorem W7_v15 : W7 m ρ c (Proc.devRef .tc main_v15) = DCOL m ρ c := (walk_v15_7_3 m ρ c).trans (W3_v15 m ρ c)
theorem W7_v45 : W7 m ρ c (Proc.devRef .tc main_v45) = rowT (F := Ideal) (X m ρ c main_arg6) :=
  (ops2_v45 (W6 m ρ c)).trans (congrArg (rowT (F := Ideal)) (walk_arg6_6_0 m ρ c))

/-! ## Region 3's windows -/

theorem W9_v44 : W9 m ρ c (Proc.devRef .tc main_v44) = msgT (F := Ideal) (W6 m ρ c (Proc.devRef .tc main_v33)) (ROW m ρ c) (COL m ρ c) :=
  (walk_v44_9_7 m ρ c).trans (W7_v44 m ρ c)
theorem W9_v15 : W9 m ρ c (Proc.devRef .tc main_v15) = DCOL m ρ c := (walk_v15_9_3 m ρ c).trans (W3_v15 m ρ c)
theorem W9_v58 : W9 m ρ c (Proc.devRef .tc main_v58) = rowT (F := Ideal) (X m ρ c main_arg6) :=
  (ops3_v58 (W8 m ρ c)).trans (congrArg (rowT (F := Ideal)) (walk_arg6_8_0 m ρ c))
theorem W9_v48 : W9 m ρ c (Proc.devRef .tc main_v48) = meanT (F := Ideal) (W8 m ρ c (Proc.devRef .tc main_v46_0)) := ops3_v48 (W8 m ρ c)
theorem W9_v57 : W9 m ρ c (Proc.devRef .tc main_v57)
    = rstdT (F := Ideal) (W8 m ρ c (Proc.devRef .tc main_v46_0)) (W8 m ρ c (Proc.devRef .tc main_v46_1)) := ops3_v57 (W8 m ρ c)
theorem W9_v59 : W9 m ρ c (Proc.devRef .tc main_v59) = rowT (F := Ideal) (X m ρ c main_arg7) :=
  (ops3_v59 (W8 m ρ c)).trans (congrArg (rowT (F := Ideal)) (walk_arg7_8_0 m ρ c))
theorem W9_v60 : W9 m ρ c (Proc.devRef .tc main_v60) = rowT (F := Ideal) (X m ρ c main_arg8) :=
  (ops3_v60 (W8 m ρ c)).trans (congrArg (rowT (F := Ideal)) (walk_arg8_8_0 m ρ c))
theorem W9_arg9 : W9 m ρ c (Proc.devRef .tc main_arg9) = X m ρ c main_arg9 := walk_arg9_9_0 m ρ c

/-! ## Region 4's windows (after the second message passing) -/

theorem W11_v72 : W11 m ρ c (Proc.devRef .tc main_v72) = msgT (F := Ideal) (W10 m ρ c (Proc.devRef .tc main_v61)) (ROW m ρ c) (COL m ρ c) := by
  refine (ops4_v72 (W10 m ρ c)).trans ?_
  rw [(walk_v3_10_1 m ρ c).trans (W1_v3 m ρ c), (walk_v6_10_1 m ρ c).trans (W1_v6 m ρ c)]
theorem W11_v15 : W11 m ρ c (Proc.devRef .tc main_v15) = DCOL m ρ c := (walk_v15_11_3 m ρ c).trans (W3_v15 m ρ c)
theorem W11_v73 : W11 m ρ c (Proc.devRef .tc main_v73) = rowT (F := Ideal) (X m ρ c main_arg10) :=
  (ops4_v73 (W10 m ρ c)).trans (congrArg (rowT (F := Ideal)) (walk_arg10_10_0 m ρ c))

/-! ## Region 5's windows -/

theorem W13_v72 : W13 m ρ c (Proc.devRef .tc main_v72) = msgT (F := Ideal) (W10 m ρ c (Proc.devRef .tc main_v61)) (ROW m ρ c) (COL m ρ c) :=
  (walk_v72_13_11 m ρ c).trans (W11_v72 m ρ c)
theorem W13_v15 : W13 m ρ c (Proc.devRef .tc main_v15) = DCOL m ρ c := (walk_v15_13_3 m ρ c).trans (W3_v15 m ρ c)
theorem W13_v86 : W13 m ρ c (Proc.devRef .tc main_v86) = rowT (F := Ideal) (X m ρ c main_arg10) :=
  (ops5_v86 (W12 m ρ c)).trans (congrArg (rowT (F := Ideal)) (walk_arg10_12_0 m ρ c))
theorem W13_v76 : W13 m ρ c (Proc.devRef .tc main_v76) = meanT (F := Ideal) (W12 m ρ c (Proc.devRef .tc main_v74_0)) := ops5_v76 (W12 m ρ c)
theorem W13_v85 : W13 m ρ c (Proc.devRef .tc main_v85)
    = rstdT (F := Ideal) (W12 m ρ c (Proc.devRef .tc main_v74_0)) (W12 m ρ c (Proc.devRef .tc main_v74_1)) := ops5_v85 (W12 m ρ c)
theorem W13_v87 : W13 m ρ c (Proc.devRef .tc main_v87) = rowT (F := Ideal) (X m ρ c main_arg11) :=
  (ops5_v87 (W12 m ρ c)).trans (congrArg (rowT (F := Ideal)) (walk_arg11_12_0 m ρ c))
theorem W13_v88 : W13 m ρ c (Proc.devRef .tc main_v88) = rowT (F := Ideal) (X m ρ c main_arg12) :=
  (ops5_v88 (W12 m ρ c)).trans (congrArg (rowT (F := Ideal)) (walk_arg12_12_0 m ρ c))

/-! ## The return -/

theorem W15_v105 : W15 m ρ c (Proc.devRef .tc main_v105)
    = tailT (F := Ideal) (W14 m ρ c (Proc.devRef .tc main_v89)) (X m ρ c main_arg2) (X m ρ c main_arg13) (X m ρ c main_arg14) := by
  refine (ops6_v105 (W14 m ρ c)).trans ?_
  rw [walk_arg2_14_0 m ρ c, walk_arg13_14_0 m ρ c, walk_arg14_14_0 m ρ c]

end Cert.KernelIdeal.KEntry

end
-- ==== Proof.LibVariance.lean ====
/-
  The algebra of batch normalisation on the extended reals, with no program in sight.

  A batch norm of a column of numbers can spell its variance as the mean of the squared deviations from the
  mean, or as the mean of the squares minus the square of the mean, floored at zero. On real numbers the two are
  one number (and it is never negative, so the floor is the identity); on the extended reals they differ at the
  infinities, so the identity is stated for columns of REAL entries. The module also keeps the small calculus of
  "this extended real is a real number" that carries finiteness through sums, products, quotients by a non-zero
  real and inverse square roots of positive numbers, and the two float words the programs spell: 100000 and the
  batch-norm epsilon.
-/
import Idealize.ShloMosaic.PureOps.Ideal
import Idealize.ShloMosaic.PureOps.Ideal.Laws

noncomputable section

namespace Cert.BnAlgebra

open Idealize.ShloMosaic

/-! ## Extended reals that are real numbers -/

/-- The extended real is (the image of) a real number. -/
def IsR (x : EReal) : Prop := ∃ a : ℝ, x = (a : EReal)

theorem IsR.coe (a : ℝ) : IsR (a : EReal) := ⟨a, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rw [max_eq_right h]; exact hy
  · rw [max_eq_left h]; exact hx
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- A finite sum of real numbers, summed on the extended reals, is the real sum. -/
theorem coe_sum {ι : Type} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

theorem IsR.div_coe {x : EReal} (hx : IsR x) {n : ℝ} (hn : n ≠ 0) : IsR (Ideal.div x (n : EReal)) := by
  rw [Ideal.div_coe hn]; exact hx.mul (IsR.coe _)

theorem IsR.rsqrt_pos {x : EReal} (hx : IsR x) (hpos : 0 < x) : IsR (Ideal.rsqrt x) := by
  obtain ⟨a, rfl⟩ := hx
  have ha : 0 < a := by exact_mod_cast hpos
  rw [Ideal.rsqrt_coe, if_neg (not_lt.mpr ha.le), if_neg ha.ne']
  exact IsR.coe _

theorem IsR.ne_top {x : EReal} (hx : IsR x) : x ≠ ⊤ := by obtain ⟨a, rfl⟩ := hx; exact EReal.coe_ne_top a
theorem IsR.ne_bot {x : EReal} (hx : IsR x) : x ≠ ⊥ := by obtain ⟨a, rfl⟩ := hx; exact EReal.coe_ne_bot a

/-- Not negative and not `+∞`: a real number. -/
theorem IsR.of_nonneg_ne_top {x : EReal} (h0 : 0 ≤ x) (ht : x ≠ ⊤) : IsR x := by
  induction x using EReal.rec with
  | bot => exact absurd h0 (by simp)
  | top => exact absurd rfl ht
  | coe r => exact IsR.coe r

/-! ## The two float words -/

/-- The word of `100000.0` denotes the real 100000. -/
theorem ofBits_n : Ideal.ofBits .f32 0x47C35000#32 = ((100000 : ℝ) : EReal) := by
  simp [Ideal.ofBits, Ideal.ieee, -EReal.coe_mul]; norm_num

/-- The batch-norm epsilon's word denotes a positive real (the dyadic 10995116 / 2^40). -/
theorem ofBits_eps : Ideal.ofBits .f32 0x3727C5AC#32 = ((10995116 / 1099511627776 : ℝ) : EReal) := by
  simp [Ideal.ofBits, Ideal.ieee, -EReal.coe_mul]; norm_num

/-! ## The variance, spelt two ways -/

/-- For a column of REAL numbers over an index type of `n` elements: the mean of the squared deviations from the
    mean is the mean of the squares minus the squared mean, and flooring that at zero changes nothing. -/
theorem var_eq {ι : Type} [Fintype ι] (X : ι → EReal) (hX : ∀ i, IsR (X i)) (n : ℝ) (hn : 0 < n)
    (hcard : (Fintype.card ι : ℝ) = n) (μ : EReal) (hμ : μ = Ideal.div (∑ i, X i) (n : EReal)) :
    Ideal.div (∑ i, (X i - μ) * (X i - μ)) (n : EReal)
      = max (Ideal.div (∑ i, X i * X i) (n : EReal) - μ * μ) 0 := by
  choose a ha using hX
  have hn0 : n ≠ 0 := hn.ne'
  set m : ℝ := (∑ i, a i) * (1 / n) with hm
  have hμ' : μ = (m : EReal) := by
    rw [hμ, Ideal.div_coe hn0]
    simp only [ha, coe_sum, ← EReal.coe_mul, hm]
  have h1 : ∑ i, (X i - μ) * (X i - μ) = ((∑ i, (a i - m) * (a i - m) : ℝ) : EReal) := by
    rw [← coe_sum]; refine Finset.sum_congr rfl fun i _ => ?_
    rw [ha i, hμ', ← EReal.coe_sub, ← EReal.coe_mul]
  have h2 : ∑ i, X i * X i = ((∑ i, a i * a i : ℝ) : EReal) := by
    rw [← coe_sum]; refine Finset.sum_congr rfl fun i _ => ?_
    rw [ha i, ← EReal.coe_mul]
  rw [h1, h2, Ideal.div_coe hn0, Ideal.div_coe hn0, hμ', ← EReal.coe_mul, ← EReal.coe_mul, ← EReal.coe_mul,
    ← EReal.coe_sub]
  have key : (∑ i, (a i - m) * (a i - m)) * (1 / n) = (∑ i, a i * a i) * (1 / n) - m * m := by
    have e1 : ∑ i, (a i - m) * (a i - m) = (∑ i, a i * a i) - 2 * m * (∑ i, a i) + n * (m * m) := by
      have : ∀ i, (a i - m) * (a i - m) = a i * a i - 2 * m * a i + m * m := fun i => by ring
      simp only [this, Finset.sum_add_distrib, Finset.sum_sub_distrib, ← Finset.mul_sum, Finset.sum_const,
        Finset.card_univ, nsmul_eq_mul, hcard]
      ring
    have e2 : ∑ i, a i = n * m := by rw [hm]; field_simp
    rw [e1, e2]; field_simp; ring
  have hnn : 0 ≤ (∑ i, (a i - m) * (a i - m)) * (1 / n) :=
    mul_nonneg (Finset.sum_nonneg fun i _ => mul_self_nonneg _) (by positivity)
  rw [← key, max_eq_left (by exact_mod_cast hnn)]

end Cert.BnAlgebra

end
-- ==== Proof.BnLaw.lean ====
/-
  Batch normalisation of a 100000 × 64 array over its rows, in its two spellings, as plain functions of the row and
  column: the mean of a column is its sum over 100000; the variance is either the mean of the squared deviations or
  the mean of the squares minus the squared mean, floored at zero; the result is ((x − mean)·rsqrt(var + ε))·γ + β.
  For an array of REAL entries the two spellings are the same function, and its values are real numbers (the variance
  is not negative and ε is positive, so the inverse square root is taken of a positive real). A product of a real
  array with a real 64 × 64 matrix is real as well.
-/
import proofs.«109028_j78546361909449_2_alg».proof.Proof.LibVariance

noncomputable section

namespace Cert.BnAlgebra

open Idealize.ShloMosaic

abbrev Cur := Fin 100000 → Fin 64 → EReal

variable (nn eps : EReal)

/-- The column mean. -/
def mu (X : Cur) (k : Fin 64) : EReal := Ideal.div (∑ r, X r k) nn
/-- The variance as the mean of the squared deviations. -/
def vaR (X : Cur) (k : Fin 64) : EReal := Ideal.div (∑ r, (X r k - mu nn X k) * (X r k - mu nn X k)) nn
/-- The variance as the mean of the squares minus the squared mean, floored at zero. -/
def vaK (X : Cur) (k : Fin 64) : EReal := max (Ideal.div (∑ r, X r k * X r k) nn - mu nn X k * mu nn X k) 0
def bnR (X : Cur) (g b : Fin 64 → EReal) : Cur :=
  fun r k => ((X r k - mu nn X k) * Ideal.rsqrt (vaR nn X k + eps)) * g k + b k
def bnK (X : Cur) (g b : Fin 64 → EReal) : Cur :=
  fun r k => ((X r k - mu nn X k) * Ideal.rsqrt (vaK nn X k + eps)) * g k + b k

variable {nn eps}

theorem vaK_eq_vaR (hn : nn = ((100000 : ℝ) : EReal)) (X : Cur) (hX : ∀ r k, IsR (X r k)) (k : Fin 64) :
    vaK nn X k = vaR nn X k := by
  subst hn
  unfold vaK vaR
  exact (var_eq (fun r => X r k) (fun r => hX r k) 100000 (by norm_num) (by simp) (mu ((100000 : ℝ) : EReal) X k) rfl).symm

theorem bnK_eq_bnR (hn : nn = ((100000 : ℝ) : EReal)) (X : Cur) (hX : ∀ r k, IsR (X r k)) (g b : Fin 64 → EReal) :
    bnK nn eps X g b = bnR nn eps X g b := by
  funext r k
  unfold bnK bnR
  rw [vaK_eq_vaR hn X hX k]

theorem mu_real (hn : nn = ((100000 : ℝ) : EReal)) (X : Cur) (hX : ∀ r k, IsR (X r k)) (k : Fin 64) : IsR (mu nn X k) := by
  subst hn
  exact (IsR.sum _ _ fun r _ => hX r k).div_coe (by norm_num)

theorem vaR_real_nonneg (hn : nn = ((100000 : ℝ) : EReal)) (X : Cur) (hX : ∀ r k, IsR (X r k)) (k : Fin 64) :
    IsR (vaR nn X k) ∧ 0 ≤ vaR nn X k := by
  have hm := mu_real hn X hX k
  subst hn
  obtain ⟨mm, hmm⟩ := hm
  choose a ha using fun r => hX r k
  have hs : ∑ r, (X r k - mu ((100000 : ℝ) : EReal) X k) * (X r k - mu ((100000 : ℝ) : EReal) X k) = ((∑ r, (a r - mm) * (a r - mm) : ℝ) : EReal) := by
    rw [← coe_sum]; refine Finset.sum_congr rfl fun r _ => ?_
    rw [ha r, hmm, ← EReal.coe_sub, ← EReal.coe_mul]
  unfold vaR
  rw [hs, Ideal.div_coe (by norm_num : (100000 : ℝ) ≠ 0), ← EReal.coe_mul]
  refine ⟨IsR.coe _, ?_⟩
  have : 0 ≤ (∑ r, (a r - mm) * (a r - mm)) * (1 / 100000 : ℝ) :=
    mul_nonneg (Finset.sum_nonneg fun r _ => mul_self_nonneg _) (by norm_num)
  exact_mod_cast this

theorem bnR_real (hn : nn = ((100000 : ℝ) : EReal)) (heps : ∃ e : ℝ, 0 < e ∧ eps = (e : EReal)) (X : Cur)
    (hX : ∀ r k, IsR (X r k)) (g b : Fin 64 → EReal) (hg : ∀ k, IsR (g k)) (hb : ∀ k, IsR (b k)) (r : Fin 100000) (k : Fin 64) :
    IsR (bnR nn eps X g b r k) := by
  obtain ⟨e, he, rfl⟩ := heps
  obtain ⟨hv, hv0⟩ := vaR_real_nonneg hn X hX k
  have hpos : 0 < vaR nn X k + (e : EReal) := by
    obtain ⟨v, hv'⟩ := hv
    rw [hv'] at hv0 ⊢
    have : 0 ≤ v := by exact_mod_cast hv0
    rw [← EReal.coe_add]; exact_mod_cast (by linarith : 0 < v + e)
  unfold bnR
  exact ((((hX r k).sub (mu_real hn X hX k)).mul ((hv.add (IsR.coe e)).rsqrt_pos hpos)).mul (hg k)).add (hb k)

/-- The product with a 64 × 64 matrix, entry by entry. -/
def lin (H : Cur) (W : Fin 64 → Fin 64 → EReal) : Cur := fun r j => ∑ k, H r k * W k j

theorem lin_real (H : Cur) (W : Fin 64 → Fin 64 → EReal) (hH : ∀ r k, IsR (H r k)) (hW : ∀ k j, IsR (W k j))
    (r : Fin 100000) (j : Fin 64) : IsR (lin H W r j) :=
  IsR.sum _ _ fun k _ => (hH r k).mul (hW k j)

end Cert.BnAlgebra

end
-- ==== Proof.KSpec.lean ====
/-
  The idealized kernel's stages as plain functions of the row and the column, at the extended reals.
  A statistics region leaves the column sums and the column sums of squares of its block-wise input
  (the input plus a bias row, or relu of the input scaled by the normalisation column plus a bias row); the host
  turns them into the mean and the inverse standard deviation; a normalise region applies
  ((p − mean)·rstd)·γ + β, and (two of the three) multiplies by a 64 × 64 matrix and by the normalisation column.
  Read at an index, the host's mean / inverse-deviation rows and the normalise formula are the batch norm
  `BnAlgebra.bnK` (variance as the floored difference) of the region's input.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109028_j78546361909449_2_alg».proof.Proof.KHost
import proofs.«109028_j78546361909449_2_alg».proof.Proof.BnLaw

set_option maxRecDepth 16384

noncomputable section

namespace Cert.KernelIdeal.KSpec

open Cert.KernelIdeal Cert.KernelIdeal.Gen Cert.KernelIdeal.KHost
open Idealize.ShloMosaic Idealize.ShloMosaic.ValueIdx
open Cert.BnAlgebra (Cur)

abbrev Mat := S100000x64.Idx → EReal
abbrev Row := S1x64.Idx → EReal
abbrev Colm := S100000x1.Idx → EReal

/-- The word of 100000 and the batch-norm epsilon's word, as extended reals. -/
abbrev NN : EReal := Ideal.ofBits .f32 0x47C35000#32
abbrev EPS : EReal := Ideal.ofBits .f32 0x3727C5AC#32

/-- An array as a function of row and column, and back. -/
def cur (A : Mat) : Cur := fun r j => A (ix2 r j)
def matOf (H : Cur) : Mat := fun i => H (i 0) (i 1)
theorem matOf_apply (H : Cur) (r : Fin 100000) (j : Fin 64) : matOf H (ix2 r j) = H r j := rfl

/-- The first statistics region's input: the array plus a bias row. -/
def pre0 (A : Mat) (B : Row) : Cur := fun r j => A (ix2 r j) + B (ix2 (0 : Fin 1) j)
/-- The later regions' input: relu of the array scaled row-wise by the column `D`, plus a bias row. -/
def preS (A : Mat) (D : Colm) (B : Row) : Cur :=
  fun r j => max (A (ix2 r j) * D (ix2 r (0 : Fin 1)) + B (ix2 (0 : Fin 1) j)) 0
/-- Column sums and column sums of squares, as `[1,64]` rows. -/
def sumRow (P : Cur) : Row := fun i => ∑ r : Fin 100000, P r (i 1)
def sqRow (P : Cur) : Row := fun i => ∑ r : Fin 100000, P r (i 1) * P r (i 1)
/-- The normalise formula over rows of mean, inverse deviation, scale and shift. -/
def hnS (P : Cur) (M R G Be : Row) : Cur :=
  fun r k => ((P r k - M (ix2 (0 : Fin 1) k)) * R (ix2 (0 : Fin 1) k)) * G (ix2 (0 : Fin 1) k) + Be (ix2 (0 : Fin 1) k)
/-- … followed by the product with a 64 × 64 matrix and the row-wise scale by the column `D`. -/
def linS (H : Cur) (Wt : S64x64.Idx → EReal) (D : Colm) : Cur :=
  fun r j => (∑ k : Fin 64, H r k * Wt (ix2 k j)) * D (ix2 r (0 : Fin 1))

/-! ## The host's rows at an index -/

theorem meanT_apply (s : Row) (k : Fin 64) : meanT (F := Ideal) s (ix2 (0 : Fin 1) k) = Ideal.div (s (ix2 (0 : Fin 1) k)) NN := rfl

theorem rstdT_apply (s q : Row) (k : Fin 64) :
    rstdT (F := Ideal) s q (ix2 (0 : Fin 1) k)
      = Ideal.rsqrt (max (Ideal.div (q (ix2 (0 : Fin 1) k)) NN
          - Ideal.div (s (ix2 (0 : Fin 1) k)) NN * Ideal.div (s (ix2 (0 : Fin 1) k)) NN) (Ideal.ofBits .f32 0x00000000#32) + EPS) := rfl

theorem rowT_apply (g : S64.Idx → EReal) (k : Fin 64) : rowT (F := Ideal) g (ix2 (0 : Fin 1) k) = g (ix1 k) :=
  shapeCast_a_1a_apply (a := 64) g shapeCasts_S64_S1x64 0 k

theorem sumRow_apply (P : Cur) (k : Fin 64) : sumRow P (ix2 (0 : Fin 1) k) = ∑ r : Fin 100000, P r k := rfl
theorem sqRow_apply (P : Cur) (k : Fin 64) : sqRow P (ix2 (0 : Fin 1) k) = ∑ r : Fin 100000, P r k * P r k := rfl

/-- The kernel's normalisation of `P`, its mean and inverse deviation computed by the host from the two column sums,
    is the batch norm with the variance spelt as the floored difference. -/
theorem hnS_eq_bnK (P : Cur) (g b : S64.Idx → EReal) :
    hnS P (meanT (F := Ideal) (sumRow P)) (rstdT (F := Ideal) (sumRow P) (sqRow P)) (rowT (F := Ideal) g) (rowT (F := Ideal) b)
      = Cert.BnAlgebra.bnK NN EPS P (fun k => g (ix1 k)) (fun k => b (ix1 k)) := by
  funext r k
  unfold hnS Cert.BnAlgebra.bnK Cert.BnAlgebra.vaK Cert.BnAlgebra.mu
  rw [meanT_apply, rstdT_apply, rowT_apply, rowT_apply, sumRow_apply, sqRow_apply, Ideal.ofBits_zero_f32]

end Cert.KernelIdeal.KSpec

end
-- ==== Proof.Stats0.lean ====
/-
  The first statistics pass, as whole arrays.

  The pass walks the 100000 rows of its input in 25 blocks of 4000 rows.  At each block it adds, lane by lane, the
  4000 entries of the block (each entry with the bias row added) into a [1,64] accumulator, and their squares into a
  second accumulator; the first block starts both accumulators from zero.  The accumulators' block never moves, and
  it is written back once, after the last block.  So after the pass the first result holds, at lane j, the sum over
  all 100000 rows of (input + bias), and the second the sum of the squares.  Only associativity and commutativity of
  the extended reals' addition are used: no finiteness is assumed.
-/
import proofs.«109028_j78546361909449_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Stats0

open Cert.KernelIdeal Cert.KernelIdeal.Gen

/-! ## What each case of the body leaves in the two accumulators, for any float values -/

section Pieces
variable {F : FTy → Type} [FloatOps F]

theorem hz : (![0, 0] : Fin 2 → Nat) = fun _ => 0 := funext fun a => by fin_cases a <;> rfl

/-- At a block other than the first, the sum accumulator holding `xo3` is left at the accumulate payload of the
    input block, the bias row and `xo3`: the body's one store into it covers it, and its loads read whole buffers. -/
theorem out_B_3 (c : Dev nD) (i : grid0.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S4000x64 .f32) (x1 : Vec F S4000x1 .f32) (x2 : Vec F S1x64 .f32)
    (xo3 xo4 : Vec F S1x64 .f32) :
    out0_B_3 c i a1 h1 a2 h2 a3 h3 a4 h4 a5 h5 hc x0 x1 x2 xo3 xo4 = k0_pay4 x0 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h3.read_unread, h4.read_unread,
    View.ld_unit_zero (S := S4000x64) hz, View.ld_unit_zero (S := S1x64) hz]

/-- The same for the accumulator of squares, holding `xo4`. -/
theorem out_B_4 (c : Dev nD) (i : grid0.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S4000x64 .f32) (x1 : Vec F S4000x1 .f32) (x2 : Vec F S1x64 .f32)
    (xo3 xo4 : Vec F S1x64 .f32) :
    out0_B_4 c i a1 h1 a2 h2 a3 h3 a4 h4 a5 h5 hc x0 x1 x2 xo3 xo4 = k0_pay5 x0 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h3.read_unread, h5.read_unread,
    View.ld_unit_zero (S := S4000x64) hz, View.ld_unit_zero (S := S1x64) hz]

/-- At the first block the body first stores the zero row into the sum accumulator, reads it back, and leaves the
    accumulate payload of the input block, the bias row and that zero row. -/
theorem out_A_3 (c : Dev nD) (i : grid0.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S4000x64 .f32) (x1 : Vec F S4000x1 .f32) (x2 : Vec F S1x64 .f32) :
    out0_A_3 c i a1 h1 a2 h2 a3 h3 a4 h4 a5 h5 hc x0 x1 x2 = k0_pay4 x0 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x64) hz, View.readCov_unit_zero (S := S1x64) _ hz]
  simp only [View.readAt_eq_ld, h1.read_unread, h3.read_unread,
    View.ld_unit_zero (S := S4000x64) hz, View.ld_unit_zero (S := S1x64) hz]

/-- The same for the accumulator of squares. -/
theorem out_A_4 (c : Dev nD) (i : grid0.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S4000x64 .f32) (x1 : Vec F S4000x1 .f32) (x2 : Vec F S1x64 .f32) :
    out0_A_4 c i a1 h1 a2 h2 a3 h3 a4 h4 a5 h5 hc x0 x1 x2 = k0_pay5 x0 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x64) hz, View.readCov_unit_zero (S := S1x64) _ hz]
  simp only [View.readAt_eq_ld, h1.read_unread, h3.read_unread,
    View.ld_unit_zero (S := S4000x64) hz, View.ld_unit_zero (S := S1x64) hz]

end Pieces

/-! ## The payloads read at a lane, over the extended reals -/

section Values

/-- The zero row the first block stores is the extended real zero at every lane. -/
theorem zero1_apply (j : Fin 64) : k0_pay1 (F := Ideal) (ix2 0 j) = 0 := by
  unfold k0_pay1
  show Ideal.ofBits .f32 0x00000000#32 = 0
  exact Ideal.ofBits_zero_f32

theorem zero2_apply (j : Fin 64) : k0_pay2 (F := Ideal) (ix2 0 j) = 0 := by
  unfold k0_pay2
  show Ideal.ofBits .f32 0x00000000#32 = 0
  exact Ideal.ofBits_zero_f32

/-- An entry of the block with the bias row added: the bias row is broadcast down the 4000 rows. -/
theorem pay3_apply (x0 : Vec Ideal S4000x64 .f32) (x2 : Vec Ideal S1x64 .f32) (r : Fin 4000) (j : Fin 64) :
    k0_pay3 (F := Ideal) x0 x2 (ix2 r j) = x0 (ix2 r j) + x2 (ix2 0 j) := by
  unfold k0_pay3
  show x0 (ix2 r j)
      + broadcastTo S4000x64 (shapeCast S1x64 x2 shapeCasts_S1x64_S1x64) broadcasts_S1x64_S4000x64 (ix2 r j) = _
  refine congrArg (x0 (ix2 r j) + ·) ?_
  refine (broadcastTo_1b_ab_apply _ broadcasts_S1x64_S4000x64 r j).trans ?_
  rw [shapeCast_self]

/-- The reduced index `j` with row `k` put back on the reduced axis is `(k, j)`. -/
theorem lift_eq (j : Fin 64) (k : Fin 4000) : reduces_S4000x64_S64.lift (ix1 j) k = ix2 k j := by
  funext a
  apply Fin.ext
  match a with
  | ⟨0, _⟩ => rfl
  | ⟨1, _⟩ => rfl

/-- The sum down the rows of a 4000×64 block, stored as a [1,64] row, is at lane `j` the sum of the block's column `j`. -/
theorem colsum_apply (v : FVec Ideal S4000x64 .f32) (j : Fin 64) :
    shapeCast S1x64 (multiReduction (F := Ideal) .add [0] S64 v 0x00000000#32 reduces_S4000x64_S64 (.inl rfl) rfl)
        shapeCasts_S64_S1x64 (ix2 0 j)
      = ∑ r : Fin 4000, v (ix2 r j) := by
  refine (shapeCast_a_1a_apply _ shapeCasts_S64_S1x64 0 j).trans ?_
  refine (Ideal.multiReduction_add_single v 0x00000000#32 reduces_S4000x64_S64 (.inl rfl) rfl (ix1 j)).trans ?_
  exact Finset.sum_congr rfl fun k _ => congrArg v (lift_eq j k)

/-- The accumulate payload of the sums at lane `j`: what the accumulator held there plus the column sum of the
    block's entries with the bias added. -/
theorem pay4_apply (x0 : Vec Ideal S4000x64 .f32) (x2 xo : Vec Ideal S1x64 .f32) (j : Fin 64) :
    k0_pay4 (F := Ideal) x0 x2 xo (ix2 0 j) = xo (ix2 0 j) + ∑ r : Fin 4000, (x0 (ix2 r j) + x2 (ix2 0 j)) := by
  unfold k0_pay4
  show shapeCast S1x64 xo shapeCasts_S1x64_S1x64 (ix2 0 j)
      + shapeCast S1x64 (multiReduction (F := Ideal) .add [0] S64 (k0_pay3 x0 x2) 0x00000000#32 reduces_S4000x64_S64 (.inl rfl) rfl)
          shapeCasts_S64_S1x64 (ix2 0 j) = _
  refine (congrArg₂ (· + ·) (congrFun (shapeCast_self xo shapeCasts_S1x64_S1x64) (ix2 0 j))
    (colsum_apply (k0_pay3 x0 x2) j)).trans ?_
  exact congrArg (xo (ix2 0 j) + ·) (Finset.sum_congr rfl fun r _ => pay3_apply x0 x2 r j)

/-- The accumulate payload of the squares at lane `j`. -/
theorem pay5_apply (x0 : Vec Ideal S4000x64 .f32) (x2 xo : Vec Ideal S1x64 .f32) (j : Fin 64) :
    k0_pay5 (F := Ideal) x0 x2 xo (ix2 0 j)
      = xo (ix2 0 j) + ∑ r : Fin 4000, (x0 (ix2 r j) + x2 (ix2 0 j)) * (x0 (ix2 r j) + x2 (ix2 0 j)) := by
  unfold k0_pay5
  show shapeCast S1x64 xo shapeCasts_S1x64_S1x64 (ix2 0 j)
      + shapeCast S1x64 (multiReduction (F := Ideal) .add [0] S64 (mulf (k0_pay3 x0 x2) (k0_pay3 x0 x2)) 0x00000000#32
            reduces_S4000x64_S64 (.inl rfl) rfl)
          shapeCasts_S64_S1x64 (ix2 0 j) = _
  refine (congrArg₂ (· + ·) (congrFun (shapeCast_self xo shapeCasts_S1x64_S1x64) (ix2 0 j))
    (colsum_apply (mulf (k0_pay3 x0 x2) (k0_pay3 x0 x2)) j)).trans ?_
  refine congrArg (xo (ix2 0 j) + ·) (Finset.sum_congr rfl fun r _ => ?_)
  show k0_pay3 x0 x2 (ix2 r j) * k0_pay3 x0 x2 (ix2 r j) = _
  rw [pay3_apply]

end Values

/-! ## From the blocks to the arrays -/

section Arrays

variable (V : (c : Dev nD) → (b : Ref sig .tc) → Buf (Elt Ideal) ((c : Thread nD τ).loc b)) (c : Dev nD)

/-- The [100000,64] input of the pass, as the pass finds it. -/
abbrev arrA : S100000x64.Idx → EReal := V c (Pipeline.arrRef spec0 0)
/-- The [1,64] bias row, as the pass finds it. -/
abbrev arrB : S1x64.Idx → EReal := V c (Pipeline.arrRef spec0 2)

/-- Block `t` of the input, and the bias row's block at point `t`, as the body finds them. -/
abbrev blkA (t : Fin cfg0.N) : S4000x64.Idx → EReal := iblk0 V c 0 t
abbrev blkB (t : Fin cfg0.N) : S1x64.Idx → EReal := iblk0 V c 2 t

/-- The term the pass sums: entry `(r, j)` of the input with the bias of lane `j` added. -/
def pre (r : Fin 100000) (j : Fin 64) : EReal := arrA V c (ix2 r j) + arrB V c (ix2 0 j)

/-- The same term indexed by a natural number row (zero past the last row), so that runs of rows can be added up. -/
def term (j : Fin 64) (k : ℕ) : EReal := if h : k < 100000 then pre V c ⟨k, h⟩ j else 0

/-- Block `t` of the input starts at row `4000·t` and takes every lane; the bias row's one block is the row itself. -/
theorem idx_facts : ∀ t : Fin cfg0.N, win0_0.index t (0 : Fin 2) = t.val ∧ win0_0.index t (1 : Fin 2) = 0
    ∧ win0_2.index t (0 : Fin 2) = 0 ∧ win0_2.index t (1 : Fin 2) = 0 :=
  (by decide +kernel : ∀ t : Fin grid0.N, _)

/-- Row `r` of block `t` of the input is row `4000·t + r` of the array. -/
theorem blk0_apply (t : Fin cfg0.N) (r : Fin 4000) (j : Fin 64) (h : t.val * 4000 + r.val < 100000) :
    blkA V c t (ix2 r j) = arrA V c (ix2 ⟨t.val * 4000 + r.val, h⟩ j) := by
  unfold blkA iblk0
  rw [View.read_apply]
  show V c (Pipeline.arrRef spec0 0) _ = V c (Pipeline.arrRef spec0 0) _
  congr 1
  funext a
  apply Fin.ext
  match a with
  | ⟨0, _⟩ => show win0_0.index t 0 * 4000 + 1 * r.val = t.val * 4000 + r.val; rw [(idx_facts t).1]; omega
  | ⟨1, _⟩ => show win0_0.index t 1 * 64 + 1 * j.val = j.val; rw [(idx_facts t).2.1]; omega

/-- The bias row's block at any point is the bias row. -/
theorem blk2_apply (t : Fin cfg0.N) (j : Fin 64) :
    blkB V c t (ix2 0 j) = arrB V c (ix2 0 j) := by
  unfold blkB iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; rw [(idx_facts t).2.2.1]
  | ⟨1, _⟩ => show win0_2.index t 1 * 64 + 1 * j.val = j.val; rw [(idx_facts t).2.2.2]; omega

/-- So an entry of block `t` with the bias added is the term of row `4000·t + r`. -/
theorem point_term (t : Fin cfg0.N) (r : Fin 4000) (j : Fin 64) :
    blkA V c t (ix2 r j) + blkB V c t (ix2 0 j) = term V c j (t.val * 4000 + r.val) := by
  have hN : t.val < 25 := lt_of_lt_of_eq t.isLt (show cfg0.N = 25 from N_0)
  have h : t.val * 4000 + r.val < 100000 := by have := r.isLt; omega
  unfold term
  rw [dif_pos h, blk0_apply V c t r j h, blk2_apply V c t j]
  rfl

/-- What the body adds to the sum accumulator at point `t`: the terms of the 4000 rows from `4000·t` on. -/
theorem pay4_point (t : Fin cfg0.N) (acc : Vec Ideal S1x64 .f32) (j : Fin 64) :
    k0_pay4 (F := Ideal) (iblk0 V c 0 t) (iblk0 V c 2 t) acc (ix2 0 j)
      = acc (ix2 0 j) + ∑ r ∈ Finset.range 4000, term V c j (t.val * 4000 + r) := by
  refine (pay4_apply (blkA V c t) (blkB V c t) acc j).trans ?_
  refine congrArg (acc (ix2 0 j) + ·) ?_
  refine (Finset.sum_congr rfl fun r _ => point_term V c t r j).trans ?_
  exact Fin.sum_univ_eq_sum_range (fun r => term V c j (t.val * 4000 + r)) 4000

/-- and to the accumulator of squares: their squares. -/
theorem pay5_point (t : Fin cfg0.N) (acc : Vec Ideal S1x64 .f32) (j : Fin 64) :
    k0_pay5 (F := Ideal) (iblk0 V c 0 t) (iblk0 V c 2 t) acc (ix2 0 j)
      = acc (ix2 0 j) + ∑ r ∈ Finset.range 4000, term V c j (t.val * 4000 + r) * term V c j (t.val * 4000 + r) := by
  refine (pay5_apply (blkA V c t) (blkB V c t) acc j).trans ?_
  refine congrArg (acc (ix2 0 j) + ·) ?_
  refine (Finset.sum_congr rfl fun r _ => by rw [point_term V c t r j]).trans ?_
  exact Fin.sum_univ_eq_sum_range (fun r => term V c j (t.val * 4000 + r) * term V c j (t.val * 4000 + r)) 4000

/-- The two accumulators after the first point, as payloads of its blocks over the zero rows. -/
theorem outs_A (t : Fin cfg0.N) (h0 : t.val % 25 = 0) :
    outsAt0 V c t.val t.isLt
      = (k0_pay4 (iblk0 V c 0 t) (iblk0 V c 2 t) (k0_pay1 (F := Ideal)),
         k0_pay5 (iblk0 V c 0 t) (iblk0 V c 2 t) (k0_pay2 (F := Ideal))) := by
  rw [outsAt0_A V c t h0]
  exact congrArg₂ Prod.mk
    (out_A_3 c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t) (iblk0 V c 2 t))
    (out_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t) (iblk0 V c 2 t))

/-- The two accumulators after a later point, as payloads of its blocks over what the point before left. -/
theorem outs_B (t : Fin cfg0.N) (h0 : ¬t.val % 25 = 0) :
    outsAt0 V c t.val t.isLt
      = (k0_pay4 (iblk0 V c 0 t) (iblk0 V c 2 t) (outsAt0 V c (t.val - 1) (Nat.lt_of_le_of_lt (Nat.sub_le _ _) t.isLt)).1,
         k0_pay5 (iblk0 V c 0 t) (iblk0 V c 2 t) (outsAt0 V c (t.val - 1) (Nat.lt_of_le_of_lt (Nat.sub_le _ _) t.isLt)).2) := by
  rw [outsAt0_B V c t h0]
  exact congrArg₂ Prod.mk
    (out_B_3 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t) (iblk0 V c 2 t)
      (outsAt0 V c (t.val - 1) (Nat.lt_of_le_of_lt (Nat.sub_le _ _) t.isLt)).1
      (outsAt0 V c (t.val - 1) (Nat.lt_of_le_of_lt (Nat.sub_le _ _) t.isLt)).2)
    (out_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t) (iblk0 V c 2 t)
      (outsAt0 V c (t.val - 1) (Nat.lt_of_le_of_lt (Nat.sub_le _ _) t.isLt)).1
      (outsAt0 V c (t.val - 1) (Nat.lt_of_le_of_lt (Nat.sub_le _ _) t.isLt)).2)

/-- After point `n` the accumulators hold, at lane `j`, the sum of the terms (of their squares) of the first
    `4000·(n+1)` rows: by induction on the point, each point adding its run of 4000 rows. -/
theorem sums_at (j : Fin 64) : ∀ (n : ℕ) (h : n < cfg0.N),
    (outsAt0 V c n h).1 (ix2 0 j) = ∑ k ∈ Finset.range ((n + 1) * 4000), term V c j k
    ∧ (outsAt0 V c n h).2 (ix2 0 j) = ∑ k ∈ Finset.range ((n + 1) * 4000), term V c j k * term V c j k
  | 0, h => by
    have e := outs_A V c ⟨0, h⟩ rfl
    constructor
    · refine (congrFun (congrArg Prod.fst e) (ix2 0 j)).trans ?_
      refine (pay4_point V c ⟨0, h⟩ _ j).trans ?_
      rw [zero1_apply, zero_add]
      show ∑ r ∈ Finset.range 4000, term V c j (0 * 4000 + r) = ∑ k ∈ Finset.range ((0 + 1) * 4000), term V c j k
      simp only [Nat.zero_mul, Nat.zero_add, Nat.one_mul]
    · refine (congrFun (congrArg Prod.snd e) (ix2 0 j)).trans ?_
      refine (pay5_point V c ⟨0, h⟩ _ j).trans ?_
      rw [zero2_apply, zero_add]
      show ∑ r ∈ Finset.range 4000, term V c j (0 * 4000 + r) * term V c j (0 * 4000 + r)
        = ∑ k ∈ Finset.range ((0 + 1) * 4000), term V c j k * term V c j k
      simp only [Nat.zero_mul, Nat.zero_add, Nat.one_mul]
  | n + 1, h => by
    have hN : cfg0.N = 25 := N_0
    have hB : ¬(⟨n + 1, h⟩ : Fin cfg0.N).val % 25 = 0 := by dsimp only; omega
    have e := outs_B V c ⟨n + 1, h⟩ hB
    obtain ⟨ih1, ih2⟩ := sums_at j n (Nat.lt_of_succ_lt h)
    have hs : (n + 1 + 1) * 4000 = (n + 1) * 4000 + 4000 := by ring
    constructor
    · refine (congrFun (congrArg Prod.fst e) (ix2 0 j)).trans ?_
      refine (pay4_point V c ⟨n + 1, h⟩ _ j).trans ?_
      show (outsAt0 V c n _).1 (ix2 0 j) + ∑ r ∈ Finset.range 4000, term V c j ((n + 1) * 4000 + r) = _
      rw [ih1, hs, Finset.sum_range_add]
    · refine (congrFun (congrArg Prod.snd e) (ix2 0 j)).trans ?_
      refine (pay5_point V c ⟨n + 1, h⟩ _ j).trans ?_
      show (outsAt0 V c n _).2 (ix2 0 j)
        + ∑ r ∈ Finset.range 4000, term V c j ((n + 1) * 4000 + r) * term V c j ((n + 1) * 4000 + r) = _
      rw [ih2, hs, Finset.sum_range_add]

/-- The last point of the grid. -/
theorem h24 : 24 < cfg0.N := by rw [show cfg0.N = 25 from N_0]; decide

/-- The sum over the natural-number rows below 100000 is the sum over the rows of the array. -/
theorem sum_term (j : Fin 64) (f : EReal → EReal) :
    ∑ k ∈ Finset.range 100000, f (term V c j k) = ∑ r : Fin 100000, f (pre V c r j) := by
  rw [← Fin.sum_univ_eq_sum_range (fun k => f (term V c j k)) 100000]
  refine Finset.sum_congr rfl fun r _ => ?_
  unfold term
  rw [dif_pos r.isLt]

/-- Each result's one block is the whole [1,64] array, at every point. -/
theorem out_idx (t : Fin cfg0.N) : (fun a => win0_3.index t a * main_v18_0.ty.shape.size a) = fun _ => 0 :=
  funext fun a => by
    match a with
    | ⟨0, _⟩ => rfl
    | ⟨1, _⟩ => rfl

theorem out_idx' (t : Fin cfg0.N) : (fun a => win0_4.index t a * main_v18_1.ty.shape.size a) = fun _ => 0 :=
  funext fun a => by
    match a with
    | ⟨0, _⟩ => rfl
    | ⟨1, _⟩ => rfl

/-- The one write-back of the sums, after the last point, writes what the accumulator then holds. -/
theorem flushed3_eq (t : Fin cfg0.N) (hf : (cfg0.win 3).flush t = true) :
    (dat0 V c).flushed 3 t = ((cfg0.win 3).blk t).view.read (Elt Ideal) (outsAt0 V c 24 h24).1 := by
  have hN : cfg0.N = 25 := N_0
  have h3 : t.val = 24 := by have := (flush0_3 t).mp hf; have := t.isLt; omega
  obtain rfl : t = ⟨24, h24⟩ := Fin.ext h3
  show (cfg0.win 3).cut (grid0.coords ⟨24, h24⟩) ((dat0 V c).after 3 ⟨24, h24⟩) = _
  rw [after0_3]
  exact (Memref.read_access_unit_zero (Elt Ideal) main_v18_0 (out_idx ⟨24, h24⟩)
    (fun a => by rw [congrFun (out_idx ⟨24, h24⟩) a]; simp) (outsAt0 V c 24 h24).1).symm

theorem flushed4_eq (t : Fin cfg0.N) (hf : (cfg0.win 4).flush t = true) :
    (dat0 V c).flushed 4 t = ((cfg0.win 4).blk t).view.read (Elt Ideal) (outsAt0 V c 24 h24).2 := by
  have hN : cfg0.N = 25 := N_0
  have h3 : t.val = 24 := by have := (flush0_4 t).mp hf; have := t.isLt; omega
  obtain rfl : t = ⟨24, h24⟩ := Fin.ext h3
  show (cfg0.win 4).cut (grid0.coords ⟨24, h24⟩) ((dat0 V c).after 4 ⟨24, h24⟩) = _
  rw [after0_4]
  exact (Memref.read_access_unit_zero (Elt Ideal) main_v18_1 (out_idx' ⟨24, h24⟩)
    (fun a => by rw [congrFun (out_idx' ⟨24, h24⟩) a]; simp) (outsAt0 V c 24 h24).2).symm

/-- So the array of sums ends holding what the accumulator holds after the last point: that point's write-back covers it. -/
theorem final3 : (dat0 V c).arrAt 3 cfg0.N = (outsAt0 V c 24 h24).1 :=
  (dat0 V c).arrAt_eq_of_cover 3 (outsAt0 V c 24 h24).1 (flushed3_eq V c) fun i =>
    ⟨⟨24, h24⟩, (flush0_3 ⟨24, h24⟩).mpr rfl, by
      show i ∈ ((View.whole main_v18_0).slice (win0_3.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

theorem final4 : (dat0 V c).arrAt 4 cfg0.N = (outsAt0 V c 24 h24).2 :=
  (dat0 V c).arrAt_eq_of_cover 4 (outsAt0 V c 24 h24).2 (flushed4_eq V c) fun i =>
    ⟨⟨24, h24⟩, (flush0_4 ⟨24, h24⟩).mpr rfl, by
      show i ∈ ((View.whole main_v18_1).slice (win0_4.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

/-- THE SUMS: after the pass, lane `j` of the first result is the sum over all rows of the input with the bias added. -/
theorem sum_final (j : Fin 64) :
    ((dat0 (F := Ideal) V c).arrAt 3 cfg0.N : S1x64.Idx → EReal) (ix2 0 j) = ∑ r : Fin 100000, pre V c r j := by
  rw [final3 V c, (sums_at V c j 24 h24).1]
  exact sum_term V c j id

/-- THE SUMS OF SQUARES: lane `j` of the second result is the sum over all rows of the square of that term. -/
theorem sumsq_final (j : Fin 64) :
    ((dat0 (F := Ideal) V c).arrAt 4 cfg0.N : S1x64.Idx → EReal) (ix2 0 j)
      = ∑ r : Fin 100000, pre V c r j * pre V c r j := by
  rw [final4 V c, (sums_at V c j 24 h24).2]
  exact sum_term V c j fun x => x * x

end Arrays

end Cert.KernelIdeal.Stats0
-- ==== Proof.Stats2.lean ====
/-
  A later statistics pass, as whole arrays.

  The pass walks the 100000 rows of its input in 25 blocks of 4000 rows.  Each entry is first scaled by its row's
  factor (a [100000,1] column), the bias row is added, and the result is clamped below at zero.  At each block the
  pass adds, lane by lane, the 4000 clamped entries into a [1,64] accumulator, and their squares into a second one;
  the first block starts both accumulators from zero.  The accumulators' block never moves and is written back once,
  after the last block.  So after the pass the first result holds, at lane j, the sum over all 100000 rows of
  max(input · factor + bias, 0), and the second the sum of the squares.  Only associativity and commutativity of the
  extended reals' addition are used: no finiteness is assumed.
-/
import proofs.«109028_j78546361909449_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Stats2

open Cert.KernelIdeal Cert.KernelIdeal.Gen

/-! ## What each case of the body leaves in the two accumulators, for any float values -/

section Pieces
variable {F : FTy → Type} [FloatOps F]

theorem hz : (![0, 0] : Fin 2 → Nat) = fun _ => 0 := funext fun a => by fin_cases a <;> rfl

/-- At a block other than the first, the sum accumulator holding `xo3` is left at the accumulate payload of the
    input block, the factor column's block, the bias row and `xo3`: the body's one store into it covers it, and its
    loads read whole buffers. -/
theorem out_B_3 (c : Dev nD) (i : grid2.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond2_0 i) (x0 : Vec F S4000x64 .f32) (x1 : Vec F S4000x1 .f32) (x2 : Vec F S1x64 .f32)
    (xo3 xo4 : Vec F S1x64 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  rw [View.canon_unit_zero hz]
  simp only [View.readAt_eq_ld, h1.read_unread, h2.read_unread, h3.read_unread, h4.read_unread,
    View.ld_unit_zero (S := S4000x64) hz, View.ld_unit_zero (S := S4000x1) hz, View.ld_unit_zero (S := S1x64) hz]

/-- The same for the accumulator of squares, holding `xo4`. -/
theorem out_B_4 (c : Dev nD) (i : grid2.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond2_0 i) (x0 : Vec F S4000x64 .f32) (x1 : Vec F S4000x1 .f32) (x2 : Vec F S1x64 .f32)
    (xo3 xo4 : Vec F S1x64 .f32) :
    out2_B_4 c i a1 h1 a2 h2 a3 h3 a4 h4 a5 h5 hc x0 x1 x2 xo3 xo4 = k2_pay5 x0 x1 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  rw [View.canon_unit_zero hz]
  simp only [View.readAt_eq_ld, h1.read_unread, h2.read_unread, h3.read_unread, h5.read_unread,
    View.ld_unit_zero (S := S4000x64) hz, View.ld_unit_zero (S := S4000x1) hz, View.ld_unit_zero (S := S1x64) hz]

/-- At the first block the body first stores the zero row into the sum accumulator, reads it back, and leaves the
    accumulate payload of the blocks over that zero row. -/
theorem out_A_3 (c : Dev nD) (i : grid2.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond2_0 i) (x0 : Vec F S4000x64 .f32) (x1 : Vec F S4000x1 .f32) (x2 : Vec F S1x64 .f32) :
    out2_A_3 c i a1 h1 a2 h2 a3 h3 a4 h4 a5 h5 hc x0 x1 x2 = k2_pay4 x0 x1 x2 (k2_pay1 (F := F)) := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S4000x64) hz, View.ld_unit_zero (S := S4000x1) hz, View.ld_unit_zero (S := S1x64) hz]

/-- The same for the accumulator of squares. -/
theorem out_A_4 (c : Dev nD) (i : grid2.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond2_0 i) (x0 : Vec F S4000x64 .f32) (x1 : Vec F S4000x1 .f32) (x2 : Vec F S1x64 .f32) :
    out2_A_4 c i a1 h1 a2 h2 a3 h3 a4 h4 a5 h5 hc x0 x1 x2 = k2_pay5 x0 x1 x2 (k2_pay2 (F := F)) := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S4000x64) hz, View.ld_unit_zero (S := S4000x1) hz, View.ld_unit_zero (S := S1x64) hz]

end Pieces

/-! ## The payloads read at a lane, over the extended reals -/

section Values

/-- A one-column array broadcast along the lanes reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The zero row the first block stores is the extended real zero at every lane. -/
theorem zero1_apply (j : Fin 64) : k2_pay1 (F := Ideal) (ix2 0 j) = 0 := by
  unfold k2_pay1
  show Ideal.ofBits .f32 0x00000000#32 = 0
  exact Ideal.ofBits_zero_f32

theorem zero2_apply (j : Fin 64) : k2_pay2 (F := Ideal) (ix2 0 j) = 0 := by
  unfold k2_pay2
  show Ideal.ofBits .f32 0x00000000#32 = 0
  exact Ideal.ofBits_zero_f32

/-- An entry of the block scaled by its row's factor, with the bias added, clamped below at zero: the factor column
    is broadcast along the lanes and the bias row down the rows. -/
theorem pay3_apply (x0 : Vec Ideal S4000x64 .f32) (x1 : Vec Ideal S4000x1 .f32) (x2 : Vec Ideal S1x64 .f32)
    (r : Fin 4000) (j : Fin 64) :
    k2_pay3 (F := Ideal) x0 x1 x2 (ix2 r j) = max (x0 (ix2 r j) * x1 (ix2 r 0) + x2 (ix2 0 j)) 0 := by
  unfold k2_pay3
  show max (shapeCast S4000x64 x0 shapeCasts_S4000x64_S4000x64 (ix2 r j)
        * broadcastTo S4000x64 (shapeCast S4000x1 x1 shapeCasts_S4000x1_S4000x1) broadcasts_S4000x1_S4000x64 (ix2 r j)
      + broadcastTo S4000x64 (shapeCast S1x64 x2 shapeCasts_S1x64_S1x64) broadcasts_S1x64_S4000x64 (ix2 r j))
    (Ideal.ofBits .f32 0x00000000#32) = _
  refine congrArg₂ max (congrArg₂ (· + ·) (congrArg₂ (· * ·) ?_ ?_) ?_) Ideal.ofBits_zero_f32
  · exact congrFun (shapeCast_self x0 shapeCasts_S4000x64_S4000x64) (ix2 r j)
  · refine (broadcastTo_a1_ab_apply _ broadcasts_S4000x1_S4000x64 r j).trans ?_
    exact congrFun (shapeCast_self x1 shapeCasts_S4000x1_S4000x1) (ix2 r 0)
  · refine (broadcastTo_1b_ab_apply _ broadcasts_S1x64_S4000x64 r j).trans ?_
    exact congrFun (shapeCast_self x2 shapeCasts_S1x64_S1x64) (ix2 0 j)

/-- The reduced index `j` with row `k` put back on the reduced axis is `(k, j)`. -/
theorem lift_eq (j : Fin 64) (k : Fin 4000) : reduces_S4000x64_S64.lift (ix1 j) k = ix2 k j := by
  funext a
  apply Fin.ext
  match a with
  | ⟨0, _⟩ => rfl
  | ⟨1, _⟩ => rfl

/-- The sum down the rows of a 4000×64 block, stored as a [1,64] row, is at lane `j` the sum of the block's column `j`. -/
theorem colsum_apply (v : FVec Ideal S4000x64 .f32) (j : Fin 64) :
    shapeCast S1x64 (multiReduction (F := Ideal) .add [0] S64 v 0x00000000#32 reduces_S4000x64_S64 (.inl rfl) rfl)
        shapeCasts_S64_S1x64 (ix2 0 j)
      = ∑ r : Fin 4000, v (ix2 r j) := by
  refine (shapeCast_a_1a_apply _ shapeCasts_S64_S1x64 0 j).trans ?_
  refine (Ideal.multiReduction_add_single v 0x00000000#32 reduces_S4000x64_S64 (.inl rfl) rfl (ix1 j)).trans ?_
  exact Finset.sum_congr rfl fun k _ => congrArg v (lift_eq j k)

/-- The accumulate payload of the sums at lane `j`: what the accumulator held there plus the column sum of the
    block's clamped entries. -/
theorem pay4_apply (x0 : Vec Ideal S4000x64 .f32) (x1 : Vec Ideal S4000x1 .f32) (x2 xo : Vec Ideal S1x64 .f32) (j : Fin 64) :
    k2_pay4 (F := Ideal) x0 x1 x2 xo (ix2 0 j)
      = xo (ix2 0 j) + ∑ r : Fin 4000, max (x0 (ix2 r j) * x1 (ix2 r 0) + x2 (ix2 0 j)) 0 := by
  unfold k2_pay4
  show shapeCast S1x64 xo shapeCasts_S1x64_S1x64 (ix2 0 j)
      + shapeCast S1x64 (multiReduction (F := Ideal) .add [0] S64 (k2_pay3 x0 x1 x2) 0x00000000#32 reduces_S4000x64_S64 (.inl rfl) rfl)
          shapeCasts_S64_S1x64 (ix2 0 j) = _
  refine (congrArg₂ (· + ·) (congrFun (shapeCast_self xo shapeCasts_S1x64_S1x64) (ix2 0 j))
    (colsum_apply (k2_pay3 x0 x1 x2) j)).trans ?_
  exact congrArg (xo (ix2 0 j) + ·) (Finset.sum_congr rfl fun r _ => pay3_apply x0 x1 x2 r j)

/-- The accumulate payload of the squares at lane `j`. -/
theorem pay5_apply (x0 : Vec Ideal S4000x64 .f32) (x1 : Vec Ideal S4000x1 .f32) (x2 xo : Vec Ideal S1x64 .f32) (j : Fin 64) :
    k2_pay5 (F := Ideal) x0 x1 x2 xo (ix2 0 j)
      = xo (ix2 0 j) + ∑ r : Fin 4000, max (x0 (ix2 r j) * x1 (ix2 r 0) + x2 (ix2 0 j)) 0
          * max (x0 (ix2 r j) * x1 (ix2 r 0) + x2 (ix2 0 j)) 0 := by
  unfold k2_pay5
  show shapeCast S1x64 xo shapeCasts_S1x64_S1x64 (ix2 0 j)
      + shapeCast S1x64 (multiReduction (F := Ideal) .add [0] S64 (mulf (k2_pay3 x0 x1 x2) (k2_pay3 x0 x1 x2)) 0x00000000#32
            reduces_S4000x64_S64 (.inl rfl) rfl)
          shapeCasts_S64_S1x64 (ix2 0 j) = _
  refine (congrArg₂ (· + ·) (congrFun (shapeCast_self xo shapeCasts_S1x64_S1x64) (ix2 0 j))
    (colsum_apply (mulf (k2_pay3 x0 x1 x2) (k2_pay3 x0 x1 x2)) j)).trans ?_
  refine congrArg (xo (ix2 0 j) + ·) (Finset.sum_congr rfl fun r _ => ?_)
  show k2_pay3 x0 x1 x2 (ix2 r j) * k2_pay3 x0 x1 x2 (ix2 r j) = _
  rw [pay3_apply]

end Values

/-! ## From the blocks to the arrays -/

section Arrays

variable (V : (c : Dev nD) → (b : Ref sig .tc) → Buf (Elt Ideal) ((c : Thread nD τ).loc b)) (c : Dev nD)

/-- The [100000,64] input of the pass, as the pass finds it. -/
abbrev arrA : S100000x64.Idx → EReal := V c (Pipeline.arrRef spec2 0)
/-- The [100000,1] column of row factors, as the pass finds it. -/
abbrev arrD : S100000x1.Idx → EReal := V c (Pipeline.arrRef spec2 1)
/-- The [1,64] bias row, as the pass finds it. -/
abbrev arrB : S1x64.Idx → EReal := V c (Pipeline.arrRef spec2 2)

/-- Block `t` of the input and of the factor column, and the bias row's block at point `t`, as the body finds them. -/
abbrev blkA (t : Fin cfg2.N) : S4000x64.Idx → EReal := iblk2 V c 0 t
abbrev blkD (t : Fin cfg2.N) : S4000x1.Idx → EReal := iblk2 V c 1 t
abbrev blkB (t : Fin cfg2.N) : S1x64.Idx → EReal := iblk2 V c 2 t

/-- The term the pass sums: entry `(r, j)` of the input times the factor of row `r`, plus the bias of lane `j`,
    clamped below at zero. -/
def pre (r : Fin 100000) (j : Fin 64) : EReal :=
  max (arrA V c (ix2 r j) * arrD V c (ix2 r 0) + arrB V c (ix2 0 j)) 0

/-- The same term indexed by a natural number row (zero past the last row), so that runs of rows can be added up. -/
def term (j : Fin 64) (k : ℕ) : EReal := if h : k < 100000 then pre V c ⟨k, h⟩ j else 0

/-- Block `t` of the input and of the factor column starts at row `4000·t`; the bias row's one block is the row itself. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Row `r` of block `t` of the input is row `4000·t + r` of the array. -/
theorem blk0_apply (t : Fin cfg2.N) (r : Fin 4000) (j : Fin 64) (h : t.val * 4000 + r.val < 100000) :
    blkA V c t (ix2 r j) = arrA V c (ix2 ⟨t.val * 4000 + r.val, h⟩ j) := by
  unfold blkA iblk2
  rw [View.read_apply]
  show V c (Pipeline.arrRef spec2 0) _ = V c (Pipeline.arrRef spec2 0) _
  congr 1
  funext a
  apply Fin.ext
  match a with
  | ⟨0, _⟩ => show win2_0.index t 0 * 4000 + 1 * r.val = t.val * 4000 + r.val; rw [(idx_facts t).1]; omega
  | ⟨1, _⟩ => show win2_0.index t 1 * 64 + 1 * j.val = j.val; rw [(idx_facts t).2.1]; omega

/-- Row `r` of block `t` of the factor column is row `4000·t + r` of the column. -/
theorem blk1_apply (t : Fin cfg2.N) (r : Fin 4000) (h : t.val * 4000 + r.val < 100000) :
    blkD V c t (ix2 r 0) = arrD V c (ix2 ⟨t.val * 4000 + r.val, h⟩ 0) := by
  unfold blkD iblk2
  rw [View.read_apply]
  show V c (Pipeline.arrRef spec2 1) _ = V c (Pipeline.arrRef spec2 1) _
  congr 1
  funext a
  apply Fin.ext
  match a with
  | ⟨0, _⟩ => show win2_1.index t 0 * 4000 + 1 * r.val = t.val * 4000 + r.val; rw [(idx_facts t).2.2.1]; omega
  | ⟨1, _⟩ => show win2_1.index t 1 * 1 + 1 * 0 = 0; rw [(idx_facts t).2.2.2.1]

/-- The bias row's block at any point is the bias row. -/
theorem blk2_apply (t : Fin cfg2.N) (j : Fin 64) :
    blkB V c t (ix2 0 j) = arrB V c (ix2 0 j) := by
  unfold blkB iblk2
  rw [View.read_apply]
  show V c (Pipeline.arrRef spec2 2) _ = V c (Pipeline.arrRef spec2 2) _
  congr 1
  funext a
  apply Fin.ext
  match a with
  | ⟨0, _⟩ => show win2_2.index t 0 * 1 + 1 * 0 = 0; rw [(idx_facts t).2.2.2.2.1]
  | ⟨1, _⟩ => show win2_2.index t 1 * 64 + 1 * j.val = j.val; rw [(idx_facts t).2.2.2.2.2]; omega

/-- So a clamped entry of block `t` is the term of row `4000·t + r`. -/
theorem point_term (t : Fin cfg2.N) (r : Fin 4000) (j : Fin 64) :
    max (blkA V c t (ix2 r j) * blkD V c t (ix2 r 0) + blkB V c t (ix2 0 j)) 0 = term V c j (t.val * 4000 + r.val) := by
  have hN : t.val < 25 := lt_of_lt_of_eq t.isLt (show cfg2.N = 25 from N_2)
  have h : t.val * 4000 + r.val < 100000 := by have := r.isLt; omega
  unfold term
  rw [dif_pos h, blk0_apply V c t r j h, blk1_apply V c t r h, blk2_apply V c t j]
  rfl

/-- What the body adds to the sum accumulator at point `t`: the terms of the 4000 rows from `4000·t` on. -/
theorem pay4_point (t : Fin cfg2.N) (acc : Vec Ideal S1x64 .f32) (j : Fin 64) :
    k2_pay4 (F := Ideal) (iblk2 V c 0 t) (iblk2 V c 1 t) (iblk2 V c 2 t) acc (ix2 0 j)
      = acc (ix2 0 j) + ∑ r ∈ Finset.range 4000, term V c j (t.val * 4000 + r) := by
  refine (pay4_apply (blkA V c t) (blkD V c t) (blkB V c t) acc j).trans ?_
  refine congrArg (acc (ix2 0 j) + ·) ?_
  refine (Finset.sum_congr rfl fun r _ => point_term V c t r j).trans ?_
  exact Fin.sum_univ_eq_sum_range (fun r => term V c j (t.val * 4000 + r)) 4000

/-- and to the accumulator of squares: their squares. -/
theorem pay5_point (t : Fin cfg2.N) (acc : Vec Ideal S1x64 .f32) (j : Fin 64) :
    k2_pay5 (F := Ideal) (iblk2 V c 0 t) (iblk2 V c 1 t) (iblk2 V c 2 t) acc (ix2 0 j)
      = acc (ix2 0 j) + ∑ r ∈ Finset.range 4000, term V c j (t.val * 4000 + r) * term V c j (t.val * 4000 + r) := by
  refine (pay5_apply (blkA V c t) (blkD V c t) (blkB V c t) acc j).trans ?_
  refine congrArg (acc (ix2 0 j) + ·) ?_
  refine (Finset.sum_congr rfl fun r _ => by rw [point_term V c t r j]).trans ?_
  exact Fin.sum_univ_eq_sum_range (fun r => term V c j (t.val * 4000 + r) * term V c j (t.val * 4000 + r)) 4000

/-- The two accumulators after the first point, as payloads of its blocks over the zero rows. -/
theorem outs_A (t : Fin cfg2.N) (h0 : t.val % 25 = 0) :
    outsAt2 V c t.val t.isLt
      = (k2_pay4 (iblk2 V c 0 t) (iblk2 V c 1 t) (iblk2 V c 2 t) (k2_pay1 (F := Ideal)),
         k2_pay5 (iblk2 V c 0 t) (iblk2 V c 1 t) (iblk2 V c 2 t) (k2_pay2 (F := Ideal))) := by
  rw [outsAt2_A V c t h0]
  exact congrArg₂ Prod.mk
    (out_A_3 c (grid2.coords t) (ms2_0 t) (hs2_0 t) (ms2_1 t) (hs2_1 t) (ms2_2 t) (hs2_2 t) (ms2_3 t) (hs2_3 t) (ms2_4 t) (hs2_4 t)
      ((hcond2_0 t).mpr h0) (iblk2 V c 0 t) (iblk2 V c 1 t) (iblk2 V c 2 t))
    (out_A_4 c (grid2.coords t) (ms2_0 t) (hs2_0 t) (ms2_1 t) (hs2_1 t) (ms2_2 t) (hs2_2 t) (ms2_3 t) (hs2_3 t) (ms2_4 t) (hs2_4 t)
      ((hcond2_0 t).mpr h0) (iblk2 V c 0 t) (iblk2 V c 1 t) (iblk2 V c 2 t))

/-- The two accumulators after a later point, as payloads of its blocks over what the point before left. -/
theorem outs_B (t : Fin cfg2.N) (h0 : ¬t.val % 25 = 0) :
    outsAt2 V c t.val t.isLt
      = (k2_pay4 (iblk2 V c 0 t) (iblk2 V c 1 t) (iblk2 V c 2 t) (outsAt2 V c (t.val - 1) (Nat.lt_of_le_of_lt (Nat.sub_le _ _) t.isLt)).1,
         k2_pay5 (iblk2 V c 0 t) (iblk2 V c 1 t) (iblk2 V c 2 t) (outsAt2 V c (t.val - 1) (Nat.lt_of_le_of_lt (Nat.sub_le _ _) t.isLt)).2) := by
  rw [outsAt2_B V c t h0]
  exact congrArg₂ Prod.mk
    (out_B_3 c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) (iblk2 V c 0 t) (iblk2 V c 1 t) (iblk2 V c 2 t)
      (outsAt2 V c (t.val - 1) (Nat.lt_of_le_of_lt (Nat.sub_le _ _) t.isLt)).1
      (outsAt2 V c (t.val - 1) (Nat.lt_of_le_of_lt (Nat.sub_le _ _) t.isLt)).2)
    (out_B_4 c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) (iblk2 V c 0 t) (iblk2 V c 1 t) (iblk2 V c 2 t)
      (outsAt2 V c (t.val - 1) (Nat.lt_of_le_of_lt (Nat.sub_le _ _) t.isLt)).1
      (outsAt2 V c (t.val - 1) (Nat.lt_of_le_of_lt (Nat.sub_le _ _) t.isLt)).2)

/-- After point `n` the accumulators hold, at lane `j`, the sum of the terms (of their squares) of the first
    `4000·(n+1)` rows: by induction on the point, each point adding its run of 4000 rows. -/
theorem sums_at (j : Fin 64) : ∀ (n : ℕ) (h : n < cfg2.N),
    (outsAt2 V c n h).1 (ix2 0 j) = ∑ k ∈ Finset.range ((n + 1) * 4000), term V c j k
    ∧ (outsAt2 V c n h).2 (ix2 0 j) = ∑ k ∈ Finset.range ((n + 1) * 4000), term V c j k * term V c j k
  | 0, h => by
    have e := outs_A V c ⟨0, h⟩ rfl
    constructor
    · refine (congrFun (congrArg Prod.fst e) (ix2 0 j)).trans ?_
      refine (pay4_point V c ⟨0, h⟩ _ j).trans ?_
      rw [zero1_apply, zero_add]
      show ∑ r ∈ Finset.range 4000, term V c j (0 * 4000 + r) = ∑ k ∈ Finset.range ((0 + 1) * 4000), term V c j k
      simp only [Nat.zero_mul, Nat.zero_add, Nat.one_mul]
    · refine (congrFun (congrArg Prod.snd e) (ix2 0 j)).trans ?_
      refine (pay5_point V c ⟨0, h⟩ _ j).trans ?_
      rw [zero2_apply, zero_add]
      show ∑ r ∈ Finset.range 4000, term V c j (0 * 4000 + r) * term V c j (0 * 4000 + r)
        = ∑ k ∈ Finset.range ((0 + 1) * 4000), term V c j k * term V c j k
      simp only [Nat.zero_mul, Nat.zero_add, Nat.one_mul]
  | n + 1, h => by
    have hN : cfg2.N = 25 := N_2
    have hB : ¬(⟨n + 1, h⟩ : Fin cfg2.N).val % 25 = 0 := by dsimp only; omega
    have e := outs_B V c ⟨n + 1, h⟩ hB
    obtain ⟨ih1, ih2⟩ := sums_at j n (Nat.lt_of_succ_lt h)
    have hs : (n + 1 + 1) * 4000 = (n + 1) * 4000 + 4000 := by ring
    constructor
    · refine (congrFun (congrArg Prod.fst e) (ix2 0 j)).trans ?_
      refine (pay4_point V c ⟨n + 1, h⟩ _ j).trans ?_
      show (outsAt2 V c n _).1 (ix2 0 j) + ∑ r ∈ Finset.range 4000, term V c j ((n + 1) * 4000 + r) = _
      rw [ih1, hs, Finset.sum_range_add]
    · refine (congrFun (congrArg Prod.snd e) (ix2 0 j)).trans ?_
      refine (pay5_point V c ⟨n + 1, h⟩ _ j).trans ?_
      show (outsAt2 V c n _).2 (ix2 0 j)
        + ∑ r ∈ Finset.range 4000, term V c j ((n + 1) * 4000 + r) * term V c j ((n + 1) * 4000 + r) = _
      rw [ih2, hs, Finset.sum_range_add]

/-- The last point of the grid. -/
theorem h24 : 24 < cfg2.N := by rw [show cfg2.N = 25 from N_2]; decide

/-- The sum over the natural-number rows below 100000 is the sum over the rows of the array. -/
theorem sum_term (j : Fin 64) (f : EReal → EReal) :
    ∑ k ∈ Finset.range 100000, f (term V c j k) = ∑ r : Fin 100000, f (pre V c r j) := by
  rw [← Fin.sum_univ_eq_sum_range (fun k => f (term V c j k)) 100000]
  refine Finset.sum_congr rfl fun r _ => ?_
  unfold term
  rw [dif_pos r.isLt]

/-- Each result's one block is the whole [1,64] array, at every point. -/
theorem out_idx (t : Fin cfg2.N) : (fun a => win2_3.index t a * main_v46_0.ty.shape.size a) = fun _ => 0 :=
  funext fun a => by
    match a with
    | ⟨0, _⟩ => rfl
    | ⟨1, _⟩ => rfl

theorem out_idx' (t : Fin cfg2.N) : (fun a => win2_4.index t a * main_v46_1.ty.shape.size a) = fun _ => 0 :=
  funext fun a => by
    match a with
    | ⟨0, _⟩ => rfl
    | ⟨1, _⟩ => rfl

/-- The one write-back of the sums, after the last point, writes what the accumulator then holds. -/
theorem flushed3_eq (t : Fin cfg2.N) (hf : (cfg2.win 3).flush t = true) :
    (dat2 V c).flushed 3 t = ((cfg2.win 3).blk t).view.read (Elt Ideal) (outsAt2 V c 24 h24).1 := by
  have hN : cfg2.N = 25 := N_2
  have h3 : t.val = 24 := by have := (flush2_3 t).mp hf; have := t.isLt; omega
  obtain rfl : t = ⟨24, h24⟩ := Fin.ext h3
  show (cfg2.win 3).cut (grid2.coords ⟨24, h24⟩) ((dat2 V c).after 3 ⟨24, h24⟩) = _
  rw [after2_3]
  exact (Memref.read_access_unit_zero (Elt Ideal) main_v46_0 (out_idx ⟨24, h24⟩)
    (fun a => by rw [congrFun (out_idx ⟨24, h24⟩) a]; simp) (outsAt2 V c 24 h24).1).symm

theorem flushed4_eq (t : Fin cfg2.N) (hf : (cfg2.win 4).flush t = true) :
    (dat2 V c).flushed 4 t = ((cfg2.win 4).blk t).view.read (Elt Ideal) (outsAt2 V c 24 h24).2 := by
  have hN : cfg2.N = 25 := N_2
  have h3 : t.val = 24 := by have := (flush2_4 t).mp hf; have := t.isLt; omega
  obtain rfl : t = ⟨24, h24⟩ := Fin.ext h3
  show (cfg2.win 4).cut (grid2.coords ⟨24, h24⟩) ((dat2 V c).after 4 ⟨24, h24⟩) = _
  rw [after2_4]
  exact (Memref.read_access_unit_zero (Elt Ideal) main_v46_1 (out_idx' ⟨24, h24⟩)
    (fun a => by rw [congrFun (out_idx' ⟨24, h24⟩) a]; simp) (outsAt2 V c 24 h24).2).symm

/-- So the array of sums ends holding what the accumulator holds after the last point: that point's write-back covers it. -/
theorem final3 : (dat2 V c).arrAt 3 cfg2.N = (outsAt2 V c 24 h24).1 :=
  (dat2 V c).arrAt_eq_of_cover 3 (outsAt2 V c 24 h24).1 (flushed3_eq V c) fun i =>
    ⟨⟨24, h24⟩, (flush2_3 ⟨24, h24⟩).mpr rfl, by
      show i ∈ ((View.whole main_v46_0).slice (win2_3.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

theorem final4 : (dat2 V c).arrAt 4 cfg2.N = (outsAt2 V c 24 h24).2 :=
  (dat2 V c).arrAt_eq_of_cover 4 (outsAt2 V c 24 h24).2 (flushed4_eq V c) fun i =>
    ⟨⟨24, h24⟩, (flush2_4 ⟨24, h24⟩).mpr rfl, by
      show i ∈ ((View.whole main_v46_1).slice (win2_4.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

/-- THE SUMS: after the pass, lane `j` of the first result is the sum over all rows of the clamped term. -/
theorem sum_final (j : Fin 64) :
    ((dat2 (F := Ideal) V c).arrAt 3 cfg2.N : S1x64.Idx → EReal) (ix2 0 j) = ∑ r : Fin 100000, pre V c r j := by
  rw [final3 V c, (sums_at V c j 24 h24).1]
  exact sum_term V c j id

/-- THE SUMS OF SQUARES: lane `j` of the second result is the sum over all rows of the square of that term. -/
theorem sumsq_final (j : Fin 64) :
    ((dat2 (F := Ideal) V c).arrAt 4 cfg2.N : S1x64.Idx → EReal) (ix2 0 j)
      = ∑ r : Fin 100000, pre V c r j * pre V c r j := by
  rw [final4 V c, (sums_at V c j 24 h24).2]
  exact sum_term V c j fun x => x * x

end Arrays

end Cert.KernelIdeal.Stats2
-- ==== Proof.Stats4.lean ====
/-
  A later statistics pass, as whole arrays.

  The pass walks the 100000 rows of its input in 25 blocks of 4000 rows.  Each entry is first scaled by its row's
  factor (a [100000,1] column), the bias row is added, and the result is clamped below at zero.  At each block the
  pass adds, lane by lane, the 4000 clamped entries into a [1,64] accumulator, and their squares into a second one;
  the first block starts both accumulators from zero.  The accumulators' block never moves and is written back once,
  after the last block.  So after the pass the first result holds, at lane j, the sum over all 100000 rows of
  max(input · factor + bias, 0), and the second the sum of the squares.  Only associativity and commutativity of the
  extended reals' addition are used: no finiteness is assumed.
-/
import proofs.«109028_j78546361909449_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Stats4

open Cert.KernelIdeal Cert.KernelIdeal.Gen

/-! ## What each case of the body leaves in the two accumulators, for any float values -/

section Pieces
variable {F : FTy → Type} [FloatOps F]

theorem hz : (![0, 0] : Fin 2 → Nat) = fun _ => 0 := funext fun a => by fin_cases a <;> rfl

/-- At a block other than the first, the sum accumulator holding `xo3` is left at the accumulate payload of the
    input block, the factor column's block, the bias row and `xo3`: the body's one store into it covers it, and its
    loads read whole buffers. -/
theorem out_B_3 (c : Dev nD) (i : grid4.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S4000x64 .f32) (x1 : Vec F S4000x1 .f32) (x2 : Vec F S1x64 .f32)
    (xo3 xo4 : Vec F S1x64 .f32) :
    out4_B_3 c i a1 h1 a2 h2 a3 h3 a4 h4 a5 h5 hc x0 x1 x2 xo3 xo4 = k4_pay4 x0 x1 x2 xo3 := by
  unfold out4_B_3
  rw [View.read_writes_eq_canon _ _ _ (cover4_B_3 c i a1 h1 a2 h2 a3 h3 a4 h4 a5 h5 hc x0 x1 x2 xo3 xo4)]
  unfold kernelRun4_B
  dsimp only
  rw [View.canon_unit_zero hz]
  simp only [View.readAt_eq_ld, h1.read_unread, h2.read_unread, h3.read_unread, h4.read_unread,
    View.ld_unit_zero (S := S4000x64) hz, View.ld_unit_zero (S := S4000x1) hz, View.ld_unit_zero (S := S1x64) hz]

/-- The same for the accumulator of squares, holding `xo4`. -/
theorem out_B_4 (c : Dev nD) (i : grid4.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S4000x64 .f32) (x1 : Vec F S4000x1 .f32) (x2 : Vec F S1x64 .f32)
    (xo3 xo4 : Vec F S1x64 .f32) :
    out4_B_4 c i a1 h1 a2 h2 a3 h3 a4 h4 a5 h5 hc x0 x1 x2 xo3 xo4 = k4_pay5 x0 x1 x2 xo4 := by
  unfold out4_B_4
  rw [View.read_writes_eq_canon _ _ _ (cover4_B_4 c i a1 h1 a2 h2 a3 h3 a4 h4 a5 h5 hc x0 x1 x2 xo3 xo4)]
  unfold kernelRun4_B
  dsimp only
  rw [View.canon_unit_zero hz]
  simp only [View.readAt_eq_ld, h1.read_unread, h2.read_unread, h3.read_unread, h5.read_unread,
    View.ld_unit_zero (S := S4000x64) hz, View.ld_unit_zero (S := S4000x1) hz, View.ld_unit_zero (S := S1x64) hz]

/-- At the first block the body first stores the zero row into the sum accumulator, reads it back, and leaves the
    accumulate payload of the blocks over that zero row. -/
theorem out_A_3 (c : Dev nD) (i : grid4.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S4000x64 .f32) (x1 : Vec F S4000x1 .f32) (x2 : Vec F S1x64 .f32) :
    out4_A_3 c i a1 h1 a2 h2 a3 h3 a4 h4 a5 h5 hc x0 x1 x2 = k4_pay4 x0 x1 x2 (k4_pay1 (F := F)) := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S4000x64) hz, View.ld_unit_zero (S := S4000x1) hz, View.ld_unit_zero (S := S1x64) hz]

/-- The same for the accumulator of squares. -/
theorem out_A_4 (c : Dev nD) (i : grid4.Coords) (a1 : Memref sig .tc .vmem S4000x64 .f32) (h1 : a1.IsWhole)
    (a2 : Memref sig .tc .vmem S4000x1 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S4000x64 .f32) (x1 : Vec F S4000x1 .f32) (x2 : Vec F S1x64 .f32) :
    out4_A_4 c i a1 h1 a2 h2 a3 h3 a4 h4 a5 h5 hc x0 x1 x2 = k4_pay5 x0 x1 x2 (k4_pay2 (F := F)) := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S4000x64) hz, View.ld_unit_zero (S := S4000x1) hz, View.ld_unit_zero (S := S1x64) hz]

end Pieces

/-! ## The payloads read at a lane, over the extended reals -/

section Values

/-- A one-column array broadcast along the lanes reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The zero row the first block stores is the extended real zero at every lane. -/
theorem zero1_apply (j : Fin 64) : k4_pay1 (F := Ideal) (ix2 0 j) = 0 := by
  unfold k4_pay1
  show Ideal.ofBits .f32 0x00000000#32 = 0
  exact Ideal.ofBits_zero_f32

theorem zero2_apply (j : Fin 64) : k4_pay2 (F := Ideal) (ix2 0 j) = 0 := by
  unfold k4_pay2
  show Ideal.ofBits .f32 0x00000000#32 = 0
  exact Ideal.ofBits_zero_f32

/-- An entry of the block scaled by its row's factor, with the bias added, clamped below at zero: the factor column
    is broadcast along the lanes and the bias row down the rows. -/
theorem pay3_apply (x0 : Vec Ideal S4000x64 .f32) (x1 : Vec Ideal S4000x1 .f32) (x2 : Vec Ideal S1x64 .f32)
    (r : Fin 4000) (j : Fin 64) :
    k4_pay3 (F := Ideal) x0 x1 x2 (ix2 r j) = max (x0 (ix2 r j) * x1 (ix2 r 0) + x2 (ix2 0 j)) 0 := by
  unfold k4_pay3
  show max (shapeCast S4000x64 x0 shapeCasts_S4000x64_S4000x64 (ix2 r j)
        * broadcastTo S4000x64 (shapeCast S4000x1 x1 shapeCasts_S4000x1_S4000x1) broadcasts_S4000x1_S4000x64 (ix2 r j)
      + broadcastTo S4000x64 (shapeCast S1x64 x2 shapeCasts_S1x64_S1x64) broadcasts_S1x64_S4000x64 (ix2 r j))
    (Ideal.ofBits .f32 0x00000000#32) = _
  refine congrArg₂ max (congrArg₂ (· + ·) (congrArg₂ (· * ·) ?_ ?_) ?_) Ideal.ofBits_zero_f32
  · exact congrFun (shapeCast_self x0 shapeCasts_S4000x64_S4000x64) (ix2 r j)
  · refine (broadcastTo_a1_ab_apply _ broadcasts_S4000x1_S4000x64 r j).trans ?_
    exact congrFun (shapeCast_self x1 shapeCasts_S4000x1_S4000x1) (ix2 r 0)
  · refine (broadcastTo_1b_ab_apply _ broadcasts_S1x64_S4000x64 r j).trans ?_
    exact congrFun (shapeCast_self x2 shapeCasts_S1x64_S1x64) (ix2 0 j)

/-- The reduced index `j` with row `k` put back on the reduced axis is `(k, j)`. -/
theorem lift_eq (j : Fin 64) (k : Fin 4000) : reduces_S4000x64_S64.lift (ix1 j) k = ix2 k j := by
  funext a
  apply Fin.ext
  match a with
  | ⟨0, _⟩ => rfl
  | ⟨1, _⟩ => rfl

/-- The sum down the rows of a 4000×64 block, stored as a [1,64] row, is at lane `j` the sum of the block's column `j`. -/
theorem colsum_apply (v : FVec Ideal S4000x64 .f32) (j : Fin 64) :
    shapeCast S1x64 (multiReduction (F := Ideal) .add [0] S64 v 0x00000000#32 reduces_S4000x64_S64 (.inl rfl) rfl)
        shapeCasts_S64_S1x64 (ix2 0 j)
      = ∑ r : Fin 4000, v (ix2 r j) := by
  refine (shapeCast_a_1a_apply _ shapeCasts_S64_S1x64 0 j).trans ?_
  refine (Ideal.multiReduction_add_single v 0x00000000#32 reduces_S4000x64_S64 (.inl rfl) rfl (ix1 j)).trans ?_
  exact Finset.sum_congr rfl fun k _ => congrArg v (lift_eq j k)

/-- The accumulate payload of the sums at lane `j`: what the accumulator held there plus the column sum of the
    block's clamped entries. -/
theorem pay4_apply (x0 : Vec Ideal S4000x64 .f32) (x1 : Vec Ideal S4000x1 .f32) (x2 xo : Vec Ideal S1x64 .f32) (j : Fin 64) :
    k4_pay4 (F := Ideal) x0 x1 x2 xo (ix2 0 j)
      = xo (ix2 0 j) + ∑ r : Fin 4000, max (x0 (ix2 r j) * x1 (ix2 r 0) + x2 (ix2 0 j)) 0 := by
  unfold k4_pay4
  show shapeCast S1x64 xo shapeCasts_S1x64_S1x64 (ix2 0 j)
      + shapeCast S1x64 (multiReduction (F := Ideal) .add [0] S64 (k4_pay3 x0 x1 x2) 0x00000000#32 reduces_S4000x64_S64 (.inl rfl) rfl)
          shapeCasts_S64_S1x64 (ix2 0 j) = _
  refine (congrArg₂ (· + ·) (congrFun (shapeCast_self xo shapeCasts_S1x64_S1x64) (ix2 0 j))
    (colsum_apply (k4_pay3 x0 x1 x2) j)).trans ?_
  exact congrArg (xo (ix2 0 j) + ·) (Finset.sum_congr rfl fun r _ => pay3_apply x0 x1 x2 r j)

/-- The accumulate payload of the squares at lane `j`. -/
theorem pay5_apply (x0 : Vec Ideal S4000x64 .f32) (x1 : Vec Ideal S4000x1 .f32) (x2 xo : Vec Ideal S1x64 .f32) (j : Fin 64) :
    k4_pay5 (F := Ideal) x0 x1 x2 xo (ix2 0 j)
      = xo (ix2 0 j) + ∑ r : Fin 4000, max (x0 (ix2 r j) * x1 (ix2 r 0) + x2 (ix2 0 j)) 0
          * max (x0 (ix2 r j) * x1 (ix2 r 0) + x2 (ix2 0 j)) 0 := by
  unfold k4_pay5
  show shapeCast S1x64 xo shapeCasts_S1x64_S1x64 (ix2 0 j)
      + shapeCast S1x64 (multiReduction (F := Ideal) .add [0] S64 (mulf (k4_pay3 x0 x1 x2) (k4_pay3 x0 x1 x2)) 0x00000000#32
            reduces_S4000x64_S64 (.inl rfl) rfl)
          shapeCasts_S64_S1x64 (ix2 0 j) = _
  refine (congrArg₂ (· + ·) (congrFun (shapeCast_self xo shapeCasts_S1x64_S1x64) (ix2 0 j))
    (colsum_apply (mulf (k4_pay3 x0 x1 x2) (k4_pay3 x0 x1 x2)) j)).trans ?_
  refine congrArg (xo (ix2 0 j) + ·) (Finset.sum_congr rfl fun r _ => ?_)
  show k4_pay3 x0 x1 x2 (ix2 r j) * k4_pay3 x0 x1 x2 (ix2 r j) = _
  rw [pay3_apply]

end Values

/-! ## From the blocks to the arrays -/

section Arrays

variable (V : (c : Dev nD) → (b : Ref sig .tc) → Buf (Elt Ideal) ((c : Thread nD τ).loc b)) (c : Dev nD)

/-- The [100000,64] input of the pass, as the pass finds it. -/
abbrev arrA : S100000x64.Idx → EReal := V c (Pipeline.arrRef spec4 0)
/-- The [100000,1] column of row factors, as the pass finds it. -/
abbrev arrD : S100000x1.Idx → EReal := V c (Pipeline.arrRef spec4 1)
/-- The [1,64] bias row, as the pass finds it. -/
abbrev arrB : S1x64.Idx → EReal := V c (Pipeline.arrRef spec4 2)

/-- Block `t` of the input and of the factor column, and the bias row's block at point `t`, as the body finds them. -/
abbrev blkA (t : Fin cfg4.N) : S4000x64.Idx → EReal := iblk4 V c 0 t
abbrev blkD (t : Fin cfg4.N) : S4000x1.Idx → EReal := iblk4 V c 1 t
abbrev blkB (t : Fin cfg4.N) : S1x64.Idx → EReal := iblk4 V c 2 t

/-- The term the pass sums: entry `(r, j)` of the input times the factor of row `r`, plus the bias of lane `j`,
    clamped below at zero. -/
def pre (r : Fin 100000) (j : Fin 64) : EReal :=
  max (arrA V c (ix2 r j) * arrD V c (ix2 r 0) + arrB V c (ix2 0 j)) 0

/-- The same term indexed by a natural number row (zero past the last row), so that runs of rows can be added up. -/
def term (j : Fin 64) (k : ℕ) : EReal := if h : k < 100000 then pre V c ⟨k, h⟩ j else 0

/-- Block `t` of the input and of the factor column starts at row `4000·t`; the bias row's one block is the row itself. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row `r` of block `t` of the input is row `4000·t + r` of the array. -/
theorem blk0_apply (t : Fin cfg4.N) (r : Fin 4000) (j : Fin 64) (h : t.val * 4000 + r.val < 100000) :
    blkA V c t (ix2 r j) = arrA V c (ix2 ⟨t.val * 4000 + r.val, h⟩ j) := by
  unfold blkA iblk4
  rw [View.read_apply]
  show V c (Pipeline.arrRef spec4 0) _ = V c (Pipeline.arrRef spec4 0) _
  congr 1
  funext a
  apply Fin.ext
  match a with
  | ⟨0, _⟩ => show win4_0.index t 0 * 4000 + 1 * r.val = t.val * 4000 + r.val; rw [(idx_facts t).1]; omega
  | ⟨1, _⟩ => show win4_0.index t 1 * 64 + 1 * j.val = j.val; rw [(idx_facts t).2.1]; omega

/-- Row `r` of block `t` of the factor column is row `4000·t + r` of the column. -/
theorem blk1_apply (t : Fin cfg4.N) (r : Fin 4000) (h : t.val * 4000 + r.val < 100000) :
    blkD V c t (ix2 r 0) = arrD V c (ix2 ⟨t.val * 4000 + r.val, h⟩ 0) := by
  unfold blkD iblk4
  rw [View.read_apply]
  show V c (Pipeline.arrRef spec4 1) _ = V c (Pipeline.arrRef spec4 1) _
  congr 1
  funext a
  apply Fin.ext
  match a with
  | ⟨0, _⟩ => show win4_1.index t 0 * 4000 + 1 * r.val = t.val * 4000 + r.val; rw [(idx_facts t).2.2.1]; omega
  | ⟨1, _⟩ => show win4_1.index t 1 * 1 + 1 * 0 = 0; rw [(idx_facts t).2.2.2.1]

/-- The bias row's block at any point is the bias row. -/
theorem blk2_apply (t : Fin cfg4.N) (j : Fin 64) :
    blkB V c t (ix2 0 j) = arrB V c (ix2 0 j) := by
  unfold blkB iblk4
  rw [View.read_apply]
  show V c (Pipeline.arrRef spec4 2) _ = V c (Pipeline.arrRef spec4 2) _
  congr 1
  funext a
  apply Fin.ext
  match a with
  | ⟨0, _⟩ => show win4_2.index t 0 * 1 + 1 * 0 = 0; rw [(idx_facts t).2.2.2.2.1]
  | ⟨1, _⟩ => show win4_2.index t 1 * 64 + 1 * j.val = j.val; rw [(idx_facts t).2.2.2.2.2]; omega

/-- So a clamped entry of block `t` is the term of row `4000·t + r`. -/
theorem point_term (t : Fin cfg4.N) (r : Fin 4000) (j : Fin 64) :
    max (blkA V c t (ix2 r j) * blkD V c t (ix2 r 0) + blkB V c t (ix2 0 j)) 0 = term V c j (t.val * 4000 + r.val) := by
  have hN : t.val < 25 := lt_of_lt_of_eq t.isLt (show cfg4.N = 25 from N_4)
  have h : t.val * 4000 + r.val < 100000 := by have := r.isLt; omega
  unfold term
  rw [dif_pos h, blk0_apply V c t r j h, blk1_apply V c t r h, blk2_apply V c t j]
  rfl

/-- What the body adds to the sum accumulator at point `t`: the terms of the 4000 rows from `4000·t` on. -/
theorem pay4_point (t : Fin cfg4.N) (acc : Vec Ideal S1x64 .f32) (j : Fin 64) :
    k4_pay4 (F := Ideal) (iblk4 V c 0 t) (iblk4 V c 1 t) (iblk4 V c 2 t) acc (ix2 0 j)
      = acc (ix2 0 j) + ∑ r ∈ Finset.range 4000, term V c j (t.val * 4000 + r) := by
  refine (pay4_apply (blkA V c t) (blkD V c t) (blkB V c t) acc j).trans ?_
  refine congrArg (acc (ix2 0 j) + ·) ?_
  refine (Finset.sum_congr rfl fun r _ => point_term V c t r j).trans ?_
  exact Fin.sum_univ_eq_sum_range (fun r => term V c j (t.val * 4000 + r)) 4000

/-- and to the accumulator of squares: their squares. -/
theorem pay5_point (t : Fin cfg4.N) (acc : Vec Ideal S1x64 .f32) (j : Fin 64) :
    k4_pay5 (F := Ideal) (iblk4 V c 0 t) (iblk4 V c 1 t) (iblk4 V c 2 t) acc (ix2 0 j)
      = acc (ix2 0 j) + ∑ r ∈ Finset.range 4000, term V c j (t.val * 4000 + r) * term V c j (t.val * 4000 + r) := by
  refine (pay5_apply (blkA V c t) (blkD V c t) (blkB V c t) acc j).trans ?_
  refine congrArg (acc (ix2 0 j) + ·) ?_
  refine (Finset.sum_congr rfl fun r _ => by rw [point_term V c t r j]).trans ?_
  exact Fin.sum_univ_eq_sum_range (fun r => term V c j (t.val * 4000 + r) * term V c j (t.val * 4000 + r)) 4000

/-- The two accumulators after the first point, as payloads of its blocks over the zero rows. -/
theorem outs_A (t : Fin cfg4.N) (h0 : t.val % 25 = 0) :
    outsAt4 V c t.val t.isLt
      = (k4_pay4 (iblk4 V c 0 t) (iblk4 V c 1 t) (iblk4 V c 2 t) (k4_pay1 (F := Ideal)),
         k4_pay5 (iblk4 V c 0 t) (iblk4 V c 1 t) (iblk4 V c 2 t) (k4_pay2 (F := Ideal))) := by
  rw [outsAt4_A V c t h0]
  exact congrArg₂ Prod.mk
    (out_A_3 c (grid4.coords t) (ms4_0 t) (hs4_0 t) (ms4_1 t) (hs4_1 t) (ms4_2 t) (hs4_2 t) (ms4_3 t) (hs4_3 t) (ms4_4 t) (hs4_4 t)
      ((hcond4_0 t).mpr h0) (iblk4 V c 0 t) (iblk4 V c 1 t) (iblk4 V c 2 t))
    (out_A_4 c (grid4.coords t) (ms4_0 t) (hs4_0 t) (ms4_1 t) (hs4_1 t) (ms4_2 t) (hs4_2 t) (ms4_3 t) (hs4_3 t) (ms4_4 t) (hs4_4 t)
      ((hcond4_0 t).mpr h0) (iblk4 V c 0 t) (iblk4 V c 1 t) (iblk4 V c 2 t))

/-- The two accumulators after a later point, as payloads of its blocks over what the point before left. -/
theorem outs_B (t : Fin cfg4.N) (h0 : ¬t.val % 25 = 0) :
    outsAt4 V c t.val t.isLt
      = (k4_pay4 (iblk4 V c 0 t) (iblk4 V c 1 t) (iblk4 V c 2 t) (outsAt4 V c (t.val - 1) (Nat.lt_of_le_of_lt (Nat.sub_le _ _) t.isLt)).1,
         k4_pay5 (iblk4 V c 0 t) (iblk4 V c 1 t) (iblk4 V c 2 t) (outsAt4 V c (t.val - 1) (Nat.lt_of_le_of_lt (Nat.sub_le _ _) t.isLt)).2) := by
  rw [outsAt4_B V c t h0]
  exact congrArg₂ Prod.mk
    (out_B_3 c (grid4.coords t) (ms4_0 t) (hs4_0 t) (ms4_1 t) (hs4_1 t) (ms4_2 t) (hs4_2 t) (ms4_3 t) (hs4_3 t) (ms4_4 t) (hs4_4 t)
      (fun h => h0 ((hcond4_0 t).mp h)) (iblk4 V c 0 t) (iblk4 V c 1 t) (iblk4 V c 2 t)
      (outsAt4 V c (t.val - 1) (Nat.lt_of_le_of_lt (Nat.sub_le _ _) t.isLt)).1
      (outsAt4 V c (t.val - 1) (Nat.lt_of_le_of_lt (Nat.sub_le _ _) t.isLt)).2)
    (out_B_4 c (grid4.coords t) (ms4_0 t) (hs4_0 t) (ms4_1 t) (hs4_1 t) (ms4_2 t) (hs4_2 t) (ms4_3 t) (hs4_3 t) (ms4_4 t) (hs4_4 t)
      (fun h => h0 ((hcond4_0 t).mp h)) (iblk4 V c 0 t) (iblk4 V c 1 t) (iblk4 V c 2 t)
      (outsAt4 V c (t.val - 1) (Nat.lt_of_le_of_lt (Nat.sub_le _ _) t.isLt)).1
      (outsAt4 V c (t.val - 1) (Nat.lt_of_le_of_lt (Nat.sub_le _ _) t.isLt)).2)

/-- After point `n` the accumulators hold, at lane `j`, the sum of the terms (of their squares) of the first
    `4000·(n+1)` rows: by induction on the point, each point adding its run of 4000 rows. -/
theorem sums_at (j : Fin 64) : ∀ (n : ℕ) (h : n < cfg4.N),
    (outsAt4 V c n h).1 (ix2 0 j) = ∑ k ∈ Finset.range ((n + 1) * 4000), term V c j k
    ∧ (outsAt4 V c n h).2 (ix2 0 j) = ∑ k ∈ Finset.range ((n + 1) * 4000), term V c j k * term V c j k
  | 0, h => by
    have e := outs_A V c ⟨0, h⟩ rfl
    constructor
    · refine (congrFun (congrArg Prod.fst e) (ix2 0 j)).trans ?_
      refine (pay4_point V c ⟨0, h⟩ _ j).trans ?_
      rw [zero1_apply, zero_add]
      show ∑ r ∈ Finset.range 4000, term V c j (0 * 4000 + r) = ∑ k ∈ Finset.range ((0 + 1) * 4000), term V c j k
      simp only [Nat.zero_mul, Nat.zero_add, Nat.one_mul]
    · refine (congrFun (congrArg Prod.snd e) (ix2 0 j)).trans ?_
      refine (pay5_point V c ⟨0, h⟩ _ j).trans ?_
      rw [zero2_apply, zero_add]
      show ∑ r ∈ Finset.range 4000, term V c j (0 * 4000 + r) * term V c j (0 * 4000 + r)
        = ∑ k ∈ Finset.range ((0 + 1) * 4000), term V c j k * term V c j k
      simp only [Nat.zero_mul, Nat.zero_add, Nat.one_mul]
  | n + 1, h => by
    have hN : cfg4.N = 25 := N_4
    have hB : ¬(⟨n + 1, h⟩ : Fin cfg4.N).val % 25 = 0 := by dsimp only; omega
    have e := outs_B V c ⟨n + 1, h⟩ hB
    obtain ⟨ih1, ih2⟩ := sums_at j n (Nat.lt_of_succ_lt h)
    have hs : (n + 1 + 1) * 4000 = (n + 1) * 4000 + 4000 := by ring
    constructor
    · refine (congrFun (congrArg Prod.fst e) (ix2 0 j)).trans ?_
      refine (pay4_point V c ⟨n + 1, h⟩ _ j).trans ?_
      show (outsAt4 V c n _).1 (ix2 0 j) + ∑ r ∈ Finset.range 4000, term V c j ((n + 1) * 4000 + r) = _
      rw [ih1, hs, Finset.sum_range_add]
    · refine (congrFun (congrArg Prod.snd e) (ix2 0 j)).trans ?_
      refine (pay5_point V c ⟨n + 1, h⟩ _ j).trans ?_
      show (outsAt4 V c n _).2 (ix2 0 j)
        + ∑ r ∈ Finset.range 4000, term V c j ((n + 1) * 4000 + r) * term V c j ((n + 1) * 4000 + r) = _
      rw [ih2, hs, Finset.sum_range_add]

/-- The last point of the grid. -/
theorem h24 : 24 < cfg4.N := by rw [show cfg4.N = 25 from N_4]; decide

/-- The sum over the natural-number rows below 100000 is the sum over the rows of the array. -/
theorem sum_term (j : Fin 64) (f : EReal → EReal) :
    ∑ k ∈ Finset.range 100000, f (term V c j k) = ∑ r : Fin 100000, f (pre V c r j) := by
  rw [← Fin.sum_univ_eq_sum_range (fun k => f (term V c j k)) 100000]
  refine Finset.sum_congr rfl fun r _ => ?_
  unfold term
  rw [dif_pos r.isLt]

/-- Each result's one block is the whole [1,64] array, at every point. -/
theorem out_idx (t : Fin cfg4.N) : (fun a => win4_3.index t a * main_v74_0.ty.shape.size a) = fun _ => 0 :=
  funext fun a => by
    match a with
    | ⟨0, _⟩ => rfl
    | ⟨1, _⟩ => rfl

theorem out_idx' (t : Fin cfg4.N) : (fun a => win4_4.index t a * main_v74_1.ty.shape.size a) = fun _ => 0 :=
  funext fun a => by
    match a with
    | ⟨0, _⟩ => rfl
    | ⟨1, _⟩ => rfl

/-- The one write-back of the sums, after the last point, writes what the accumulator then holds. -/
theorem flushed3_eq (t : Fin cfg4.N) (hf : (cfg4.win 3).flush t = true) :
    (dat4 V c).flushed 3 t = ((cfg4.win 3).blk t).view.read (Elt Ideal) (outsAt4 V c 24 h24).1 := by
  have hN : cfg4.N = 25 := N_4
  have h3 : t.val = 24 := by have := (flush4_3 t).mp hf; have := t.isLt; omega
  obtain rfl : t = ⟨24, h24⟩ := Fin.ext h3
  show (cfg4.win 3).cut (grid4.coords ⟨24, h24⟩) ((dat4 V c).after 3 ⟨24, h24⟩) = _
  rw [after4_3]
  exact (Memref.read_access_unit_zero (Elt Ideal) main_v74_0 (out_idx ⟨24, h24⟩)
    (fun a => by rw [congrFun (out_idx ⟨24, h24⟩) a]; simp) (outsAt4 V c 24 h24).1).symm

theorem flushed4_eq (t : Fin cfg4.N) (hf : (cfg4.win 4).flush t = true) :
    (dat4 V c).flushed 4 t = ((cfg4.win 4).blk t).view.read (Elt Ideal) (outsAt4 V c 24 h24).2 := by
  have hN : cfg4.N = 25 := N_4
  have h3 : t.val = 24 := by have := (flush4_4 t).mp hf; have := t.isLt; omega
  obtain rfl : t = ⟨24, h24⟩ := Fin.ext h3
  show (cfg4.win 4).cut (grid4.coords ⟨24, h24⟩) ((dat4 V c).after 4 ⟨24, h24⟩) = _
  rw [after4_4]
  exact (Memref.read_access_unit_zero (Elt Ideal) main_v74_1 (out_idx' ⟨24, h24⟩)
    (fun a => by rw [congrFun (out_idx' ⟨24, h24⟩) a]; simp) (outsAt4 V c 24 h24).2).symm

/-- So the array of sums ends holding what the accumulator holds after the last point: that point's write-back covers it. -/
theorem final3 : (dat4 V c).arrAt 3 cfg4.N = (outsAt4 V c 24 h24).1 :=
  (dat4 V c).arrAt_eq_of_cover 3 (outsAt4 V c 24 h24).1 (flushed3_eq V c) fun i =>
    ⟨⟨24, h24⟩, (flush4_3 ⟨24, h24⟩).mpr rfl, by
      show i ∈ ((View.whole main_v74_0).slice (win4_3.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

theorem final4 : (dat4 V c).arrAt 4 cfg4.N = (outsAt4 V c 24 h24).2 :=
  (dat4 V c).arrAt_eq_of_cover 4 (outsAt4 V c 24 h24).2 (flushed4_eq V c) fun i =>
    ⟨⟨24, h24⟩, (flush4_4 ⟨24, h24⟩).mpr rfl, by
      show i ∈ ((View.whole main_v74_1).slice (win4_4.rect ⟨24, h24⟩)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

/-- THE SUMS: after the pass, lane `j` of the first result is the sum over all rows of the clamped term. -/
theorem sum_final (j : Fin 64) :
    ((dat4 (F := Ideal) V c).arrAt 3 cfg4.N : S1x64.Idx → EReal) (ix2 0 j) = ∑ r : Fin 100000, pre V c r j := by
  rw [final3 V c, (sums_at V c j 24 h24).1]
  exact sum_term V c j id

/-- THE SUMS OF SQUARES: lane `j` of the second result is the sum over all rows of the square of that term. -/
theorem sumsq_final (j : Fin 64) :
    ((dat4 (F := Ideal) V c).arrAt 4 cfg4.N : S1x64.Idx → EReal) (ix2 0 j)
      = ∑ r : Fin 100000, pre V c r j * pre V c r j := by
  rw [final4 V c, (sums_at V c j 24 h24).2]
  exact sum_term V c j fun x => x * x

end Arrays

end Cert.KernelIdeal.Stats4
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.NormDot.lean ====
/-
  Two facts about the arithmetic of the two "normalise, then multiply by the weights" regions, used by both.

  * A column `[a, 1]` broadcast to `[a, b]` reads, at `(p, c)`, the column's entry at row `p`.
  * The matrix unit's product in those regions contracts the columns of its `4000 × 64` left operand with the rows
    of its `64 × 64` right operand: one contracted axis of extent 64, the left operand read at `(row, k)` and the
    right one at `(k, column)`. So, accumulated into zero and read at the ideal values, it is the plain sum
    `∑ k, X (r, k) · W (k, q)`.
-/
import proofs.«109028_j78546361909449_2_alg».proof.Proof.Gen.KernelIdeal
import proofs.«109028_j78546361909449_2_alg».proof.Proof.LibMatProd
import Idealize.ShloMosaic.Lib.Pipeline.Value
import Idealize.ShloMosaic.Lib.ValueLayout

noncomputable section

namespace Cert.KernelIdeal.NormDot

open Cert.KernelIdeal Cert.KernelIdeal.Gen Idealize.ShloMosaic Idealize.ShloMosaic.ValueIdx

/-- A column `[a, 1]` broadcast along the second axis reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The regions' matrix product contracts the left operand's columns with the right operand's rows. -/
theorem contracts_dot :
    Cert.Linear.Contracts (R := 4000) (K := 64) (N := 64) dot_S4000x64_S64x64_S4000x64_1_0_0_1_n_n where
  rank := rfl
  size := rfl
  lhs0 := fun i q => by
    have hb : (0 : Fin 2) ∉ dot_S4000x64_S64x64_S4000x64_1_0_0_1_n_n.lhsBatch :=
      show (0 : Fin 2) ∉ ([] : List (Fin 2)) from List.not_mem_nil
    have hn : (0 : Fin 2) ∈ dot_S4000x64_S64x64_S4000x64_1_0_0_1_n_n.lhsNonContracting :=
      show (0 : Fin 2) ∈ ([0] : List (Fin 2)) from List.mem_singleton.mpr rfl
    unfold DotDims.lhsIdx
    rw [dif_neg hb, dif_pos hn]
    rfl
  lhs1 := fun i q => dot_S4000x64_S64x64_S4000x64_1_0_0_1_n_n.lhsIdx_val_of_single (cl := 1) rfl i q
  rhs0 := fun i q => dot_S4000x64_S64x64_S4000x64_1_0_0_1_n_n.rhsIdx_val_of_single (cr := 0) rfl i q
  rhs1 := fun i q => by
    have hb : (1 : Fin 2) ∉ dot_S4000x64_S64x64_S4000x64_1_0_0_1_n_n.rhsBatch :=
      show (1 : Fin 2) ∉ ([] : List (Fin 2)) from List.not_mem_nil
    have hn : (1 : Fin 2) ∈ dot_S4000x64_S64x64_S4000x64_1_0_0_1_n_n.rhsNonContracting :=
      show (1 : Fin 2) ∈ ([1] : List (Fin 2)) from List.mem_singleton.mpr rfl
    unfold DotDims.rhsIdx
    rw [dif_neg hb, dif_pos hn]
    rfl

/-- The regions' matrix product accumulated into zero, at entry `(p, q)`: row `p` of the left operand against
    column `q` of the right one, whatever the operands' float formats. -/
theorem matmul_zero_apply {φ₁ φ₂ : FTy} (X : FVec Ideal S4000x64 φ₁) (W : FVec Ideal S64x64 φ₂) (p : Fin 4000) (q : Fin 64) :
    FloatOps.matmul dot_S4000x64_S64x64_S4000x64_1_0_0_1_n_n none X W (constant (F := Ideal) S4000x64 .f32 0x00000000#32) (ix2 p q)
      = ∑ k : Fin 64, X (ix2 p k) * W (ix2 k q) :=
  congrFun (Cert.Linear.matmul_zero_eq contracts_dot none X W) (ix2 p q)

end Cert.KernelIdeal.NormDot

end
-- ==== Proof.Norm1.lean ====
/-
  Region 1 of the kernel's main function, as one array.

  The region walks the 100000 rows of its operands in 25 blocks of 4000 rows. At block `t` it reads rows
  `4000·t … 4000·t + 3999` of the activations and of the per-row factor, the five per-feature rows (bias, mean,
  reciprocal standard deviation, scale, shift) and the 64 × 64 weight matrix, and writes the same rows of its result. Read at the
  ideal values, where every float operation is the exact one on the extended reals and a change of float format
  is the identity, entry `(r, j)` of the result depends only on row `r` of the row operands, so the 25 blocks
  are the restrictions of ONE function of the whole operand arrays. This file states that function (`hn`, `lin`)
  and proves that the result array holds it after the region, for any contents of the buffers at region entry.
-/
import proofs.«109028_j78546361909449_2_alg».proof.Proof.Gen.KernelIdeal.Frame
import Idealize.ShloMosaic.Lib.Pipeline.Value
import Idealize.ShloMosaic.Lib.ValueLayout
import Idealize.ShloMosaic.PureOps.Ideal.Laws
import proofs.«109028_j78546361909449_2_alg».proof.Proof.NormDot

noncomputable section

open scoped BigOperators

namespace Cert.KernelIdeal.Norm1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the region finds, and the function its result array holds -/

/-- Operand 0 as the region finds it: the activations. -/
abbrev A (c : Dev nD) : S100000x64.Idx → EReal := V c (Pipeline.arrRef spec1 0)

/-- Operand 1 as the region finds it: the per-row factor. -/
abbrev D (c : Dev nD) : S100000x1.Idx → EReal := V c (Pipeline.arrRef spec1 1)

/-- Operand 2 as the region finds it: the bias row. -/
abbrev B (c : Dev nD) : S1x64.Idx → EReal := V c (Pipeline.arrRef spec1 2)

/-- Operand 3 as the region finds it: the per-feature mean. -/
abbrev M (c : Dev nD) : S1x64.Idx → EReal := V c (Pipeline.arrRef spec1 3)

/-- Operand 4 as the region finds it: the per-feature reciprocal standard deviation. -/
abbrev R (c : Dev nD) : S1x64.Idx → EReal := V c (Pipeline.arrRef spec1 4)

/-- Operand 5 as the region finds it: the learnt scale. -/
abbrev Ga (c : Dev nD) : S1x64.Idx → EReal := V c (Pipeline.arrRef spec1 5)

/-- Operand 6 as the region finds it: the learnt shift. -/
abbrev Be (c : Dev nD) : S1x64.Idx → EReal := V c (Pipeline.arrRef spec1 6)

/-- Operand 7 as the region finds it: the weight matrix. -/
abbrev Wt (c : Dev nD) : S64x64.Idx → EReal := V c (Pipeline.arrRef spec1 7)

/-- The activation entering the normalisation at row `r`, feature `k`: the input with the bias added. -/
def h (c : Dev nD) (r : Fin 100000) (k : Fin 64) : EReal :=
  A V c (ix2 r k) + B V c (ix2 (0 : Fin 1) k)

/-- The normalised activation: centred by the feature's mean, scaled by its reciprocal standard deviation and by
    the learnt scale, the learnt shift added. -/
def hn (c : Dev nD) (r : Fin 100000) (k : Fin 64) : EReal :=
  ((h V c r k - M V c (ix2 (0 : Fin 1) k)) * R V c (ix2 (0 : Fin 1) k)) * Ga V c (ix2 (0 : Fin 1) k)
    + Be V c (ix2 (0 : Fin 1) k)

/-- The result's entry `(r, j)`: row `r` of the normalised activations against column `j` of the weights, scaled
    by the row's factor. -/
def lin (c : Dev nD) (r : Fin 100000) (j : Fin 64) : EReal :=
  (∑ k : Fin 64, hn V c r k * Wt V c (ix2 k j)) * D V c (ix2 r (0 : Fin 1))

/-- The whole result array, index by index. -/
def Y (c : Dev nD) : S100000x64.Idx → EReal := fun i => lin V c (i 0) (i 1)

theorem Y_apply (c : Dev nD) (r : Fin 100000) (j : Fin 64) : Y V c (ix2 r j) = lin V c r j := rfl

/-! ## The body's arithmetic at one entry of a block -/

/-- What the body stores at entry `(p, q)` of its block, from the blocks it loaded: row `p` of the normalised
    activations (pointwise operations; a per-feature row is read at the feature's column) against column
    `q` of the weights — the matrix unit's product accumulated into zero is that plain sum, and the changes of float
    format around it are the identity — and the sum scaled by the per-row factor at row `p`. -/
theorem pay_apply (x0 : Vec Ideal S4000x64 .f32) (xD : Vec Ideal S4000x1 .f32)
    (xB xM xR xG xBe : Vec Ideal S1x64 .f32) (xW : Vec Ideal S64x64 .f32) (p : Fin 4000) (q : Fin 64) :
    k1_pay1 x0 xB xM xR xG xBe xW xD (ix2 p q)
      = (∑ k : Fin 64, ((((x0 (ix2 p k) + xB (ix2 (0 : Fin 1) k)) - xM (ix2 (0 : Fin 1) k)) * xR (ix2 (0 : Fin 1) k)) * xG (ix2 (0 : Fin 1) k)
            + xBe (ix2 (0 : Fin 1) k)) * xW (ix2 k q)) * xD (ix2 p (0 : Fin 1)) := by
  unfold k1_pay1
  simp only [matmul, truncf_apply, mulf_apply, shapeCast_self, NormDot.broadcastTo_a1_ab_apply, NormDot.matmul_zero_apply]
  simp only [truncf_apply, addf_apply, subf_apply, mulf_apply, maximumf_apply, broadcast_apply,
    broadcastTo_1b_ab_apply, NormDot.broadcastTo_a1_ab_apply]

/-! ## Which rows a block holds -/

theorem hz : (![0, 0] : Fin 2 → Nat) = fun _ => 0 := funext fun a => by fin_cases a <;> rfl

/-- The block index maps over the 25 grid points: the row operands and the result move one block of rows per
    point, the per-feature rows and the weights stay where they are. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

theorem point_lt (t : Fin cfg1.N) : t.val < 25 := by
  have h : t.val < cfg1.N := t.isLt
  have hN : cfg1.N = 25 := N_1
  omega

/-- Entry `(p, q)` of the activations' block at point `t` is the array's entry at row `4000·t + p`. -/
theorem blk0_apply (c : Dev nD) (t : Fin cfg1.N) (p : Fin 4000) (q : Fin 64) (r : Fin 100000)
    (hr : r.val = 4000 * t.val + p.val) :
    (iblk1 V c 0 t : Vec Ideal S4000x64 .f32) (ix2 p q) = A V c (ix2 r q) := by
  obtain ⟨e00, e01, e10, e11, e20, e21, e30, e31, e40, e41, e50, e51, e60, e61, e70, e71, e80, e81⟩ := idx_facts t
  show A V c (((cfg1.win 0).blk t).view.emb (ix2 p q)) = _
  refine congrArg _ (funext fun a => Fin.ext ?_)
  match a with
  | ⟨0, _⟩ => show win1_0.index t (0 : Fin 2) * 4000 + 1 * p.val = r.val; rw [e00, hr]; omega
  | ⟨1, _⟩ => show win1_0.index t (1 : Fin 2) * 64 + 1 * q.val = q.val; rw [e01]; omega

/-- Entry `p` of the per-row factor's block at point `t` is the column's entry at row `4000·t + p`. -/
theorem blk1_apply (c : Dev nD) (t : Fin cfg1.N) (p : Fin 4000) (r : Fin 100000)
    (hr : r.val = 4000 * t.val + p.val) :
    (iblk1 V c 1 t : Vec Ideal S4000x1 .f32) (ix2 p (0 : Fin 1)) = D V c (ix2 r (0 : Fin 1)) := by
  obtain ⟨e00, e01, e10, e11, e20, e21, e30, e31, e40, e41, e50, e51, e60, e61, e70, e71, e80, e81⟩ := idx_facts t
  show D V c (((cfg1.win 1).blk t).view.emb (ix2 p (0 : Fin 1))) = _
  refine congrArg _ (funext fun a => Fin.ext ?_)
  match a with
  | ⟨0, _⟩ => show win1_1.index t (0 : Fin 2) * 4000 + 1 * p.val = r.val; rw [e10, hr]; omega
  | ⟨1, _⟩ => show win1_1.index t (1 : Fin 2) * 1 + 1 * 0 = 0; rw [e11]

/-- The block of per-feature row `B` is the whole row at every point. -/
theorem blk2_apply (c : Dev nD) (t : Fin cfg1.N) (q : Fin 64) :
    (iblk1 V c 2 t : Vec Ideal S1x64 .f32) (ix2 (0 : Fin 1) q) = B V c (ix2 (0 : Fin 1) q) := by
  obtain ⟨e00, e01, e10, e11, e20, e21, e30, e31, e40, e41, e50, e51, e60, e61, e70, e71, e80, e81⟩ := idx_facts t
  show B V c (((cfg1.win 2).blk t).view.emb (ix2 (0 : Fin 1) q)) = _
  refine congrArg _ (funext fun a => Fin.ext ?_)
  match a with
  | ⟨0, _⟩ => show win1_2.index t (0 : Fin 2) * 1 + 1 * 0 = 0; rw [e20]
  | ⟨1, _⟩ => show win1_2.index t (1 : Fin 2) * 64 + 1 * q.val = q.val; rw [e21]; omega

/-- The block of per-feature row `M` is the whole row at every point. -/
theorem blk3_apply (c : Dev nD) (t : Fin cfg1.N) (q : Fin 64) :
    (iblk1 V c 3 t : Vec Ideal S1x64 .f32) (ix2 (0 : Fin 1) q) = M V c (ix2 (0 : Fin 1) q) := by
  obtain ⟨e00, e01, e10, e11, e20, e21, e30, e31, e40, e41, e50, e51, e60, e61, e70, e71, e80, e81⟩ := idx_facts t
  show M V c (((cfg1.win 3).blk t).view.emb (ix2 (0 : Fin 1) q)) = _
  refine congrArg _ (funext fun a => Fin.ext ?_)
  match a with
  | ⟨0, _⟩ => show win1_3.index t (0 : Fin 2) * 1 + 1 * 0 = 0; rw [e30]
  | ⟨1, _⟩ => show win1_3.index t (1 : Fin 2) * 64 + 1 * q.val = q.val; rw [e31]; omega

/-- The block of per-feature row `R` is the whole row at every point. -/
theorem blk4_apply (c : Dev nD) (t : Fin cfg1.N) (q : Fin 64) :
    (iblk1 V c 4 t : Vec Ideal S1x64 .f32) (ix2 (0 : Fin 1) q) = R V c (ix2 (0 : Fin 1) q) := by
  obtain ⟨e00, e01, e10, e11, e20, e21, e30, e31, e40, e41, e50, e51, e60, e61, e70, e71, e80, e81⟩ := idx_facts t
  show R V c (((cfg1.win 4).blk t).view.emb (ix2 (0 : Fin 1) q)) = _
  refine congrArg _ (funext fun a => Fin.ext ?_)
  match a with
  | ⟨0, _⟩ => show win1_4.index t (0 : Fin 2) * 1 + 1 * 0 = 0; rw [e40]
  | ⟨1, _⟩ => show win1_4.index t (1 : Fin 2) * 64 + 1 * q.val = q.val; rw [e41]; omega

/-- The block of per-feature row `Ga` is the whole row at every point. -/
theorem blk5_apply (c : Dev nD) (t : Fin cfg1.N) (q : Fin 64) :
    (iblk1 V c 5 t : Vec Ideal S1x64 .f32) (ix2 (0 : Fin 1) q) = Ga V c (ix2 (0 : Fin 1) q) := by
  obtain ⟨e00, e01, e10, e11, e20, e21, e30, e31, e40, e41, e50, e51, e60, e61, e70, e71, e80, e81⟩ := idx_facts t
  show Ga V c (((cfg1.win 5).blk t).view.emb (ix2 (0 : Fin 1) q)) = _
  refine congrArg _ (funext fun a => Fin.ext ?_)
  match a with
  | ⟨0, _⟩ => show win1_5.index t (0 : Fin 2) * 1 + 1 * 0 = 0; rw [e50]
  | ⟨1, _⟩ => show win1_5.index t (1 : Fin 2) * 64 + 1 * q.val = q.val; rw [e51]; omega

/-- The block of per-feature row `Be` is the whole row at every point. -/
theorem blk6_apply (c : Dev nD) (t : Fin cfg1.N) (q : Fin 64) :
    (iblk1 V c 6 t : Vec Ideal S1x64 .f32) (ix2 (0 : Fin 1) q) = Be V c (ix2 (0 : Fin 1) q) := by
  obtain ⟨e00, e01, e10, e11, e20, e21, e30, e31, e40, e41, e50, e51, e60, e61, e70, e71, e80, e81⟩ := idx_facts t
  show Be V c (((cfg1.win 6).blk t).view.emb (ix2 (0 : Fin 1) q)) = _
  refine congrArg _ (funext fun a => Fin.ext ?_)
  match a with
  | ⟨0, _⟩ => show win1_6.index t (0 : Fin 2) * 1 + 1 * 0 = 0; rw [e60]
  | ⟨1, _⟩ => show win1_6.index t (1 : Fin 2) * 64 + 1 * q.val = q.val; rw [e61]; omega

/-- The weights' block is the whole matrix at every point. -/
theorem blk7_apply (c : Dev nD) (t : Fin cfg1.N) (k q : Fin 64) :
    (iblk1 V c 7 t : Vec Ideal S64x64 .f32) (ix2 k q) = Wt V c (ix2 k q) := by
  obtain ⟨e00, e01, e10, e11, e20, e21, e30, e31, e40, e41, e50, e51, e60, e61, e70, e71, e80, e81⟩ := idx_facts t
  show Wt V c (((cfg1.win 7).blk t).view.emb (ix2 k q)) = _
  refine congrArg _ (funext fun a => Fin.ext ?_)
  match a with
  | ⟨0, _⟩ => show win1_7.index t (0 : Fin 2) * 64 + 1 * k.val = k.val; rw [e70]; omega
  | ⟨1, _⟩ => show win1_7.index t (1 : Fin 2) * 64 + 1 * q.val = q.val; rw [e71]; omega

/-- Entry `(p, q)` of the result's block at point `t` sits in the array at row `4000·t + p`. -/
theorem out_emb (t : Fin cfg1.N) (p : Fin 4000) (q : Fin 64) (r : Fin 100000)
    (hr : r.val = 4000 * t.val + p.val) :
    ((cfg1.win 8).blk t).view.emb (ix2 p q) = (ix2 r q : S100000x64.Idx) := by
  obtain ⟨e00, e01, e10, e11, e20, e21, e30, e31, e40, e41, e50, e51, e60, e61, e70, e71, e80, e81⟩ := idx_facts t
  refine funext fun a => Fin.ext ?_
  match a with
  | ⟨0, _⟩ => show win1_8.index t (0 : Fin 2) * 4000 + 1 * p.val = r.val; rw [e80, hr]; omega
  | ⟨1, _⟩ => show win1_8.index t (1 : Fin 2) * 64 + 1 * q.val = q.val; rw [e81]; omega

/-! ## From the blocks to the array -/

/-- What point `t` writes back is block `t` of `Y`. -/
theorem flushed_eq (c : Dev nD) (t : Fin cfg1.N) :
    (dat1 V c).flushed 8 t = ((cfg1.win 8).blk t).view.read (Elt Ideal) (Y V c) := by
  show (cfg1.win 8).cut (grid1.coords t) ((dat1 V c).after 8 t) = _
  rw [after1_8]
  unfold out1_8
  rw [View.canon_unit_zero hz]
  simp only [View.ld_unit_zero (S := S4000x64) hz, View.ld_unit_zero (S := S4000x1) hz, View.ld_unit_zero (S := S1x64) hz,
    View.ld_unit_zero (S := S64x64) hz]
  refine funext fun (y : S4000x64.Idx) => ?_
  obtain ⟨p, q, rfl⟩ : ∃ (p : Fin 4000) (q : Fin 64), y = ix2 p q := ⟨y 0, y 1, eq_ix2 y⟩
  have ht := point_lt t
  obtain ⟨r, hr⟩ : ∃ r : Fin 100000, r.val = 4000 * t.val + p.val := ⟨⟨4000 * t.val + p.val, by omega⟩, rfl⟩
  show k1_pay1 (iblk1 V c 0 t) (iblk1 V c 2 t) (iblk1 V c 3 t) (iblk1 V c 4 t) (iblk1 V c 5 t) (iblk1 V c 6 t) (iblk1 V c 7 t) (iblk1 V c 1 t) (ix2 p q)
    = Y V c (((cfg1.win 8).blk t).view.emb (ix2 p q))
  rw [out_emb t p q r hr, Y_apply, pay_apply]
  simp only [fun k => blk0_apply V c t p k r hr, blk1_apply V c t p r hr, blk2_apply V c t, blk3_apply V c t,
    blk4_apply V c t, blk5_apply V c t, blk6_apply V c t, blk7_apply V c t]
  unfold lin hn h
  rfl

/-- An index of the array is in point `t`'s block iff each coordinate is in the block's range on its axis. -/
theorem mem_blk (t : Fin cfg1.N) (i : S100000x64.Idx) :
    i ∈ ((cfg1.win 8).blk t).view.set ↔ ∀ a : Fin 2, win1_8.index t a * S4000x64.size a ≤ (i a).val
      ∧ (i a).val < win1_8.index t a * S4000x64.size a + S4000x64.size a := by
  show i ∈ ((View.whole main_v33).slice (win1_8.rect t)).set ↔ _
  rw [View.set_slice_whole, Rect.mem_set_unit]
  exact Iff.rfl

/-- Row `r` of the array is in the block of point `r / 4000`: the 25 blocks cover the array. -/
theorem cover (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 :=
    ⟨⟨(i 0).val / 4000, by omega⟩, rfl⟩
  obtain ⟨e00, e01, e10, e11, e20, e21, e30, e31, e40, e41, e50, e51, e60, e61, e70, e71, e80, e81⟩ := idx_facts t
  refine ⟨t, flush1_8 t, ?_⟩
  rw [mem_blk]
  intro a
  match a with
  | ⟨0, _⟩ =>
    show win1_8.index t (0 : Fin 2) * 4000 ≤ (i 0).val ∧ (i 0).val < win1_8.index t (0 : Fin 2) * 4000 + 4000
    rw [e80, ht]; omega
  | ⟨1, _⟩ =>
    show win1_8.index t (1 : Fin 2) * 64 ≤ (i 1).val ∧ (i 1).val < win1_8.index t (1 : Fin 2) * 64 + 64
    rw [e81]; omega

/-- The result array after the region is `Y` of the arrays the region found. -/
theorem final (c : Dev nD) : (dat1 V c).arrAt 8 cfg1.N = Y V c :=
  (dat1 V c).arrAt_eq_of_cover 8 (Y V c) (fun t _ => flushed_eq V c t) cover

/-- The result array after the region, entry by entry. -/
theorem out_final (c : Dev nD) (r : Fin 100000) (j : Fin 64) :
    ((dat1 (F := Ideal) V c).arrAt 8 cfg1.N : S100000x64.Idx → EReal) (ix2 r j) = lin V c r j := by
  rw [final]; rfl

end Cert.KernelIdeal.Norm1

end
-- ==== Proof.Norm3.lean ====
/-
  Region 3 of the kernel's main function, as one array.

  The region walks the 100000 rows of its operands in 25 blocks of 4000 rows. At block `t` it reads rows
  `4000·t … 4000·t + 3999` of the activations and of the per-row factor, the five per-feature rows (bias, mean,
  reciprocal standard deviation, scale, shift) and the 64 × 64 weight matrix, and writes the same rows of its result. Read at the
  ideal values, where every float operation is the exact one on the extended reals and a change of float format
  is the identity, entry `(r, j)` of the result depends only on row `r` of the row operands, so the 25 blocks
  are the restrictions of ONE function of the whole operand arrays. This file states that function (`hn`, `lin`)
  and proves that the result array holds it after the region, for any contents of the buffers at region entry.
-/
import proofs.«109028_j78546361909449_2_alg».proof.Proof.Gen.KernelIdeal.Frame
import Idealize.ShloMosaic.Lib.Pipeline.Value
import Idealize.ShloMosaic.Lib.ValueLayout
import Idealize.ShloMosaic.PureOps.Ideal.Laws
import proofs.«109028_j78546361909449_2_alg».proof.Proof.NormDot

noncomputable section

open scoped BigOperators

namespace Cert.KernelIdeal.Norm3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the region finds, and the function its result array holds -/

/-- Operand 0 as the region finds it: the activations. -/
abbrev A (c : Dev nD) : S100000x64.Idx → EReal := V c (Pipeline.arrRef spec3 0)

/-- Operand 1 as the region finds it: the per-row factor. -/
abbrev D (c : Dev nD) : S100000x1.Idx → EReal := V c (Pipeline.arrRef spec3 1)

/-- Operand 2 as the region finds it: the bias row. -/
abbrev B (c : Dev nD) : S1x64.Idx → EReal := V c (Pipeline.arrRef spec3 2)

/-- Operand 3 as the region finds it: the per-feature mean. -/
abbrev M (c : Dev nD) : S1x64.Idx → EReal := V c (Pipeline.arrRef spec3 3)

/-- Operand 4 as the region finds it: the per-feature reciprocal standard deviation. -/
abbrev R (c : Dev nD) : S1x64.Idx → EReal := V c (Pipeline.arrRef spec3 4)

/-- Operand 5 as the region finds it: the learnt scale. -/
abbrev Ga (c : Dev nD) : S1x64.Idx → EReal := V c (Pipeline.arrRef spec3 5)

/-- Operand 6 as the region finds it: the learnt shift. -/
abbrev Be (c : Dev nD) : S1x64.Idx → EReal := V c (Pipeline.arrRef spec3 6)

/-- Operand 7 as the region finds it: the weight matrix. -/
abbrev Wt (c : Dev nD) : S64x64.Idx → EReal := V c (Pipeline.arrRef spec3 7)

/-- The activation entering the normalisation at row `r`, feature `k`: the input scaled by its row's factor, the bias added, clipped below at zero. -/
def h (c : Dev nD) (r : Fin 100000) (k : Fin 64) : EReal :=
  max (A V c (ix2 r k) * D V c (ix2 r (0 : Fin 1)) + B V c (ix2 (0 : Fin 1) k)) 0

/-- The normalised activation: centred by the feature's mean, scaled by its reciprocal standard deviation and by
    the learnt scale, the learnt shift added. -/
def hn (c : Dev nD) (r : Fin 100000) (k : Fin 64) : EReal :=
  ((h V c r k - M V c (ix2 (0 : Fin 1) k)) * R V c (ix2 (0 : Fin 1) k)) * Ga V c (ix2 (0 : Fin 1) k)
    + Be V c (ix2 (0 : Fin 1) k)

/-- The result's entry `(r, j)`: row `r` of the normalised activations against column `j` of the weights, scaled
    by the row's factor. -/
def lin (c : Dev nD) (r : Fin 100000) (j : Fin 64) : EReal :=
  (∑ k : Fin 64, hn V c r k * Wt V c (ix2 k j)) * D V c (ix2 r (0 : Fin 1))

/-- The whole result array, index by index. -/
def Y (c : Dev nD) : S100000x64.Idx → EReal := fun i => lin V c (i 0) (i 1)

theorem Y_apply (c : Dev nD) (r : Fin 100000) (j : Fin 64) : Y V c (ix2 r j) = lin V c r j := rfl

/-! ## The body's arithmetic at one entry of a block -/

/-- What the body stores at entry `(p, q)` of its block, from the blocks it loaded: row `p` of the normalised
    activations (pointwise operations; a per-feature row is read at the feature's column, the per-row factor at row \`p\`) against column
    `q` of the weights — the matrix unit's product accumulated into zero is that plain sum, and the changes of float
    format around it are the identity — and the sum scaled by the per-row factor at row `p`. -/
theorem pay_apply (x0 : Vec Ideal S4000x64 .f32) (xD : Vec Ideal S4000x1 .f32)
    (xB xM xR xG xBe : Vec Ideal S1x64 .f32) (xW : Vec Ideal S64x64 .f32) (p : Fin 4000) (q : Fin 64) :
    k3_pay1 x0 xD xB xM xR xG xBe xW xD (ix2 p q)
      = (∑ k : Fin 64, ((((max (x0 (ix2 p k) * xD (ix2 p (0 : Fin 1)) + xB (ix2 (0 : Fin 1) k)) 0) - xM (ix2 (0 : Fin 1) k)) * xR (ix2 (0 : Fin 1) k)) * xG (ix2 (0 : Fin 1) k)
            + xBe (ix2 (0 : Fin 1) k)) * xW (ix2 k q)) * xD (ix2 p (0 : Fin 1)) := by
  unfold k3_pay1
  simp only [matmul, truncf_apply, mulf_apply, shapeCast_self, NormDot.broadcastTo_a1_ab_apply, NormDot.matmul_zero_apply]
  simp only [truncf_apply, addf_apply, subf_apply, mulf_apply, maximumf_apply, broadcast_apply,
    broadcastTo_1b_ab_apply, NormDot.broadcastTo_a1_ab_apply]
  rw [show (FloatOps.ofBits FTy.f32 0x00000000#32 : Ideal .f32) = 0 from Ideal.ofBits_zero_f32]

/-! ## Which rows a block holds -/

theorem hz : (![0, 0] : Fin 2 → Nat) = fun _ => 0 := funext fun a => by fin_cases a <;> rfl

/-- The block index maps over the 25 grid points: the row operands and the result move one block of rows per
    point, the per-feature rows and the weights stay where they are. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

theorem point_lt (t : Fin cfg3.N) : t.val < 25 := by
  have h : t.val < cfg3.N := t.isLt
  have hN : cfg3.N = 25 := N_3
  omega

/-- Entry `(p, q)` of the activations' block at point `t` is the array's entry at row `4000·t + p`. -/
theorem blk0_apply (c : Dev nD) (t : Fin cfg3.N) (p : Fin 4000) (q : Fin 64) (r : Fin 100000)
    (hr : r.val = 4000 * t.val + p.val) :
    (iblk3 V c 0 t : Vec Ideal S4000x64 .f32) (ix2 p q) = A V c (ix2 r q) := by
  obtain ⟨e00, e01, e10, e11, e20, e21, e30, e31, e40, e41, e50, e51, e60, e61, e70, e71, e80, e81⟩ := idx_facts t
  show A V c (((cfg3.win 0).blk t).view.emb (ix2 p q)) = _
  refine congrArg _ (funext fun a => Fin.ext ?_)
  match a with
  | ⟨0, _⟩ => show win3_0.index t (0 : Fin 2) * 4000 + 1 * p.val = r.val; rw [e00, hr]; omega
  | ⟨1, _⟩ => show win3_0.index t (1 : Fin 2) * 64 + 1 * q.val = q.val; rw [e01]; omega

/-- Entry `p` of the per-row factor's block at point `t` is the column's entry at row `4000·t + p`. -/
theorem blk1_apply (c : Dev nD) (t : Fin cfg3.N) (p : Fin 4000) (r : Fin 100000)
    (hr : r.val = 4000 * t.val + p.val) :
    (iblk3 V c 1 t : Vec Ideal S4000x1 .f32) (ix2 p (0 : Fin 1)) = D V c (ix2 r (0 : Fin 1)) := by
  obtain ⟨e00, e01, e10, e11, e20, e21, e30, e31, e40, e41, e50, e51, e60, e61, e70, e71, e80, e81⟩ := idx_facts t
  show D V c (((cfg3.win 1).blk t).view.emb (ix2 p (0 : Fin 1))) = _
  refine congrArg _ (funext fun a => Fin.ext ?_)
  match a with
  | ⟨0, _⟩ => show win3_1.index t (0 : Fin 2) * 4000 + 1 * p.val = r.val; rw [e10, hr]; omega
  | ⟨1, _⟩ => show win3_1.index t (1 : Fin 2) * 1 + 1 * 0 = 0; rw [e11]

/-- The block of per-feature row `B` is the whole row at every point. -/
theorem blk2_apply (c : Dev nD) (t : Fin cfg3.N) (q : Fin 64) :
    (iblk3 V c 2 t : Vec Ideal S1x64 .f32) (ix2 (0 : Fin 1) q) = B V c (ix2 (0 : Fin 1) q) := by
  obtain ⟨e00, e01, e10, e11, e20, e21, e30, e31, e40, e41, e50, e51, e60, e61, e70, e71, e80, e81⟩ := idx_facts t
  show B V c (((cfg3.win 2).blk t).view.emb (ix2 (0 : Fin 1) q)) = _
  refine congrArg _ (funext fun a => Fin.ext ?_)
  match a with
  | ⟨0, _⟩ => show win3_2.index t (0 : Fin 2) * 1 + 1 * 0 = 0; rw [e20]
  | ⟨1, _⟩ => show win3_2.index t (1 : Fin 2) * 64 + 1 * q.val = q.val; rw [e21]; omega

/-- The block of per-feature row `M` is the whole row at every point. -/
theorem blk3_apply (c : Dev nD) (t : Fin cfg3.N) (q : Fin 64) :
    (iblk3 V c 3 t : Vec Ideal S1x64 .f32) (ix2 (0 : Fin 1) q) = M V c (ix2 (0 : Fin 1) q) := by
  obtain ⟨e00, e01, e10, e11, e20, e21, e30, e31, e40, e41, e50, e51, e60, e61, e70, e71, e80, e81⟩ := idx_facts t
  show M V c (((cfg3.win 3).blk t).view.emb (ix2 (0 : Fin 1) q)) = _
  refine congrArg _ (funext fun a => Fin.ext ?_)
  match a with
  | ⟨0, _⟩ => show win3_3.index t (0 : Fin 2) * 1 + 1 * 0 = 0; rw [e30]
  | ⟨1, _⟩ => show win3_3.index t (1 : Fin 2) * 64 + 1 * q.val = q.val; rw [e31]; omega

/-- The block of per-feature row `R` is the whole row at every point. -/
theorem blk4_apply (c : Dev nD) (t : Fin cfg3.N) (q : Fin 64) :
    (iblk3 V c 4 t : Vec Ideal S1x64 .f32) (ix2 (0 : Fin 1) q) = R V c (ix2 (0 : Fin 1) q) := by
  obtain ⟨e00, e01, e10, e11, e20, e21, e30, e31, e40, e41, e50, e51, e60, e61, e70, e71, e80, e81⟩ := idx_facts t
  show R V c (((cfg3.win 4).blk t).view.emb (ix2 (0 : Fin 1) q)) = _
  refine congrArg _ (funext fun a => Fin.ext ?_)
  match a with
  | ⟨0, _⟩ => show win3_4.index t (0 : Fin 2) * 1 + 1 * 0 = 0; rw [e40]
  | ⟨1, _⟩ => show win3_4.index t (1 : Fin 2) * 64 + 1 * q.val = q.val; rw [e41]; omega

/-- The block of per-feature row `Ga` is the whole row at every point. -/
theorem blk5_apply (c : Dev nD) (t : Fin cfg3.N) (q : Fin 64) :
    (iblk3 V c 5 t : Vec Ideal S1x64 .f32) (ix2 (0 : Fin 1) q) = Ga V c (ix2 (0 : Fin 1) q) := by
  obtain ⟨e00, e01, e10, e11, e20, e21, e30, e31, e40, e41, e50, e51, e60, e61, e70, e71, e80, e81⟩ := idx_facts t
  show Ga V c (((cfg3.win 5).blk t).view.emb (ix2 (0 : Fin 1) q)) = _
  refine congrArg _ (funext fun a => Fin.ext ?_)
  match a with
  | ⟨0, _⟩ => show win3_5.index t (0 : Fin 2) * 1 + 1 * 0 = 0; rw [e50]
  | ⟨1, _⟩ => show win3_5.index t (1 : Fin 2) * 64 + 1 * q.val = q.val; rw [e51]; omega

/-- The block of per-feature row `Be` is the whole row at every point. -/
theorem blk6_apply (c : Dev nD) (t : Fin cfg3.N) (q : Fin 64) :
    (iblk3 V c 6 t : Vec Ideal S1x64 .f32) (ix2 (0 : Fin 1) q) = Be V c (ix2 (0 : Fin 1) q) := by
  obtain ⟨e00, e01, e10, e11, e20, e21, e30, e31, e40, e41, e50, e51, e60, e61, e70, e71, e80, e81⟩ := idx_facts t
  show Be V c (((cfg3.win 6).blk t).view.emb (ix2 (0 : Fin 1) q)) = _
  refine congrArg _ (funext fun a => Fin.ext ?_)
  match a with
  | ⟨0, _⟩ => show win3_6.index t (0 : Fin 2) * 1 + 1 * 0 = 0; rw [e60]
  | ⟨1, _⟩ => show win3_6.index t (1 : Fin 2) * 64 + 1 * q.val = q.val; rw [e61]; omega

/-- The weights' block is the whole matrix at every point. -/
theorem blk7_apply (c : Dev nD) (t : Fin cfg3.N) (k q : Fin 64) :
    (iblk3 V c 7 t : Vec Ideal S64x64 .f32) (ix2 k q) = Wt V c (ix2 k q) := by
  obtain ⟨e00, e01, e10, e11, e20, e21, e30, e31, e40, e41, e50, e51, e60, e61, e70, e71, e80, e81⟩ := idx_facts t
  show Wt V c (((cfg3.win 7).blk t).view.emb (ix2 k q)) = _
  refine congrArg _ (funext fun a => Fin.ext ?_)
  match a with
  | ⟨0, _⟩ => show win3_7.index t (0 : Fin 2) * 64 + 1 * k.val = k.val; rw [e70]; omega
  | ⟨1, _⟩ => show win3_7.index t (1 : Fin 2) * 64 + 1 * q.val = q.val; rw [e71]; omega

/-- Entry `(p, q)` of the result's block at point `t` sits in the array at row `4000·t + p`. -/
theorem out_emb (t : Fin cfg3.N) (p : Fin 4000) (q : Fin 64) (r : Fin 100000)
    (hr : r.val = 4000 * t.val + p.val) :
    ((cfg3.win 8).blk t).view.emb (ix2 p q) = (ix2 r q : S100000x64.Idx) := by
  obtain ⟨e00, e01, e10, e11, e20, e21, e30, e31, e40, e41, e50, e51, e60, e61, e70, e71, e80, e81⟩ := idx_facts t
  refine funext fun a => Fin.ext ?_
  match a with
  | ⟨0, _⟩ => show win3_8.index t (0 : Fin 2) * 4000 + 1 * p.val = r.val; rw [e80, hr]; omega
  | ⟨1, _⟩ => show win3_8.index t (1 : Fin 2) * 64 + 1 * q.val = q.val; rw [e81]; omega

/-! ## From the blocks to the array -/

/-- What point `t` writes back is block `t` of `Y`. -/
theorem flushed_eq (c : Dev nD) (t : Fin cfg3.N) :
    (dat3 V c).flushed 8 t = ((cfg3.win 8).blk t).view.read (Elt Ideal) (Y V c) := by
  show (cfg3.win 8).cut (grid3.coords t) ((dat3 V c).after 8 t) = _
  rw [after3_8]
  unfold out3_8
  rw [View.canon_unit_zero hz]
  simp only [View.ld_unit_zero (S := S4000x64) hz, View.ld_unit_zero (S := S4000x1) hz, View.ld_unit_zero (S := S1x64) hz,
    View.ld_unit_zero (S := S64x64) hz]
  refine funext fun (y : S4000x64.Idx) => ?_
  obtain ⟨p, q, rfl⟩ : ∃ (p : Fin 4000) (q : Fin 64), y = ix2 p q := ⟨y 0, y 1, eq_ix2 y⟩
  have ht := point_lt t
  obtain ⟨r, hr⟩ : ∃ r : Fin 100000, r.val = 4000 * t.val + p.val := ⟨⟨4000 * t.val + p.val, by omega⟩, rfl⟩
  show k3_pay1 (iblk3 V c 0 t) (iblk3 V c 1 t) (iblk3 V c 2 t) (iblk3 V c 3 t) (iblk3 V c 4 t) (iblk3 V c 5 t) (iblk3 V c 6 t) (iblk3 V c 7 t) (iblk3 V c 1 t) (ix2 p q)
    = Y V c (((cfg3.win 8).blk t).view.emb (ix2 p q))
  rw [out_emb t p q r hr, Y_apply, pay_apply]
  simp only [fun k => blk0_apply V c t p k r hr, blk1_apply V c t p r hr, blk2_apply V c t, blk3_apply V c t,
    blk4_apply V c t, blk5_apply V c t, blk6_apply V c t, blk7_apply V c t]
  unfold lin hn h
  rfl

/-- An index of the array is in point `t`'s block iff each coordinate is in the block's range on its axis. -/
theorem mem_blk (t : Fin cfg3.N) (i : S100000x64.Idx) :
    i ∈ ((cfg3.win 8).blk t).view.set ↔ ∀ a : Fin 2, win3_8.index t a * S4000x64.size a ≤ (i a).val
      ∧ (i a).val < win3_8.index t a * S4000x64.size a + S4000x64.size a := by
  show i ∈ ((View.whole main_v61).slice (win3_8.rect t)).set ↔ _
  rw [View.set_slice_whole, Rect.mem_set_unit]
  exact Iff.rfl

/-- Row `r` of the array is in the block of point `r / 4000`: the 25 blocks cover the array. -/
theorem cover (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 :=
    ⟨⟨(i 0).val / 4000, by omega⟩, rfl⟩
  obtain ⟨e00, e01, e10, e11, e20, e21, e30, e31, e40, e41, e50, e51, e60, e61, e70, e71, e80, e81⟩ := idx_facts t
  refine ⟨t, flush3_8 t, ?_⟩
  rw [mem_blk]
  intro a
  match a with
  | ⟨0, _⟩ =>
    show win3_8.index t (0 : Fin 2) * 4000 ≤ (i 0).val ∧ (i 0).val < win3_8.index t (0 : Fin 2) * 4000 + 4000
    rw [e80, ht]; omega
  | ⟨1, _⟩ =>
    show win3_8.index t (1 : Fin 2) * 64 ≤ (i 1).val ∧ (i 1).val < win3_8.index t (1 : Fin 2) * 64 + 64
    rw [e81]; omega

/-- The result array after the region is `Y` of the arrays the region found. -/
theorem final (c : Dev nD) : (dat3 V c).arrAt 8 cfg3.N = Y V c :=
  (dat3 V c).arrAt_eq_of_cover 8 (Y V c) (fun t _ => flushed_eq V c t) cover

/-- The result array after the region, entry by entry. -/
theorem out_final (c : Dev nD) (r : Fin 100000) (j : Fin 64) :
    ((dat3 (F := Ideal) V c).arrAt 8 cfg3.N : S100000x64.Idx → EReal) (ix2 r j) = lin V c r j := by
  rw [final]; rfl

end Cert.KernelIdeal.Norm3

end
-- ==== Proof.Norm5.lean ====
/-
  Region 5 of the kernel's main function, as one array.

  The region walks the 100000 rows of its operands in 25 blocks of 4000 rows. At block `t` it reads rows
  `4000·t … 4000·t + 3999` of the activations and of the per-row factor, the five per-feature rows (bias, mean,
  reciprocal standard deviation, scale, shift), and writes the same rows of its result. Read at the
  ideal values, where every float operation is the exact one on the extended reals and a change of float format
  is the identity, entry `(r, j)` of the result depends only on row `r` of the row operands, so the 25 blocks
  are the restrictions of ONE function of the whole operand arrays. This file states that function (`hn`)
  and proves that the result array holds it after the region, for any contents of the buffers at region entry.
-/
import proofs.«109028_j78546361909449_2_alg».proof.Proof.Gen.KernelIdeal.Frame
import Idealize.ShloMosaic.Lib.Pipeline.Value
import Idealize.ShloMosaic.Lib.ValueLayout
import Idealize.ShloMosaic.PureOps.Ideal.Laws

noncomputable section

open scoped BigOperators

namespace Cert.KernelIdeal.Norm5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the region finds, and the function its result array holds -/

/-- Operand 0 as the region finds it: the activations. -/
abbrev A (c : Dev nD) : S100000x64.Idx → EReal := V c (Pipeline.arrRef spec5 0)

/-- Operand 1 as the region finds it: the per-row factor. -/
abbrev D (c : Dev nD) : S100000x1.Idx → EReal := V c (Pipeline.arrRef spec5 1)

/-- Operand 2 as the region finds it: the bias row. -/
abbrev B (c : Dev nD) : S1x64.Idx → EReal := V c (Pipeline.arrRef spec5 2)

/-- Operand 3 as the region finds it: the per-feature mean. -/
abbrev M (c : Dev nD) : S1x64.Idx → EReal := V c (Pipeline.arrRef spec5 3)

/-- Operand 4 as the region finds it: the per-feature reciprocal standard deviation. -/
abbrev R (c : Dev nD) : S1x64.Idx → EReal := V c (Pipeline.arrRef spec5 4)

/-- Operand 5 as the region finds it: the learnt scale. -/
abbrev Ga (c : Dev nD) : S1x64.Idx → EReal := V c (Pipeline.arrRef spec5 5)

/-- Operand 6 as the region finds it: the learnt shift. -/
abbrev Be (c : Dev nD) : S1x64.Idx → EReal := V c (Pipeline.arrRef spec5 6)

/-- The activation entering the normalisation at row `r`, feature `k`: the input scaled by its row's factor, the bias added, clipped below at zero. -/
def h (c : Dev nD) (r : Fin 100000) (k : Fin 64) : EReal :=
  max (A V c (ix2 r k) * D V c (ix2 r (0 : Fin 1)) + B V c (ix2 (0 : Fin 1) k)) 0

/-- The normalised activation: centred by the feature's mean, scaled by its reciprocal standard deviation and by
    the learnt scale, the learnt shift added. -/
def hn (c : Dev nD) (r : Fin 100000) (k : Fin 64) : EReal :=
  ((h V c r k - M V c (ix2 (0 : Fin 1) k)) * R V c (ix2 (0 : Fin 1) k)) * Ga V c (ix2 (0 : Fin 1) k)
    + Be V c (ix2 (0 : Fin 1) k)

/-- The whole result array, index by index. -/
def Y (c : Dev nD) : S100000x64.Idx → EReal := fun i => hn V c (i 0) (i 1)

theorem Y_apply (c : Dev nD) (r : Fin 100000) (j : Fin 64) : Y V c (ix2 r j) = hn V c r j := rfl

/-! ## The body's arithmetic at one entry of a block -/

/-- A column `[a, 1]` broadcast along the second axis reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores at entry `(p, q)` of its block, from the blocks it loaded: every operation is pointwise,
    a per-feature row is read at column `q`, the per-row factor at row `p`. -/
theorem pay_apply (x0 : Vec Ideal S4000x64 .f32) (x1 : Vec Ideal S4000x1 .f32)
    (x2 x3 x4 x5 x6 : Vec Ideal S1x64 .f32) (p : Fin 4000) (q : Fin 64) :
    k5_pay1 x0 x1 x2 x3 x4 x5 x6 (ix2 p q)
      = ((max (x0 (ix2 p q) * x1 (ix2 p (0 : Fin 1)) + x2 (ix2 (0 : Fin 1) q)) 0 - x3 (ix2 (0 : Fin 1) q))
            * x4 (ix2 (0 : Fin 1) q)) * x5 (ix2 (0 : Fin 1) q) + x6 (ix2 (0 : Fin 1) q) := by
  unfold k5_pay1
  simp only [addf_apply, mulf_apply, subf_apply, maximumf_apply, broadcast_apply, shapeCast_self,
    broadcastTo_1b_ab_apply, broadcastTo_a1_ab_apply]
  rw [show (FloatOps.ofBits FTy.f32 0x00000000#32 : Ideal .f32) = 0 from Ideal.ofBits_zero_f32]

/-! ## Which rows a block holds -/

theorem hz : (![0, 0] : Fin 2 → Nat) = fun _ => 0 := funext fun a => by fin_cases a <;> rfl

/-- The block index maps over the 25 grid points: the row operands and the result move one block of rows per
    point, the per-feature rows stay where they are. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = t.val
    ∧ win5_7.index t (1 : Fin 2) = 0 :=
  (by decide +kernel : ∀ t : Fin grid5.N, _)

theorem point_lt (t : Fin cfg5.N) : t.val < 25 := by
  have h : t.val < cfg5.N := t.isLt
  have hN : cfg5.N = 25 := N_5
  omega

/-- Entry `(p, q)` of the activations' block at point `t` is the array's entry at row `4000·t + p`. -/
theorem blk0_apply (c : Dev nD) (t : Fin cfg5.N) (p : Fin 4000) (q : Fin 64) (r : Fin 100000)
    (hr : r.val = 4000 * t.val + p.val) :
    (iblk5 V c 0 t : Vec Ideal S4000x64 .f32) (ix2 p q) = A V c (ix2 r q) := by
  obtain ⟨e00, e01, e10, e11, e20, e21, e30, e31, e40, e41, e50, e51, e60, e61, e70, e71⟩ := idx_facts t
  show A V c (((cfg5.win 0).blk t).view.emb (ix2 p q)) = _
  refine congrArg _ (funext fun a => Fin.ext ?_)
  match a with
  | ⟨0, _⟩ => show win5_0.index t (0 : Fin 2) * 4000 + 1 * p.val = r.val; rw [e00, hr]; omega
  | ⟨1, _⟩ => show win5_0.index t (1 : Fin 2) * 64 + 1 * q.val = q.val; rw [e01]; omega

/-- Entry `p` of the per-row factor's block at point `t` is the column's entry at row `4000·t + p`. -/
theorem blk1_apply (c : Dev nD) (t : Fin cfg5.N) (p : Fin 4000) (r : Fin 100000)
    (hr : r.val = 4000 * t.val + p.val) :
    (iblk5 V c 1 t : Vec Ideal S4000x1 .f32) (ix2 p (0 : Fin 1)) = D V c (ix2 r (0 : Fin 1)) := by
  obtain ⟨e00, e01, e10, e11, e20, e21, e30, e31, e40, e41, e50, e51, e60, e61, e70, e71⟩ := idx_facts t
  show D V c (((cfg5.win 1).blk t).view.emb (ix2 p (0 : Fin 1))) = _
  refine congrArg _ (funext fun a => Fin.ext ?_)
  match a with
  | ⟨0, _⟩ => show win5_1.index t (0 : Fin 2) * 4000 + 1 * p.val = r.val; rw [e10, hr]; omega
  | ⟨1, _⟩ => show win5_1.index t (1 : Fin 2) * 1 + 1 * 0 = 0; rw [e11]

/-- The block of per-feature row `B` is the whole row at every point. -/
theorem blk2_apply (c : Dev nD) (t : Fin cfg5.N) (q : Fin 64) :
    (iblk5 V c 2 t : Vec Ideal S1x64 .f32) (ix2 (0 : Fin 1) q) = B V c (ix2 (0 : Fin 1) q) := by
  obtain ⟨e00, e01, e10, e11, e20, e21, e30, e31, e40, e41, e50, e51, e60, e61, e70, e71⟩ := idx_facts t
  show B V c (((cfg5.win 2).blk t).view.emb (ix2 (0 : Fin 1) q)) = _
  refine congrArg _ (funext fun a => Fin.ext ?_)
  match a with
  | ⟨0, _⟩ => show win5_2.index t (0 : Fin 2) * 1 + 1 * 0 = 0; rw [e20]
  | ⟨1, _⟩ => show win5_2.index t (1 : Fin 2) * 64 + 1 * q.val = q.val; rw [e21]; omega

/-- The block of per-feature row `M` is the whole row at every point. -/
theorem blk3_apply (c : Dev nD) (t : Fin cfg5.N) (q : Fin 64) :
    (iblk5 V c 3 t : Vec Ideal S1x64 .f32) (ix2 (0 : Fin 1) q) = M V c (ix2 (0 : Fin 1) q) := by
  obtain ⟨e00, e01, e10, e11, e20, e21, e30, e31, e40, e41, e50, e51, e60, e61, e70, e71⟩ := idx_facts t
  show M V c (((cfg5.win 3).blk t).view.emb (ix2 (0 : Fin 1) q)) = _
  refine congrArg _ (funext fun a => Fin.ext ?_)
  match a with
  | ⟨0, _⟩ => show win5_3.index t (0 : Fin 2) * 1 + 1 * 0 = 0; rw [e30]
  | ⟨1, _⟩ => show win5_3.index t (1 : Fin 2) * 64 + 1 * q.val = q.val; rw [e31]; omega

/-- The block of per-feature row `R` is the whole row at every point. -/
theorem blk4_apply (c : Dev nD) (t : Fin cfg5.N) (q : Fin 64) :
    (iblk5 V c 4 t : Vec Ideal S1x64 .f32) (ix2 (0 : Fin 1) q) = R V c (ix2 (0 : Fin 1) q) := by
  obtain ⟨e00, e01, e10, e11, e20, e21, e30, e31, e40, e41, e50, e51, e60, e61, e70, e71⟩ := idx_facts t
  show R V c (((cfg5.win 4).blk t).view.emb (ix2 (0 : Fin 1) q)) = _
  refine congrArg _ (funext fun a => Fin.ext ?_)
  match a with
  | ⟨0, _⟩ => show win5_4.index t (0 : Fin 2) * 1 + 1 * 0 = 0; rw [e40]
  | ⟨1, _⟩ => show win5_4.index t (1 : Fin 2) * 64 + 1 * q.val = q.val; rw [e41]; omega

/-- The block of per-feature row `Ga` is the whole row at every point. -/
theorem blk5_apply (c : Dev nD) (t : Fin cfg5.N) (q : Fin 64) :
    (iblk5 V c 5 t : Vec Ideal S1x64 .f32) (ix2 (0 : Fin 1) q) = Ga V c (ix2 (0 : Fin 1) q) := by
  obtain ⟨e00, e01, e10, e11, e20, e21, e30, e31, e40, e41, e50, e51, e60, e61, e70, e71⟩ := idx_facts t
  show Ga V c (((cfg5.win 5).blk t).view.emb (ix2 (0 : Fin 1) q)) = _
  refine congrArg _ (funext fun a => Fin.ext ?_)
  match a with
  | ⟨0, _⟩ => show win5_5.index t (0 : Fin 2) * 1 + 1 * 0 = 0; rw [e50]
  | ⟨1, _⟩ => show win5_5.index t (1 : Fin 2) * 64 + 1 * q.val = q.val; rw [e51]; omega

/-- The block of per-feature row `Be` is the whole row at every point. -/
theorem blk6_apply (c : Dev nD) (t : Fin cfg5.N) (q : Fin 64) :
    (iblk5 V c 6 t : Vec Ideal S1x64 .f32) (ix2 (0 : Fin 1) q) = Be V c (ix2 (0 : Fin 1) q) := by
  obtain ⟨e00, e01, e10, e11, e20, e21, e30, e31, e40, e41, e50, e51, e60, e61, e70, e71⟩ := idx_facts t
  show Be V c (((cfg5.win 6).blk t).view.emb (ix2 (0 : Fin 1) q)) = _
  refine congrArg _ (funext fun a => Fin.ext ?_)
  match a with
  | ⟨0, _⟩ => show win5_6.index t (0 : Fin 2) * 1 + 1 * 0 = 0; rw [e60]
  | ⟨1, _⟩ => show win5_6.index t (1 : Fin 2) * 64 + 1 * q.val = q.val; rw [e61]; omega

/-- Entry `(p, q)` of the result's block at point `t` sits in the array at row `4000·t + p`. -/
theorem out_emb (t : Fin cfg5.N) (p : Fin 4000) (q : Fin 64) (r : Fin 100000)
    (hr : r.val = 4000 * t.val + p.val) :
    ((cfg5.win 7).blk t).view.emb (ix2 p q) = (ix2 r q : S100000x64.Idx) := by
  obtain ⟨e00, e01, e10, e11, e20, e21, e30, e31, e40, e41, e50, e51, e60, e61, e70, e71⟩ := idx_facts t
  refine funext fun a => Fin.ext ?_
  match a with
  | ⟨0, _⟩ => show win5_7.index t (0 : Fin 2) * 4000 + 1 * p.val = r.val; rw [e70, hr]; omega
  | ⟨1, _⟩ => show win5_7.index t (1 : Fin 2) * 64 + 1 * q.val = q.val; rw [e71]; omega

/-! ## From the blocks to the array -/

/-- What point `t` writes back is block `t` of `Y`. -/
theorem flushed_eq (c : Dev nD) (t : Fin cfg5.N) :
    (dat5 V c).flushed 7 t = ((cfg5.win 7).blk t).view.read (Elt Ideal) (Y V c) := by
  show (cfg5.win 7).cut (grid5.coords t) ((dat5 V c).after 7 t) = _
  rw [after5_7]
  unfold out5_7
  rw [View.canon_unit_zero hz]
  simp only [View.ld_unit_zero (S := S4000x64) hz, View.ld_unit_zero (S := S4000x1) hz, View.ld_unit_zero (S := S1x64) hz]
  refine funext fun (y : S4000x64.Idx) => ?_
  obtain ⟨p, q, rfl⟩ : ∃ (p : Fin 4000) (q : Fin 64), y = ix2 p q := ⟨y 0, y 1, eq_ix2 y⟩
  have ht := point_lt t
  obtain ⟨r, hr⟩ : ∃ r : Fin 100000, r.val = 4000 * t.val + p.val := ⟨⟨4000 * t.val + p.val, by omega⟩, rfl⟩
  show k5_pay1 (iblk5 V c 0 t) (iblk5 V c 1 t) (iblk5 V c 2 t) (iblk5 V c 3 t) (iblk5 V c 4 t) (iblk5 V c 5 t) (iblk5 V c 6 t) (ix2 p q)
    = Y V c (((cfg5.win 7).blk t).view.emb (ix2 p q))
  rw [out_emb t p q r hr, Y_apply, pay_apply, blk0_apply V c t p q r hr, blk1_apply V c t p r hr,
    blk2_apply V c t q, blk3_apply V c t q, blk4_apply V c t q, blk5_apply V c t q, blk6_apply V c t q]
  unfold hn h
  rfl

/-- An index of the array is in point `t`'s block iff each coordinate is in the block's range on its axis. -/
theorem mem_blk (t : Fin cfg5.N) (i : S100000x64.Idx) :
    i ∈ ((cfg5.win 7).blk t).view.set ↔ ∀ a : Fin 2, win5_7.index t a * S4000x64.size a ≤ (i a).val
      ∧ (i a).val < win5_7.index t a * S4000x64.size a + S4000x64.size a := by
  show i ∈ ((View.whole main_v89).slice (win5_7.rect t)).set ↔ _
  rw [View.set_slice_whole, Rect.mem_set_unit]
  exact Iff.rfl

/-- Row `r` of the array is in the block of point `r / 4000`: the 25 blocks cover the array. -/
theorem cover (i : S100000x64.Idx) :
    ∃ t : Fin cfg5.N, (cfg5.win 7).flush t = true ∧ i ∈ ((cfg5.win 7).blk t).view.set := by
  have hi0 : (i 0).val < 100000 := (i 0).isLt
  have hi1 : (i 1).val < 64 := (i 1).isLt
  have hN : cfg5.N = 25 := N_5
  obtain ⟨t, ht⟩ : ∃ t : Fin cfg5.N, t.val = (i 0).val / 4000 :=
    ⟨⟨(i 0).val / 4000, by omega⟩, rfl⟩
  obtain ⟨e00, e01, e10, e11, e20, e21, e30, e31, e40, e41, e50, e51, e60, e61, e70, e71⟩ := idx_facts t
  refine ⟨t, flush5_7 t, ?_⟩
  rw [mem_blk]
  intro a
  match a with
  | ⟨0, _⟩ =>
    show win5_7.index t (0 : Fin 2) * 4000 ≤ (i 0).val ∧ (i 0).val < win5_7.index t (0 : Fin 2) * 4000 + 4000
    rw [e70, ht]; omega
  | ⟨1, _⟩ =>
    show win5_7.index t (1 : Fin 2) * 64 ≤ (i 1).val ∧ (i 1).val < win5_7.index t (1 : Fin 2) * 64 + 64
    rw [e71]; omega

/-- The result array after the region is `Y` of the arrays the region found. -/
theorem final (c : Dev nD) : (dat5 V c).arrAt 7 cfg5.N = Y V c :=
  (dat5 V c).arrAt_eq_of_cover 7 (Y V c) (fun t _ => flushed_eq V c t) cover

/-- The result array after the region, entry by entry. -/
theorem out_final (c : Dev nD) (r : Fin 100000) (j : Fin 64) :
    ((dat5 (F := Ideal) V c).arrAt 7 cfg5.N : S100000x64.Idx → EReal) (ix2 r j) = hn V c r j := by
  rw [final]; rfl

end Cert.KernelIdeal.Norm5

end
-- ==== Proof.KChain.lean ====
/-
  The idealized kernel's value: the arrays its regions leave, as the stage functions of the launch contents of the
  arguments, region after region — column sums and sums of squares of the region's input, the normalised and
  projected rows, the message passing — down to the result buffer.
-/
import proofs.«109028_j78546361909449_2_alg».proof.Proof.Gen.KernelIdeal.Frame
import proofs.«109028_j78546361909449_2_alg».proof.Proof.KEntry
import proofs.«109028_j78546361909449_2_alg».proof.Proof.KSpec
import proofs.«109028_j78546361909449_2_alg».proof.Proof.Stats0
import proofs.«109028_j78546361909449_2_alg».proof.Proof.Stats2
import proofs.«109028_j78546361909449_2_alg».proof.Proof.Stats4
import proofs.«109028_j78546361909449_2_alg».proof.Proof.Norm1
import proofs.«109028_j78546361909449_2_alg».proof.Proof.Norm3
import proofs.«109028_j78546361909449_2_alg».proof.Proof.Norm5

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.KernelIdeal.KEntry Cert.KernelIdeal.KHost Cert.KernelIdeal.KSpec
open Idealize.ShloMosaic.ValueIdx
open Cert.BnAlgebra (Cur)

variable (m : (ℓ : Loc nD τ sig) → Buf (Elt Ideal) ℓ) (ρ : Dev nD → PrngReg) (c : Dev nD)

/-! ## The stages, in order -/

/-- The first statistics region's input: `x` plus the zero bias. -/
def P0 : Cur := pre0 (X m ρ c main_arg0) (rowT (F := Ideal) zvecT)
/-- The input batch norm of `x`, in the kernel's spelling. -/
def N0 : Cur := hnS (P0 m ρ c) (meanT (F := Ideal) (sumRow (P0 m ρ c))) (rstdT (F := Ideal) (sumRow (P0 m ρ c)) (sqRow (P0 m ρ c)))
  (rowT (F := Ideal) (X m ρ c main_arg3)) (rowT (F := Ideal) (X m ρ c main_arg4))
/-- Its projection by `W1`, each row scaled by the normalisation column. -/
def H1 : Mat := matOf (linS (N0 m ρ c) (X m ρ c main_arg5) (DCOL m ρ c))
/-- The first message passing. -/
def A1 : Mat := msgT (F := Ideal) (H1 m ρ c) (ROW m ρ c) (COL m ρ c)
def P1 : Cur := preS (A1 m ρ c) (DCOL m ρ c) (rowT (F := Ideal) (X m ρ c main_arg6))
def N1 : Cur := hnS (P1 m ρ c) (meanT (F := Ideal) (sumRow (P1 m ρ c))) (rstdT (F := Ideal) (sumRow (P1 m ρ c)) (sqRow (P1 m ρ c)))
  (rowT (F := Ideal) (X m ρ c main_arg7)) (rowT (F := Ideal) (X m ρ c main_arg8))
def H2 : Mat := matOf (linS (N1 m ρ c) (X m ρ c main_arg9) (DCOL m ρ c))
def A2 : Mat := msgT (F := Ideal) (H2 m ρ c) (ROW m ρ c) (COL m ρ c)
def P2 : Cur := preS (A2 m ρ c) (DCOL m ρ c) (rowT (F := Ideal) (X m ρ c main_arg10))
def N2 : Cur := hnS (P2 m ρ c) (meanT (F := Ideal) (sumRow (P2 m ρ c))) (rstdT (F := Ideal) (sumRow (P2 m ρ c)) (sqRow (P2 m ρ c)))
  (rowT (F := Ideal) (X m ρ c main_arg11)) (rowT (F := Ideal) (X m ρ c main_arg12))

/-! ## Region 0 -/

theorem W4_v18_0 : W4 m ρ c (Proc.devRef .tc main_v18_0) = sumRow (P0 m ρ c) := by
  refine (W4_arr m ρ c 3).trans ?_
  funext i
  obtain ⟨a, j, rfl⟩ : ∃ (a : Fin 1) (j : Fin 64), i = ix2 a j := ⟨i 0, i 1, eq_ix2 i⟩
  obtain rfl : a = 0 := Subsingleton.elim _ _
  refine (Stats0.sum_final (V3 m ρ) c j).trans ?_
  have eA : Stats0.arrA (V3 m ρ) c = X m ρ c main_arg0 := W3_arg0 m ρ c
  have eB : Stats0.arrB (V3 m ρ) c = rowT (F := Ideal) zvecT := W3_v17 m ρ c
  unfold Stats0.pre
  rw [eA, eB]
  rfl
theorem W4_v18_1 : W4 m ρ c (Proc.devRef .tc main_v18_1) = sqRow (P0 m ρ c) := by
  refine (W4_arr m ρ c 4).trans ?_
  funext i
  obtain ⟨a, j, rfl⟩ : ∃ (a : Fin 1) (j : Fin 64), i = ix2 a j := ⟨i 0, i 1, eq_ix2 i⟩
  obtain rfl : a = 0 := Subsingleton.elim _ _
  refine (Stats0.sumsq_final (V3 m ρ) c j).trans ?_
  have eA : Stats0.arrA (V3 m ρ) c = X m ρ c main_arg0 := W3_arg0 m ρ c
  have eB : Stats0.arrB (V3 m ρ) c = rowT (F := Ideal) zvecT := W3_v17 m ρ c
  unfold Stats0.pre
  rw [eA, eB]
  rfl

/-! ## Region 1 -/

theorem W6_v33 : W6 m ρ c (Proc.devRef .tc main_v33) = H1 m ρ c := by
  refine (W6_arr m ρ c 8).trans ((Norm1.final (V5 m ρ) c).trans ?_)
  have eA : Norm1.A (V5 m ρ) c = X m ρ c main_arg0 := W5_arg0 m ρ c
  have eD : Norm1.D (V5 m ρ) c = DCOL m ρ c := W5_v15 m ρ c
  have eB : Norm1.B (V5 m ρ) c = rowT (F := Ideal) zvecT := W5_v30 m ρ c
  have eM : Norm1.M (V5 m ρ) c = meanT (F := Ideal) (sumRow (P0 m ρ c)) :=
    (W5_v20 m ρ c).trans (congrArg (meanT (F := Ideal)) (W4_v18_0 m ρ c))
  have eR : Norm1.R (V5 m ρ) c = rstdT (F := Ideal) (sumRow (P0 m ρ c)) (sqRow (P0 m ρ c)) := by
    refine (W5_v29 m ρ c).trans ?_
    rw [W4_v18_0 m ρ c, W4_v18_1 m ρ c]
  have eG : Norm1.Ga (V5 m ρ) c = rowT (F := Ideal) (X m ρ c main_arg3) := W5_v31 m ρ c
  have eBe : Norm1.Be (V5 m ρ) c = rowT (F := Ideal) (X m ρ c main_arg4) := W5_v32 m ρ c
  have eW : Norm1.Wt (V5 m ρ) c = X m ρ c main_arg5 := W5_arg5 m ρ c
  funext i
  show Norm1.lin (V5 m ρ) c (i 0) (i 1) = _
  unfold Norm1.lin Norm1.hn Norm1.h
  rw [eA, eD, eB, eM, eR, eG, eBe, eW]
  rfl

/-! ## Region 2 -/

theorem W8_v46_0 : W8 m ρ c (Proc.devRef .tc main_v46_0) = sumRow (P1 m ρ c) := by
  refine (W8_arr m ρ c 3).trans ?_
  funext i
  obtain ⟨a, j, rfl⟩ : ∃ (a : Fin 1) (j : Fin 64), i = ix2 a j := ⟨i 0, i 1, eq_ix2 i⟩
  obtain rfl : a = 0 := Subsingleton.elim _ _
  refine (Stats2.sum_final (V7 m ρ) c j).trans ?_
  have eA : Stats2.arrA (V7 m ρ) c = A1 m ρ c :=
    (W7_v44 m ρ c).trans (congrArg (fun h => msgT (F := Ideal) h (ROW m ρ c) (COL m ρ c)) (W6_v33 m ρ c))
  have eD : Stats2.arrD (V7 m ρ) c = DCOL m ρ c := W7_v15 m ρ c
  have eB : Stats2.arrB (V7 m ρ) c = rowT (F := Ideal) (X m ρ c main_arg6) := W7_v45 m ρ c
  unfold Stats2.pre
  rw [eA, eD, eB]
  rfl
theorem W8_v46_1 : W8 m ρ c (Proc.devRef .tc main_v46_1) = sqRow (P1 m ρ c) := by
  refine (W8_arr m ρ c 4).trans ?_
  funext i
  obtain ⟨a, j, rfl⟩ : ∃ (a : Fin 1) (j : Fin 64), i = ix2 a j := ⟨i 0, i 1, eq_ix2 i⟩
  obtain rfl : a = 0 := Subsingleton.elim _ _
  refine (Stats2.sumsq_final (V7 m ρ) c j).trans ?_
  have eA : Stats2.arrA (V7 m ρ) c = A1 m ρ c :=
    (W7_v44 m ρ c).trans (congrArg (fun h => msgT (F := Ideal) h (ROW m ρ c) (COL m ρ c)) (W6_v33 m ρ c))
  have eD : Stats2.arrD (V7 m ρ) c = DCOL m ρ c := W7_v15 m ρ c
  have eB : Stats2.arrB (V7 m ρ) c = rowT (F := Ideal) (X m ρ c main_arg6) := W7_v45 m ρ c
  unfold Stats2.pre
  rw [eA, eD, eB]
  rfl

/-! ## Region 3 -/

theorem W10_v61 : W10 m ρ c (Proc.devRef .tc main_v61) = H2 m ρ c := by
  refine (W10_arr m ρ c 8).trans ((Norm3.final (V9 m ρ) c).trans ?_)
  have eA : Norm3.A (V9 m ρ) c = A1 m ρ c :=
    (W9_v44 m ρ c).trans (congrArg (fun h => msgT (F := Ideal) h (ROW m ρ c) (COL m ρ c)) (W6_v33 m ρ c))
  have eD : Norm3.D (V9 m ρ) c = DCOL m ρ c := W9_v15 m ρ c
  have eB : Norm3.B (V9 m ρ) c = rowT (F := Ideal) (X m ρ c main_arg6) := W9_v58 m ρ c
  have eM : Norm3.M (V9 m ρ) c = meanT (F := Ideal) (sumRow (P1 m ρ c)) :=
    (W9_v48 m ρ c).trans (congrArg (meanT (F := Ideal)) (W8_v46_0 m ρ c))
  have eR : Norm3.R (V9 m ρ) c = rstdT (F := Ideal) (sumRow (P1 m ρ c)) (sqRow (P1 m ρ c)) := by
    refine (W9_v57 m ρ c).trans ?_
    rw [W8_v46_0 m ρ c, W8_v46_1 m ρ c]
  have eG : Norm3.Ga (V9 m ρ) c = rowT (F := Ideal) (X m ρ c main_arg7) := W9_v59 m ρ c
  have eBe : Norm3.Be (V9 m ρ) c = rowT (F := Ideal) (X m ρ c main_arg8) := W9_v60 m ρ c
  have eW : Norm3.Wt (V9 m ρ) c = X m ρ c main_arg9 := W9_arg9 m ρ c
  funext i
  show Norm3.lin (V9 m ρ) c (i 0) (i 1) = _
  unfold Norm3.lin Norm3.hn Norm3.h
  rw [eA, eD, eB, eM, eR, eG, eBe, eW]
  rfl

/-! ## Region 4 -/

theorem W12_v74_0 : W12 m ρ c (Proc.devRef .tc main_v74_0) = sumRow (P2 m ρ c) := by
  refine (W12_arr m ρ c 3).trans ?_
  funext i
  obtain ⟨a, j, rfl⟩ : ∃ (a : Fin 1) (j : Fin 64), i = ix2 a j := ⟨i 0, i 1, eq_ix2 i⟩
  obtain rfl : a = 0 := Subsingleton.elim _ _
  refine (Stats4.sum_final (V11 m ρ) c j).trans ?_
  have eA : Stats4.arrA (V11 m ρ) c = A2 m ρ c :=
    (W11_v72 m ρ c).trans (congrArg (fun h => msgT (F := Ideal) h (ROW m ρ c) (COL m ρ c)) (W10_v61 m ρ c))
  have eD : Stats4.arrD (V11 m ρ) c = DCOL m ρ c := W11_v15 m ρ c
  have eB : Stats4.arrB (V11 m ρ) c = rowT (F := Ideal) (X m ρ c main_arg10) := W11_v73 m ρ c
  unfold Stats4.pre
  rw [eA, eD, eB]
  rfl
theorem W12_v74_1 : W12 m ρ c (Proc.devRef .tc main_v74_1) = sqRow (P2 m ρ c) := by
  refine (W12_arr m ρ c 4).trans ?_
  funext i
  obtain ⟨a, j, rfl⟩ : ∃ (a : Fin 1) (j : Fin 64), i = ix2 a j := ⟨i 0, i 1, eq_ix2 i⟩
  obtain rfl : a = 0 := Subsingleton.elim _ _
  refine (Stats4.sumsq_final (V11 m ρ) c j).trans ?_
  have eA : Stats4.arrA (V11 m ρ) c = A2 m ρ c :=
    (W11_v72 m ρ c).trans (congrArg (fun h => msgT (F := Ideal) h (ROW m ρ c) (COL m ρ c)) (W10_v61 m ρ c))
  have eD : Stats4.arrD (V11 m ρ) c = DCOL m ρ c := W11_v15 m ρ c
  have eB : Stats4.arrB (V11 m ρ) c = rowT (F := Ideal) (X m ρ c main_arg10) := W11_v73 m ρ c
  unfold Stats4.pre
  rw [eA, eD, eB]
  rfl

/-! ## Region 5 -/

theorem W14_v89 : W14 m ρ c (Proc.devRef .tc main_v89) = matOf (N2 m ρ c) := by
  refine (W14_arr m ρ c 7).trans ((Norm5.final (V13 m ρ) c).trans ?_)
  have eA : Norm5.A (V13 m ρ) c = A2 m ρ c :=
    (W13_v72 m ρ c).trans (congrArg (fun h => msgT (F := Ideal) h (ROW m ρ c) (COL m ρ c)) (W10_v61 m ρ c))
  have eD : Norm5.D (V13 m ρ) c = DCOL m ρ c := W13_v15 m ρ c
  have eB : Norm5.B (V13 m ρ) c = rowT (F := Ideal) (X m ρ c main_arg10) := W13_v86 m ρ c
  have eM : Norm5.M (V13 m ρ) c = meanT (F := Ideal) (sumRow (P2 m ρ c)) :=
    (W13_v76 m ρ c).trans (congrArg (meanT (F := Ideal)) (W12_v74_0 m ρ c))
  have eR : Norm5.R (V13 m ρ) c = rstdT (F := Ideal) (sumRow (P2 m ρ c)) (sqRow (P2 m ρ c)) := by
    refine (W13_v85 m ρ c).trans ?_
    rw [W12_v74_0 m ρ c, W12_v74_1 m ρ c]
  have eG : Norm5.Ga (V13 m ρ) c = rowT (F := Ideal) (X m ρ c main_arg11) := W13_v87 m ρ c
  have eBe : Norm5.Be (V13 m ρ) c = rowT (F := Ideal) (X m ρ c main_arg12) := W13_v88 m ρ c
  funext i
  show Norm5.hn (V13 m ρ) c (i 0) (i 1) = _
  unfold Norm5.hn Norm5.h
  rw [eA, eD, eB, eM, eR, eG, eBe]
  rfl

/-! ## The result -/

/-- The result buffer: the pooling tail of the last batch norm. -/
theorem result : W15 m ρ c (Proc.devRef .tc main_v105)
    = tailT (F := Ideal) (matOf (N2 m ρ c)) (X m ρ c main_arg2) (X m ρ c main_arg13) (X m ρ c main_arg14) := by
  refine (W15_v105 m ρ c).trans ?_
  rw [W14_v89 m ρ c]

end Cert.KernelIdeal.KChain

end
-- ==== Proof.RefTypes.lean ====
/-
  The reference's stages as functions of arrays.

  The reference is three times a batch norm followed by a graph convolution (after the third, by a pooling tail), on
  top of a preprocessing of the edge list.  Each stage is written here once, as a function of the arrays it reads, at
  the extended reals: the batch norm of an array by a scale and a shift vector, the convolution of an array by a
  weight matrix along the edges, the tail, and the preprocessing (the endpoints with one self loop per node appended,
  the inverse square roots of the degrees, the edge weights).
-/
import proofs.«109028_j78546361909449_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.Segs

open Cert.ReferenceIdeal Cert.ReferenceIdeal.Gen Idealize.ShloMosaic Idealize.ShloMosaic.TcCoe Idealize.SL.Sem
  Idealize.ShloMosaic.StableHlo

/-- A [100000, 64] array of extended reals (node features). -/
abbrev Arr := (⟨S100000x64, .f32⟩ : BufTy).Contents (Elt Ideal)
/-- A [64] vector of extended reals (a scale, a shift or a bias). -/
abbrev Vec := (⟨S64, .f32⟩ : BufTy).Contents (Elt Ideal)
/-- A [64, 64] weight matrix. -/
abbrev Mat := (⟨S64x64, .f32⟩ : BufTy).Contents (Elt Ideal)
/-- The [2, 1280000] array of edge endpoints (32-bit words). -/
abbrev Edges := (⟨S2x1280000, .i32⟩ : BufTy).Contents (Elt Ideal)
/-- One endpoint per edge, the 100000 self loops appended: 1380000 words. -/
abbrev Ends := (⟨S1380000, .i32⟩ : BufTy).Contents (Elt Ideal)
/-- The same as a column, the form a gather or a scatter takes its indices in. -/
abbrev EndsCol := (⟨S1380000x1, .i32⟩ : BufTy).Contents (Elt Ideal)
/-- One extended real per edge (self loops included). -/
abbrev EdgeVec := (⟨S1380000, .f32⟩ : BufTy).Contents (Elt Ideal)
/-- One extended real per node. -/
abbrev NodeVec := (⟨S100000, .f32⟩ : BufTy).Contents (Elt Ideal)
/-- The graph each node belongs to. -/
abbrev Batch := (⟨S100000, .i32⟩ : BufTy).Contents (Elt Ideal)
/-- The [64, 2] output weights. -/
abbrev MatOut := (⟨S64x2, .f32⟩ : BufTy).Contents (Elt Ideal)
/-- The [2] output bias. -/
abbrev VecOut := (⟨S2, .f32⟩ : BufTy).Contents (Elt Ideal)
/-- The [1000, 2] result. -/
abbrev Out := (⟨S1000x2, .f32⟩ : BufTy).Contents (Elt Ideal)

/-! ## The batch norm -/

/-- A [64] vector repeated along the 100000 rows. -/
def bcRow (v : Vec) : Arr :=
  broadcastInDim S100000x64 ![0, 1] bcast_S1x64_S100000x64_0_1 (broadcastInDim S1x64 ![1] bcast_S64_S1x64_1 v)

/-- The column means: the column sums (started at zero) over 100000. -/
def bnMean (X : Arr) : Vec :=
  Host.divf (F := Ideal) (φ := .f32) (Host.reduceAdd (F := Ideal) (φ := .f32) X (constant (F := Ideal) S_ .f32 0x00000000#32) reducesTo_S100000x64_S64_d0 h_S_)
    (broadcastInDim S64 ![] bcast_S_S64 (constant (F := Ideal) S_ .f32 0x47C35000#32))

/-- The array less its column means. -/
def bnCenter (X : Arr) : Arr := subf (F := Ideal) (φ := .f32) X (bcRow (bnMean X))

/-- The biased column variances: the column sums of the squared deviations over 100000. -/
def bnVar (X : Arr) : Vec :=
  Host.divf (F := Ideal) (φ := .f32) (Host.reduceAdd (F := Ideal) (φ := .f32) (mulf (F := Ideal) (φ := .f32) (bnCenter X) (bnCenter X)) (constant (F := Ideal) S_ .f32 0x00000000#32)
      reducesTo_S100000x64_S64_d0 h_S_)
    (broadcastInDim S64 ![] bcast_S_S64 (constant (F := Ideal) S_ .f32 0x47C35000#32))

/-- The inverse square roots of the variances offset by the float nearest 1e-5. -/
def bnScale (X : Arr) : Vec :=
  Host.rsqrt (F := Ideal) (φ := .f32) (addf (F := Ideal) (φ := .f32) (bnVar X) (broadcastInDim S64 ![] bcast_S_S64 (constant (F := Ideal) S_ .f32 0x3727C5AC#32)))

/-- THE BATCH NORM of `X` with scale `g` and shift `b`. -/
def bnT (X : Arr) (g b : Vec) : Arr :=
  addf (F := Ideal) (φ := .f32) (mulf (F := Ideal) (φ := .f32) (mulf (F := Ideal) (φ := .f32) (bnCenter X) (bcRow (bnScale X))) (bcRow g)) (bcRow b)

/-! ## The convolution -/

/-- A vector of endpoints made ready for a gather: a negative word has 100000 added, and the vector becomes a
    column. -/
def normIdx (r : Ends) : EndsCol :=
  broadcastInDim S1380000x1 ![0] bcast_S1380000_S1380000x1_0
    (select (cmpi .slt r (broadcastInDim S1380000 ![] bcast_S_S1380000 (constantI S_ 32 0#32)))
      (addi r (broadcastInDim S1380000 ![] bcast_S_S1380000 (constantI S_ 32 100000#32))) r)

/-- The product of the node features with a weight matrix. -/
def prodT (H : Arr) (W : Mat) : Arr := Host.dotGeneral (F := Ideal) (φ₁ := .f32) (φ₂ := .f32) dot_S100000x64_S64x64_S100000x64_1_0_0_1_n_n none H W

/-- The messages: per edge, the row of `P` at the edge's source times the edge's weight. -/
def msgT (P : Arr) (row : Ends) (nrm : EdgeVec) : (⟨S1380000x64, .f32⟩ : BufTy).Contents (Elt Ideal) :=
  mulf (F := Ideal) (φ := .f32) (Host.gather gather_S100000x64_S1380000x1_S1380000x64_1_0_n_n_0_1_164 P (normIdx row))
    (broadcastInDim S1380000x64 ![0, 1] bcast_S1380000x1_S1380000x64_0_1
      (broadcastInDim S1380000x1 ![0] bcast_S1380000_S1380000x1_0 nrm))

/-- The messages summed into their targets, from zero. -/
def aggT (M : (⟨S1380000x64, .f32⟩ : BufTy).Contents (Elt Ideal)) (col : Ends) : Arr :=
  Host.scatterAdd (F := Ideal) (φ := .f32) scatter_S100000x64_S1380000x1_S1380000x64_1_0_0_1
    (broadcastInDim S100000x64 ![] bcast_S_S100000x64 (constant (F := Ideal) S_ .f32 0x00000000#32))
    (broadcastInDim S1380000x1 ![0] bcast_S1380000_S1380000x1_0 col) M

/-- THE CONVOLUTION followed by the bias and the relu. -/
def convT (H : Arr) (W : Mat) (row col : Ends) (nrm : EdgeVec) (bias : Vec) : Arr :=
  maximumf (F := Ideal) (φ := .f32) (addf (F := Ideal) (φ := .f32) (aggT (msgT (prodT H W) row nrm) col) (bcRow bias))
    (broadcastInDim S100000x64 ![] bcast_S_S100000x64 (constant (F := Ideal) S_ .f32 0x00000000#32))

/-! ## The tail: mean pooling per graph and the output layer -/

/-- The number of nodes of each graph, at least one. -/
def cntT (batch : Batch) : (⟨S1000, .f32⟩ : BufTy).Contents (Elt Ideal) :=
  maximumf (F := Ideal) (φ := .f32)
    (Host.scatterAdd (F := Ideal) (φ := .f32) scatter_S1000_S100000x1_S100000_n_0_0_1
      (broadcastInDim S1000 ![] bcast_S_S1000 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S1000 ![] bcast_S_S1000 (constant (F := Ideal) S_ .f32 0x3F800000#32))

/-- The rows of each graph summed, from zero. -/
def poolT (H : Arr) (batch : Batch) : (⟨S1000x64, .f32⟩ : BufTy).Contents (Elt Ideal) :=
  Host.scatterAdd (F := Ideal) (φ := .f32) scatter_S1000x64_S100000x1_S100000x64_1_0_0_1
    (broadcastInDim S1000x64 ![] bcast_S_S1000x64 (constant (F := Ideal) S_ .f32 0x00000000#32))
    (broadcastInDim S100000x1 ![0] bcast_S100000_S100000x1_0 batch) H

/-- THE TAIL: the per-graph means times the output weights plus the output bias. -/
def tailT (H : Arr) (batch : Batch) (Wo : MatOut) (bo : VecOut) : Out :=
  addf (F := Ideal) (φ := .f32) (Host.dotGeneral (F := Ideal) (φ₁ := .f32) (φ₂ := .f32) dot_S1000x64_S64x2_S1000x2_1_0_0_1_n_n none
      (Host.divf (F := Ideal) (φ := .f32) (poolT H batch)
        (broadcastInDim S1000x64 ![0, 1] bcast_S1000x1_S1000x64_0_1
          (broadcastInDim S1000x1 ![0] bcast_S1000_S1000x1_0 (cntT batch)))) Wo)
    (broadcastInDim S1000x2 ![0, 1] bcast_S1x2_S1000x2_0_1 (broadcastInDim S1x2 ![1] bcast_S2_S1x2_1 bo))

/-! ## The preprocessing of the edge list -/

/-- The sources: row 0 of the edge list, then every node once. -/
def rowT (E : Edges) : Ends :=
  concatenate S1380000 0
    [⟨S1280000, shapeCast _ (extractStridedSlice S1x1280000 ![0, 0] E slices_S2x1280000_S1x1280000_0_0)
        shapeCasts_S1x1280000_S1280000⟩, ⟨S100000, iotaInDim S100000 32 0⟩]
    concatenates_S1280000_S100000_S1380000_d0

/-- The targets: row 1 of the edge list, then every node once. -/
def colT (E : Edges) : Ends :=
  concatenate S1380000 0
    [⟨S1280000, shapeCast _ (extractStridedSlice S1x1280000 ![1, 0] E slices_S2x1280000_S1x1280000_1_0)
        shapeCasts_S1x1280000_S1280000⟩, ⟨S100000, iotaInDim S100000 32 0⟩]
    concatenates_S1280000_S100000_S1380000_d0

/-- The degrees: one per edge summed into its target, from zero. -/
def degT (col : Ends) : NodeVec :=
  Host.scatterAdd (F := Ideal) (φ := .f32) scatter_S100000_S1380000x1_S1380000_n_0_0_1
    (broadcastInDim S100000 ![] bcast_S_S100000 (constant (F := Ideal) S_ .f32 0x00000000#32))
    (broadcastInDim S1380000x1 ![0] bcast_S1380000_S1380000x1_0 col)
    (broadcastInDim S1380000 ![] bcast_S_S1380000 (constant (F := Ideal) S_ .f32 0x3F800000#32))

/-- The inverse square root of a positive degree, and zero otherwise. -/
def dinvT (col : Ends) : NodeVec :=
  select (cmpf (F := Ideal) (φ := .f32) .ogt (degT col) (broadcastInDim S100000 ![] bcast_S_S100000 (constant (F := Ideal) S_ .f32 0x00000000#32)))
    (Host.rsqrt (F := Ideal) (φ := .f32) (degT col))
    (broadcastInDim S100000 ![] bcast_S_S100000 (id (constant (F := Ideal) S_ .f32 0x00000000#32)))

/-- The edge weights: the product of the two endpoints' inverse square root degrees. -/
def nrmT (row col : Ends) (dinv : NodeVec) : EdgeVec :=
  mulf (F := Ideal) (φ := .f32) (Host.gather gather_S100000_S1380000x1_S1380000_n_0_n_n_0_1_1 dinv (normIdx row))
    (Host.gather gather_S100000_S1380000x1_S1380000_n_0_n_n_0_1_1 dinv (normIdx col))

end Cert.ReferenceIdeal.Segs

end
-- ==== Proof.RefBn.lean ====
/-
  The batch norm stage read at an index.

  At row r and column k the stage's result is ((X r k - mu k) * rsqrt (va k + eps)) * g k + b k, with mu k the column
  mean (the column sum, started at zero, over 100000) and va k the biased column variance (the column sum of the
  squared deviations over 100000): the plain function of the row and the column that the algebra of the two variance
  spellings is stated over.
-/
import proofs.«109028_j78546361909449_2_alg».proof.Proof.RefTypes
import proofs.«109028_j78546361909449_2_alg».proof.Proof.BnLaw
import Idealize.ShloMosaic.Lib.ValueIdx

noncomputable section

open scoped BigOperators

namespace Cert.ReferenceIdeal.Segs

open Cert.ReferenceIdeal Cert.ReferenceIdeal.Gen Idealize.ShloMosaic Idealize.ShloMosaic.TcCoe Idealize.SL.Sem
  Idealize.ShloMosaic.StableHlo
  Idealize.ShloMosaic.ValueIdx

/-- The number of rows, 100000, as the program's float word. -/
abbrev NN : EReal := Ideal.ofBits .f32 0x47C35000#32
/-- The variance offset: the float nearest 1e-5. -/
abbrev EPS : EReal := Ideal.ofBits .f32 0x3727C5AC#32

/-- An array as a function of the row and the column. -/
abbrev cur (X : Arr) : Cert.BnAlgebra.Cur := fun r k => X (ix2 r k)
/-- A vector as a function of the column. -/
abbrev vec (v : Vec) : Fin 64 → EReal := fun k => v (ix1 k)

/-! ## The layout operations at an index -/

/-- A vector repeated along the rows reads, at (r, k), the vector at k. -/
theorem bcRow_apply (v : Vec) (r : Fin 100000) (k : Fin 64) : bcRow v (ix2 r k) = v (ix1 k) := by
  unfold bcRow
  exact (broadcastInDim_apply _ bcast_S1x64_S100000x64_0_1 _ (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)])).trans
    (broadcastInDim_apply _ bcast_S64_S1x64_1 v (ix2 (0 : Fin 1) k) (ix1 k) (fun a => match a with
      | ⟨0, _⟩ => by show k.val = if (64 : Nat) = 1 then 0 else k.val; rw [if_neg (by decide)]))

/-- A scalar repeated into a [64] vector reads the scalar. -/
theorem bcScalar_apply (c : S_.Idx → EReal) (k : Fin 64) : broadcastInDim S64 ![] bcast_S_S64 c (ix1 k) = c ix0 :=
  broadcastInDim_apply _ bcast_S_S64 c (ix1 k) ix0 (fun a => a.elim0)

/-- A column sum started at the zero word is the sum over the rows. -/
theorem colSum_apply (Y : Arr) (k : Fin 64) :
    Host.reduceAdd (F := Ideal) (φ := .f32) Y (constant (F := Ideal) S_ .f32 0x00000000#32)
        reducesTo_S100000x64_S64_d0 h_S_ (ix1 k)
      = ∑ r : Fin 100000, Y (ix2 r k) := by
  simp only [Host.reduceAdd, Ideal.hostReduceAdd_def]
  rw [Ideal.hostReduceAdd_single reducesTo_S100000x64_S64_d0 (by decide)]
  rw [show (constant (F := Ideal) S_ .f32 0x00000000#32) (Shape.Idx.first h_S_) = (0 : EReal) from Ideal.ofBits_zero_f32,
    zero_add]
  refine Finset.sum_congr rfl fun r _ => congrArg Y ?_
  exact funext fun a => Fin.ext (by match a with | ⟨0, _⟩ => rfl | ⟨1, _⟩ => rfl)

/-! ## The stage's pieces at an index -/

/-- The column mean. -/
theorem bnMean_apply (X : Arr) (k : Fin 64) : bnMean X (ix1 k) = Cert.BnAlgebra.mu NN (cur X) k := by
  unfold bnMean Cert.BnAlgebra.mu
  show Ideal.div _ _ = _
  rw [colSum_apply, bcScalar_apply]
  rfl

/-- The deviation from the column mean. -/
theorem bnCenter_apply (X : Arr) (r : Fin 100000) (k : Fin 64) :
    bnCenter X (ix2 r k) = X (ix2 r k) - Cert.BnAlgebra.mu NN (cur X) k := by
  unfold bnCenter
  rw [subf_apply, bcRow_apply, bnMean_apply]

/-- The column variance. -/
theorem bnVar_apply (X : Arr) (k : Fin 64) : bnVar X (ix1 k) = Cert.BnAlgebra.vaR NN (cur X) k := by
  unfold bnVar Cert.BnAlgebra.vaR
  show Ideal.div _ _ = _
  rw [colSum_apply, bcScalar_apply]
  simp only [mulf_apply, bnCenter_apply]
  rfl

/-- The inverse square root of the offset variance. -/
theorem bnScale_apply (X : Arr) (k : Fin 64) :
    bnScale X (ix1 k) = Ideal.rsqrt (Cert.BnAlgebra.vaR NN (cur X) k + EPS) := by
  unfold bnScale
  show Ideal.rsqrt (_ + _) = _
  rw [bnVar_apply, bcScalar_apply]
  rfl

/-- THE BATCH NORM AT (r, k). -/
theorem bnT_apply (X : Arr) (g b : Vec) (r : Fin 100000) (k : Fin 64) :
    bnT X g b (ix2 r k) = Cert.BnAlgebra.bnR NN EPS (cur X) (vec g) (vec b) r k := by
  unfold bnT Cert.BnAlgebra.bnR
  rw [addf_apply, mulf_apply, mulf_apply, bcRow_apply, bcRow_apply, bcRow_apply, bnCenter_apply, bnScale_apply]

/-- The same with the sums written out. -/
theorem bnT_apply' (X : Arr) (g b : Vec) (r : Fin 100000) (k : Fin 64) :
    bnT X g b (ix2 r k)
      = ((X (ix2 r k) - Ideal.div (∑ r : Fin 100000, X (ix2 r k)) NN)
          * Ideal.rsqrt (Ideal.div (∑ r : Fin 100000, (X (ix2 r k) - Ideal.div (∑ r : Fin 100000, X (ix2 r k)) NN)
              * (X (ix2 r k) - Ideal.div (∑ r : Fin 100000, X (ix2 r k)) NN)) NN + EPS)) * g (ix1 k) + b (ix1 k) :=
  bnT_apply X g b r k

end Cert.ReferenceIdeal.Segs

end
-- ==== Proof.BridgeBn.lean ====
/-
  One batch-norm step of the bridge between the two programs. The kernel normalises its region's input `P` with a
  mean and an inverse standard deviation that the host computed from the two column sums (variance = mean of squares
  minus squared mean, floored at zero); the reference normalises its array `X` with the variance as the mean of the
  squared deviations. When `P` is `X`, entry by entry, and the entries are real numbers, the two results are one
  array, and its entries are real.
-/
import proofs.«109028_j78546361909449_2_alg».proof.Proof.KSpec
import proofs.«109028_j78546361909449_2_alg».proof.Proof.RefBn

set_option maxRecDepth 16384

noncomputable section

namespace Cert.Bridge

open Idealize.ShloMosaic Idealize.ShloMosaic.ValueIdx
open Cert.BnAlgebra
open Cert.KernelIdeal.KSpec Cert.KernelIdeal.KHost

abbrev RArr := Cert.ReferenceIdeal.Segs.Arr
abbrev RVec := Cert.ReferenceIdeal.Segs.Vec

/-- The word of 100000 is the real 100000; the epsilon's word is a positive real. -/
theorem nn_eq : Cert.KernelIdeal.KSpec.NN = ((100000 : ℝ) : EReal) := Cert.BnAlgebra.ofBits_n
theorem eps_pos : ∃ e : ℝ, 0 < e ∧ Cert.KernelIdeal.KSpec.EPS = (e : EReal) :=
  ⟨_, by norm_num, Cert.BnAlgebra.ofBits_eps⟩

/-- THE BATCH-NORM STEP: for a real array, the kernel's normalisation from its column sums is the reference's batch
    norm, entry by entry, and the result is real. -/
theorem bn_step (P : Cur) (Xr : RArr) (g b : RVec)
    (hPX : ∀ r k, P r k = Xr (ix2 r k)) (hX : ∀ r k, IsR (Xr (ix2 r k)))
    (hg : ∀ k, IsR (g (ix1 k))) (hb : ∀ k, IsR (b (ix1 k))) :
    (∀ r k, hnS P (meanT (F := Ideal) (sumRow P)) (rstdT (F := Ideal) (sumRow P) (sqRow P))
          (rowT (F := Ideal) g) (rowT (F := Ideal) b) r k
        = Cert.ReferenceIdeal.Segs.bnT Xr g b (ix2 r k))
    ∧ (∀ r k, IsR (Cert.ReferenceIdeal.Segs.bnT Xr g b (ix2 r k))) := by
  have hP : P = Cert.ReferenceIdeal.Segs.cur Xr := funext fun r => funext fun k => hPX r k
  subst hP
  refine ⟨fun r k => ?_, fun r k => ?_⟩
  · rw [hnS_eq_bnK, bnK_eq_bnR nn_eq _ hX, Cert.ReferenceIdeal.Segs.bnT_apply]
  · rw [Cert.ReferenceIdeal.Segs.bnT_apply]
    exact bnR_real nn_eq eps_pos _ hX _ _ hg hb r k

end Cert.Bridge

end
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.LibScatterScale.lean ====
/-
  GENERAL LEMMAS: pulling a factor out of an accumulating scatter, over the extended reals.

  Over the extended reals a product does not distribute over a sum in general (`+∞` and `-∞` among the summands),
  but a factor `k` with `0 ≤ k` and `k ≠ +∞` does come out of any finite sum, whatever the summands are
  (`mul_sum_of_nonneg`).  So for an accumulating float scatter read at the ideal values (each operand element plus
  the sum of the updates that land on it): if every update landing on element `i` is `k` times the matching update
  of a second scatter over the same indices, and the operand is zero at `i`, the first result at `i` is `k` times
  the second (`hostScatterAdd_scale`) — for any dimension numbers and shapes.
  Such factors arise as an inverse square root: `rsqrt x` of a positive extended real `x` (finite or `+∞`) is not
  negative and not `+∞` (`rsqrt_of_pos`), and so is the guarded form `where(x > 0, rsqrt x, 0)`
  (`select_rsqrt_good`).  Nothing here needs a finiteness hypothesis on the data.  Imports the library only.
-/
import Idealize.ShloMosaic.PureOps.Ideal.Laws
import Idealize.ShloMosaic.Lib.ValueIdx

noncomputable section

open scoped BigOperators

namespace Cert.ScatterScale

open Idealize.ShloMosaic Idealize.ShloMosaic.ValueIdx

/-! ## A factor that is not negative and not `+∞` comes out of a finite sum -/

theorem mul_sum_of_nonneg {ι : Type} (s : Finset ι) (g : ι → EReal) (k : EReal) (h0 : 0 ≤ k) (ht : k ≠ ⊤) :
    ∑ j ∈ s, k * g j = k * ∑ j ∈ s, g j := by
  classical
  induction s using Finset.induction_on with
  | empty => simp
  | insert a s ha ih =>
    rw [Finset.sum_insert ha, Finset.sum_insert ha, ih, EReal.left_distrib_of_nonneg_of_ne_top h0 ht]

/-- An accumulating scatter from zero whose landing updates are all `k` times another scatter's: the result is `k`
    times the other's, for `k` not negative and not `+∞`. -/
theorem hostScatterAdd_scale {s si su : Shape} (d : ScatterDims s si su) {w : Nat} (x : s.Idx → EReal) (idx : IVec si w)
    (u1 u2 : su.Idx → EReal) (i : s.Idx) (k : EReal) (hx : x i = 0) (h0 : 0 ≤ k) (ht : k ≠ ⊤)
    (hu : ∀ j, d.resultIdx? j idx = some i → u1 j = k * u2 j) :
    Ideal.hostScatterAdd d x idx u1 i = k * Ideal.hostScatterAdd d x idx u2 i := by
  unfold Ideal.hostScatterAdd
  rw [hx, zero_add, zero_add, ← mul_sum_of_nonneg _ _ k h0 ht]
  exact Finset.sum_congr rfl fun j hj => hu j (Finset.mem_filter.mp hj).2

/-! ## An inverse square root of a positive number is such a factor -/

theorem rsqrt_of_pos (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- Zero, or the inverse square root of a positive extended real: not negative, not `+∞`. -/
theorem select_rsqrt_good (g : EReal) :
    0 ≤ Scalar.select (Ideal.cmp .ogt g 0) (Ideal.rsqrt g) 0 ∧ Scalar.select (Ideal.cmp .ogt g 0) (Ideal.rsqrt g) 0 ≠ ⊤ := by
  by_cases hd : (0 : EReal) < g
  · have hc : Ideal.cmp .ogt g 0 = 1#1 := by simp [Ideal.cmp, hd]
    rw [hc, ValueIdx.select_one]
    exact rsqrt_of_pos _ hd
  · have hc : Ideal.cmp .ogt g 0 = 0#1 := by simp [Ideal.cmp, hd]
    rw [hc, ValueIdx.select_zero]
    exact ⟨le_refl _, EReal.zero_ne_top⟩

end Cert.ScatterScale

end
-- ==== Proof.LibMsgCore.lean ====
/-
  Message passing with a symmetric normalisation, as one accumulating row scatter of gathered rows.

  With a row gather by the edges' sources and an accumulating row scatter into the edges' targets, suppose the gathered
  table is HS[r, j] = L[r, j] · d[r] and the scattered updates are U[e, j] = L[src e, j] · (d[src e] · d[tgt e]). Every
  update that lands on row v has tgt e = v, so it is d[v] times the gathered entry HS[src e, j]; a factor d[v] that is
  not negative and not +∞ comes out of the sum over the landing updates. Hence the scatter of U is d[v] times the
  scatter of the gathered rows of HS, at every (v, j), with no finiteness assumption on L.

  Also: a finite sum of real numbers is a real number, so an accumulating scatter from zero of real updates is real.
-/
import proofs.«109028_j78546361909449_2_alg».proof.Proof.LibRowOps
import proofs.«109028_j78546361909449_2_alg».proof.Proof.LibScatterScale

noncomputable section

open scoped BigOperators

namespace Cert.MsgCore

open Idealize.ShloMosaic Idealize.ShloMosaic.ValueIdx Idealize.ShloMosaic.RowOps

/-- A start index whose signed value is the row number v (below N) clamps to v. -/
theorem clampRow_of_toInt {N : Nat} (hN : 0 < N) {w : Nat} (z : BitVec w) (v : Fin N) (h : z.toInt = (v.val : ℤ)) :
    clampRow N hN z = v := by
  unfold clampRow
  refine Fin.ext ?_
  have hv := v.isLt
  show min z.toInt.toNat (N - 1) = v.val
  rw [h, Int.toNat_natCast]
  omega

/-- A finite sum of real numbers is a real number. -/
theorem sum_real {ι : Type} (s : Finset ι) (f : ι → EReal) (h : ∀ i ∈ s, ∃ a : ℝ, f i = (a : EReal)) :
    ∃ a : ℝ, ∑ i ∈ s, f i = (a : EReal) := by
  classical
  induction s using Finset.induction_on with
  | empty => exact ⟨0, by simp⟩
  | insert b s hb ih =>
    obtain ⟨a1, h1⟩ := h b (Finset.mem_insert_self b s)
    obtain ⟨a2, h2⟩ := ih (fun i hi => h i (Finset.mem_insert_of_mem hi))
    exact ⟨a1 + a2, by rw [Finset.sum_insert hb, h1, h2, EReal.coe_add]⟩

/-- An accumulating scatter, from an operand entry that is zero, of updates that are all real numbers is a real
    number at that entry. -/
theorem hostScatterAdd_real {s si su : Shape} (D : ScatterDims s si su) {w : Nat} (x : s.Idx → EReal) (idx : IVec si w)
    (u : su.Idx → EReal) (i : s.Idx) (hx : x i = 0) (hu : ∀ j, ∃ a : ℝ, u j = (a : EReal)) :
    ∃ a : ℝ, Ideal.hostScatterAdd D x idx u i = (a : EReal) := by
  unfold Ideal.hostScatterAdd
  obtain ⟨a, ha⟩ := sum_real (Finset.univ.filter (fun j => D.resultIdx? j idx = some i)) u (fun j _ => hu j)
  exact ⟨a, by rw [hx, zero_add, ha]⟩

section Scale
variable {N E C w w' : Nat} (hN : 0 < N)
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])

/-- The scaling law. src e is the row the gather reads for edge e; tgt e is any function that agrees with the row an
    update lands on whenever it lands. -/
theorem scatter_gather_scale (Z : (⟨2, ![N, C]⟩ : Shape).Idx → EReal) (idxC : IVec ⟨2, ![E, 1]⟩ w)
    (idxR : IVec ⟨2, ![E, 1]⟩ w') (HS L : (⟨2, ![N, C]⟩ : Shape).Idx → EReal) (d : Fin N → EReal)
    (U : (⟨2, ![E, C]⟩ : Shape).Idx → EReal) (src tgt : Fin E → Fin N)
    (hsrc : ∀ e, src e = clampRow N hN (idxR (ix2 e (0 : Fin 1))))
    (htgt : ∀ e (v : Fin N), (idxC (ix2 e (0 : Fin 1))).toInt = (v.val : ℤ) → tgt e = v)
    (hd : ∀ v, 0 ≤ d v ∧ d v ≠ ⊤)
    (hHS : ∀ r j, HS (ix2 r j) = L (ix2 r j) * d r)
    (hU : ∀ (e : Fin E) (j : Fin C), U (ix2 e j) = L (ix2 (src e) j) * (d (src e) * d (tgt e)))
    (v : Fin N) (j : Fin C) (hZ : Z (ix2 v j) = 0) :
    Ideal.hostScatterAdd (rowScatterDims N E C wfS) Z idxC U (ix2 v j)
      = Ideal.hostScatterAdd (rowScatterDims N E C wfS) Z idxC (Host.gather (rowGatherDims N E C wfG) HS idxR) (ix2 v j)
        * d v := by
  rw [mul_comm]
  refine Cert.ScatterScale.hostScatterAdd_scale _ Z idxC U _ (ix2 v j) (d v) hZ (hd v).1 (hd v).2 ?_
  intro j' hl
  obtain ⟨e, b, rfl⟩ : ∃ e b, j' = ix2 e b := ⟨j' 0, j' 1, eq_ix2 j'⟩
  obtain ⟨hz, rfl⟩ := (rowScatter_lands_iff wfS idxC e b v j).1 hl
  rw [rowGather_apply hN wfG HS idxR e b, ← hsrc e, hHS, hU, htgt e v hz, mul_comm (d v), mul_assoc]

end Scale

end Cert.MsgCore

end
-- ==== Proof.KMsg.lean ====
/-
  The message passing of the graph convolution, with the degree normalisation pulled out.

  The program gathers the rows of a table HS by the edges' sources and sums them into the edges' targets. If
  HS[r, j] = L[r, j] · d[r] for a normalisation d that is nowhere negative and nowhere +∞, then summing the updates
  U[e, j] = L[src e, j] · (d[src e] · d[tgt e]) into the targets gives, at row v, d[v] times the program's sum: every
  update that lands on row v has tgt e = v. The targets' indices are read signed and land only when in range, so a
  landing index is not negative: wrapping negative indices changes nothing there, and clamping leaves it alone.
-/
import proofs.«109028_j78546361909449_2_alg».proof.Proof.KHost
import proofs.«109028_j78546361909449_2_alg».proof.Proof.LibMsgCore

noncomputable section

open scoped BigOperators

namespace Cert.KernelIdeal.KMsg

open Cert.KernelIdeal Cert.KernelIdeal.Gen Cert.KernelIdeal.KHost
open Idealize.ShloMosaic Idealize.ShloMosaic.ValueIdx Idealize.ShloMosaic.RowOps

/-- The row a gather by the index vector row reads at edge e: the index with a negative value wrapped by the
    number of rows, read signed and clamped into range. -/
def g (row : IVec S1380000 32) (e : Fin 1380000) : Fin 100000 :=
  clampRow 100000 (by decide) (nrowT row (ix2 e (0 : Fin 1)))

/-- An index vector laid out as a one-column matrix reads the vector's entry. -/
theorem col_apply (col : IVec S1380000 32) (e : Fin 1380000) (z : Fin 1) :
    broadcastInDim S1380000x1 ![0] bcast_S1380000_S1380000x1_0 col (ix2 e z) = col (ix1 e) := by
  unfold broadcastInDim
  refine congrArg col (funext fun a => Fin.ext ?_)
  match a with
  | ⟨0, _⟩ => rfl

/-- The wrapped index at edge e: the entry plus the number of rows if the entry is negative, else the entry. -/
theorem nrowT_apply (row : IVec S1380000 32) (e : Fin 1380000) :
    nrowT row (ix2 e (0 : Fin 1))
      = Scalar.select (IntOp.cmpi .slt (row (ix1 e)) 0#32) (IntOp.addi (row (ix1 e)) 100000#32) (row (ix1 e)) := by
  unfold nrowT
  rw [col_apply]
  rfl

/-- An entry that is a row number (so not negative) is not wrapped. -/
theorem nrowT_of_toInt (row : IVec S1380000 32) (e : Fin 1380000) (v : Fin 100000)
    (h : (row (ix1 e)).toInt = (v.val : ℤ)) : nrowT row (ix2 e (0 : Fin 1)) = row (ix1 e) := by
  rw [nrowT_apply]
  have hc : IntOp.cmpi .slt (row (ix1 e)) 0#32 = 0#1 := by
    refine eq_zero_of_ne_one fun h1 => ?_
    have := IntOp.cmpi_slt.1 h1
    rw [h] at this
    have h0 : (0#32 : BitVec 32).toInt = 0 := by decide
    omega
  rw [hc, select_zero]

/-- An update whose target index is the row number v has g = v. -/
theorem g_of_lands (col : IVec S1380000 32) (e : Fin 1380000) (v : Fin 100000)
    (h : (broadcastInDim S1380000x1 ![0] bcast_S1380000_S1380000x1_0 col (ix2 e (0 : Fin 1))).toInt = (v.val : ℤ)) :
    g col e = v := by
  rw [col_apply] at h
  unfold g
  rw [nrowT_of_toInt col e v h]
  exact Cert.MsgCore.clampRow_of_toInt (by decide) _ v h

/-- The zero matrix the sums start from reads 0 everywhere. -/
theorem zeros_apply (i : S100000x64.Idx) :
    (broadcastInDim S100000x64 ![] bcast_S_S100000x64 (constant (F := Ideal) S_ .f32 0x00000000#32)) i = 0 :=
  Ideal.ofBits_zero_f32

/-- The program's scatter record is the row scatter's. -/
theorem sc_eq : scatter_S100000x64_S1380000x1_S1380000x64_1_0_0_1
    = rowScatterDims 100000 1380000 64 scatter_S100000x64_S1380000x1_S1380000x64_1_0_0_1_wf := rfl

/-- The program's gather record is the row gather's. -/
theorem gd_eq : gather_S100000x64_S1380000x1_S1380000x64_1_0_n_n_0_1_164
    = rowGatherDims 100000 1380000 64 gather_S100000x64_S1380000x1_S1380000x64_1_0_n_n_0_1_164_wf := rfl

/-- The program's accumulating scatter, at the ideal values, over the row scatter's record. -/
theorem scatterAdd_eq (Z : FVec Ideal S100000x64 .f32) (idx : IVec S1380000x1 32) (U : FVec Ideal S1380000x64 .f32) :
    Host.scatterAdd (F := Ideal) scatter_S100000x64_S1380000x1_S1380000x64_1_0_0_1 Z idx U
      = Ideal.hostScatterAdd (rowScatterDims 100000 1380000 64 scatter_S100000x64_S1380000x1_S1380000x64_1_0_0_1_wf)
          Z idx U := by
  unfold Host.scatterAdd
  rw [Ideal.hostScatterAdd_def, sc_eq]

/-- The gathered rows, widened: at the ideal values the widening is the identity. -/
theorem gathered_eq (HS : FVec Ideal S100000x64 .bf16) (idx : IVec S1380000x1 32) :
    (extf .f32 (Host.gather gather_S100000x64_S1380000x1_S1380000x64_1_0_n_n_0_1_164 HS idx) bitsLt_bf16_f32
        : FVec Ideal S1380000x64 .f32)
      = Host.gather (rowGatherDims 100000 1380000 64 gather_S100000x64_S1380000x1_S1380000x64_1_0_n_n_0_1_164_wf) HS idx := by
  rw [gd_eq]
  rfl

/-- The program's message passing as a row scatter of gathered rows. -/
theorem msgT_eq (HS : FVec Ideal S100000x64 .bf16) (row col : IVec S1380000 32) :
    msgT HS row col
      = Ideal.hostScatterAdd (rowScatterDims 100000 1380000 64 scatter_S100000x64_S1380000x1_S1380000x64_1_0_0_1_wf)
          (broadcastInDim S100000x64 ![] bcast_S_S100000x64 (constant (F := Ideal) S_ .f32 0x00000000#32))
          (broadcastInDim S1380000x1 ![0] bcast_S1380000_S1380000x1_0 col)
          (Host.gather (rowGatherDims 100000 1380000 64 gather_S100000x64_S1380000x1_S1380000x64_1_0_n_n_0_1_164_wf)
            HS (nrowT row)) := by
  unfold msgT
  rw [scatterAdd_eq, gathered_eq]

/-- THE SCALING LAW of the message passing. -/
theorem msg_scale (HS : FVec Ideal S100000x64 .bf16) (L : FVec Ideal S100000x64 .f32) (d : Fin 100000 → EReal)
    (row col : IVec S1380000 32) (U : FVec Ideal S1380000x64 .f32)
    (hd : ∀ v, 0 ≤ d v ∧ d v ≠ ⊤)
    (hHS : ∀ r j, HS (ix2 r j) = L (ix2 r j) * d r)
    (hU : ∀ (e : Fin 1380000) (j : Fin 64), U (ix2 e j) = L (ix2 (g row e) j) * (d (g row e) * d (g col e)))
    (v : Fin 100000) (j : Fin 64) :
    Host.scatterAdd (F := Ideal) scatter_S100000x64_S1380000x1_S1380000x64_1_0_0_1
        (broadcastInDim S100000x64 ![] bcast_S_S100000x64 (constant S_ .f32 0x00000000#32))
        (broadcastInDim S1380000x1 ![0] bcast_S1380000_S1380000x1_0 col) U (ix2 v j)
      = msgT HS row col (ix2 v j) * d v := by
  rw [scatterAdd_eq, msgT_eq]
  have hN : 0 < 100000 := by decide
  have key := Cert.MsgCore.scatter_gather_scale (N := 100000) (E := 1380000) (C := 64) (w := 32) (w' := 32) hN
    scatter_S100000x64_S1380000x1_S1380000x64_1_0_0_1_wf gather_S100000x64_S1380000x1_S1380000x64_1_0_n_n_0_1_164_wf
    (broadcastInDim S100000x64 ![] bcast_S_S100000x64 (constant (F := Ideal) S_ .f32 0x00000000#32))
    (broadcastInDim S1380000x1 ![0] bcast_S1380000_S1380000x1_0 col) (nrowT row) HS L d U (g row) (g col)
  have h1 : ∀ e, g row e = clampRow 100000 hN (nrowT row (ix2 e (0 : Fin 1))) := fun _ => rfl
  have key2 := key h1 (g_of_lands col) hd
  have key3 := key2 hHS hU
  exact key3 v j (zeros_apply _)

/-- If every entry of the gathered table is a real number, so is every entry of the program's sum. -/
theorem msgT_real (HS : FVec Ideal S100000x64 .bf16) (row col : IVec S1380000 32)
    (hHS : ∀ i, ∃ a : ℝ, HS i = (a : EReal)) (i : S100000x64.Idx) : ∃ a : ℝ, msgT HS row col i = (a : EReal) := by
  rw [msgT_eq]
  exact Cert.MsgCore.hostScatterAdd_real _ _ _ _ i (zeros_apply i) (fun _ => hHS _)

end Cert.KernelIdeal.KMsg

end
-- ==== Proof.RefConv.lean ====
/-
  The reference's graph convolution, read at an index.

  Every stage of the convolution is an array whose entry at an index depends on a few entries of the arrays it is
  made from.  A vector repeated along the rows reads the vector's entry of the column.  The product of the node
  features with a weight matrix reads the sum, over the 64 inner coordinates, of the products.  The edge weight of
  edge e is the product of the two inverse-square-root degrees found at the edge's endpoints, and the message of
  edge e is the row of the product found at the edge's source, times the edge weight: an endpoint is a 32-bit word,
  a negative word has 100000 added, and the row read is that word as a signed number clamped into the node range.
  The convolution's result is the accumulated messages plus the bias, clamped below at zero.
-/
import proofs.«109028_j78546361909449_2_alg».proof.Proof.RefTypes
import proofs.«109028_j78546361909449_2_alg».proof.Proof.LibRowOps
import proofs.«109028_j78546361909449_2_alg».proof.Proof.LibScatterScale
import proofs.«109028_j78546361909449_2_alg».proof.Proof.LibMatProd
import Idealize.ShloMosaic.Lib.Pipeline.Value
import Idealize.ShloMosaic.Lib.ValueIdx
import Idealize.ShloMosaic.PureOps.Ideal.Laws

noncomputable section

open scoped BigOperators

namespace Cert.ReferenceIdeal.SegsAt

open Cert.ReferenceIdeal Cert.ReferenceIdeal.Gen Idealize.ShloMosaic Idealize.ShloMosaic.ValueIdx
open Cert.ReferenceIdeal.Segs (bcRow prodT normIdx msgT aggT convT nrmT dinvT degT)

/-! ## A vector repeated along the rows -/

/-- Row `r`, column `k` of a [64] vector repeated along 100000 rows is the vector's entry `k`. -/
theorem bcRow_apply (v : Segs.Vec) (r : Fin 100000) (k : Fin 64) : bcRow v (ix2 r k) = v (ix1 k) := by
  unfold bcRow
  refine (broadcastInDim_apply ![0, 1] bcast_S1x64_S100000x64_0_1 _ (ix2 r k) (ix2 (0 : Fin 1) k) (fun a => ?_)).trans ?_
  · match a with
    | ⟨0, _⟩ => rfl
    | ⟨1, _⟩ => rfl
  · exact broadcastInDim_apply ![1] bcast_S64_S1x64_1 v (ix2 (0 : Fin 1) k) (ix1 k) (fun a => by
      match a with
      | ⟨0, _⟩ => rfl)

/-! ## The product with the weight matrix -/

/-- The product's dimension numbers contract the features' columns with the weights' rows. -/
theorem dot_contracts : Cert.Linear.Contracts (R := 100000) (K := 64) (N := 64) dot_S100000x64_S64x64_S100000x64_1_0_0_1_n_n where
  rank := rfl
  size := rfl
  lhs0 := fun i q => by
    unfold DotDims.lhsIdx
    rw [dif_neg (show ¬(0 : Fin S100000x64.rank) ∈ dot_S100000x64_S64x64_S100000x64_1_0_0_1_n_n.lhsBatch by decide),
      dif_pos (show (0 : Fin S100000x64.rank) ∈ dot_S100000x64_S64x64_S100000x64_1_0_0_1_n_n.lhsNonContracting by decide)]
    rfl
  lhs1 := fun i q => dot_S100000x64_S64x64_S100000x64_1_0_0_1_n_n.lhsIdx_val_of_single rfl i q
  rhs0 := fun i q => dot_S100000x64_S64x64_S100000x64_1_0_0_1_n_n.rhsIdx_val_of_single rfl i q
  rhs1 := fun i q => by
    unfold DotDims.rhsIdx
    rw [dif_neg (show ¬(1 : Fin S64x64.rank) ∈ dot_S100000x64_S64x64_S100000x64_1_0_0_1_n_n.rhsBatch by decide),
      dif_pos (show (1 : Fin S64x64.rank) ∈ dot_S100000x64_S64x64_S100000x64_1_0_0_1_n_n.rhsNonContracting by decide)]
    rfl

/-- Entry `(r, j)` of the product: row `r` of the features against column `j` of the weights. -/
theorem prodT_apply (H : Segs.Arr) (W : Segs.Mat) (r : Fin 100000) (j : Fin 64) :
    prodT H W (ix2 r j) = ∑ k : Fin 64, H (ix2 r k) * W (ix2 k j) := by
  unfold prodT
  simp only [Host.dotGeneral]
  rw [Cert.Linear.dotGeneral_eq dot_contracts]
  rfl

/-! ## The endpoints as rows -/

/-- The node an endpoint word names for a gather: the word made ready by `normIdx`, read signed and clamped into the
    node range. -/
def g (r : Segs.Ends) (e : Fin 1380000) : Fin 100000 :=
  RowOps.clampRow 100000 (by decide) (normIdx r (ix2 e (0 : Fin 1)))

/-- The dimension numbers of a gather from a vector: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gather from a vector read at `e`: the operand at the entry `idx[e]` names (signed, clamped). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (RowOps.clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The program's vector gather has these dimension numbers. -/
theorem vec_gather_eq : gather_S100000_S1380000x1_S1380000_n_0_n_n_0_1_1 = vecGatherDims 100000 1380000 gather_S100000_S1380000x1_S1380000_n_0_n_n_0_1_1_wf := rfl

/-- The program's row gather has the row gather's dimension numbers. -/
theorem row_gather_eq : gather_S100000x64_S1380000x1_S1380000x64_1_0_n_n_0_1_164 = RowOps.rowGatherDims 100000 1380000 64 gather_S100000x64_S1380000x1_S1380000x64_1_0_n_n_0_1_164_wf := rfl

/-! ## The edge weights and the messages -/

/-- The weight of edge `e`: the product of the inverse-square-root degrees at its two endpoints. -/
theorem nrmT_apply (row col : Segs.Ends) (dinv : Segs.NodeVec) (e : Fin 1380000) :
    nrmT row col dinv (ix1 e) = dinv (ix1 (g row e)) * dinv (ix1 (g col e)) := by
  unfold nrmT
  show Host.gather gather_S100000_S1380000x1_S1380000_n_0_n_n_0_1_1 dinv (normIdx row) (ix1 e) * Host.gather gather_S100000_S1380000x1_S1380000_n_0_n_n_0_1_1 dinv (normIdx col) (ix1 e) = _
  rw [vec_gather_eq, vecGather_apply (by decide), vecGather_apply (by decide)]
  rfl

/-- The message of edge `e` at column `j`: the product's row at the edge's source, times the edge's weight. -/
theorem msgT_apply (P : Segs.Arr) (row : Segs.Ends) (nrm : Segs.EdgeVec) (e : Fin 1380000) (j : Fin 64) :
    msgT P row nrm (ix2 e j) = P (ix2 (g row e) j) * nrm (ix1 e) := by
  unfold msgT
  show Host.gather gather_S100000x64_S1380000x1_S1380000x64_1_0_n_n_0_1_164 P (normIdx row) (ix2 e j)
      * broadcastInDim S1380000x64 ![0, 1] bcast_S1380000x1_S1380000x64_0_1
          (broadcastInDim S1380000x1 ![0] bcast_S1380000_S1380000x1_0 nrm) (ix2 e j) = _
  refine congrArg₂ (· * ·) ?_ ?_
  · rw [row_gather_eq]
    exact RowOps.rowGather_apply (by decide) _ P (normIdx row) e j
  · refine (broadcastInDim_apply ![0, 1] bcast_S1380000x1_S1380000x64_0_1 _ (ix2 e j) (ix2 e (0 : Fin 1)) (fun a => ?_)).trans ?_
    · match a with
      | ⟨0, _⟩ => rfl
      | ⟨1, _⟩ => rfl
    · exact broadcastInDim_apply ![0] bcast_S1380000_S1380000x1_0 nrm (ix2 e (0 : Fin 1)) (ix1 e) (fun a => by
        match a with
        | ⟨0, _⟩ => rfl)

/-! ## The convolution -/

/-- Entry `(v, j)` of the convolution: the messages accumulated at node `v`, plus the bias, clamped below at zero. -/
theorem convT_apply (H : Segs.Arr) (W : Segs.Mat) (row col : Segs.Ends) (nrm : Segs.EdgeVec) (bias : Segs.Vec)
    (v : Fin 100000) (j : Fin 64) :
    convT H W row col nrm bias (ix2 v j) = max (aggT (msgT (prodT H W) row nrm) col (ix2 v j) + bias (ix1 j)) 0 := by
  unfold convT
  generalize aggT (msgT (prodT H W) row nrm) col = A
  rw [maximumf_apply, addf_apply, bcRow_apply]
  refine congrArg (max _) ?_
  refine (broadcastInDim_apply ![] bcast_S_S100000x64 _ (ix2 v j) ix0 (fun a => a.elim0)).trans ?_
  exact Ideal.ofBits_zero_f32

end Cert.ReferenceIdeal.SegsAt

end
-- ==== Proof.RefConv2.lean ====
/-
  Two facts about the reference's convolution that rest on the order of the extended reals.

  The inverse-square-root degree of a node (zero where the degree is not positive) is never negative and never +∞,
  so it may be moved across a sum of extended reals.  And messages that are all real numbers accumulate, from zero,
  to real numbers.
-/
import proofs.«109028_j78546361909449_2_alg».proof.Proof.RefTypes
import proofs.«109028_j78546361909449_2_alg».proof.Proof.LibScatterScale
import proofs.«109028_j78546361909449_2_alg».proof.Proof.LibMsgCore
import Idealize.ShloMosaic.Lib.Pipeline.Value
import Idealize.ShloMosaic.Lib.ValueIdx
import Idealize.ShloMosaic.PureOps.Ideal.Laws

noncomputable section

open scoped BigOperators

namespace Cert.ReferenceIdeal.SegsAt

open Cert.ReferenceIdeal Cert.ReferenceIdeal.Gen Idealize.ShloMosaic Idealize.ShloMosaic.ValueIdx
open Cert.ReferenceIdeal.Segs (aggT dinvT degT)

/-! ## Two facts over any shape -/

/-- A guarded inverse square root read at an index: where the two guards' constants are zero there, it is zero unless
    the operand is positive. -/
theorem select_rsqrt_apply {s : Shape} (D Z0 Z1 : FVec Ideal s .f32) (i : s.Idx) (h0 : Z0 i = (0 : EReal))
    (h1 : Z1 i = (0 : EReal)) :
    select (cmpf (F := Ideal) (φ := .f32) .ogt D Z0) (Host.rsqrt (F := Ideal) (φ := .f32) D) Z1 i
      = Scalar.select (Ideal.cmp .ogt (D i) (0 : EReal)) (Ideal.rsqrt (D i)) (0 : EReal) := by
  show Scalar.select (Ideal.cmp .ogt (D i) (Z0 i)) (Ideal.rsqrt (D i)) (Z1 i) = _
  rw [h0, h1]

/-- An accumulating scatter, from an operand entry that is zero, of updates that are all real numbers is a real
    number at that entry. -/
theorem scatterAdd_real {s si su : Shape} (d : ScatterDims s si su) {w : Nat} (x : FVec Ideal s .f32) (idx : IVec si w)
    (u : FVec Ideal su .f32) (i : s.Idx) (hx : x i = (0 : EReal)) (hu : ∀ j, ∃ a : ℝ, u j = (a : EReal)) :
    ∃ a : ℝ, Host.scatterAdd (F := Ideal) (φ := .f32) d x idx u i = (a : EReal) :=
  Cert.MsgCore.hostScatterAdd_real d x idx u i hx hu

/-! ## The inverse-square-root degrees -/

/-- The zero constant repeated over the nodes is zero at every node. -/
theorem zeroN_apply (i : S100000.Idx) :
    broadcastInDim S100000 ![] bcast_S_S100000 (constant (F := Ideal) S_ .f32 0x00000000#32) i = (0 : EReal) :=
  (broadcastInDim_apply ![] bcast_S_S100000 _ i ix0 (fun a => a.elim0)).trans Ideal.ofBits_zero_f32

theorem zeroN_apply' (i : S100000.Idx) :
    broadcastInDim S100000 ![] bcast_S_S100000 (id (constant (F := Ideal) S_ .f32 0x00000000#32)) i = (0 : EReal) :=
  zeroN_apply i

/-- The inverse-square-root degree of a node, read at the node: zero where the degree is not positive. -/
theorem dinvT_apply (col : Segs.Ends) (i : S100000.Idx) :
    dinvT col i = Scalar.select (Ideal.cmp .ogt (degT col i) (0 : EReal)) (Ideal.rsqrt (degT col i)) (0 : EReal) := by
  unfold dinvT
  exact select_rsqrt_apply (degT col) _ _ i (zeroN_apply i) (zeroN_apply' i)

/-- The inverse-square-root degree of a node is not negative and not `+∞`. -/
theorem dinvT_good (col : Segs.Ends) (i : S100000.Idx) : 0 ≤ dinvT col i ∧ dinvT col i ≠ ⊤ := by
  rw [dinvT_apply]
  exact Cert.ScatterScale.select_rsqrt_good _

/-! ## Real messages accumulate to real numbers -/

/-- The zero constant repeated over the node features is zero at every entry. -/
theorem zeroNC_apply (i : S100000x64.Idx) :
    broadcastInDim S100000x64 ![] bcast_S_S100000x64 (constant (F := Ideal) S_ .f32 0x00000000#32) i = (0 : EReal) :=
  (broadcastInDim_apply ![] bcast_S_S100000x64 _ i ix0 (fun a => a.elim0)).trans Ideal.ofBits_zero_f32

/-- If every message entry is a real number, so is every entry of the accumulated messages: the accumulation starts
    from zero and adds finitely many of them. -/
theorem aggT_real (M : (⟨S1380000x64, .f32⟩ : BufTy).Contents (Elt Ideal)) (col : Segs.Ends)
    (hM : ∀ j, ∃ a : ℝ, M j = (a : EReal)) (i : S100000x64.Idx) : ∃ a : ℝ, aggT M col i = (a : EReal) := by
  unfold aggT
  exact scatterAdd_real _ _ _ M i (zeroNC_apply i) hM

end Cert.ReferenceIdeal.SegsAt

end
-- ==== Proof.BridgeConv.lean ====
/-
  One convolution step of the bridge between the two programs. The reference multiplies the normalised rows by the
  weight matrix, weights each edge's message by d[source]·d[target] (d the inverse square root of the degree, zero at
  degree zero), sums the messages into their targets, adds the bias and takes the relu. The kernel scales each
  projected row by d of its own node BEFORE the edges gather it, sums the gathered rows into the targets, and scales
  each sum by d of the target node AFTER — inside the next region, which then adds the bias and takes the relu.
  Both are  relu (d[v] · Σ_{edges into v} d[source] · (row of the source) + bias):  a factor that is not negative
  and not +∞ comes out of a finite sum of extended reals, and every edge that lands on v has target v. The step
  also carries realness: real rows, a real matrix and a real bias give a real result.
-/
import proofs.«109028_j78546361909449_2_alg».proof.Proof.KSpec
import proofs.«109028_j78546361909449_2_alg».proof.Proof.KMsg
import proofs.«109028_j78546361909449_2_alg».proof.Proof.RefBn
import proofs.«109028_j78546361909449_2_alg».proof.Proof.RefConv
import proofs.«109028_j78546361909449_2_alg».proof.Proof.RefConv2
import proofs.«109028_j78546361909449_2_alg».proof.Proof.BridgeBn

set_option maxRecDepth 16384

noncomputable section

namespace Cert.Bridge

open Idealize.ShloMosaic Idealize.ShloMosaic.ValueIdx
open Cert.BnAlgebra
open Cert.KernelIdeal.KSpec Cert.KernelIdeal.KHost

abbrev RMat := Cert.ReferenceIdeal.Segs.Mat
abbrev REdges := Cert.ReferenceIdeal.Segs.Edges

/-- A vector laid out as a one-column matrix reads, at `(r, 0)`, the vector's entry `r`. -/
theorem colT_apply (d : Cert.KernelIdeal.S100000.Idx → EReal) (r : Fin 100000) :
    colT (F := Ideal) d (ix2 r (0 : Fin 1)) = d (ix1 r) :=
  shapeCast_apply d Cert.KernelIdeal.Gen.shapeCasts_S100000_S100000x1 _ _ (by
    rw [Shape.rowMajor_val_two, Shape.rowMajor_val_one]
    show r.val = r.val * 1 + 0
    omega)

open Cert.KernelIdeal Cert.KernelIdeal.Gen in
/-- The reference's sum of the messages into their targets is the kernel's scatter, spelt with the kernel's records. -/
theorem aggT_eq (M : (⟨Cert.ReferenceIdeal.S1380000x64, .f32⟩ : BufTy).Contents (Elt Ideal)) (col : Cert.ReferenceIdeal.Segs.Ends) :
    Cert.ReferenceIdeal.Segs.aggT M col
      = Host.scatterAdd (F := Ideal) (φ := .f32) scatter_S100000x64_S1380000x1_S1380000x64_1_0_0_1
          (broadcastInDim S100000x64 ![] bcast_S_S100000x64 (constant (F := Ideal) S_ .f32 0x00000000#32))
          (broadcastInDim S1380000x1 ![0] bcast_S1380000_S1380000x1_0 col) M := rfl

/-- THE CONVOLUTION STEP: the next region's input on the kernel side is the reference's convolution (with bias and
    relu), entry by entry, and it is real. -/
theorem conv_step (N : Cur) (Br : RArr) (W : RMat) (bias : RVec) (E : REdges)
    (hN : ∀ r k, N r k = Br (ix2 r k)) (hB : ∀ r k, IsR (Br (ix2 r k)))
    (hW : ∀ k j, IsR (W (ix2 k j))) (hbias : ∀ j, IsR (bias (ix1 j))) :
    (∀ v j,
        preS (msgT (F := Ideal) (matOf (linS N W (colT (F := Ideal) (dinvVecT (F := Ideal) (degT (F := Ideal) (colIdxT E))))))
              (rowIdxT E) (colIdxT E))
            (colT (F := Ideal) (dinvVecT (F := Ideal) (degT (F := Ideal) (colIdxT E)))) (rowT (F := Ideal) bias) v j
          = Cert.ReferenceIdeal.Segs.convT Br W (Cert.ReferenceIdeal.Segs.rowT E) (Cert.ReferenceIdeal.Segs.colT E)
              (Cert.ReferenceIdeal.Segs.nrmT (Cert.ReferenceIdeal.Segs.rowT E) (Cert.ReferenceIdeal.Segs.colT E) (Cert.ReferenceIdeal.Segs.dinvT (Cert.ReferenceIdeal.Segs.colT E))) bias (ix2 v j))
    ∧ (∀ v j, IsR (Cert.ReferenceIdeal.Segs.convT Br W (Cert.ReferenceIdeal.Segs.rowT E) (Cert.ReferenceIdeal.Segs.colT E)
              (Cert.ReferenceIdeal.Segs.nrmT (Cert.ReferenceIdeal.Segs.rowT E) (Cert.ReferenceIdeal.Segs.colT E) (Cert.ReferenceIdeal.Segs.dinvT (Cert.ReferenceIdeal.Segs.colT E))) bias (ix2 v j))) := by
  -- the normalisation vector: not negative, not +∞, hence real
  have hd : ∀ v : Fin 100000, 0 ≤ dinvVecT (F := Ideal) (degT (F := Ideal) (colIdxT E)) (ix1 v)
      ∧ dinvVecT (F := Ideal) (degT (F := Ideal) (colIdxT E)) (ix1 v) ≠ ⊤ :=
    fun v => Cert.ReferenceIdeal.SegsAt.dinvT_good (Cert.ReferenceIdeal.Segs.colT E) (ix1 v)
  have hdreal : ∀ v : Fin 100000, IsR (dinvVecT (F := Ideal) (degT (F := Ideal) (colIdxT E)) (ix1 v)) :=
    fun v => IsR.of_nonneg_ne_top (hd v).1 (hd v).2
  -- the projected rows
  have hL : ∀ r j, Cert.ReferenceIdeal.Segs.prodT Br W (ix2 r j) = ∑ k : Fin 64, Br (ix2 r k) * W (ix2 k j) :=
    fun r j => Cert.ReferenceIdeal.SegsAt.prodT_apply Br W r j
  have hLreal : ∀ r j, IsR (Cert.ReferenceIdeal.Segs.prodT Br W (ix2 r j)) := fun r j => by
    rw [hL]; exact IsR.sum _ _ fun k _ => (hB r k).mul (hW k j)
  -- the kernel's projected rows are the reference's, scaled by the node's factor
  have hHS : ∀ r j, matOf (linS N W (colT (F := Ideal) (dinvVecT (F := Ideal) (degT (F := Ideal) (colIdxT E))))) (ix2 r j)
      = Cert.ReferenceIdeal.Segs.prodT Br W (ix2 r j) * dinvVecT (F := Ideal) (degT (F := Ideal) (colIdxT E)) (ix1 r) := by
    intro r j
    show (∑ k : Fin 64, N r k * W (ix2 k j))
      * colT (F := Ideal) (dinvVecT (F := Ideal) (degT (F := Ideal) (colIdxT E))) (ix2 r (0 : Fin 1)) = _
    rw [colT_apply, hL]
    simp only [hN]
  -- the reference's messages
  have hU : ∀ (e : Fin 1380000) (j : Fin 64),
      Cert.ReferenceIdeal.Segs.msgT (Cert.ReferenceIdeal.Segs.prodT Br W) (Cert.ReferenceIdeal.Segs.rowT E) (Cert.ReferenceIdeal.Segs.nrmT (Cert.ReferenceIdeal.Segs.rowT E) (Cert.ReferenceIdeal.Segs.colT E) (Cert.ReferenceIdeal.Segs.dinvT (Cert.ReferenceIdeal.Segs.colT E))) (ix2 e j)
        = Cert.ReferenceIdeal.Segs.prodT Br W (ix2 (Cert.KernelIdeal.KMsg.g (rowIdxT E) e) j)
          * (dinvVecT (F := Ideal) (degT (F := Ideal) (colIdxT E)) (ix1 (Cert.KernelIdeal.KMsg.g (rowIdxT E) e))
            * dinvVecT (F := Ideal) (degT (F := Ideal) (colIdxT E)) (ix1 (Cert.KernelIdeal.KMsg.g (colIdxT E) e))) := by
    intro e j
    rw [Cert.ReferenceIdeal.SegsAt.msgT_apply, Cert.ReferenceIdeal.SegsAt.nrmT_apply]
    rfl
  -- the factor of the target node comes out of the sum over the edges
  have key : ∀ v j,
      Cert.ReferenceIdeal.Segs.aggT (Cert.ReferenceIdeal.Segs.msgT (Cert.ReferenceIdeal.Segs.prodT Br W) (Cert.ReferenceIdeal.Segs.rowT E) (Cert.ReferenceIdeal.Segs.nrmT (Cert.ReferenceIdeal.Segs.rowT E) (Cert.ReferenceIdeal.Segs.colT E) (Cert.ReferenceIdeal.Segs.dinvT (Cert.ReferenceIdeal.Segs.colT E))))
          (Cert.ReferenceIdeal.Segs.colT E) (ix2 v j)
        = msgT (F := Ideal) (matOf (linS N W (colT (F := Ideal) (dinvVecT (F := Ideal) (degT (F := Ideal) (colIdxT E))))))
            (rowIdxT E) (colIdxT E) (ix2 v j)
          * dinvVecT (F := Ideal) (degT (F := Ideal) (colIdxT E)) (ix1 v) :=
    fun v j => by
      have k0 := Cert.KernelIdeal.KMsg.msg_scale
        (matOf (linS N W (colT (F := Ideal) (dinvVecT (F := Ideal) (degT (F := Ideal) (colIdxT E)))))) (Cert.ReferenceIdeal.Segs.prodT Br W)
        (fun v => dinvVecT (F := Ideal) (degT (F := Ideal) (colIdxT E)) (ix1 v)) (rowIdxT E) (colIdxT E)
        (Cert.ReferenceIdeal.Segs.msgT (Cert.ReferenceIdeal.Segs.prodT Br W) (Cert.ReferenceIdeal.Segs.rowT E) (Cert.ReferenceIdeal.Segs.nrmT (Cert.ReferenceIdeal.Segs.rowT E) (Cert.ReferenceIdeal.Segs.colT E) (Cert.ReferenceIdeal.Segs.dinvT (Cert.ReferenceIdeal.Segs.colT E))))
      rw [aggT_eq]
      exact k0 hd hHS hU v j
  -- the kernel's summed rows are real
  have hAreal : ∀ i, IsR (msgT (F := Ideal) (matOf (linS N W (colT (F := Ideal) (dinvVecT (F := Ideal) (degT (F := Ideal) (colIdxT E))))))
      (rowIdxT E) (colIdxT E) i) :=
    Cert.KernelIdeal.KMsg.msgT_real _ _ _ (fun i => by
      rw [eq_ix2 i]
      exact (hHS (i 0) (i 1)).symm ▸ ((hLreal (i 0) (i 1)).mul (hdreal (i 0))))
  refine ⟨fun v j => ?_, fun v j => ?_⟩
  · rw [Cert.ReferenceIdeal.SegsAt.convT_apply, key]
    show max (_ * colT (F := Ideal) (dinvVecT (F := Ideal) (degT (F := Ideal) (colIdxT E))) (ix2 v (0 : Fin 1))
      + rowT (F := Ideal) bias (ix2 (0 : Fin 1) j)) 0 = _
    rw [colT_apply, rowT_apply]
  · rw [Cert.ReferenceIdeal.SegsAt.convT_apply, key]
    exact (((hAreal _).mul (hdreal v)).add (hbias j)).max IsR.zero

end Cert.Bridge

end
-- ==== Proof.Finite.lean ====
/-
  Finiteness of the float inputs. The precondition is the conjunction, over the thirteen float arguments, of
  "every entry x has |x| < +∞". At the ideal instance a float is an extended real, |x| is max x (-x), and +∞ is ⊤;
  so each conjunct says that every entry of its argument is neither ⊤ nor ⊥, i.e. is (the image of) a real number.
-/
import proofs.«109028_j78546361909449_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic
open Cert.Pre_finite_inputs

/-- The index set of a rank-0 array has exactly one element. -/
instance : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (-x) is strictly below +∞ is a real number:
    for x = ⊤ or x = ⊥ the maximum is ⊤, and ⊤ < ⊤ fails. -/
theorem real_of_abs_lt_top (x : EReal)
    (h : FloatOps.cmpf (F := Ideal) (φ := .f32) .olt (FloatOps.hostAbsf (F := Ideal) (φ := .f32) x)
        (FloatOps.ofBits (F := Ideal) .f32 0x7F800000#32) = 1#1) : ∃ a : ℝ, x = (a : EReal) := by
  change Ideal.cmp .olt (max x (-x)) (Ideal.ofBits .f32 0x7F800000#32) = 1#1 at h
  rw [ofBits_inf] at h
  induction x using EReal.rec with
  | bot => simp [Ideal.cmp] at h
  | coe a => exact ⟨a, rfl⟩
  | top => simp [Ideal.cmp] at h

/-- One conjunct of the precondition, for an array of any shape: if the all-axes "and" of the entrywise
    test |x| < +∞ is 1, every entry of x is a real number. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : ∃ a : ℝ, x i = (a : EReal) :=
  real_of_abs_lt_top (x i) (Host.reduce_andi_all _ _ hr hu ValueIdx.ix0 e i)

/-- The "and" of two i1 arrays is 1 at an index exactly when both are. -/
theorem andi_split {s : Shape} (p q : IVec s 1) (j : s.Idx) (h : andi p q j = 1#1) : p j = 1#1 ∧ q j = 1#1 :=
  IntOp.andi_eq_one.1 h

theorem real_of_pre [Facts] (x0 : FVec Ideal S100000x64 .f32) (x1 : IVec S2x1280000 32) (x2 : IVec S100000 32)
    (x3 x4 : FVec Ideal S64 .f32) (x5 : FVec Ideal S64x64 .f32) (x6 x7 x8 : FVec Ideal S64 .f32)
    (x9 : FVec Ideal S64x64 .f32) (x10 x11 x12 : FVec Ideal S64 .f32) (x13 : FVec Ideal S64x2 .f32)
    (x14 : FVec Ideal S2 .f32)
    (h : fn (F := Ideal) x0 x1 x2 x3 x4 x5 x6 x7 x8 x9 x10 x11 x12 x13 x14 = fun _ => 1#1) :
    (∀ i, ∃ a : ℝ, x0 i = (a : EReal)) ∧ (∀ i, ∃ a : ℝ, x3 i = (a : EReal)) ∧ (∀ i, ∃ a : ℝ, x4 i = (a : EReal))
    ∧ (∀ i, ∃ a : ℝ, x5 i = (a : EReal)) ∧ (∀ i, ∃ a : ℝ, x6 i = (a : EReal)) ∧ (∀ i, ∃ a : ℝ, x7 i = (a : EReal))
    ∧ (∀ i, ∃ a : ℝ, x8 i = (a : EReal)) ∧ (∀ i, ∃ a : ℝ, x9 i = (a : EReal)) ∧ (∀ i, ∃ a : ℝ, x10 i = (a : EReal))
    ∧ (∀ i, ∃ a : ℝ, x11 i = (a : EReal)) ∧ (∀ i, ∃ a : ℝ, x12 i = (a : EReal)) ∧ (∀ i, ∃ a : ℝ, x13 i = (a : EReal))
    ∧ (∀ i, ∃ a : ℝ, x14 i = (a : EReal)) := by
  have h0 := congrFun h ValueIdx.ix0
  dsimp only [fn, fn_part1, fn_part2, fn_part3] at h0
  obtain ⟨h0, e14⟩ := andi_split _ _ _ h0
  obtain ⟨h0, e13⟩ := andi_split _ _ _ h0
  obtain ⟨h0, e12⟩ := andi_split _ _ _ h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨e0, e3⟩ := andi_split _ _ _ h0
  exact ⟨real_of_all _ _ _ x0 e0, real_of_all _ _ _ x3 e3, real_of_all _ _ _ x4 e4, real_of_all _ _ _ x5 e5,
    real_of_all _ _ _ x6 e6, real_of_all _ _ _ x7 e7, real_of_all _ _ _ x8 e8, real_of_all _ _ _ x9 e9,
    real_of_all _ _ _ x10 e10, real_of_all _ _ _ x11 e11, real_of_all _ _ _ x12 e12, real_of_all _ _ _ x13 e13,
    real_of_all _ _ _ x14 e14⟩

end Cert.Finite

end
-- ==== Proof.Finite2.lean ====
/-
  Finiteness of the float inputs, in the form the certificate uses: if the precondition holds of an initial memory,
  then on every core each entry of each float argument array is a real number. One theorem per float argument;
  the integer arguments (the edge list and the batch vector) carry no such condition.
-/
import proofs.«109028_j78546361909449_2_alg».proof.Defs
import proofs.«109028_j78546361909449_2_alg».proof.Proof.Finite

noncomputable section

namespace Cert.Finite

open Idealize.ShloMosaic Idealize.SL.Sem
open Cert.Pre_finite_inputs

variable [Facts]
  (m : (ℓ : Loc Cert.KernelIdeal.nD Cert.KernelIdeal.τ Cert.KernelIdeal.sig) → Buf (Elt Ideal) ℓ)
  (hm : Cert.Pre_KernelIdeal m) (c : Dev Cert.KernelIdeal.nD)

include hm

/-- All thirteen facts at once, on one core. -/
theorem real_args :
    (∀ i, ∃ a : ℝ, (m ((c.tc : Thread Cert.KernelIdeal.nD Cert.KernelIdeal.τ).loc Cert.KernelIdeal.main_arg0) : FVec Ideal S100000x64 .f32) i = (a : EReal))
    ∧ (∀ i, ∃ a : ℝ, (m ((c.tc : Thread Cert.KernelIdeal.nD Cert.KernelIdeal.τ).loc Cert.KernelIdeal.main_arg3) : FVec Ideal S64 .f32) i = (a : EReal))
    ∧ (∀ i, ∃ a : ℝ, (m ((c.tc : Thread Cert.KernelIdeal.nD Cert.KernelIdeal.τ).loc Cert.KernelIdeal.main_arg4) : FVec Ideal S64 .f32) i = (a : EReal))
    ∧ (∀ i, ∃ a : ℝ, (m ((c.tc : Thread Cert.KernelIdeal.nD Cert.KernelIdeal.τ).loc Cert.KernelIdeal.main_arg5) : FVec Ideal S64x64 .f32) i = (a : EReal))
    ∧ (∀ i, ∃ a : ℝ, (m ((c.tc : Thread Cert.KernelIdeal.nD Cert.KernelIdeal.τ).loc Cert.KernelIdeal.main_arg6) : FVec Ideal S64 .f32) i = (a : EReal))
    ∧ (∀ i, ∃ a : ℝ, (m ((c.tc : Thread Cert.KernelIdeal.nD Cert.KernelIdeal.τ).loc Cert.KernelIdeal.main_arg7) : FVec Ideal S64 .f32) i = (a : EReal))
    ∧ (∀ i, ∃ a : ℝ, (m ((c.tc : Thread Cert.KernelIdeal.nD Cert.KernelIdeal.τ).loc Cert.KernelIdeal.main_arg8) : FVec Ideal S64 .f32) i = (a : EReal))
    ∧ (∀ i, ∃ a : ℝ, (m ((c.tc : Thread Cert.KernelIdeal.nD Cert.KernelIdeal.τ).loc Cert.KernelIdeal.main_arg9) : FVec Ideal S64x64 .f32) i = (a : EReal))
    ∧ (∀ i, ∃ a : ℝ, (m ((c.tc : Thread Cert.KernelIdeal.nD Cert.KernelIdeal.τ).loc Cert.KernelIdeal.main_arg10) : FVec Ideal S64 .f32) i = (a : EReal))
    ∧ (∀ i, ∃ a : ℝ, (m ((c.tc : Thread Cert.KernelIdeal.nD Cert.KernelIdeal.τ).loc Cert.KernelIdeal.main_arg11) : FVec Ideal S64 .f32) i = (a : EReal))
    ∧ (∀ i, ∃ a : ℝ, (m ((c.tc : Thread Cert.KernelIdeal.nD Cert.KernelIdeal.τ).loc Cert.KernelIdeal.main_arg12) : FVec Ideal S64 .f32) i = (a : EReal))
    ∧ (∀ i, ∃ a : ℝ, (m ((c.tc : Thread Cert.KernelIdeal.nD Cert.KernelIdeal.τ).loc Cert.KernelIdeal.main_arg13) : FVec Ideal S64x2 .f32) i = (a : EReal))
    ∧ (∀ i, ∃ a : ℝ, (m ((c.tc : Thread Cert.KernelIdeal.nD Cert.KernelIdeal.τ).loc Cert.KernelIdeal.main_arg14) : FVec Ideal S2 .f32) i = (a : EReal)) :=
  real_of_pre _ _ _ _ _ _ _ _ _ _ _ _ _ _ _ (hm c)

theorem real_arg0 (i : S100000x64.Idx) : ∃ a : ℝ, (m ((c.tc : Thread Cert.KernelIdeal.nD Cert.KernelIdeal.τ).loc Cert.KernelIdeal.main_arg0) : FVec Ideal S100000x64 .f32) i = (a : EReal) :=
  (real_args m hm c).1 i
theorem real_arg3 (i : S64.Idx) : ∃ a : ℝ, (m ((c.tc : Thread Cert.KernelIdeal.nD Cert.KernelIdeal.τ).loc Cert.KernelIdeal.main_arg3) : FVec Ideal S64 .f32) i = (a : EReal) :=
  (real_args m hm c).2.1 i
theorem real_arg4 (i : S64.Idx) : ∃ a : ℝ, (m ((c.tc : Thread Cert.KernelIdeal.nD Cert.KernelIdeal.τ).loc Cert.KernelIdeal.main_arg4) : FVec Ideal S64 .f32) i = (a : EReal) :=
  (real_args m hm c).2.2.1 i
theorem real_arg5 (i : S64x64.Idx) : ∃ a : ℝ, (m ((c.tc : Thread Cert.KernelIdeal.nD Cert.KernelIdeal.τ).loc Cert.KernelIdeal.main_arg5) : FVec Ideal S64x64 .f32) i = (a : EReal) :=
  (real_args m hm c).2.2.2.1 i
theorem real_arg6 (i : S64.Idx) : ∃ a : ℝ, (m ((c.tc : Thread Cert.KernelIdeal.nD Cert.KernelIdeal.τ).loc Cert.KernelIdeal.main_arg6) : FVec Ideal S64 .f32) i = (a : EReal) :=
  (real_args m hm c).2.2.2.2.1 i
theorem real_arg7 (i : S64.Idx) : ∃ a : ℝ, (m ((c.tc : Thread Cert.KernelIdeal.nD Cert.KernelIdeal.τ).loc Cert.KernelIdeal.main_arg7) : FVec Ideal S64 .f32) i = (a : EReal) :=
  (real_args m hm c).2.2.2.2.2.1 i
theorem real_arg8 (i : S64.Idx) : ∃ a : ℝ, (m ((c.tc : Thread Cert.KernelIdeal.nD Cert.KernelIdeal.τ).loc Cert.KernelIdeal.main_arg8) : FVec Ideal S64 .f32) i = (a : EReal) :=
  (real_args m hm c).2.2.2.2.2.2.1 i
theorem real_arg9 (i : S64x64.Idx) : ∃ a : ℝ, (m ((c.tc : Thread Cert.KernelIdeal.nD Cert.KernelIdeal.τ).loc Cert.KernelIdeal.main_arg9) : FVec Ideal S64x64 .f32) i = (a : EReal) :=
  (real_args m hm c).2.2.2.2.2.2.2.1 i
theorem real_arg10 (i : S64.Idx) : ∃ a : ℝ, (m ((c.tc : Thread Cert.KernelIdeal.nD Cert.KernelIdeal.τ).loc Cert.KernelIdeal.main_arg10) : FVec Ideal S64 .f32) i = (a : EReal) :=
  (real_args m hm c).2.2.2.2.2.2.2.2.1 i
theorem real_arg11 (i : S64.Idx) : ∃ a : ℝ, (m ((c.tc : Thread Cert.KernelIdeal.nD Cert.KernelIdeal.τ).loc Cert.KernelIdeal.main_arg11) : FVec Ideal S64 .f32) i = (a : EReal) :=
  (real_args m hm c).2.2.2.2.2.2.2.2.2.1 i
theorem real_arg12 (i : S64.Idx) : ∃ a : ℝ, (m ((c.tc : Thread Cert.KernelIdeal.nD Cert.KernelIdeal.τ).loc Cert.KernelIdeal.main_arg12) : FVec Ideal S64 .f32) i = (a : EReal) :=
  (real_args m hm c).2.2.2.2.2.2.2.2.2.2.1 i
theorem real_arg13 (i : S64x2.Idx) : ∃ a : ℝ, (m ((c.tc : Thread Cert.KernelIdeal.nD Cert.KernelIdeal.τ).loc Cert.KernelIdeal.main_arg13) : FVec Ideal S64x2 .f32) i = (a : EReal) :=
  (real_args m hm c).2.2.2.2.2.2.2.2.2.2.2.1 i
theorem real_arg14 (i : S2.Idx) : ∃ a : ℝ, (m ((c.tc : Thread Cert.KernelIdeal.nD Cert.KernelIdeal.τ).loc Cert.KernelIdeal.main_arg14) : FVec Ideal S2 .f32) i = (a : EReal) :=
  (real_args m hm c).2.2.2.2.2.2.2.2.2.2.2.2 i

end Cert.Finite

end
-- ==== Proof.BridgeStart.lean ====
/-
  Where the chain of stages starts: the launch contents of the float arguments are arrays of real numbers (this is
  what the precondition says), and the first statistics region's input — the node features plus the zero bias row —
  is the node features themselves.
-/
import proofs.«109028_j78546361909449_2_alg».proof.Proof.KChain
import proofs.«109028_j78546361909449_2_alg».proof.Proof.Finite2
import proofs.«109028_j78546361909449_2_alg».proof.Proof.LibVariance

noncomputable section

namespace Cert.Bridge

open Cert.KernelIdeal Cert.KernelIdeal.Gen
open Idealize.ShloMosaic Idealize.ShloMosaic.TcCoe
open Idealize.SL Idealize.SL.Sem
open Cert.KernelIdeal.KEntry Cert.KernelIdeal.KHost Cert.KernelIdeal.KSpec Cert.KernelIdeal.KChain
open Idealize.ShloMosaic.ValueIdx
open Cert.BnAlgebra (IsR)

variable
  (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The first region's input -/

/-- The zero vector reads 0 at every index. -/
theorem zvecT_apply (k : Fin 64) : (zvecT (F := Ideal)) (ix1 k) = 0 := Ideal.ofBits_zero_f32

/-- The node features plus the zero bias row are the node features. -/
theorem P0_eq (r : Fin 100000) (k : Fin 64) :
    P0 m ρ c r k = (X m ρ c main_arg0 : S100000x64.Idx → EReal) (ix2 r k) := by
  unfold P0 pre0
  rw [rowT_apply, zvecT_apply, add_zero]

/-! ## The float arguments are arrays of real numbers -/

variable [Cert.Pre_finite_inputs.Facts] (hpre : Cert.Pre_KernelIdeal m)
include hpre

theorem real_x0 (r : Fin 100000) (k : Fin 64) : IsR ((X m ρ c main_arg0 : S100000x64.Idx → EReal) (ix2 r k)) :=
  Cert.Finite.real_arg0 m hpre c (ix2 r k)

theorem real_vec3 (k : Fin 64) : IsR ((X m ρ c main_arg3 : S64.Idx → EReal) (ix1 k)) :=
  Cert.Finite.real_arg3 m hpre c (ix1 k)
theorem real_vec4 (k : Fin 64) : IsR ((X m ρ c main_arg4 : S64.Idx → EReal) (ix1 k)) :=
  Cert.Finite.real_arg4 m hpre c (ix1 k)
theorem real_vec6 (k : Fin 64) : IsR ((X m ρ c main_arg6 : S64.Idx → EReal) (ix1 k)) :=
  Cert.Finite.real_arg6 m hpre c (ix1 k)
theorem real_vec7 (k : Fin 64) : IsR ((X m ρ c main_arg7 : S64.Idx → EReal) (ix1 k)) :=
  Cert.Finite.real_arg7 m hpre c (ix1 k)
theorem real_vec8 (k : Fin 64) : IsR ((X m ρ c main_arg8 : S64.Idx → EReal) (ix1 k)) :=
  Cert.Finite.real_arg8 m hpre c (ix1 k)
theorem real_vec10 (k : Fin 64) : IsR ((X m ρ c main_arg10 : S64.Idx → EReal) (ix1 k)) :=
  Cert.Finite.real_arg10 m hpre c (ix1 k)
theorem real_vec11 (k : Fin 64) : IsR ((X m ρ c main_arg11 : S64.Idx → EReal) (ix1 k)) :=
  Cert.Finite.real_arg11 m hpre c (ix1 k)
theorem real_vec12 (k : Fin 64) : IsR ((X m ρ c main_arg12 : S64.Idx → EReal) (ix1 k)) :=
  Cert.Finite.real_arg12 m hpre c (ix1 k)

theorem real_mat5 (k j : Fin 64) : IsR ((X m ρ c main_arg5 : S64x64.Idx → EReal) (ix2 k j)) :=
  Cert.Finite.real_arg5 m hpre c (ix2 k j)
theorem real_mat9 (k j : Fin 64) : IsR ((X m ρ c main_arg9 : S64x64.Idx → EReal) (ix2 k j)) :=
  Cert.Finite.real_arg9 m hpre c (ix2 k j)

end Cert.Bridge

end
-- ==== Proof.RefSegs.lean ====
/-
  The reference's line of operations read piece by piece.

  Each of the seven pieces of the line, run from arbitrary buffer contents, leaves in its result buffer one of the
  stage functions applied to the contents the piece found in the buffers it reads; a piece leaves the buffers it does
  not write as they were.  Chained along the line, the result buffer ends at the composition of the stages applied
  to the contents of the argument buffers.
-/
import proofs.«109028_j78546361909449_2_alg».proof.Proof.RefRun
import proofs.«109028_j78546361909449_2_alg».proof.Proof.RefTypes

noncomputable section

open scoped BigOperators

namespace Cert.ReferenceIdeal.Segs

open Cert.ReferenceIdeal Cert.ReferenceIdeal.Gen Idealize.ShloMosaic Idealize.ShloMosaic.TcCoe Idealize.SL.Sem
  Idealize.ShloMosaic.StableHlo
  Cert.ReferenceIdeal.HRun Cert.LibAfter

/-! ## The preprocessing piece in three runs -/

section Pieces
variable {F : FTy → Type} [FloatOps F]
/-- The preprocessing, the two endpoint vectors with the self loops appended (%0 .. %7). -/
abbrev opsPa : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    nullary main_v2 (iotaInDim S100000 32 0),
    binary main_v1 main_v2 main_v3 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    unary main_arg1 main_v4 ((extractStridedSlice S1x1280000 ![1, 0] · slices_S2x1280000_S1x1280000_1_0) : (⟨S2x1280000, .i32⟩ : BufTy).Contents (Elt F) → (⟨S1x1280000, .i32⟩ : BufTy).Contents (Elt F)),
    reshape main_v4 main_v5 rfl shapeCasts_S1x1280000_S1280000,
    nullary main_v6 (iotaInDim S100000 32 0),
    binary main_v5 main_v6 main_v7 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)) ]

/-- The preprocessing, the degrees and their inverse square roots (%8 .. %15). -/
abbrev opsPb : List (HloOp τ sig (Elt F)) :=
  [ nullary main_cst (constant S_ .f32 0x3F800000#32),
    unary main_cst main_v8 (broadcastInDim S1380000 ![] bcast_S_S1380000 : (⟨S_, .f32⟩ : BufTy).Contents (Elt F) → (⟨S1380000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1380000x1 ![0] bcast_S1380000_S1380000x1_0 : (⟨S1380000, .i32⟩ : BufTy).Contents (Elt F) → (⟨S1380000x1, .i32⟩ : BufTy).Contents (Elt F)),
    ternary main_v9 main_v10 main_v8 main_v11 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The preprocessing, the edge weights (%16 .. %30). -/
abbrev opsPc : List (HloOp τ sig (Elt F)) :=
  [ nullary main_c (constantI S_ 32 0#32),
    unary main_c main_v16 (broadcastInDim S1380000 ![] bcast_S_S1380000 : (⟨S_, .i32⟩ : BufTy).Contents (Elt F) → (⟨S1380000, .i32⟩ : BufTy).Contents (Elt F)),
    binary main_v3 main_v16 main_v17 (cmpi .slt : (⟨S1380000, .i32⟩ : BufTy).Contents (Elt F) → (⟨S1380000, .i32⟩ : BufTy).Contents (Elt F) → (⟨S1380000, .i1⟩ : BufTy).Contents (Elt F)),
    nullary main_c_3 (constantI S_ 32 100000#32),
    unary main_c_3 main_v18 (broadcastInDim S1380000 ![] bcast_S_S1380000 : (⟨S_, .i32⟩ : BufTy).Contents (Elt F) → (⟨S1380000, .i32⟩ : BufTy).Contents (Elt F)),
    binary main_v3 main_v18 main_v19 (addi : (⟨S1380000, .i32⟩ : BufTy).Contents (Elt F) → (⟨S1380000, .i32⟩ : BufTy).Contents (Elt F) → (⟨S1380000, .i32⟩ : BufTy).Contents (Elt F)),
    ternary main_v17 main_v19 main_v3 main_v20 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v20 main_v21 (broadcastInDim S1380000x1 ![0] bcast_S1380000_S1380000x1_0 : (⟨S1380000, .i32⟩ : BufTy).Contents (Elt F) → (⟨S1380000x1, .i32⟩ : BufTy).Contents (Elt F)),
    binary main_v15 main_v21 main_v22 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_4 (constantI S_ 32 0#32),
    unary main_c_4 main_v23 (broadcastInDim S1380000 ![] bcast_S_S1380000 : (⟨S_, .i32⟩ : BufTy).Contents (Elt F) → (⟨S1380000, .i32⟩ : BufTy).Contents (Elt F)),
    binary main_v7 main_v23 main_v24 (cmpi .slt : (⟨S1380000, .i32⟩ : BufTy).Contents (Elt F) → (⟨S1380000, .i32⟩ : BufTy).Contents (Elt F) → (⟨S1380000, .i1⟩ : BufTy).Contents (Elt F)),
    nullary main_c_5 (constantI S_ 32 100000#32),
    unary main_c_5 main_v25 (broadcastInDim S1380000 ![] bcast_S_S1380000 : (⟨S_, .i32⟩ : BufTy).Contents (Elt F) → (⟨S1380000, .i32⟩ : BufTy).Contents (Elt F)),
    binary main_v7 main_v25 main_v26 (addi : (⟨S1380000, .i32⟩ : BufTy).Contents (Elt F) → (⟨S1380000, .i32⟩ : BufTy).Contents (Elt F) → (⟨S1380000, .i32⟩ : BufTy).Contents (Elt F)),
    ternary main_v24 main_v26 main_v7 main_v27 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v27 main_v28 (broadcastInDim S1380000x1 ![0] bcast_S1380000_S1380000x1_0 : (⟨S1380000, .i32⟩ : BufTy).Contents (Elt F) → (⟨S1380000x1, .i32⟩ : BufTy).Contents (Elt F)),
    binary main_v15 main_v28 main_v29 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v22 main_v29 main_v30 (mulf : (⟨S1380000, .f32⟩ : BufTy).Contents (Elt F) → (⟨S1380000, .f32⟩ : BufTy).Contents (Elt F) → (⟨S1380000, .f32⟩ : BufTy).Contents (Elt F)) ]

/-- The preprocessing is these three runs of operations, one after the other. -/
theorem opsP_split : (opsP : List (HloOp τ sig (Elt F))) = opsPa ++ opsPb ++ opsPc := rfl
end Pieces

/-! ## The stages with an inlined call, at an arbitrary float instance

The pieces that hold an inlined call (the degree piece's select, the convolutions' relu) are first read at an
arbitrary float instance, where the operations are opaque and a comparison of two terms can only unfold the stage
definitions; at the extended reals these are the stage functions themselves. -/

section Generic
variable {F : FTy → Type} [FloatOps F]

/-- The degrees, at an arbitrary float instance. -/
def degTF (col : (⟨S1380000, .i32⟩ : BufTy).Contents (Elt F)) : (⟨S100000, .f32⟩ : BufTy).Contents (Elt F) :=
  Host.scatterAdd scatter_S100000_S1380000x1_S1380000_n_0_0_1
    (broadcastInDim S100000 ![] bcast_S_S100000 (constant S_ .f32 0x00000000#32))
    (broadcastInDim S1380000x1 ![0] bcast_S1380000_S1380000x1_0 col)
    (broadcastInDim S1380000 ![] bcast_S_S1380000 (constant S_ .f32 0x3F800000#32))

/-- The inverse square root of a positive degree and zero otherwise, at an arbitrary float instance. -/
def dinvTF (col : (⟨S1380000, .i32⟩ : BufTy).Contents (Elt F)) : (⟨S100000, .f32⟩ : BufTy).Contents (Elt F) :=
  select (cmpf .ogt (degTF col) (broadcastInDim S100000 ![] bcast_S_S100000 (constant S_ .f32 0x00000000#32)))
    (Host.rsqrt (degTF col))
    (broadcastInDim S100000 ![] bcast_S_S100000 (id (constant S_ .f32 0x00000000#32)))

/-- The convolution with its bias and relu, at an arbitrary float instance. -/
def convTF (H : (⟨S100000x64, .f32⟩ : BufTy).Contents (Elt F)) (W : (⟨S64x64, .f32⟩ : BufTy).Contents (Elt F))
    (row col : (⟨S1380000, .i32⟩ : BufTy).Contents (Elt F)) (nrm : (⟨S1380000, .f32⟩ : BufTy).Contents (Elt F))
    (bias : (⟨S64, .f32⟩ : BufTy).Contents (Elt F)) : (⟨S100000x64, .f32⟩ : BufTy).Contents (Elt F) :=
  maximumf
    (addf
      (Host.scatterAdd scatter_S100000x64_S1380000x1_S1380000x64_1_0_0_1
        (broadcastInDim S100000x64 ![] bcast_S_S100000x64 (constant S_ .f32 0x00000000#32))
        (broadcastInDim S1380000x1 ![0] bcast_S1380000_S1380000x1_0 col)
        (mulf
          (Host.gather gather_S100000x64_S1380000x1_S1380000x64_1_0_n_n_0_1_164
            (Host.dotGeneral dot_S100000x64_S64x64_S100000x64_1_0_0_1_n_n none H W)
            (broadcastInDim S1380000x1 ![0] bcast_S1380000_S1380000x1_0
              (select (cmpi .slt row (broadcastInDim S1380000 ![] bcast_S_S1380000 (constantI S_ 32 0#32)))
                (addi row (broadcastInDim S1380000 ![] bcast_S_S1380000 (constantI S_ 32 100000#32))) row)))
          (broadcastInDim S1380000x64 ![0, 1] bcast_S1380000x1_S1380000x64_0_1
            (broadcastInDim S1380000x1 ![0] bcast_S1380000_S1380000x1_0 nrm))))
      (broadcastInDim S100000x64 ![0, 1] bcast_S1x64_S100000x64_0_1 (broadcastInDim S1x64 ![1] bcast_S64_S1x64_1 bias)))
    (broadcastInDim S100000x64 ![] bcast_S_S100000x64 (constant S_ .f32 0x00000000#32))

variable (V : Valuation τ sig (Elt F))

theorem segPb_dinvF : after opsPb V (Proc.devRef .tc main_v15) = dinvTF (V (Proc.devRef .tc main_v7)) := by
  after_results
  simp only [TRef.toBuf, TRef.ofBuf, cast_eq]
  rfl
set_option maxHeartbeats 4000000 in
theorem segC1F : after opsC1 V (Proc.devRef .tc main_v73)
    = convTF (V (Proc.devRef .tc main_v55)) (V (Proc.devRef .tc main_arg5)) (V (Proc.devRef .tc main_v3)) (V (Proc.devRef .tc main_v7))
        (V (Proc.devRef .tc main_v30)) (V (Proc.devRef .tc main_arg6)) := by
  after_results_simp
  simp only [TRef.toBuf, TRef.ofBuf, cast_eq]
  rfl
set_option maxHeartbeats 4000000 in
theorem segC2F : after opsC2 V (Proc.devRef .tc main_v116)
    = convTF (V (Proc.devRef .tc main_v98)) (V (Proc.devRef .tc main_arg9)) (V (Proc.devRef .tc main_v3)) (V (Proc.devRef .tc main_v7))
        (V (Proc.devRef .tc main_v30)) (V (Proc.devRef .tc main_arg10)) := by
  after_results_simp
  simp only [TRef.toBuf, TRef.ofBuf, cast_eq]
  rfl

end Generic

/-- At the extended reals these are the stage functions. -/
theorem dinvTF_ideal (col : Ends) : dinvTF (F := Ideal) col = dinvT col := rfl
theorem convTF_ideal (H : Arr) (W : Mat) (row col : Ends) (nrm : EdgeVec) (bias : Vec) :
    convTF (F := Ideal) H W row col nrm bias = convT H W row col nrm bias := rfl

variable (V : Valuation τ sig (Elt Ideal))

/-- Each operation of a piece writes one buffer, and it is not the given one: decided reference by reference. -/
local macro "no_write " seg:ident : tactic =>
  `(tactic| (refine List.forall_iff_forall_mem.mp ?_
             simp only [$seg:ident, List.Forall, nullary_writes, unary_writes, binary_writes, ternary_writes,
               reshape_writes, Finset.mem_singleton]
             repeat' apply And.intro
             all_goals exact devRef_ne_of_ne (by decide)))

/-! ## The preprocessing -/

theorem segPa_row : after (opsPa (F := Ideal)) V (Proc.devRef .tc main_v3) = rowT (V (Proc.devRef .tc main_arg1)) := by
  after_results <;> rfl
theorem segPa_col : after (opsPa (F := Ideal)) V (Proc.devRef .tc main_v7) = colT (V (Proc.devRef .tc main_arg1)) := by
  after_results <;> rfl
theorem segPb_dinv : after (opsPb (F := Ideal)) V (Proc.devRef .tc main_v15) = dinvT (V (Proc.devRef .tc main_v7)) :=
  (segPb_dinvF V).trans (dinvTF_ideal _)
theorem segPc_nrm : after (opsPc (F := Ideal)) V (Proc.devRef .tc main_v30)
    = nrmT (V (Proc.devRef .tc main_v3)) (V (Proc.devRef .tc main_v7)) (V (Proc.devRef .tc main_v15)) := by
  after_results_simp <;> rfl

theorem keep_opsPb_main_v3 : after (opsPb (F := Ideal)) V (Proc.devRef .tc main_v3) = V (Proc.devRef .tc main_v3) :=
  after_of_forall_not_mem _ V (by no_write opsPb)
theorem keep_opsPb_main_v7 : after (opsPb (F := Ideal)) V (Proc.devRef .tc main_v7) = V (Proc.devRef .tc main_v7) :=
  after_of_forall_not_mem _ V (by no_write opsPb)
theorem keep_opsPc_main_v3 : after (opsPc (F := Ideal)) V (Proc.devRef .tc main_v3) = V (Proc.devRef .tc main_v3) :=
  after_of_forall_not_mem _ V (by no_write opsPc)
theorem keep_opsPc_main_v7 : after (opsPc (F := Ideal)) V (Proc.devRef .tc main_v7) = V (Proc.devRef .tc main_v7) :=
  after_of_forall_not_mem _ V (by no_write opsPc)

theorem segP_row : after (opsP (F := Ideal)) V (Proc.devRef .tc main_v3) = rowT (V (Proc.devRef .tc main_arg1)) := by
  rw [opsP_split (F := Ideal), Cert.LibAfter.after_append, Cert.LibAfter.after_append]
  exact (keep_opsPc_main_v3 _).trans ((keep_opsPb_main_v3 _).trans (segPa_row V))
theorem segP_col : after (opsP (F := Ideal)) V (Proc.devRef .tc main_v7) = colT (V (Proc.devRef .tc main_arg1)) := by
  rw [opsP_split (F := Ideal), Cert.LibAfter.after_append, Cert.LibAfter.after_append]
  exact (keep_opsPc_main_v7 _).trans ((keep_opsPb_main_v7 _).trans (segPa_col V))
theorem segP_nrm : after (opsP (F := Ideal)) V (Proc.devRef .tc main_v30)
    = nrmT (rowT (V (Proc.devRef .tc main_arg1))) (colT (V (Proc.devRef .tc main_arg1))) (dinvT (colT (V (Proc.devRef .tc main_arg1)))) := by
  rw [opsP_split (F := Ideal), Cert.LibAfter.after_append, Cert.LibAfter.after_append]
  exact (segPc_nrm _).trans (by
    rw [keep_opsPb_main_v3 (after (opsPa (F := Ideal)) V), keep_opsPb_main_v7 (after (opsPa (F := Ideal)) V),
      segPb_dinv (after (opsPa (F := Ideal)) V), segPa_row V, segPa_col V])

/-! ## The batch norms, the convolutions and the tail -/

theorem segB1 : after (opsB1 (F := Ideal)) V (Proc.devRef .tc main_v55)
    = bnT (V (Proc.devRef .tc main_arg0)) (V (Proc.devRef .tc main_arg3)) (V (Proc.devRef .tc main_arg4)) := by
  after_results_simp
  simp only [bnT, bnScale, bnVar, bnCenter, bnMean, bcRow]
theorem segC1 : after (opsC1 (F := Ideal)) V (Proc.devRef .tc main_v73)
    = convT (V (Proc.devRef .tc main_v55)) (V (Proc.devRef .tc main_arg5)) (V (Proc.devRef .tc main_v3)) (V (Proc.devRef .tc main_v7))
        (V (Proc.devRef .tc main_v30)) (V (Proc.devRef .tc main_arg6)) :=
  (segC1F V).trans (convTF_ideal _ _ _ _ _ _)
theorem segB2 : after (opsB2 (F := Ideal)) V (Proc.devRef .tc main_v98)
    = bnT (V (Proc.devRef .tc main_v73)) (V (Proc.devRef .tc main_arg7)) (V (Proc.devRef .tc main_arg8)) := by
  after_results_simp
  simp only [bnT, bnScale, bnVar, bnCenter, bnMean, bcRow]
theorem segC2 : after (opsC2 (F := Ideal)) V (Proc.devRef .tc main_v116)
    = convT (V (Proc.devRef .tc main_v98)) (V (Proc.devRef .tc main_arg9)) (V (Proc.devRef .tc main_v3)) (V (Proc.devRef .tc main_v7))
        (V (Proc.devRef .tc main_v30)) (V (Proc.devRef .tc main_arg10)) :=
  (segC2F V).trans (convTF_ideal _ _ _ _ _ _)
theorem segB3 : after (opsB3 (F := Ideal)) V (Proc.devRef .tc main_v141)
    = bnT (V (Proc.devRef .tc main_v116)) (V (Proc.devRef .tc main_arg11)) (V (Proc.devRef .tc main_arg12)) := by
  after_results_simp
  simp only [bnT, bnScale, bnVar, bnCenter, bnMean, bcRow]
theorem segT : after (opsT (F := Ideal)) V (Proc.devRef .tc main_v157)
    = tailT (V (Proc.devRef .tc main_v141)) (V (Proc.devRef .tc main_arg2)) (V (Proc.devRef .tc main_arg13)) (V (Proc.devRef .tc main_arg14)) := by
  after_results_simp
  simp only [tailT, poolT, cntT]

/-! ## What a piece leaves alone -/

theorem keep_opsP_main_arg0 : after (opsP (F := Ideal)) V (Proc.devRef .tc main_arg0) = V (Proc.devRef .tc main_arg0) :=
  after_of_forall_not_mem _ V (by no_write opsP)
theorem keep_opsP_main_arg3 : after (opsP (F := Ideal)) V (Proc.devRef .tc main_arg3) = V (Proc.devRef .tc main_arg3) :=
  after_of_forall_not_mem _ V (by no_write opsP)
theorem keep_opsP_main_arg4 : after (opsP (F := Ideal)) V (Proc.devRef .tc main_arg4) = V (Proc.devRef .tc main_arg4) :=
  after_of_forall_not_mem _ V (by no_write opsP)
theorem keep_opsP_main_arg5 : after (opsP (F := Ideal)) V (Proc.devRef .tc main_arg5) = V (Proc.devRef .tc main_arg5) :=
  after_of_forall_not_mem _ V (by no_write opsP)
theorem keep_opsB1_main_arg5 : after (opsB1 (F := Ideal)) V (Proc.devRef .tc main_arg5) = V (Proc.devRef .tc main_arg5) :=
  after_of_forall_not_mem _ V (by no_write opsB1)
theorem keep_opsP_main_arg6 : after (opsP (F := Ideal)) V (Proc.devRef .tc main_arg6) = V (Proc.devRef .tc main_arg6) :=
  after_of_forall_not_mem _ V (by no_write opsP)
theorem keep_opsB1_main_arg6 : after (opsB1 (F := Ideal)) V (Proc.devRef .tc main_arg6) = V (Proc.devRef .tc main_arg6) :=
  after_of_forall_not_mem _ V (by no_write opsB1)
theorem keep_opsB1_main_v3 : after (opsB1 (F := Ideal)) V (Proc.devRef .tc main_v3) = V (Proc.devRef .tc main_v3) :=
  after_of_forall_not_mem _ V (by no_write opsB1)
theorem keep_opsB1_main_v7 : after (opsB1 (F := Ideal)) V (Proc.devRef .tc main_v7) = V (Proc.devRef .tc main_v7) :=
  after_of_forall_not_mem _ V (by no_write opsB1)
theorem keep_opsB1_main_v30 : after (opsB1 (F := Ideal)) V (Proc.devRef .tc main_v30) = V (Proc.devRef .tc main_v30) :=
  after_of_forall_not_mem _ V (by no_write opsB1)
theorem keep_opsP_main_arg7 : after (opsP (F := Ideal)) V (Proc.devRef .tc main_arg7) = V (Proc.devRef .tc main_arg7) :=
  after_of_forall_not_mem _ V (by no_write opsP)
theorem keep_opsB1_main_arg7 : after (opsB1 (F := Ideal)) V (Proc.devRef .tc main_arg7) = V (Proc.devRef .tc main_arg7) :=
  after_of_forall_not_mem _ V (by no_write opsB1)
theorem keep_opsC1_main_arg7 : after (opsC1 (F := Ideal)) V (Proc.devRef .tc main_arg7) = V (Proc.devRef .tc main_arg7) :=
  after_of_forall_not_mem _ V (by no_write opsC1)
theorem keep_opsP_main_arg8 : after (opsP (F := Ideal)) V (Proc.devRef .tc main_arg8) = V (Proc.devRef .tc main_arg8) :=
  after_of_forall_not_mem _ V (by no_write opsP)
theorem keep_opsB1_main_arg8 : after (opsB1 (F := Ideal)) V (Proc.devRef .tc main_arg8) = V (Proc.devRef .tc main_arg8) :=
  after_of_forall_not_mem _ V (by no_write opsB1)
theorem keep_opsC1_main_arg8 : after (opsC1 (F := Ideal)) V (Proc.devRef .tc main_arg8) = V (Proc.devRef .tc main_arg8) :=
  after_of_forall_not_mem _ V (by no_write opsC1)
theorem keep_opsP_main_arg9 : after (opsP (F := Ideal)) V (Proc.devRef .tc main_arg9) = V (Proc.devRef .tc main_arg9) :=
  after_of_forall_not_mem _ V (by no_write opsP)
theorem keep_opsB1_main_arg9 : after (opsB1 (F := Ideal)) V (Proc.devRef .tc main_arg9) = V (Proc.devRef .tc main_arg9) :=
  after_of_forall_not_mem _ V (by no_write opsB1)
theorem keep_opsC1_main_arg9 : after (opsC1 (F := Ideal)) V (Proc.devRef .tc main_arg9) = V (Proc.devRef .tc main_arg9) :=
  after_of_forall_not_mem _ V (by no_write opsC1)
theorem keep_opsB2_main_arg9 : after (opsB2 (F := Ideal)) V (Proc.devRef .tc main_arg9) = V (Proc.devRef .tc main_arg9) :=
  after_of_forall_not_mem _ V (by no_write opsB2)
theorem keep_opsP_main_arg10 : after (opsP (F := Ideal)) V (Proc.devRef .tc main_arg10) = V (Proc.devRef .tc main_arg10) :=
  after_of_forall_not_mem _ V (by no_write opsP)
theorem keep_opsB1_main_arg10 : after (opsB1 (F := Ideal)) V (Proc.devRef .tc main_arg10) = V (Proc.devRef .tc main_arg10) :=
  after_of_forall_not_mem _ V (by no_write opsB1)
theorem keep_opsC1_main_arg10 : after (opsC1 (F := Ideal)) V (Proc.devRef .tc main_arg10) = V (Proc.devRef .tc main_arg10) :=
  after_of_forall_not_mem _ V (by no_write opsC1)
theorem keep_opsB2_main_arg10 : after (opsB2 (F := Ideal)) V (Proc.devRef .tc main_arg10) = V (Proc.devRef .tc main_arg10) :=
  after_of_forall_not_mem _ V (by no_write opsB2)
theorem keep_opsC1_main_v3 : after (opsC1 (F := Ideal)) V (Proc.devRef .tc main_v3) = V (Proc.devRef .tc main_v3) :=
  after_of_forall_not_mem _ V (by no_write opsC1)
theorem keep_opsB2_main_v3 : after (opsB2 (F := Ideal)) V (Proc.devRef .tc main_v3) = V (Proc.devRef .tc main_v3) :=
  after_of_forall_not_mem _ V (by no_write opsB2)
theorem keep_opsC1_main_v7 : after (opsC1 (F := Ideal)) V (Proc.devRef .tc main_v7) = V (Proc.devRef .tc main_v7) :=
  after_of_forall_not_mem _ V (by no_write opsC1)
theorem keep_opsB2_main_v7 : after (opsB2 (F := Ideal)) V (Proc.devRef .tc main_v7) = V (Proc.devRef .tc main_v7) :=
  after_of_forall_not_mem _ V (by no_write opsB2)
theorem keep_opsC1_main_v30 : after (opsC1 (F := Ideal)) V (Proc.devRef .tc main_v30) = V (Proc.devRef .tc main_v30) :=
  after_of_forall_not_mem _ V (by no_write opsC1)
theorem keep_opsB2_main_v30 : after (opsB2 (F := Ideal)) V (Proc.devRef .tc main_v30) = V (Proc.devRef .tc main_v30) :=
  after_of_forall_not_mem _ V (by no_write opsB2)
theorem keep_opsP_main_arg11 : after (opsP (F := Ideal)) V (Proc.devRef .tc main_arg11) = V (Proc.devRef .tc main_arg11) :=
  after_of_forall_not_mem _ V (by no_write opsP)
theorem keep_opsB1_main_arg11 : after (opsB1 (F := Ideal)) V (Proc.devRef .tc main_arg11) = V (Proc.devRef .tc main_arg11) :=
  after_of_forall_not_mem _ V (by no_write opsB1)
theorem keep_opsC1_main_arg11 : after (opsC1 (F := Ideal)) V (Proc.devRef .tc main_arg11) = V (Proc.devRef .tc main_arg11) :=
  after_of_forall_not_mem _ V (by no_write opsC1)
theorem keep_opsB2_main_arg11 : after (opsB2 (F := Ideal)) V (Proc.devRef .tc main_arg11) = V (Proc.devRef .tc main_arg11) :=
  after_of_forall_not_mem _ V (by no_write opsB2)
theorem keep_opsC2_main_arg11 : after (opsC2 (F := Ideal)) V (Proc.devRef .tc main_arg11) = V (Proc.devRef .tc main_arg11) :=
  after_of_forall_not_mem _ V (by no_write opsC2)
theorem keep_opsP_main_arg12 : after (opsP (F := Ideal)) V (Proc.devRef .tc main_arg12) = V (Proc.devRef .tc main_arg12) :=
  after_of_forall_not_mem _ V (by no_write opsP)
theorem keep_opsB1_main_arg12 : after (opsB1 (F := Ideal)) V (Proc.devRef .tc main_arg12) = V (Proc.devRef .tc main_arg12) :=
  after_of_forall_not_mem _ V (by no_write opsB1)
theorem keep_opsC1_main_arg12 : after (opsC1 (F := Ideal)) V (Proc.devRef .tc main_arg12) = V (Proc.devRef .tc main_arg12) :=
  after_of_forall_not_mem _ V (by no_write opsC1)
theorem keep_opsB2_main_arg12 : after (opsB2 (F := Ideal)) V (Proc.devRef .tc main_arg12) = V (Proc.devRef .tc main_arg12) :=
  after_of_forall_not_mem _ V (by no_write opsB2)
theorem keep_opsC2_main_arg12 : after (opsC2 (F := Ideal)) V (Proc.devRef .tc main_arg12) = V (Proc.devRef .tc main_arg12) :=
  after_of_forall_not_mem _ V (by no_write opsC2)
theorem keep_opsP_main_arg2 : after (opsP (F := Ideal)) V (Proc.devRef .tc main_arg2) = V (Proc.devRef .tc main_arg2) :=
  after_of_forall_not_mem _ V (by no_write opsP)
theorem keep_opsB1_main_arg2 : after (opsB1 (F := Ideal)) V (Proc.devRef .tc main_arg2) = V (Proc.devRef .tc main_arg2) :=
  after_of_forall_not_mem _ V (by no_write opsB1)
theorem keep_opsC1_main_arg2 : after (opsC1 (F := Ideal)) V (Proc.devRef .tc main_arg2) = V (Proc.devRef .tc main_arg2) :=
  after_of_forall_not_mem _ V (by no_write opsC1)
theorem keep_opsB2_main_arg2 : after (opsB2 (F := Ideal)) V (Proc.devRef .tc main_arg2) = V (Proc.devRef .tc main_arg2) :=
  after_of_forall_not_mem _ V (by no_write opsB2)
theorem keep_opsC2_main_arg2 : after (opsC2 (F := Ideal)) V (Proc.devRef .tc main_arg2) = V (Proc.devRef .tc main_arg2) :=
  after_of_forall_not_mem _ V (by no_write opsC2)
theorem keep_opsB3_main_arg2 : after (opsB3 (F := Ideal)) V (Proc.devRef .tc main_arg2) = V (Proc.devRef .tc main_arg2) :=
  after_of_forall_not_mem _ V (by no_write opsB3)
theorem keep_opsP_main_arg13 : after (opsP (F := Ideal)) V (Proc.devRef .tc main_arg13) = V (Proc.devRef .tc main_arg13) :=
  after_of_forall_not_mem _ V (by no_write opsP)
theorem keep_opsB1_main_arg13 : after (opsB1 (F := Ideal)) V (Proc.devRef .tc main_arg13) = V (Proc.devRef .tc main_arg13) :=
  after_of_forall_not_mem _ V (by no_write opsB1)
theorem keep_opsC1_main_arg13 : after (opsC1 (F := Ideal)) V (Proc.devRef .tc main_arg13) = V (Proc.devRef .tc main_arg13) :=
  after_of_forall_not_mem _ V (by no_write opsC1)
theorem keep_opsB2_main_arg13 : after (opsB2 (F := Ideal)) V (Proc.devRef .tc main_arg13) = V (Proc.devRef .tc main_arg13) :=
  after_of_forall_not_mem _ V (by no_write opsB2)
theorem keep_opsC2_main_arg13 : after (opsC2 (F := Ideal)) V (Proc.devRef .tc main_arg13) = V (Proc.devRef .tc main_arg13) :=
  after_of_forall_not_mem _ V (by no_write opsC2)
theorem keep_opsB3_main_arg13 : after (opsB3 (F := Ideal)) V (Proc.devRef .tc main_arg13) = V (Proc.devRef .tc main_arg13) :=
  after_of_forall_not_mem _ V (by no_write opsB3)
theorem keep_opsP_main_arg14 : after (opsP (F := Ideal)) V (Proc.devRef .tc main_arg14) = V (Proc.devRef .tc main_arg14) :=
  after_of_forall_not_mem _ V (by no_write opsP)
theorem keep_opsB1_main_arg14 : after (opsB1 (F := Ideal)) V (Proc.devRef .tc main_arg14) = V (Proc.devRef .tc main_arg14) :=
  after_of_forall_not_mem _ V (by no_write opsB1)
theorem keep_opsC1_main_arg14 : after (opsC1 (F := Ideal)) V (Proc.devRef .tc main_arg14) = V (Proc.devRef .tc main_arg14) :=
  after_of_forall_not_mem _ V (by no_write opsC1)
theorem keep_opsB2_main_arg14 : after (opsB2 (F := Ideal)) V (Proc.devRef .tc main_arg14) = V (Proc.devRef .tc main_arg14) :=
  after_of_forall_not_mem _ V (by no_write opsB2)
theorem keep_opsC2_main_arg14 : after (opsC2 (F := Ideal)) V (Proc.devRef .tc main_arg14) = V (Proc.devRef .tc main_arg14) :=
  after_of_forall_not_mem _ V (by no_write opsC2)
theorem keep_opsB3_main_arg14 : after (opsB3 (F := Ideal)) V (Proc.devRef .tc main_arg14) = V (Proc.devRef .tc main_arg14) :=
  after_of_forall_not_mem _ V (by no_write opsB3)

/-! ## The contents after the first k pieces -/

abbrev W1 : Valuation τ sig (Elt Ideal) := after (opsP (F := Ideal)) V
abbrev W2 : Valuation τ sig (Elt Ideal) := after (opsB1 (F := Ideal)) (W1 V)
abbrev W3 : Valuation τ sig (Elt Ideal) := after (opsC1 (F := Ideal)) (W2 V)
abbrev W4 : Valuation τ sig (Elt Ideal) := after (opsB2 (F := Ideal)) (W3 V)
abbrev W5 : Valuation τ sig (Elt Ideal) := after (opsC2 (F := Ideal)) (W4 V)
abbrev W6 : Valuation τ sig (Elt Ideal) := after (opsB3 (F := Ideal)) (W5 V)
abbrev W7 : Valuation τ sig (Elt Ideal) := after (opsT (F := Ideal)) (W6 V)

/-- The whole line is the seven pieces one after the other. -/
theorem after_ops : after (ops (F := Ideal)) V = W7 V := by
  simp only [ops, Cert.LibAfter.after_append]

/-! ## The buffers a later piece reads, as the earlier pieces leave them -/

theorem at1_main_arg0 : W1 V (Proc.devRef .tc main_arg0) = (V (Proc.devRef .tc main_arg0)) :=
  keep_opsP_main_arg0 V
theorem at1_main_arg3 : W1 V (Proc.devRef .tc main_arg3) = (V (Proc.devRef .tc main_arg3)) :=
  keep_opsP_main_arg3 V
theorem at1_main_arg4 : W1 V (Proc.devRef .tc main_arg4) = (V (Proc.devRef .tc main_arg4)) :=
  keep_opsP_main_arg4 V
theorem at2_main_arg5 : W2 V (Proc.devRef .tc main_arg5) = (V (Proc.devRef .tc main_arg5)) :=
  (keep_opsB1_main_arg5 (W1 V)).trans (keep_opsP_main_arg5 V)
theorem at2_main_arg6 : W2 V (Proc.devRef .tc main_arg6) = (V (Proc.devRef .tc main_arg6)) :=
  (keep_opsB1_main_arg6 (W1 V)).trans (keep_opsP_main_arg6 V)
theorem at2_main_v3 : W2 V (Proc.devRef .tc main_v3) = (rowT (V (Proc.devRef .tc main_arg1))) :=
  (keep_opsB1_main_v3 (W1 V)).trans (segP_row V)
theorem at2_main_v7 : W2 V (Proc.devRef .tc main_v7) = (colT (V (Proc.devRef .tc main_arg1))) :=
  (keep_opsB1_main_v7 (W1 V)).trans (segP_col V)
theorem at2_main_v30 : W2 V (Proc.devRef .tc main_v30) = (nrmT (rowT (V (Proc.devRef .tc main_arg1))) (colT (V (Proc.devRef .tc main_arg1))) (dinvT (colT (V (Proc.devRef .tc main_arg1))))) :=
  (keep_opsB1_main_v30 (W1 V)).trans (segP_nrm V)
theorem at3_main_arg7 : W3 V (Proc.devRef .tc main_arg7) = (V (Proc.devRef .tc main_arg7)) :=
  (keep_opsC1_main_arg7 (W2 V)).trans ((keep_opsB1_main_arg7 (W1 V)).trans (keep_opsP_main_arg7 V))
theorem at3_main_arg8 : W3 V (Proc.devRef .tc main_arg8) = (V (Proc.devRef .tc main_arg8)) :=
  (keep_opsC1_main_arg8 (W2 V)).trans ((keep_opsB1_main_arg8 (W1 V)).trans (keep_opsP_main_arg8 V))
theorem at4_main_arg9 : W4 V (Proc.devRef .tc main_arg9) = (V (Proc.devRef .tc main_arg9)) :=
  (keep_opsB2_main_arg9 (W3 V)).trans ((keep_opsC1_main_arg9 (W2 V)).trans ((keep_opsB1_main_arg9 (W1 V)).trans (keep_opsP_main_arg9 V)))
theorem at4_main_arg10 : W4 V (Proc.devRef .tc main_arg10) = (V (Proc.devRef .tc main_arg10)) :=
  (keep_opsB2_main_arg10 (W3 V)).trans ((keep_opsC1_main_arg10 (W2 V)).trans ((keep_opsB1_main_arg10 (W1 V)).trans (keep_opsP_main_arg10 V)))
theorem at4_main_v3 : W4 V (Proc.devRef .tc main_v3) = (rowT (V (Proc.devRef .tc main_arg1))) :=
  (keep_opsB2_main_v3 (W3 V)).trans ((keep_opsC1_main_v3 (W2 V)).trans ((keep_opsB1_main_v3 (W1 V)).trans (segP_row V)))
theorem at4_main_v7 : W4 V (Proc.devRef .tc main_v7) = (colT (V (Proc.devRef .tc main_arg1))) :=
  (keep_opsB2_main_v7 (W3 V)).trans ((keep_opsC1_main_v7 (W2 V)).trans ((keep_opsB1_main_v7 (W1 V)).trans (segP_col V)))
theorem at4_main_v30 : W4 V (Proc.devRef .tc main_v30) = (nrmT (rowT (V (Proc.devRef .tc main_arg1))) (colT (V (Proc.devRef .tc main_arg1))) (dinvT (colT (V (Proc.devRef .tc main_arg1))))) :=
  (keep_opsB2_main_v30 (W3 V)).trans ((keep_opsC1_main_v30 (W2 V)).trans ((keep_opsB1_main_v30 (W1 V)).trans (segP_nrm V)))
theorem at5_main_arg11 : W5 V (Proc.devRef .tc main_arg11) = (V (Proc.devRef .tc main_arg11)) :=
  (keep_opsC2_main_arg11 (W4 V)).trans ((keep_opsB2_main_arg11 (W3 V)).trans ((keep_opsC1_main_arg11 (W2 V)).trans ((keep_opsB1_main_arg11 (W1 V)).trans (keep_opsP_main_arg11 V))))
theorem at5_main_arg12 : W5 V (Proc.devRef .tc main_arg12) = (V (Proc.devRef .tc main_arg12)) :=
  (keep_opsC2_main_arg12 (W4 V)).trans ((keep_opsB2_main_arg12 (W3 V)).trans ((keep_opsC1_main_arg12 (W2 V)).trans ((keep_opsB1_main_arg12 (W1 V)).trans (keep_opsP_main_arg12 V))))
theorem at6_main_arg2 : W6 V (Proc.devRef .tc main_arg2) = (V (Proc.devRef .tc main_arg2)) :=
  (keep_opsB3_main_arg2 (W5 V)).trans ((keep_opsC2_main_arg2 (W4 V)).trans ((keep_opsB2_main_arg2 (W3 V)).trans ((keep_opsC1_main_arg2 (W2 V)).trans ((keep_opsB1_main_arg2 (W1 V)).trans (keep_opsP_main_arg2 V)))))
theorem at6_main_arg13 : W6 V (Proc.devRef .tc main_arg13) = (V (Proc.devRef .tc main_arg13)) :=
  (keep_opsB3_main_arg13 (W5 V)).trans ((keep_opsC2_main_arg13 (W4 V)).trans ((keep_opsB2_main_arg13 (W3 V)).trans ((keep_opsC1_main_arg13 (W2 V)).trans ((keep_opsB1_main_arg13 (W1 V)).trans (keep_opsP_main_arg13 V)))))
theorem at6_main_arg14 : W6 V (Proc.devRef .tc main_arg14) = (V (Proc.devRef .tc main_arg14)) :=
  (keep_opsB3_main_arg14 (W5 V)).trans ((keep_opsC2_main_arg14 (W4 V)).trans ((keep_opsB2_main_arg14 (W3 V)).trans ((keep_opsC1_main_arg14 (W2 V)).trans ((keep_opsB1_main_arg14 (W1 V)).trans (keep_opsP_main_arg14 V)))))

/-! ## The stages chained -/

theorem val55 : W2 V (Proc.devRef .tc main_v55) = bnT (V (Proc.devRef .tc main_arg0)) (V (Proc.devRef .tc main_arg3)) (V (Proc.devRef .tc main_arg4)) :=
  (segB1 (W1 V)).trans (by rw [at1_main_arg0 V, at1_main_arg3 V, at1_main_arg4 V])
theorem val73 : W3 V (Proc.devRef .tc main_v73)
    = convT (bnT (V (Proc.devRef .tc main_arg0)) (V (Proc.devRef .tc main_arg3)) (V (Proc.devRef .tc main_arg4))) (V (Proc.devRef .tc main_arg5)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg6)) :=
  (segC1 (W2 V)).trans (by rw [val55 V, at2_main_arg5 V, at2_main_v3 V, at2_main_v7 V, at2_main_v30 V, at2_main_arg6 V])
theorem val98 : W4 V (Proc.devRef .tc main_v98)
    = bnT (convT (bnT (V (Proc.devRef .tc main_arg0)) (V (Proc.devRef .tc main_arg3)) (V (Proc.devRef .tc main_arg4))) (V (Proc.devRef .tc main_arg5)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg6))) (V (Proc.devRef .tc main_arg7)) (V (Proc.devRef .tc main_arg8)) :=
  (segB2 (W3 V)).trans (by rw [val73 V, at3_main_arg7 V, at3_main_arg8 V])
theorem val116 : W5 V (Proc.devRef .tc main_v116)
    = convT (bnT (convT (bnT (V (Proc.devRef .tc main_arg0)) (V (Proc.devRef .tc main_arg3)) (V (Proc.devRef .tc main_arg4))) (V (Proc.devRef .tc main_arg5)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg6))) (V (Proc.devRef .tc main_arg7)) (V (Proc.devRef .tc main_arg8))) (V (Proc.devRef .tc main_arg9)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg10)) :=
  (segC2 (W4 V)).trans (by rw [val98 V, at4_main_arg9 V, at4_main_v3 V, at4_main_v7 V, at4_main_v30 V, at4_main_arg10 V])
theorem val141 : W6 V (Proc.devRef .tc main_v141)
    = bnT (convT (bnT (convT (bnT (V (Proc.devRef .tc main_arg0)) (V (Proc.devRef .tc main_arg3)) (V (Proc.devRef .tc main_arg4))) (V (Proc.devRef .tc main_arg5)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg6))) (V (Proc.devRef .tc main_arg7)) (V (Proc.devRef .tc main_arg8))) (V (Proc.devRef .tc main_arg9)) (rowT (V (Proc.devRef .tc main_arg1))) (colT (V (Proc.devRef .tc main_arg1))) (nrmT (rowT (V (Proc.devRef .tc main_arg1))) (colT (V (Proc.devRef .tc main_arg1))) (dinvT (colT (V (Proc.devRef .tc main_arg1))))) (V (Proc.devRef .tc main_arg10))) (V (Proc.devRef .tc main_arg11)) (V (Proc.devRef .tc main_arg12)) :=
  (segB3 (W5 V)).trans (by rw [val116 V, at5_main_arg11 V, at5_main_arg12 V])

/-- The reference as one function of its fifteen arguments: the composition of the stages. -/
def refT (X : Arr) (E : Edges) (batch : Batch) (g0 b0 : Vec) (W1 : Mat) (c1 g1 b1 : Vec) (W2 : Mat) (c2 g2 b2 : Vec)
    (Wo : MatOut) (bo : VecOut) : Out :=
  tailT (bnT (convT (bnT (convT (bnT X g0 b0) W1 (rowT E) (colT E) (nrmT (rowT E) (colT E) (dinvT (colT E))) c1) g1 b1)
    W2 (rowT E) (colT E) (nrmT (rowT E) (colT E) (dinvT (colT E))) c2) g2 b2) batch Wo bo

/-- THE RESULT BUFFER AFTER THE WHOLE LINE, from arbitrary contents: the stages composed, applied to the contents of
    the fifteen argument buffers. -/
theorem after_ops_result : after (ops (F := Ideal)) V (Proc.devRef .tc main_v157)
    = refT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops]
  exact (segT (W6 V)).trans (by rw [val141 V, at6_main_arg2 V, at6_main_arg13 V, at6_main_arg14 V]; rfl)

end Cert.ReferenceIdeal.Segs

end
-- ==== Proof.Bridge.lean ====
/-
  The two idealized programs compute one array. Layer by layer: the kernel's first statistics region sees x itself
  (its bias row is zero); a batch-norm step turns "the kernel's region input is the reference's array, and it is real"
  into "the kernel's normalised rows are the reference's batch norm, and they are real"; a convolution step turns that
  into the same statement about the next region's input and the reference's convolution. After three batch norms and
  two convolutions the two programs hold the same last array, and they end with the same pooling tail applied to it.
  Finiteness of the float inputs (the precondition) starts the induction.
-/
import proofs.«109028_j78546361909449_2_alg».proof.Defs
import proofs.«109028_j78546361909449_2_alg».proof.Proof.Gen.Pre_finite_inputs
import proofs.«109028_j78546361909449_2_alg».proof.Proof.KChain
import proofs.«109028_j78546361909449_2_alg».proof.Proof.BridgeBn
import proofs.«109028_j78546361909449_2_alg».proof.Proof.BridgeConv
import proofs.«109028_j78546361909449_2_alg».proof.Proof.BridgeStart
import proofs.«109028_j78546361909449_2_alg».proof.Proof.RefRun
import proofs.«109028_j78546361909449_2_alg».proof.Proof.RefSegs

set_option maxRecDepth 16384

noncomputable section

namespace Cert.Bridge

open Idealize.ShloMosaic Idealize.SL.Sem Idealize.ShloMosaic.ValueIdx
open Cert.BnAlgebra
open Cert.KernelIdeal.Gen Cert.KernelIdeal.KEntry Cert.KernelIdeal.KChain Cert.KernelIdeal.KSpec Cert.KernelIdeal.KHost

/-- The two pooling tails are one function. -/
theorem tail_eq (H : Cert.ReferenceIdeal.Segs.Arr) (batch : Cert.ReferenceIdeal.Segs.Batch) (Wo : Cert.ReferenceIdeal.Segs.MatOut) (bo : Cert.ReferenceIdeal.Segs.VecOut) :
    Cert.ReferenceIdeal.Segs.tailT H batch Wo bo = tailT (F := Ideal) H batch Wo bo := rfl

/-- THE CHAIN: the kernel's last normalised array is the reference's third batch norm, entry by entry. -/
theorem chain (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) (r : Fin 100000) (k : Fin 64) :
    N2 m ρ c r k = (Cert.ReferenceIdeal.Segs.bnT (Cert.ReferenceIdeal.Segs.convT (Cert.ReferenceIdeal.Segs.bnT (Cert.ReferenceIdeal.Segs.convT (Cert.ReferenceIdeal.Segs.bnT (X m ρ c Cert.KernelIdeal.main_arg0) (X m ρ c Cert.KernelIdeal.main_arg3) (X m ρ c Cert.KernelIdeal.main_arg4)) (X m ρ c Cert.KernelIdeal.main_arg5) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg6)) (X m ρ c Cert.KernelIdeal.main_arg7) (X m ρ c Cert.KernelIdeal.main_arg8)) (X m ρ c Cert.KernelIdeal.main_arg9) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg10)) (X m ρ c Cert.KernelIdeal.main_arg11) (X m ρ c Cert.KernelIdeal.main_arg12)) (ix2 r k) := by
  have s0 := bn_step (P0 m ρ c) (X m ρ c Cert.KernelIdeal.main_arg0) (X m ρ c Cert.KernelIdeal.main_arg3) (X m ρ c Cert.KernelIdeal.main_arg4)
    (P0_eq m ρ c) (real_x0 m ρ c hpre) (real_vec3 m ρ c hpre) (real_vec4 m ρ c hpre)
  have c1 := conv_step (N0 m ρ c) (Cert.ReferenceIdeal.Segs.bnT (X m ρ c Cert.KernelIdeal.main_arg0) (X m ρ c Cert.KernelIdeal.main_arg3) (X m ρ c Cert.KernelIdeal.main_arg4)) (X m ρ c Cert.KernelIdeal.main_arg5) (X m ρ c Cert.KernelIdeal.main_arg6) (X m ρ c Cert.KernelIdeal.main_arg1)
    s0.1 s0.2 (real_mat5 m ρ c hpre) (real_vec6 m ρ c hpre)
  have s1 := bn_step (P1 m ρ c) (Cert.ReferenceIdeal.Segs.convT (Cert.ReferenceIdeal.Segs.bnT (X m ρ c Cert.KernelIdeal.main_arg0) (X m ρ c Cert.KernelIdeal.main_arg3) (X m ρ c Cert.KernelIdeal.main_arg4)) (X m ρ c Cert.KernelIdeal.main_arg5) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg6)) (X m ρ c Cert.KernelIdeal.main_arg7) (X m ρ c Cert.KernelIdeal.main_arg8)
    c1.1 c1.2 (real_vec7 m ρ c hpre) (real_vec8 m ρ c hpre)
  have c2 := conv_step (N1 m ρ c) (Cert.ReferenceIdeal.Segs.bnT (Cert.ReferenceIdeal.Segs.convT (Cert.ReferenceIdeal.Segs.bnT (X m ρ c Cert.KernelIdeal.main_arg0) (X m ρ c Cert.KernelIdeal.main_arg3) (X m ρ c Cert.KernelIdeal.main_arg4)) (X m ρ c Cert.KernelIdeal.main_arg5) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg6)) (X m ρ c Cert.KernelIdeal.main_arg7) (X m ρ c Cert.KernelIdeal.main_arg8)) (X m ρ c Cert.KernelIdeal.main_arg9) (X m ρ c Cert.KernelIdeal.main_arg10) (X m ρ c Cert.KernelIdeal.main_arg1)
    s1.1 s1.2 (real_mat9 m ρ c hpre) (real_vec10 m ρ c hpre)
  have s2 := bn_step (P2 m ρ c) (Cert.ReferenceIdeal.Segs.convT (Cert.ReferenceIdeal.Segs.bnT (Cert.ReferenceIdeal.Segs.convT (Cert.ReferenceIdeal.Segs.bnT (X m ρ c Cert.KernelIdeal.main_arg0) (X m ρ c Cert.KernelIdeal.main_arg3) (X m ρ c Cert.KernelIdeal.main_arg4)) (X m ρ c Cert.KernelIdeal.main_arg5) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg6)) (X m ρ c Cert.KernelIdeal.main_arg7) (X m ρ c Cert.KernelIdeal.main_arg8)) (X m ρ c Cert.KernelIdeal.main_arg9) (Cert.ReferenceIdeal.Segs.rowT (X m ρ c Cert.KernelIdeal.main_arg1)) (Cert.ReferenceIdeal.Segs.colT (X m ρ c Cert.KernelIdeal.main_arg1)) (Cert.ReferenceIdeal.Segs.nrmT (Cert.ReferenceIdeal.Segs.rowT (X m ρ c Cert.KernelIdeal.main_arg1)) (Cert.ReferenceIdeal.Segs.colT (X m ρ c Cert.KernelIdeal.main_arg1)) (Cert.ReferenceIdeal.Segs.dinvT (Cert.ReferenceIdeal.Segs.colT (X m ρ c Cert.KernelIdeal.main_arg1)))) (X m ρ c Cert.KernelIdeal.main_arg10)) (X m ρ c Cert.KernelIdeal.main_arg11) (X m ρ c Cert.KernelIdeal.main_arg12)
    c2.1 c2.2 (real_vec11 m ρ c hpre) (real_vec12 m ρ c hpre)
  exact s2.1 r k

/-- THE RESULTS AGREE: from memories that agree on the arguments, what the reference's operations leave in its result
    buffer is what the kernel's segments leave in its own. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (c : Dev Cert.KernelIdeal.nD) :
    StableHlo.after (Cert.ReferenceIdeal.HRun.ops (F := Ideal)) (StableHlo.launchContents m' c) (Proc.devRef .tc Cert.ReferenceIdeal.main_v157)
      = Cert.KernelIdeal.Gen.W15 m ρ c (Proc.devRef .tc Cert.KernelIdeal.main_v105) := by
  obtain ⟨h0, h1, h2, h3, h4, h5, h6, h7, h8, h9, h10, h11, h12, h13, h14⟩ := hagree c
  rw [Cert.ReferenceIdeal.Segs.after_ops_result (StableHlo.launchContents m' c), Cert.KernelIdeal.KChain.result m ρ c]
  have e0 : StableHlo.launchContents m' c (Proc.devRef .tc Cert.ReferenceIdeal.main_arg0) = X m ρ c Cert.KernelIdeal.main_arg0 := h0
  have e1 : StableHlo.launchContents m' c (Proc.devRef .tc Cert.ReferenceIdeal.main_arg1) = X m ρ c Cert.KernelIdeal.main_arg1 := h1
  have e2 : StableHlo.launchContents m' c (Proc.devRef .tc Cert.ReferenceIdeal.main_arg2) = X m ρ c Cert.KernelIdeal.main_arg2 := h2
  have e3 : StableHlo.launchContents m' c (Proc.devRef .tc Cert.ReferenceIdeal.main_arg3) = X m ρ c Cert.KernelIdeal.main_arg3 := h3
  have e4 : StableHlo.launchContents m' c (Proc.devRef .tc Cert.ReferenceIdeal.main_arg4) = X m ρ c Cert.KernelIdeal.main_arg4 := h4
  have e5 : StableHlo.launchContents m' c (Proc.devRef .tc Cert.ReferenceIdeal.main_arg5) = X m ρ c Cert.KernelIdeal.main_arg5 := h5
  have e6 : StableHlo.launchContents m' c (Proc.devRef .tc Cert.ReferenceIdeal.main_arg6) = X m ρ c Cert.KernelIdeal.main_arg6 := h6
  have e7 : StableHlo.launchContents m' c (Proc.devRef .tc Cert.ReferenceIdeal.main_arg7) = X m ρ c Cert.KernelIdeal.main_arg7 := h7
  have e8 : StableHlo.launchContents m' c (Proc.devRef .tc Cert.ReferenceIdeal.main_arg8) = X m ρ c Cert.KernelIdeal.main_arg8 := h8
  have e9 : StableHlo.launchContents m' c (Proc.devRef .tc Cert.ReferenceIdeal.main_arg9) = X m ρ c Cert.KernelIdeal.main_arg9 := h9
  have e10 : StableHlo.launchContents m' c (Proc.devRef .tc Cert.ReferenceIdeal.main_arg10) = X m ρ c Cert.KernelIdeal.main_arg10 := h10
  have e11 : StableHlo.launchContents m' c (Proc.devRef .tc Cert.ReferenceIdeal.main_arg11) = X m ρ c Cert.KernelIdeal.main_arg11 := h11
  have e12 : StableHlo.launchContents m' c (Proc.devRef .tc Cert.ReferenceIdeal.main_arg12) = X m ρ c Cert.KernelIdeal.main_arg12 := h12
  have e13 : StableHlo.launchContents m' c (Proc.devRef .tc Cert.ReferenceIdeal.main_arg13) = X m ρ c Cert.KernelIdeal.main_arg13 := h13
  have e14 : StableHlo.launchContents m' c (Proc.devRef .tc Cert.ReferenceIdeal.main_arg14) = X m ρ c Cert.KernelIdeal.main_arg14 := h14
  rw [e0, e1, e2, e3, e4, e5, e6, e7, e8, e9, e10, e11, e12, e13, e14]
  unfold Cert.ReferenceIdeal.Segs.refT
  rw [tail_eq]
  refine congrArg (fun H => tailT (F := Ideal) H (X m ρ c Cert.KernelIdeal.main_arg2) (X m ρ c Cert.KernelIdeal.main_arg13)
    (X m ρ c Cert.KernelIdeal.main_arg14)) ?_
  funext i
  rw [eq_ix2 i]
  exact (chain m ρ hpre c (i 0) (i 1)).symm

end Cert.Bridge

end
-- ==== Proof.lean ====
/-
  The certificate's claim, assembled from the modules that carry its five parts.

  The three programs are a graph network over 100000 nodes with 64 features — three batch normalisations, two graph
  convolutions and a pooled linear read-out giving a 1000 × 2 result — written twice: as a program whose
  normalisations and feature products run in six blocked kernel regions between stretches of host operations
  (the kernel, and the same text read at the ideal values), and as one straight line of host operations (the
  reference, read at the ideal values).

  * The kernel runs and leaves its fifteen arguments as they were, at the machine's floats and at the ideal values:
    the generated frame of each program (its regions' stores stay inside their result windows, its host operations
    write only their own results).
  * The reference runs and leaves its arguments as they were: its run operation by operation (`RefRun`), the result
    dropped.
  * The idealized kernel is the kernel's own text read at the extended reals: no operation was rewritten, so there is
    nothing to preserve.
  * At the ideal values, from memories agreeing on the arguments, the two programs end with the same result array:
    the kernel's result is the last of the buffer contents folded through its fifteen segments (`KRun`), the
    reference's is the fold of its operations over the launch contents (`RefRun`), and, the inputs being finite, the
    two folds are equal entry by entry (`Bridge`): region by region the blocked statistics and normalisations are
    the reference's whole-array sums and pointwise formulas.
-/
import proofs.«109028_j78546361909449_2_alg».proof.Defs
import proofs.«109028_j78546361909449_2_alg».proof.Proof.Gen.Kernel
import proofs.«109028_j78546361909449_2_alg».proof.Proof.Gen.Kernel.Skeleton
import proofs.«109028_j78546361909449_2_alg».proof.Proof.Gen.Kernel.Launch
import proofs.«109028_j78546361909449_2_alg».proof.Proof.Gen.Kernel.Points
import proofs.«109028_j78546361909449_2_alg».proof.Proof.Gen.Kernel.Frame
import proofs.«109028_j78546361909449_2_alg».proof.Proof.Gen.KernelIdeal
import proofs.«109028_j78546361909449_2_alg».proof.Proof.Gen.KernelIdeal.Skeleton
import proofs.«109028_j78546361909449_2_alg».proof.Proof.Gen.KernelIdeal.Launch
import proofs.«109028_j78546361909449_2_alg».proof.Proof.Gen.KernelIdeal.Points
import proofs.«109028_j78546361909449_2_alg».proof.Proof.Gen.KernelIdeal.Frame
import proofs.«109028_j78546361909449_2_alg».proof.Proof.Gen.ReferenceIdeal
import proofs.«109028_j78546361909449_2_alg».proof.Proof.Gen.Pre_finite_inputs
import proofs.«109028_j78546361909449_2_alg».proof.Proof.KRun
import proofs.«109028_j78546361909449_2_alg».proof.Proof.RefRun
import proofs.«109028_j78546361909449_2_alg».proof.Proof.Bridge
import Idealize.ShloMosaic.Adequacy
import Idealize.ShloMosaic.Init

noncomputable section

namespace Cert.Proof

open Idealize.ShloMosaic Idealize.SL.Sem

/-- The kernel at the machine's floats runs and keeps its arguments: its generated frame. -/
theorem frame_kernel : Cert.frame_Kernel := fun m ρ _ => Cert.Kernel.Gen.frame m ρ

/-- The kernel at the ideal values runs and keeps its arguments: its generated frame. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.HRun.run (F := Ideal) m ρ)

/-- The ideal reading rewrote nothing. -/
theorem preserves : Cert.preserves_Kernel_KernelIdeal := trivial

/-- Both programs run from memories agreeing on the arguments and end with one result array: the kernel's last
    boundary contents at its result buffer, which the reference's fold equals. -/
theorem algebraic : Cert.algebraic_KernelIdeal_ReferenceIdeal := fun m ρ m' ρ' hpre hagree =>
  ⟨fun c => Cert.KernelIdeal.Gen.W15 m ρ c (Proc.devRef .tc Cert.KernelIdeal.main_v105),
    Cert.KernelIdeal.KRun.run (F := Ideal) m ρ,
    (θ_run Cert.ReferenceIdeal.defs _ _).mono
      (fun _ h c => ⟨(h c).1.trans (Cert.Bridge.result_eq m ρ hpre m' hagree c), (h c).2⟩)
      (Cert.ReferenceIdeal.HRun.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
